-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_scale" .f32 0x3CB504F3#32 ((262144 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048 : Shape := ⟨1, ![2048]⟩
abbrev S2048x2048 : Shape := ⟨2, ![2048, 2048]⟩
abbrev S8192x2048 : Shape := ⟨2, ![8192, 2048]⟩
abbrev S2048x8192 : Shape := ⟨2, ![2048, 8192]⟩
abbrev S4096x1024 : Shape := ⟨2, ![4096, 1024]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part3 {F : FTy → Type} [FloatOps F] (main_arg11 : FVec F S4096x1024 .f32) (main_v48 : IVec S_ 1) (main_v49 : FVec F S4096x1024 .f32) (main_v50 : FVec F S4096x1024 .f32) : IVec S_ 1 :=
  let main_v51 : IVec S4096x1024 1 := cmpf .olt main_v49 main_v50
  let main_c_19 : IVec S_ 1 := constantI S_ 1 1#1
  let main_v52 : IVec S_ 1 := (fun x v => Host.reduce IntOp.andi x v reducesTo_S4096x1024_S_d0_1 h_S_) main_v51 main_c_19
  let main_v53 : IVec S_ 1 := andi main_v48 main_v52
  let main_v54 : FVec F S4096x1024 .f32 := Host.absf main_arg11
  let main_cst_20 : FVec F S_ .f32 := constant S_ .f32 0x7F800000#32
  let main_v55 : FVec F S4096x1024 .f32 := broadcastInDim S4096x1024 ![] bcast_S_S4096x1024 main_cst_20
  let main_v56 : IVec S4096x1024 1 := cmpf .olt main_v54 main_v55
  let main_c_21 : IVec S_ 1 := constantI S_ 1 1#1
  let main_v57 : IVec S_ 1 := (fun x v => Host.reduce IntOp.andi x v reducesTo_S4096x1024_S_d0_1 h_S_) main_v56 main_c_21
  let main_v58 : IVec S_ 1 := andi main_v53 main_v57
  main_v58

def fn_part2 {F : FTy → Type} [FloatOps F] (main_arg7 : FVec F S8192x2048 .f32) (main_arg8 : FVec F S8192x2048 .f32) (main_arg9 : FVec F S2048x8192 .f32) (main_arg10 : FVec F S4096x1024 .f32) (main_arg11 : FVec F S4096x1024 .f32) (main_v33 : IVec S_ 1) : IVec S_ 1 :=
  let main_v34 : FVec F S8192x2048 .f32 := Host.absf main_arg7
  let main_cst_12 : FVec F S_ .f32 := constant S_ .f32 0x7F800000#32
  let main_v35 : FVec F S8192x2048 .f32 := broadcastInDim S8192x2048 ![] bcast_S_S8192x2048 main_cst_12
  let main_v36 : IVec S8192x2048 1 := cmpf .olt main_v34 main_v35
  let main_c_13 : IVec S_ 1 := constantI S_ 1 1#1
  let main_v37 : IVec S_ 1 := (fun x v => Host.reduce IntOp.andi x v reducesTo_S8192x2048_S_d0_1 h_S_) main_v36 main_c_13
  let main_v38 : IVec S_ 1 := andi main_v33 main_v37
  let main_v39 : FVec F S8192x2048 .f32 := Host.absf main_arg8
  let main_cst_14 : FVec F S_ .f32 := constant S_ .f32 0x7F800000#32
  let main_v40 : FVec F S8192x2048 .f32 := broadcastInDim S8192x2048 ![] bcast_S_S8192x2048 main_cst_14
  let main_v41 : IVec S8192x2048 1 := cmpf .olt main_v39 main_v40
  let main_c_15 : IVec S_ 1 := constantI S_ 1 1#1
  let main_v42 : IVec S_ 1 := (fun x v => Host.reduce IntOp.andi x v reducesTo_S8192x2048_S_d0_1 h_S_) main_v41 main_c_15
  let main_v43 : IVec S_ 1 := andi main_v38 main_v42
  let main_v44 : FVec F S2048x8192 .f32 := Host.absf main_arg9
  let main_cst_16 : FVec F S_ .f32 := constant S_ .f32 0x7F800000#32
  let main_v45 : FVec F S2048x8192 .f32 := broadcastInDim S2048x8192 ![] bcast_S_S2048x8192 main_cst_16
  let main_v46 : IVec S2048x8192 1 := cmpf .olt main_v44 main_v45
  let main_c_17 : IVec S_ 1 := constantI S_ 1 1#1
  let main_v47 : IVec S_ 1 := (fun x v => Host.reduce IntOp.andi x v reducesTo_S2048x8192_S_d0_1 h_S_) main_v46 main_c_17
  let main_v48 : IVec S_ 1 := andi main_v43 main_v47
  let main_v49 : FVec F S4096x1024 .f32 := Host.absf main_arg10
  let main_cst_18 : FVec F S_ .f32 := constant S_ .f32 0x7F800000#32
  let main_v50 : FVec F S4096x1024 .f32 := broadcastInDim S4096x1024 ![] bcast_S_S4096x1024 main_cst_18
  fn_part3 (F := F) main_arg11 main_v48 main_v49 main_v50

def fn_part1 {F : FTy → Type} [FloatOps F] (main_arg4 : FVec F S2048x2048 .f32) (main_arg5 : FVec F S2048x2048 .f32) (main_arg6 : FVec F S2048 .f32) (main_arg7 : FVec F S8192x2048 .f32) (main_arg8 : FVec F S8192x2048 .f32) (main_arg9 : FVec F S2048x8192 .f32) (main_arg10 : FVec F S4096x1024 .f32) (main_arg11 : FVec F S4096x1024 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x2048 .f32) (main_arg1 : FVec F S2048 .f32) (main_arg2 : FVec F S2048x2048 .f32) (main_arg3 : FVec F S2048x2048 .f32) (main_arg4 : FVec F S2048x2048 .f32) (main_arg5 : FVec F S2048x2048 .f32) (main_arg6 : FVec F S2048 .f32) (main_arg7 : FVec F S8192x2048 .f32) (main_arg8 : FVec F S8192x2048 .f32) (main_arg9 : FVec F S2048x8192 .f32) (main_arg10 : FVec F S4096x1024 .f32) (main_arg11 : FVec F S4096x1024 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_v13 main_v16
-- ==== Kernel.lean ====
abbrev S4096x2048 : Shape := ⟨2, ![4096, 2048]⟩
abbrev S2048 : Shape := ⟨1, ![2048]⟩
abbrev S2048x2048 : Shape := ⟨2, ![2048, 2048]⟩
abbrev S8192x2048 : Shape := ⟨2, ![8192, 2048]⟩
abbrev S2048x8192 : Shape := ⟨2, ![2048, 8192]⟩
abbrev S4096x1024 : Shape := ⟨2, ![4096, 1024]⟩
abbrev S2048x6144 : Shape := ⟨2, ![2048, 6144]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S256x6144 : Shape := ⟨2, ![256, 6144]⟩
abbrev S512x2048 : Shape := ⟨2, ![512, 2048]⟩
abbrev S512x1 : Shape := ⟨2, ![512, 1]⟩
abbrev S512x512 : Shape := ⟨2, ![512, 512]⟩
abbrev S512 : Shape := ⟨1, ![512]⟩
abbrev S2048x512 : Shape := ⟨2, ![2048, 512]⟩

abbrev nBuf : Space → Nat
  | .hbm => 32
  | .vmem => 41
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S2048x8192, .f32⟩
  | .hbm, ⟨10, _⟩ => ⟨S4096x1024, .f32⟩
  | .hbm, ⟨11, _⟩ => ⟨S4096x1024, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x6144, .f32⟩
  | .hbm, ⟨16, _⟩ => ⟨S2048x6144, .bf16⟩
  | .hbm, ⟨17, _⟩ => ⟨S2048x2048, .f32⟩
  | .hbm, ⟨18, _⟩ => ⟨S2048x2048, .bf16⟩
  | .hbm, ⟨19, _⟩ => ⟨S2048x8192, .f32⟩
  | .hbm, ⟨20, _⟩ => ⟨S2048x8192, .bf16⟩
  | .hbm, ⟨21, _⟩ => ⟨S2048x8192, .f32⟩
  | .hbm, ⟨22, _⟩ => ⟨S2048x8192, .bf16⟩
  | .hbm, ⟨23, _⟩ => ⟨S8192x2048, .f32⟩
  | .hbm, ⟨24, _⟩ => ⟨S8192x2048, .bf16⟩
  | .hbm, ⟨25, _⟩ => ⟨S1x2048, .f32⟩
  | .hbm, ⟨26, _⟩ => ⟨S1x2048, .f32⟩
  | .hbm, ⟨27, _⟩ => ⟨S4096x2048, .bf16⟩
  | .hbm, ⟨28, _⟩ => ⟨S4096x2048, .bf16⟩
  | .hbm, ⟨29, _⟩ => ⟨S4096x2048, .bf16⟩
  | .hbm, ⟨30, _⟩ => ⟨S4096x2048, .f32⟩
  | .hbm, ⟨31, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x6144, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S512x2048, .bf16⟩
  | .local _ .vmem, ⟨15, _⟩ => ⟨S512x2048, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .bf16⟩
  | .local _ .vmem, ⟨19, _⟩ => ⟨S512x2048, .bf16⟩
  | .local _ .vmem, ⟨20, _⟩ => ⟨S2048x2048, .bf16⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .f32⟩
  | .local _ .vmem, ⟨25, _⟩ => ⟨S512x1, .f32⟩
  | .local _ .vmem, ⟨26, _⟩ => ⟨S512x1, .f32⟩
  | .local _ .vmem, ⟨27, _⟩ => ⟨S512x2048, .f32⟩
  | .local _ .vmem, ⟨28, _⟩ => ⟨S512x2048, .f32⟩
  | .local _ .vmem, ⟨29, _⟩ => ⟨S512x2048, .f32⟩
  | .local _ .vmem, ⟨30, _⟩ => ⟨S1x2048, .f32⟩
  | .local _ .vmem, ⟨31, _⟩ => ⟨S2048x512, .bf16⟩
  | .local _ .vmem, ⟨32, _⟩ => ⟨S2048x512, .bf16⟩
  | .local _ .vmem, ⟨33, _⟩ => ⟨S2048x512, .bf16⟩
  | .local _ .vmem, ⟨34, _⟩ => ⟨S2048x512, .bf16⟩
  | .local _ .vmem, ⟨35, _⟩ => ⟨S512x2048, .bf16⟩
  | .local _ .vmem, ⟨36, _⟩ => ⟨S512x2048, .bf16⟩
  | .local _ .vmem, ⟨37, _⟩ => ⟨S512x2048, .f32⟩
  | .local _ .vmem, ⟨38, _⟩ => ⟨S512x2048, .f32⟩
  | .local _ .vmem, ⟨39, _⟩ => ⟨S512x2048, .f32⟩
  | .local _ .vmem, ⟨40, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_scratch0 : Ref sig .tc := ⟨.vmem, 25, rfl⟩
abbrev cc1_scratch1 : Ref sig .tc := ⟨.vmem, 26, rfl⟩
abbrev cc1_scratch2 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg2_1 : Ref sig .tc := ⟨.vmem, 32, rfl⟩
abbrev cc2_stg3_0 : Ref sig .tc := ⟨.vmem, 33, rfl⟩
abbrev cc2_stg3_1 : Ref sig .tc := ⟨.vmem, 34, rfl⟩
abbrev cc2_stg4_0 : Ref sig .tc := ⟨.vmem, 35, rfl⟩
abbrev cc2_stg4_1 : Ref sig .tc := ⟨.vmem, 36, rfl⟩
abbrev cc2_stg5_0 : Ref sig .tc := ⟨.vmem, 37, rfl⟩
abbrev cc2_stg5_1 : Ref sig .tc := ⟨.vmem, 38, rfl⟩
abbrev cc2_scratch0 : Ref sig .tc := ⟨.vmem, 39, rfl⟩
abbrev cc2_scratch1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S2048x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 16], ![false, false]⟩

def k2_cond2 (i : grid2.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_14 : BitVec 32 := 0#32
  let v25 : BitVec 1 := Scalar.cmpi .ne v24 c0_i32_14
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S512x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![false, true]

abbrev stage2_5 : Fin 2 → Memref sig .tc .vmem S512x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  transposes_S2048x2048_S2048x2048_1_0 : S2048x2048.Transposes [1, 0] S2048x2048
  concatenates_S2048x2048_S2048x2048_S2048x2048_S2048x6144_d1 : Shape.Concatenates [S2048x2048, S2048x2048, S2048x2048] S2048x6144 1
  bitsLt_bf16_f32 : FTy.bits .bf16 < FTy.bits .f32
  transposes_S8192x2048_S2048x8192_1_0 : S8192x2048.Transposes [1, 0] S2048x8192
  transposes_S2048x8192_S8192x2048_1_0 : S2048x8192.Transposes [1, 0] S8192x2048
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x6144_S2048x6144_0_0 : ∀ a, (![0, 0] : Fin 2 → Nat) a + S2048x6144.size a ≤ S2048x6144.size a
  h_S2048x6144 : 0 < S2048x6144.numel
  shapeCasts_S2048x6144_S2048x6144 : S2048x6144.ShapeCasts S2048x6144
  slices_S256x6144_o0_0_S256x2048 : S256x6144.Slices ![0, 0] S256x2048
  slices_S256x6144_o0_2048_S256x2048 : S256x6144.Slices ![0, 2048] S256x2048
  slices_S256x6144_o0_4096_S256x2048 : S256x6144.Slices ![0, 4096] S256x2048
  inb_S256x1024_S256x1024_0_0 : ∀ a, (![0, 0] : Fin 2 → Nat) a + S256x1024.size a ≤ S256x1024.size a
  h_S256x1024 : 0 < S256x1024.numel
  slices_S256x2048_o0_0_S256x1024 : S256x2048.Slices ![0, 0] S256x1024
  slices_S256x2048_o0_1024_S256x1024 : S256x2048.Slices ![0, 1024] S256x1024
  concatenates_S256x1024_S256x1024_S256x2048_d1 : Shape.Concatenates [S256x1024, S256x1024] S256x2048 1
  packedbf16_S256x2048_S256x2048_0_0 : (Rect.unit (s := S256x2048) ![0, 0] S256x2048.size inb_S256x2048_S256x2048_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x512_S512 : S512x512.Reduces [1] S512
  shapeCasts_S512_S512x1 : S512.ShapeCasts S512x1
  broadcasts_S512x1_S512x512 : S512x1.Broadcasts S512x512
  broadcasts_S512x1_S512x2048 : S512x1.Broadcasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  reduces_S512x2048_S512 : S512x2048.Reduces [1] S512
  broadcasts_S1x2048_S512x2048 : S1x2048.Broadcasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  dot_S256x2048_S2048x6144_S256x6144_1_0_0_1_n_n_wf : DotDims.WF S256x2048 S2048x6144 S256x6144 [1] [0] [0] [1] [] []
  dot_S512x2048_S512x2048_S512x512_1_1_0_0_n_n_wf : DotDims.WF S512x2048 S512x2048 S512x512 [1] [1] [0] [0] [] []
  dot_S512x512_S512x2048_S512x2048_1_0_0_1_n_n_wf : DotDims.WF S512x512 S512x2048 S512x2048 [1] [0] [0] [1] [] []
  dot_S512x2048_S2048x2048_S512x2048_1_0_0_1_n_n_wf : DotDims.WF S512x2048 S2048x2048 S512x2048 [1] [0] [0] [1] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x6144.size a ≤ S2048x6144.size a
  hwx0_2 : ∀ i : grid0.Coords, EltTy.bits .bf16 = 32 ∨ (Rect.block (s := S2048x6144) S2048x6144.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S4096x1024.size a
  hwx0_3 : ∀ i : grid0.Coords, EltTy.bits .f32 = 32 ∨ (Rect.block (s := S4096x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .bf16 = 32 ∨ (Rect.block (s := S4096x2048) S256x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .bf16 = 32 ∨ (Rect.block (s := S4096x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S4096x2048.size a
  hwx0_7 : ∀ i : grid0.Coords, EltTy.bits .bf16 = 32 ∨ (Rect.block (s := S4096x2048) S256x2048.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x2048.size a
  hwx1_1 : ∀ i : grid1.Coords, EltTy.bits .bf16 = 32 ∨ (Rect.block (s := S4096x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x2048.size a
  hwx1_2 : ∀ i : grid1.Coords, EltTy.bits .bf16 = 32 ∨ (Rect.block (s := S4096x2048) S512x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S2048x2048.size a
  hwx1_3 : ∀ i : grid1.Coords, EltTy.bits .bf16 = 32 ∨ (Rect.block (s := S2048x2048) S2048x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x2048.size a ≤ S4096x2048.size a
  hwx1_4 : ∀ i : grid1.Coords, EltTy.bits .f32 = 32 ∨ (Rect.block (s := S4096x2048) S512x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x2048.size a ≤ S4096x2048.size a
  hwx1_5 : ∀ i : grid1.Coords, EltTy.bits .f32 = 32 ∨ (Rect.block (s := S4096x2048) S512x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x2048.size a ≤ S4096x2048.size a
  hwx2_0 : ∀ i : grid2.Coords, EltTy.bits .f32 = 32 ∨ (Rect.block (s := S4096x2048) S512x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x2048.size a ≤ S1x2048.size a
  hwx2_1 : ∀ i : grid2.Coords, EltTy.bits .f32 = 32 ∨ (Rect.block (s := S1x2048) S1x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S2048x8192.size a
  hwx2_2 : ∀ i : grid2.Coords, EltTy.bits .bf16 = 32 ∨ (Rect.block (s := S2048x8192) S2048x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x512.size a ≤ S2048x8192.size a
  hwx2_3 : ∀ i : grid2.Coords, EltTy.bits .bf16 = 32 ∨ (Rect.block (s := S2048x8192) S2048x512.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x2048.size a ≤ S8192x2048.size a
  hwx2_4 : ∀ i : grid2.Coords, EltTy.bits .bf16 = 32 ∨ (Rect.block (s := S8192x2048) S512x2048.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x2048.size a ≤ S4096x2048.size a
  hwx2_5 : ∀ i : grid2.Coords, EltTy.bits .f32 = 32 ∨ (Rect.block (s := S4096x2048) S512x2048.size (cc2_transform_5 i) (hinb2_5 i)).WholeWords (EltTy.packing .f32)

variable [Facts₀]

def dot_S256x2048_S2048x6144_S256x6144_1_0_0_1_n_n : DotDims S256x2048 S2048x6144 S256x6144 where
  lhsContracting := [1]
  rhsContracting := [0]
  lhsNonContracting := [0]
  rhsNonContracting := [1]
  lhsBatch := []
  rhsBatch := []
  wf := dot_S256x2048_S2048x6144_S256x6144_1_0_0_1_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x6144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg10) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S256x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S256x2048.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S256x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_1) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15_2) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S512x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v16) S512x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v16) S512x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S1x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S2048x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v10) S2048x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S512x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v17) S512x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048 : Shape := ⟨1, ![2048]⟩
abbrev S2048x2048 : Shape := ⟨2, ![2048, 2048]⟩
abbrev S8192x2048 : Shape := ⟨2, ![8192, 2048]⟩
abbrev S2048x8192 : Shape := ⟨2, ![2048, 8192]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S2048x4096 : Shape := ⟨2, ![2048, 4096]⟩
abbrev S4096x4096 : Shape := ⟨2, ![4096, 4096]⟩
abbrev S4096x8192 : Shape := ⟨2, ![4096, 8192]⟩

abbrev nBuf : Space → Nat
  | .hbm => 108
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S2048x8192, .f32⟩
  | .hbm, ⟨10, _⟩ => ⟨S4096x1024, .f32⟩
  | .hbm, ⟨11, _⟩ => ⟨S4096x1024, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S1x2048, .f32⟩
  | .hbm, ⟨26, _⟩ => ⟨S4096x2048, .f32⟩
  | .hbm, ⟨27, _⟩ => ⟨S4096x2048, .f32⟩
  | .hbm, ⟨28, _⟩ => ⟨S2048x2048, .f32⟩
  | .hbm, ⟨29, _⟩ => ⟨S4096x2048, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x2048, .f32⟩
  | .hbm, ⟨39, _⟩ => ⟨S2048x2048, .f32⟩
  | .hbm, ⟨40, _⟩ => ⟨S4096x2048, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x2048, .f32⟩
  | .hbm, ⟨50, _⟩ => ⟨S2048x2048, .f32⟩
  | .hbm, ⟨51, _⟩ => ⟨S4096x2048, .f32⟩
  | .hbm, ⟨52, _⟩ => ⟨S2048x4096, .f32⟩
  | .hbm, ⟨53, _⟩ => ⟨S4096x4096, .f32⟩
  | .hbm, ⟨54, _⟩ => ⟨S_, .f32⟩
  | .hbm, ⟨55, _⟩ => ⟨S4096x4096, .f32⟩
  | .hbm, ⟨56, _⟩ => ⟨S4096x4096, .f32⟩
  | .hbm, ⟨57, _⟩ => ⟨S_, .f32⟩
  | .hbm, ⟨58, _⟩ => ⟨S4096, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096x1, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x4096, .f32⟩
  | .hbm, ⟨70, _⟩ => ⟨S4096x4096, .f32⟩
  | .hbm, ⟨71, _⟩ => ⟨S4096x2048, .f32⟩
  | .hbm, ⟨72, _⟩ => ⟨S2048x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S4096, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S4096x1, .f32⟩
  | .hbm, ⟨86, _⟩ => ⟨S4096x2048, .f32⟩
  | .hbm, ⟨87, _⟩ => ⟨S4096x2048, .f32⟩
  | .hbm, ⟨88, _⟩ => ⟨S1x2048, .f32⟩
  | .hbm, ⟨89, _⟩ => ⟨S4096x2048, .f32⟩
  | .hbm, ⟨90, _⟩ => ⟨S4096x2048, .f32⟩
  | .hbm, ⟨91, _⟩ => ⟨S2048x8192, .f32⟩
  | .hbm, ⟨92, _⟩ => ⟨S4096x8192, .f32⟩
  | .hbm, ⟨93, _⟩ => ⟨S4096x8192, .f32⟩
  | .hbm, ⟨94, _⟩ => ⟨S4096x8192, .f32⟩
  | .hbm, ⟨95, _⟩ => ⟨S_, .f32⟩
  | .hbm, ⟨96, _⟩ => ⟨S4096x8192, .f32⟩
  | .hbm, ⟨97, _⟩ => ⟨S4096x8192, .f32⟩
  | .hbm, ⟨98, _⟩ => ⟨S_, .f32⟩
  | .hbm, ⟨99, _⟩ => ⟨S4096x8192, .f32⟩
  | .hbm, ⟨100, _⟩ => ⟨S4096x8192, .f32⟩
  | .hbm, ⟨101, _⟩ => ⟨S4096x8192, .f32⟩
  | .hbm, ⟨102, _⟩ => ⟨S2048x8192, .f32⟩
  | .hbm, ⟨103, _⟩ => ⟨S4096x8192, .f32⟩
  | .hbm, ⟨104, _⟩ => ⟨S4096x8192, .f32⟩
  | .hbm, ⟨105, _⟩ => ⟨S8192x2048, .f32⟩
  | .hbm, ⟨106, _⟩ => ⟨S4096x2048, .f32⟩
  | .hbm, ⟨107, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_2 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_6 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_call0_v0 : Ref sig .tc := ⟨.hbm, 93, rfl⟩
abbrev main_call0_v1 : Ref sig .tc := ⟨.hbm, 94, rfl⟩
abbrev main_call0_cst : Ref sig .tc := ⟨.hbm, 95, rfl⟩
abbrev main_call0_v2 : Ref sig .tc := ⟨.hbm, 96, rfl⟩
abbrev main_call0_v3 : Ref sig .tc := ⟨.hbm, 97, rfl⟩
abbrev main_call0_cst_0 : Ref sig .tc := ⟨.hbm, 98, rfl⟩
abbrev main_call0_v4 : Ref sig .tc := ⟨.hbm, 99, rfl⟩
abbrev main_call0_v5 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x2048_0_1 : S4096x1.BroadcastsInDim S4096x2048 (![0, 1] : Fin 2 → Fin S4096x2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S2048x2048_S2048x2048_1_0 : S2048x2048.Transposes [1, 0] S2048x2048
  slices_S4096x2048_S4096x1024_0_0 : S4096x2048.Slices ![0, 0] S4096x1024
  slices_S4096x2048_S4096x1024_0_1024 : S4096x2048.Slices ![0, 1024] S4096x1024
  concatenates_S4096x1024_S4096x1024_S4096x2048_d1 : Shape.Concatenates [S4096x1024, S4096x1024] S4096x2048 1
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  bcast_S_S4096 : S_.BroadcastsInDim S4096 (![] : Fin 0 → Fin S4096.rank)
  bcast_S4096x1_S4096x4096_0_1 : S4096x1.BroadcastsInDim S4096x4096 (![0, 1] : Fin 2 → Fin S4096x4096.rank)
  transposes_S8192x2048_S2048x8192_1_0 : S8192x2048.Transposes [1, 0] S2048x8192
  bcast_S_S4096x8192 : S_.BroadcastsInDim S4096x8192 (![] : Fin 0 → Fin S4096x8192.rank)
  transposes_S2048x8192_S8192x2048_1_0 : S2048x8192.Transposes [1, 0] S8192x2048
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []
  dot_S4096x4096_S4096x2048_S4096x2048_1_0_0_1_n_n_wf : DotDims.WF S4096x4096 S4096x2048 S4096x2048 [1] [0] [0] [1] [] []
  dot_S4096x2048_S2048x8192_S4096x8192_1_0_0_1_n_n_wf : DotDims.WF S4096x2048 S2048x8192 S4096x8192 [1] [0] [0] [1] [] []
  dot_S4096x8192_S8192x2048_S4096x2048_1_0_0_1_n_n_wf : DotDims.WF S4096x8192 S8192x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x8192_S8192x2048_S4096x2048_1_0_0_1_n_n : DotDims S4096x8192 S8192x2048 S4096x2048 where
  lhsContracting := [1]
  rhsContracting := [0]
  lhsNonContracting := [0]
  rhsNonContracting := [1]
  lhsBatch := []
  rhsBatch := []
  wf := dot_S4096x8192_S8192x2048_S4096x2048_1_0_0_1_n_n_wf

class Facts : Prop extends Facts₀ where

variable [Facts]
-- ==== Proof.ScaleName.lean ====
/-
  The one rewrite of the idealization: the kernel multiplies the rotated queries by a folded reciprocal of the
  softmax scale, the f32 word 0x3CB504F3. The reference divides the logits by the f32 word 0x423504F3, which is the
  rational D = 11863283 / 262144 exactly; the kernel's word is the f32 nearest to 1 / D = 262144 / 11863283, and the
  certificate's table reads it as that exact reciprocal. This module proves the statement the table owes for that
  reading, and records the value for the algebra: at the exact instance the named constant IS 262144 / 11863283, so
  multiplying by it is dividing by D.
-/
import proofs.«105332_j8211977470193_2_alg».proof.Defs

noncomputable section

open Idealize.ShloMosaic Idealize.ShloMosaic.TcCoe Idealize.SL.Sem

namespace Cert.Proof.ScaleName

/-- The table gives the name `"inv_scale"` the value 262144 / 11863283, and the printed constant is that value at the
    exact instance: the single entry of the idealization's ledger. -/
theorem preserves : Cert.preserves_Kernel_KernelIdeal :=
  IdealRules.named_const.statement Cert.KernelIdeal.κ "inv_scale" .f32 0x3CB504F3#32 ((262144 / 11863283 : ℝ) : EReal) rfl

/-- The named reciprocal of the softmax scale denotes the rational 262144 / 11863283 at the exact instance. -/
theorem inv_scale_eq :
    Named.named (F := Ideal) Cert.KernelIdeal.κ "inv_scale" (φ := .f32) 0x3CB504F3#32 = ((262144 / 11863283 : ℝ) : EReal) :=
  IdealRules.named_const.ideal_named_scalar _ _ _ _ rfl

end Cert.Proof.ScaleName

end
-- ==== Proof.RefFrame.lean ====
/-
  The reference's frame. The reference is a straight line of host operations with no kernel launch: its run, read back
  operation by operation, ends with the result at the operations' composed term and every argument array as launched.
  The frame claim is that run with the result's clause dropped.
-/
import proofs.«105332_j8211977470193_2_alg».proof.Defs
import proofs.«105332_j8211977470193_2_alg».proof.Proof.RefRunPatched
import proofs.«105332_j8211977470193_2_alg».proof.Proof.Gen.ReferenceIdeal
import proofs.«105332_j8211977470193_2_alg».proof.Proof.Gen.Pre_finite_inputs

noncomputable section

open Idealize.ShloMosaic Idealize.ShloMosaic.TcCoe Idealize.SL.Sem

namespace Cert.Proof.RefFrame

/-- Every weakly fair execution of the reference terminates, faults nowhere, and leaves the twelve argument arrays
    holding what they were launched with. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.KI.QkvRun.lean ====
/-
  The first kernel of the block, on one tile of 256 rows: the rows are normalised by their root mean square and scaled by
  the norm weights, multiplied by the fused query / key / value weight matrix, the query and key thirds are rotated by the
  position's cosines and sines (the query third also scaled by the reciprocal of the softmax scale), and the three thirds
  are stored, each whole, into the three output tiles. This module runs that body once on symbolic operands: from the five
  input tiles held at their contents and the three output tiles held at anything, it ends with the inputs as they were and
  each output tile holding the pieces its one store wrote. (The body also loads each output tile before storing into it and
  never uses what it loaded; that is why the output tiles are taken at some contents rather than ignored.)
-/
import proofs.«105332_j8211977470193_2_alg».proof.Proof.Gen.KernelIdeal.Launch
import proofs.«105332_j8211977470193_2_alg».proof.Proof.Gen.KernelIdeal.Skeleton
import proofs.«105332_j8211977470193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the query, key and value tiles (last store first), with the proof that the body
    runs to its return handing the inputs back unchanged and each output tile with its pieces written. -/
noncomputable def qkvRun (c : Dev nD) (i : grid0.Coords)
    (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) :
    Σ' (Lq : List (View.Piece (Elt F) S256x2048 .bf16)) (Lk : List (View.Piece (Elt F) S256x2048 .bf16)), { Lv : List (View.Piece (Elt F) S256x2048 .bf16) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ (∃ d, owns (c : Thread nD τ) a6 fullShare d) ∗ (∃ d, owns (c : Thread nD τ) a7 fullShare d) ∗ (∃ d, owns (c : Thread nD τ) a8 fullShare d)
            ∗ (iprop(owns (c : Thread nD τ) a1 fullShare x0 ∗ owns (c : Thread nD τ) a2 fullShare x1 ∗ owns (c : Thread nD τ) a3 fullShare x2
                ∗ owns (c : Thread nD τ) a4 fullShare x3 ∗ owns (c : Thread nD τ) a5 fullShare x4
                ∗ (∃ f, a6.view.loc (c : Thread nD τ) ↦[a6.view.set]{fullShare} a6.view.writes (Elt F) f Lq)
                ∗ (∃ f, a7.view.loc (c : Thread nD τ) ↦[a7.view.set]{fullShare} a7.view.writes (Elt F) f Lk)
                ∗ (∃ f, a8.view.loc (c : Thread nD τ) ↦[a8.view.set]{fullShare} a8.view.writes (Elt F) f Lv)) -∗ K ⟨⟩))
          ⊢ wp frame (wpE (defs₀ (F := F)) Variants.none c none) E (cc0__qkv_kernel i a1 h1 a2 h2 a3 h3 a4 h4 a5 h5 a6 h6 a7 h7 a8 h8) K } := by
  refine ⟨?_, ?_, ?_, fun E K => ?run⟩
  case run =>
    simp only [cc0__qkv_kernel_eq_skeleton]; unfold cc0__qkv_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := h1.eq_unread hf1; obtain rfl := h2.eq_unread hf2; obtain rfl := h3.eq_unread hf3
    obtain rfl := h4.eq_unread hf4; obtain rfl := h5.eq_unread hf5
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.Proof.KI

end
-- ==== Proof.KI.QkvData.lean ====
/-
  The first kernel's proof data over its grid of sixteen row tiles. At point t the five input tiles hold the blocks of their
  arrays that the index maps select (rows 256 t … 256 t + 255 of the activations, of the cosines and of the sines; the whole
  norm-weight row and the whole fused weight matrix at every point), and after the body the three output tiles hold what the
  body's stores wrote, read back as whole tiles: the pieces each store wrote tile the buffer, so nothing of the earlier
  contents shows through. Nothing is carried from one point to the next and no window is ever idle, so the invariant between
  points is the scoped rest and the generator register, untouched.
-/
import proofs.«105332_j8211977470193_2_alg».proof.Proof.KI.QkvRun

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input tile holds its block at every point, whether the pipeline fetched it there or left it in place because the
    block's index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point, as the pipeline passes them to the body -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .bf16 := win0_7.stage (cfg0.slots t 7)
abbrev hs0_7 (t : Fin cfg0.N) : (ms0_7 t).IsWhole := hstage0_7 ((cfg0.slots t 7).cast nbuf0_7)

/-- One staging buffer of each output window, through which its contents are stated (which one does not matter: the
    pieces cover it). -/
abbrev VOq : View sig .tc .vmem S256x2048 .bf16 := (Memref.whole cc0_stg5_0 : Memref sig .tc .vmem S256x2048 .bf16).view
abbrev VOk : View sig .tc .vmem S256x2048 .bf16 := (Memref.whole cc0_stg6_0 : Memref sig .tc .vmem S256x2048 .bf16).view
abbrev VOv : View sig .tc .vmem S256x2048 .bf16 := (Memref.whole cc0_stg7_0 : Memref sig .tc .vmem S256x2048 .bf16).view

end Region

/-! ## What the body leaves in each output tile -/

/-- The one store into each output tile writes the whole tile. -/
theorem coverQ (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) (y : S256x2048.Idx) :
    ∃ pc ∈ (qkvRun c i a1 h1 a2 h2 a3 h3 a4 h4 a5 h5 a6 h6 a7 h7 a8 h8 x0 x1 x2 x3 x4).1, y ∈ pc.1.set :=
  View.cover_of_tiledL (qkvRun c i a1 h1 a2 h2 a3 h3 a4 h4 a5 h5 a6 h6 a7 h7 a8 h8 x0 x1 x2 x3 x4).1 S256x2048.size (by sl_kernel_rfl) y
theorem coverK (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) (y : S256x2048.Idx) :
    ∃ pc ∈ (qkvRun c i a1 h1 a2 h2 a3 h3 a4 h4 a5 h5 a6 h6 a7 h7 a8 h8 x0 x1 x2 x3 x4).2.1, y ∈ pc.1.set :=
  View.cover_of_tiledL (qkvRun c i a1 h1 a2 h2 a3 h3 a4 h4 a5 h5 a6 h6 a7 h7 a8 h8 x0 x1 x2 x3 x4).2.1 S256x2048.size (by sl_kernel_rfl) y
theorem coverV (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) (y : S256x2048.Idx) :
    ∃ pc ∈ (qkvRun c i a1 h1 a2 h2 a3 h3 a4 h4 a5 h5 a6 h6 a7 h7 a8 h8 x0 x1 x2 x3 x4).2.2.1, y ∈ pc.1.set :=
  View.cover_of_tiledL (qkvRun c i a1 h1 a2 h2 a3 h3 a4 h4 a5 h5 a6 h6 a7 h7 a8 h8 x0 x1 x2 x3 x4).2.2.1 S256x2048.size (by sl_kernel_rfl) y

/-- The query, key and value tiles after the body: the stores' pieces read back. -/
def outQ (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) : Vec F S256x2048 .bf16 :=
  VOq.read (Elt F) (VOq.writes (Elt F) VOq.junk (qkvRun c i a1 h1 a2 h2 a3 h3 a4 h4 a5 h5 a6 h6 a7 h7 a8 h8 x0 x1 x2 x3 x4).1)
def outK (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) : Vec F S256x2048 .bf16 :=
  VOk.read (Elt F) (VOk.writes (Elt F) VOk.junk (qkvRun c i a1 h1 a2 h2 a3 h3 a4 h4 a5 h5 a6 h6 a7 h7 a8 h8 x0 x1 x2 x3 x4).2.1)
def outV (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) : Vec F S256x2048 .bf16 :=
  VOv.read (Elt F) (VOv.writes (Elt F) VOv.junk (qkvRun c i a1 h1 a2 h2 a3 h3 a4 h4 a5 h5 a6 h6 a7 h7 a8 h8 x0 x1 x2 x3 x4).2.2.1)

section Region
variable (V : (c : Dev nD) → (b : Ref sig .tc) → Buf (Elt F) ((c : Thread nD τ).loc b))

/-! ## The proof data -/

/-- The first kernel's proof data on core c: the arrays as the region finds them; after the body at point t each input
    tile at its block and each output tile at what the stores wrote from the input blocks; between points the scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨6, _⟩ => outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨7, _⟩ => outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_6 (c : Dev nD) (t : Fin cfg0.N) : (dat0 V c).after 6 t = outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_7 (c : Dev nD) (t : Fin cfg0.N) : (dat0 V c).after 7 t = outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point: the input tiles hold their blocks, so the run applies; each output tile comes back with its
    pieces written over whatever it held, and since the pieces cover the tile that is the tile read back whole; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outQ outK outV
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((qkvRun c (grid0.coords t) _ _ _ _ _ _ _ _ _ _ _ _ _ _ _ _ (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverQ c _ _ _ _ _ _ _ _ _ _ _ _ _ _ _ _ _ _ _ _ _ _)
  isplitl [H6]
  · unfold owns; iexists _; isplitr
    swap; · iexact H6
    ipureintro; exact View.read_writes_of_cover _ _ _ _ _ (coverK c _ _ _ _ _ _ _ _ _ _ _ _ _ _ _ _ _ _ _ _ _ _)
  unfold owns; iexists _; isplitr
  swap; · iexact H7
  ipureintro; exact View.read_writes_of_cover _ _ _ _ _ (coverV c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Proof.KI

end
-- ==== Proof.KI.Run.lean ====
/-
  The whole idealized kernel program run once: fifteen host operations prepare the weights (transposes, the fused
  query / key / value weight matrix, the change of float format, the two norm weights reshaped to rows), then the three
  kernels run one after the other, each reading arrays the one before it wrote. The run is stated over the contents of
  every unscoped buffer at the four boundaries: at launch; after the host operations; after each kernel, where the kernel's
  output arrays hold what its write-backs leave and every other buffer is as before. Every weakly fair execution terminates
  with every unscoped buffer at the last boundary's contents; the argument arrays are never written, so they end as launched,
  and the program's result is the third kernel's output array.
  The second and third kernels enter through the two things that vary in a kernel's proof data — what each window's tile
  holds after the body at each point, and the invariant between points — with their body obligations and the two
  entailments between their invariants and the plain one (scoped rest and generator register).
-/
import proofs.«105332_j8211977470193_2_alg».proof.Proof.KI.QkvData
import proofs.«105332_j8211977470193_2_alg».proof.Proof.Gen.KernelIdeal.Regions

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

section Run

variable (m : (ℓ : Loc nD τ sig) → Buf (Elt F) ℓ) (ρ : Dev nD → PrngReg)
variable (aft1 : ((c : Dev nD) → (b : Ref sig .tc) → Buf (Elt F) ((c : Thread nD τ).loc b)) → (c : Dev nD) → (w : Fin cfg1.W) → Fin cfg1.N → (cfg1.win w).block.Idx → Elt F (cfg1.win w).elt)
  (Φ1 : ((c : Dev nD) → (b : Ref sig .tc) → Buf (Elt F) ((c : Thread nD τ).loc b)) → (c : Dev nD) → Fin (cfg1.N + 1) → sProp (MT nD τ sig Unit (Elt F) ℕ (UR sig nD τ) ℕ))
variable (aft2 : ((c : Dev nD) → (b : Ref sig .tc) → Buf (Elt F) ((c : Thread nD τ).loc b)) → (c : Dev nD) → (w : Fin cfg2.W) → Fin cfg2.N → (cfg2.win w).block.Idx → Elt F (cfg2.win w).elt)
  (Φ2 : ((c : Dev nD) → (b : Ref sig .tc) → Buf (Elt F) ((c : Thread nD τ).loc b)) → (c : Dev nD) → Fin (cfg2.N + 1) → sProp (MT nD τ sig Unit (Elt F) ℕ (UR sig nD τ) ℕ))

/-- The second and third kernels' proof data from their two varying parts: the arrays as the region finds them, full
    shares, nothing owed. -/
def d1 (V : ((c : Dev nD) → (b : Ref sig .tc) → Buf (Elt F) ((c : Thread nD τ).loc b))) (c : Dev nD) : Dat τ (Elt F) Unit ℕ (UR sig nD τ) ℕ cfg1 c where
  A w := V c (Pipeline.arrRef spec1 w)
  after := aft1 V c
  Φ := Φ1 V c
  q _ := fullShare
  owed _ := 0
def d2 (V : ((c : Dev nD) → (b : Ref sig .tc) → Buf (Elt F) ((c : Thread nD τ).loc b))) (c : Dev nD) : Dat τ (Elt F) Unit ℕ (UR sig nD τ) ℕ cfg2 c where
  A w := V c (Pipeline.arrRef spec2 w)
  after := aft2 V c
  Φ := Φ2 V c
  q _ := fullShare
  owed _ := 0

/-! ## The buffers' contents at each boundary -/

/-- At launch, -/
abbrev B0 : Dev nD → Valuation τ sig (Elt F) := fun c b => (s₀ m ρ).mem ((c : Dev nD), b)
/-- after the host operations (the first kernel's entry), -/
abbrev B1 : Dev nD → Valuation τ sig (Elt F) := fun c => StableHlo.after hostOps0 (B0 m ρ c)
abbrev R1 : ((c : Dev nD) → (b : Ref sig .tc) → Buf (Elt F) ((c : Thread nD τ).loc b)) := fun c b => B1 m ρ c b
/-- after the first kernel: its arrays at what its write-backs leave, -/
def B2 (c : Dev nD) : Valuation τ sig (Elt F) :=
  Pipeline.withArrays spec0 c (B1 m ρ c) fun w => (dat0 (R1 m ρ) c).arrAt w cfg0.N
abbrev R2 : ((c : Dev nD) → (b : Ref sig .tc) → Buf (Elt F) ((c : Thread nD τ).loc b)) := fun c b => B2 m ρ c b
/-- after the second, -/
def B3 (c : Dev nD) : Valuation τ sig (Elt F) :=
  Pipeline.withArrays spec1 c (B2 m ρ c) fun w => (d1 aft1 Φ1 (R2 m ρ) c).arrAt w cfg1.N
abbrev R3 : ((c : Dev nD) → (b : Ref sig .tc) → Buf (Elt F) ((c : Thread nD τ).loc b)) := fun c b => B3 m ρ aft1 Φ1 c b
/-- after the third. -/
def B4 (c : Dev nD) : Valuation τ sig (Elt F) :=
  Pipeline.withArrays spec2 c (B3 m ρ aft1 Φ1 c) fun w => (d2 aft2 Φ2 (R3 m ρ aft1 Φ1) c).arrAt w cfg2.N
abbrev R4 : ((c : Dev nD) → (b : Ref sig .tc) → Buf (Elt F) ((c : Thread nD τ).loc b)) := fun c b => B4 m ρ aft1 Φ1 aft2 Φ2 c b

theorem B2_arr (c : Dev nD) (w : Fin cfg0.W) :
    B2 m ρ c (Proc.devRef .tc (Pipeline.arrRef spec0 w)) = (dat0 (R1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B3_arr (c : Dev nD) (w : Fin cfg1.W) :
    B3 m ρ aft1 Φ1 c (Proc.devRef .tc (Pipeline.arrRef spec1 w)) = (d1 aft1 Φ1 (R2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ aft1 Φ1 c (Proc.devRef .tc b) = B2 m ρ c (Proc.devRef .tc b) := by
  unfold B3; exact Pipeline.withArrays_of_ne spec1 c _ _ b hb
theorem B4_arr (c : Dev nD) (w : Fin cfg2.W) :
    B4 m ρ aft1 Φ1 aft2 Φ2 c (Proc.devRef .tc (Pipeline.arrRef spec2 w)) = (d2 aft2 Φ2 (R3 m ρ aft1 Φ1) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ aft1 Φ1 aft2 Φ2 c (Proc.devRef .tc b) = B3 m ρ aft1 Φ1 c (Proc.devRef .tc b) := by
  unfold B4; exact Pipeline.withArrays_of_ne spec2 c _ _ b hb

theorem hF0 (c : Dev nD) (w : Fin cfg0.W) : (dat0 (R1 m ρ) c).arrAt w cfg0.N = R2 m ρ c (Pipeline.arrRef spec0 w) := (B2_arr m ρ c w).symm
theorem hrest0 (c : Dev nD) : ∀ b, b ∉ Finset.univ.image (Pipeline.arrRef spec0) → R2 m ρ c b = R1 m ρ c b :=
  fun b hb => B2_of_ne m ρ c b fun w e => hb (Finset.mem_image.mpr ⟨w, Finset.mem_univ _, e⟩)
theorem hF1 (c : Dev nD) (w : Fin cfg1.W) : (d1 aft1 Φ1 (R2 m ρ) c).arrAt w cfg1.N = R3 m ρ aft1 Φ1 c (Pipeline.arrRef spec1 w) := (B3_arr m ρ aft1 Φ1 c w).symm
theorem hrest1 (c : Dev nD) : ∀ b, b ∉ Finset.univ.image (Pipeline.arrRef spec1) → R3 m ρ aft1 Φ1 c b = R2 m ρ c b :=
  fun b hb => B3_of_ne m ρ aft1 Φ1 c b fun w e => hb (Finset.mem_image.mpr ⟨w, Finset.mem_univ _, e⟩)
theorem hF2 (c : Dev nD) (w : Fin cfg2.W) : (d2 aft2 Φ2 (R3 m ρ aft1 Φ1) c).arrAt w cfg2.N = R4 m ρ aft1 Φ1 aft2 Φ2 c (Pipeline.arrRef spec2 w) := (B4_arr m ρ aft1 Φ1 aft2 Φ2 c w).symm
theorem hrest2 (c : Dev nD) : ∀ b, b ∉ Finset.univ.image (Pipeline.arrRef spec2) → R4 m ρ aft1 Φ1 aft2 Φ2 c b = R3 m ρ aft1 Φ1 c b :=
  fun b hb => B4_of_ne m ρ aft1 Φ1 aft2 Φ2 c b fun w e => hb (Finset.mem_image.mpr ⟨w, Finset.mem_univ _, e⟩)

/-! ## The arguments end as launched, and the result is the third kernel's output array -/

/-- The activations are an input of the first kernel and the residual input of the second: never written back. -/
theorem B4_main_arg0 (c : Dev nD) : B4 m ρ aft1 Φ1 aft2 Φ2 c (Proc.devRef .tc main_arg0) = m ((c : Thread nD τ).loc main_arg0) :=
  (B4_of_ne m ρ aft1 Φ1 aft2 Φ2 c main_arg0 (by decide)).trans <| (B3_arr m ρ aft1 Φ1 c 4).trans <| ((d1 aft1 Φ1 (R2 m ρ) c).arrAt_in 4 rfl _).trans <|
    (show (d1 aft1 Φ1 (R2 m ρ) c).A 4 = R2 m ρ c (Pipeline.arrRef spec1 4) from rfl).trans <| (B2_arr m ρ c 0).trans <|
    ((dat0 (R1 m ρ) c).arrAt_in 0 rfl _).trans <| (A_eq0 (R1 m ρ) c 0).trans (V1_of m c main_arg0 (by decide))
/-- Argument 1 is read by the host operations only: no kernel stages it and nothing writes it. -/
theorem B4_main_arg1 (c : Dev nD) : B4 m ρ aft1 Φ1 aft2 Φ2 c (Proc.devRef .tc main_arg1) = m ((c : Thread nD τ).loc main_arg1) :=
  (B4_of_ne m ρ aft1 Φ1 aft2 Φ2 c main_arg1 (by decide)).trans <| (B3_of_ne m ρ aft1 Φ1 c main_arg1 (by decide)).trans <|
    (B2_of_ne m ρ c main_arg1 (by decide)).trans (V1_of m c main_arg1 (by decide))
/-- Argument 2 is read by the host operations only: no kernel stages it and nothing writes it. -/
theorem B4_main_arg2 (c : Dev nD) : B4 m ρ aft1 Φ1 aft2 Φ2 c (Proc.devRef .tc main_arg2) = m ((c : Thread nD τ).loc main_arg2) :=
  (B4_of_ne m ρ aft1 Φ1 aft2 Φ2 c main_arg2 (by decide)).trans <| (B3_of_ne m ρ aft1 Φ1 c main_arg2 (by decide)).trans <|
    (B2_of_ne m ρ c main_arg2 (by decide)).trans (V1_of m c main_arg2 (by decide))
/-- Argument 3 is read by the host operations only: no kernel stages it and nothing writes it. -/
theorem B4_main_arg3 (c : Dev nD) : B4 m ρ aft1 Φ1 aft2 Φ2 c (Proc.devRef .tc main_arg3) = m ((c : Thread nD τ).loc main_arg3) :=
  (B4_of_ne m ρ aft1 Φ1 aft2 Φ2 c main_arg3 (by decide)).trans <| (B3_of_ne m ρ aft1 Φ1 c main_arg3 (by decide)).trans <|
    (B2_of_ne m ρ c main_arg3 (by decide)).trans (V1_of m c main_arg3 (by decide))
/-- Argument 4 is read by the host operations only: no kernel stages it and nothing writes it. -/
theorem B4_main_arg4 (c : Dev nD) : B4 m ρ aft1 Φ1 aft2 Φ2 c (Proc.devRef .tc main_arg4) = m ((c : Thread nD τ).loc main_arg4) :=
  (B4_of_ne m ρ aft1 Φ1 aft2 Φ2 c main_arg4 (by decide)).trans <| (B3_of_ne m ρ aft1 Φ1 c main_arg4 (by decide)).trans <|
    (B2_of_ne m ρ c main_arg4 (by decide)).trans (V1_of m c main_arg4 (by decide))
/-- Argument 5 is read by the host operations only: no kernel stages it and nothing writes it. -/
theorem B4_main_arg5 (c : Dev nD) : B4 m ρ aft1 Φ1 aft2 Φ2 c (Proc.devRef .tc main_arg5) = m ((c : Thread nD τ).loc main_arg5) :=
  (B4_of_ne m ρ aft1 Φ1 aft2 Φ2 c main_arg5 (by decide)).trans <| (B3_of_ne m ρ aft1 Φ1 c main_arg5 (by decide)).trans <|
    (B2_of_ne m ρ c main_arg5 (by decide)).trans (V1_of m c main_arg5 (by decide))
/-- Argument 6 is read by the host operations only: no kernel stages it and nothing writes it. -/
theorem B4_main_arg6 (c : Dev nD) : B4 m ρ aft1 Φ1 aft2 Φ2 c (Proc.devRef .tc main_arg6) = m ((c : Thread nD τ).loc main_arg6) :=
  (B4_of_ne m ρ aft1 Φ1 aft2 Φ2 c main_arg6 (by decide)).trans <| (B3_of_ne m ρ aft1 Φ1 c main_arg6 (by decide)).trans <|
    (B2_of_ne m ρ c main_arg6 (by decide)).trans (V1_of m c main_arg6 (by decide))
/-- Argument 7 is read by the host operations only: no kernel stages it and nothing writes it. -/
theorem B4_main_arg7 (c : Dev nD) : B4 m ρ aft1 Φ1 aft2 Φ2 c (Proc.devRef .tc main_arg7) = m ((c : Thread nD τ).loc main_arg7) :=
  (B4_of_ne m ρ aft1 Φ1 aft2 Φ2 c main_arg7 (by decide)).trans <| (B3_of_ne m ρ aft1 Φ1 c main_arg7 (by decide)).trans <|
    (B2_of_ne m ρ c main_arg7 (by decide)).trans (V1_of m c main_arg7 (by decide))
/-- Argument 8 is read by the host operations only: no kernel stages it and nothing writes it. -/
theorem B4_main_arg8 (c : Dev nD) : B4 m ρ aft1 Φ1 aft2 Φ2 c (Proc.devRef .tc main_arg8) = m ((c : Thread nD τ).loc main_arg8) :=
  (B4_of_ne m ρ aft1 Φ1 aft2 Φ2 c main_arg8 (by decide)).trans <| (B3_of_ne m ρ aft1 Φ1 c main_arg8 (by decide)).trans <|
    (B2_of_ne m ρ c main_arg8 (by decide)).trans (V1_of m c main_arg8 (by decide))
/-- Argument 9 is read by the host operations only: no kernel stages it and nothing writes it. -/
theorem B4_main_arg9 (c : Dev nD) : B4 m ρ aft1 Φ1 aft2 Φ2 c (Proc.devRef .tc main_arg9) = m ((c : Thread nD τ).loc main_arg9) :=
  (B4_of_ne m ρ aft1 Φ1 aft2 Φ2 c main_arg9 (by decide)).trans <| (B3_of_ne m ρ aft1 Φ1 c main_arg9 (by decide)).trans <|
    (B2_of_ne m ρ c main_arg9 (by decide)).trans (V1_of m c main_arg9 (by decide))
/-- Argument 10 is an input of the first kernel only: an input's array is never written back. -/
theorem B4_main_arg10 (c : Dev nD) : B4 m ρ aft1 Φ1 aft2 Φ2 c (Proc.devRef .tc main_arg10) = m ((c : Thread nD τ).loc main_arg10) :=
  (B4_of_ne m ρ aft1 Φ1 aft2 Φ2 c main_arg10 (by decide)).trans <| (B3_of_ne m ρ aft1 Φ1 c main_arg10 (by decide)).trans <|
    (B2_arr m ρ c 3).trans <| ((dat0 (R1 m ρ) c).arrAt_in 3 rfl _).trans <| (A_eq0 (R1 m ρ) c 3).trans (V1_of m c main_arg10 (by decide))
/-- Argument 11 is an input of the first kernel only: an input's array is never written back. -/
theorem B4_main_arg11 (c : Dev nD) : B4 m ρ aft1 Φ1 aft2 Φ2 c (Proc.devRef .tc main_arg11) = m ((c : Thread nD τ).loc main_arg11) :=
  (B4_of_ne m ρ aft1 Φ1 aft2 Φ2 c main_arg11 (by decide)).trans <| (B3_of_ne m ρ aft1 Φ1 c main_arg11 (by decide)).trans <|
    (B2_arr m ρ c 4).trans <| ((dat0 (R1 m ρ) c).arrAt_in 4 rfl _).trans <| (A_eq0 (R1 m ρ) c 4).trans (V1_of m c main_arg11 (by decide))

/-- The program's result is the third kernel's output array: what its write-backs leave. -/
theorem B4_result (c : Dev nD) : B4 m ρ aft1 Φ1 aft2 Φ2 c (Proc.devRef .tc main_v17) = (d2 aft2 Φ2 (R3 m ρ aft1 Φ1) c).arrAt 5 cfg2.N :=
  B4_arr m ρ aft1 Φ1 aft2 Φ2 c 5

/-! ## The proof data family and the thread state -/

abbrev adm : (p : Fin 3) → (pcfgs (F := F) p).Adm := fun p => (cfgs p).toPCfg_adm

/-- Every kernel's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (R1 m ρ) c
  | ⟨1, _⟩ => fun c => d1 aft1 Φ1 (R2 m ρ) c
  | ⟨2, _⟩ => fun c => d2 aft2 Φ2 (R3 m ρ aft1 Φ1) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ aft1 Φ1 aft2 Φ2 c) ∗ ∃ r, prngReg c r)

/-! ## What the second and third kernels owe -/

variable (hb1 : ∀ (V : ((c : Dev nD) → (b : Ref sig .tc) → Buf (Elt F) ((c : Thread nD τ).loc b))) (c : Dev nD), BodyObligation (d1 aft1 Φ1 V c) (defs₀ (F := F)) Variants.none () Set.univ)
  (hi1 : ∀ (V : ((c : Dev nD) → (b : Ref sig .tc) → Buf (Elt F) ((c : Thread nD τ).loc b))) (c : Dev nD), (Pipeline.ΦA spec1 c : sProp (MT nD τ sig Unit (Elt F) ℕ (UR sig nD τ) ℕ)) ⊢ Φ1 V c 0)
  (ho1 : ∀ (V : ((c : Dev nD) → (b : Ref sig .tc) → Buf (Elt F) ((c : Thread nD τ).loc b))) (c : Dev nD), Φ1 V c (Fin.last cfg1.N) ⊢ (Pipeline.ΦA spec1 c : sProp (MT nD τ sig Unit (Elt F) ℕ (UR sig nD τ) ℕ)))
variable (hb2 : ∀ (V : ((c : Dev nD) → (b : Ref sig .tc) → Buf (Elt F) ((c : Thread nD τ).loc b))) (c : Dev nD), BodyObligation (d2 aft2 Φ2 V c) (defs₀ (F := F)) Variants.none () Set.univ)
  (hi2 : ∀ (V : ((c : Dev nD) → (b : Ref sig .tc) → Buf (Elt F) ((c : Thread nD τ).loc b))) (c : Dev nD), (Pipeline.ΦA spec2 c : sProp (MT nD τ sig Unit (Elt F) ℕ (UR sig nD τ) ℕ)) ⊢ Φ2 V c 0)
  (ho2 : ∀ (V : ((c : Dev nD) → (b : Ref sig .tc) → Buf (Elt F) ((c : Thread nD τ).loc b))) (c : Dev nD), Φ2 V c (Fin.last cfg2.N) ⊢ (Pipeline.ΦA spec2 c : sProp (MT nD τ sig Unit (Elt F) ℕ (UR sig nD τ) ℕ)))

/-! ## The kernels as segments -/

set_option backward.isDefEq.respectTransparency.types false in
/-- Kernel 0 over the thread state: entered with every unscoped buffer at the contents before it, left with its arrays
    at what its write-backs leave and every other buffer as entered; the generator register goes into the kernel's
    invariant and comes back; nothing is owed; the kernel has no semaphore of its own. -/
def reg0 : Pipeline.RegionSeg (pcfgs (F := F)) adm (pdats m ρ aft1 Φ1 aft2 Φ2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) adm (pdats m ρ aft1 Φ1 aft2 Φ2) launch0.win launch0.arr_whole c
      ((pdats m ρ aft1 Φ1 aft2 Φ2 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ aft1 Φ1 aft2 Φ2 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ aft1 Φ1 aft2 Φ2 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ aft1 Φ1 aft2 Φ2) ((pdats m ρ aft1 Φ1 aft2 Φ2 0 c).share_full fun _ => rfl)
      (R1 m ρ c) (R2 m ρ c) ((pdats m ρ aft1 Φ1 aft2 Φ2 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb1 hi1 ho1 in
set_option backward.isDefEq.respectTransparency.types false in
/-- Kernel 1 over the thread state: entered with every unscoped buffer at the contents before it, left with its arrays
    at what its write-backs leave and every other buffer as entered; the generator register goes into the kernel's
    invariant and comes back; nothing is owed; the kernel has no semaphore of its own. -/
def reg1 : Pipeline.RegionSeg (pcfgs (F := F)) adm (pdats m ρ aft1 Φ1 aft2 Φ2) () defs₀ 𝒱₀ L lv 1 where
  win := launch1.win.to₀
  block_pos := launch1.block_pos
  stage_whole := launch1.stage_whole
  K := PEmpty
  osem k := k.elim
  ho := Pipeline.OwnSemFacts.none _
  hbody c := (hb1 (R2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ aft1 Φ1 c) ∗ R c)
  X c := iprop(∃ r, prngReg c r)
  Y c := iprop(∃ r, prngReg c r)
  Z c := Pipeline.unscopedRest (Ix := Unit) (Name := ℕ) (U := UR sig nD τ) (Lvl := ℕ) spec1 c (R2 m ρ c)
  hentry c := by
    rw [Pipeline.ownSems0_none]
    have hsplit := Pipeline.arrays_of_unscopedBufs (p := 1) (pcfgs (F := F)) adm (pdats m ρ aft1 Φ1 aft2 Φ2) launch1.win launch1.arr_whole c
      ((pdats m ρ aft1 Φ1 aft2 Φ2 1 c).share_full fun _ => rfl) (R2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi1 (R2 m ρ) c)
    unfold Pipeline.ΦA
    iintro ⟨Hp, -, Hr⟩
    isplitl [Hr]; · iexact Hr
    iexact Hp
  hout c := by
    rw [Pipeline.ownSems0_none]
    refine BIBase.Entails.trans (ho1 (R2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ aft1 Φ1 aft2 Φ2) ((pdats m ρ aft1 Φ1 aft2 Φ2 1 c).share_full fun _ => rfl)
      (R2 m ρ c) (R3 m ρ aft1 Φ1 c) ((pdats m ρ aft1 Φ1 aft2 Φ2 1 c).arrAt · cfg1.N) (hF1 m ρ aft1 Φ1 c) (hrest1 m ρ aft1 Φ1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb2 hi2 ho2 in
set_option backward.isDefEq.respectTransparency.types false in
/-- Kernel 2 over the thread state: entered with every unscoped buffer at the contents before it, left with its arrays
    at what its write-backs leave and every other buffer as entered; the generator register goes into the kernel's
    invariant and comes back; nothing is owed; the kernel has no semaphore of its own. -/
def reg2 : Pipeline.RegionSeg (pcfgs (F := F)) adm (pdats m ρ aft1 Φ1 aft2 Φ2) () defs₀ 𝒱₀ L lv 2 where
  win := launch2.win.to₀
  block_pos := launch2.block_pos
  stage_whole := launch2.stage_whole
  K := PEmpty
  osem k := k.elim
  ho := Pipeline.OwnSemFacts.none _
  hbody c := (hb2 (R3 m ρ aft1 Φ1) c).loose
  hwaits := Pipeline.hwaits_of_owed_zero _ _ _ _ L lv 2 fun _ _ => rfl
  pre c := iprop(StableHlo.held (c : Thread nD τ) (Pipeline.ucRefs τ sig) (B3 m ρ aft1 Φ1 c) ∗ R c)
  post c := iprop(StableHlo.held (c : Thread nD τ) (Pipeline.ucRefs τ sig) (B4 m ρ aft1 Φ1 aft2 Φ2 c) ∗ R c)
  X c := iprop(∃ r, prngReg c r)
  Y c := iprop(∃ r, prngReg c r)
  Z c := Pipeline.unscopedRest (Ix := Unit) (Name := ℕ) (U := UR sig nD τ) (Lvl := ℕ) spec2 c (R3 m ρ aft1 Φ1 c)
  hentry c := by
    rw [Pipeline.ownSems0_none]
    have hsplit := Pipeline.arrays_of_unscopedBufs (p := 2) (pcfgs (F := F)) adm (pdats m ρ aft1 Φ1 aft2 Φ2) launch2.win launch2.arr_whole c
      ((pdats m ρ aft1 Φ1 aft2 Φ2 2 c).share_full fun _ => rfl) (R3 m ρ aft1 Φ1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi2 (R3 m ρ aft1 Φ1) c)
    unfold Pipeline.ΦA
    iintro ⟨Hp, -, Hr⟩
    isplitl [Hr]; · iexact Hr
    iexact Hp
  hout c := by
    rw [Pipeline.ownSems0_none]
    refine BIBase.Entails.trans (ho2 (R3 m ρ aft1 Φ1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ aft1 Φ1 aft2 Φ2) ((pdats m ρ aft1 Φ1 aft2 Φ2 2 c).share_full fun _ => rfl)
      (R3 m ρ aft1 Φ1 c) (R4 m ρ aft1 Φ1 aft2 Φ2 c) ((pdats m ρ aft1 Φ1 aft2 Φ2 2 c).arrAt · cfg2.N) (hF2 m ρ aft1 Φ1 aft2 Φ2 c) (hrest2 m ρ aft1 Φ1 aft2 Φ2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the host operations, then the three kernels. -/
abbrev segs : List (Pipeline.Seg (pcfgs (F := F)) adm (pdats m ρ aft1 Φ1 aft2 Φ2) () defs₀ 𝒱₀ L lv) :=
  [ .host (hseg hostOps0 hostOps0_sub hostOps0_fresh (B0 m ρ)),
    .region (reg0 m ρ aft1 Φ1 aft2 Φ2),
    .region (reg1 m ρ aft1 Φ1 aft2 Φ2 hb1 hi1 ho1),
    .region (reg2 m ρ aft1 Φ1 aft2 Φ2 hb2 hi2 ho2) ]

theorem main_run (c : Dev nD) : main (F := F) c = Pipeline.Seg.run (segs m ρ aft1 Φ1 aft2 Φ2 hb1 hi1 ho1 hb2 hi2 ho2) :=
  (main_chain c).trans (by chain_rfl)

include hb1 hi1 ho1 hb2 hi2 ho2

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ aft1 Φ1 aft2 Φ2 c b) :=
  Pipeline.θ_run_regions_kit (pcfgs (F := F)) adm (pdats m ρ aft1 Φ1 aft2 Φ2) () cellOf_inj emb₁ defs₀ 𝒱₀ L lv m ρ main
    (segs m ρ aft1 Φ1 aft2 Φ2 hb1 hi1 ho1 hb2 hi2 ho2)
    (fun c Q => by rw [main_run m ρ aft1 Φ1 aft2 Φ2 hb1 hi1 ho1 hb2 hi2 ho2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ aft1 Φ1 aft2 Φ2)
    (hch := ⟨fun _ => .rfl, fun _ => .rfl, fun _ => .rfl, fun _ => .rfl, fun c => by
      show (iprop(StableHlo.held (c : Thread nD τ) (Pipeline.ucRefs τ sig) (B4 m ρ aft1 Φ1 aft2 Φ2 c) ∗ R c) : sProp 𝕄)
        ⊢ iprop(Tₙ m ρ aft1 Φ1 aft2 Φ2 c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ aft1 Φ1 aft2 Φ2 c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ aft1 Φ1 aft2 Φ2 c) s')
      isplitl [Hh] <;> iassumption)
    (hQ := fun _ h => h)

/-- THE RUN, read at the arguments and the result: every weakly fair execution terminates, the result array holds what the
    third kernel's write-backs leave, and every argument array holds what it was launched with. -/
theorem run_main : θ_run defs (onTc (τ := τ) (main (F := F))) ⟨m, fun _ => 0, ρ⟩ (fun r => ∀ c : Dev nD,
      r.2.mem ((c.tc : Thread nD τ).loc main_v17) = (d2 aft2 Φ2 (R3 m ρ aft1 Φ1) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_v17 (by decide))).trans (B4_result m ρ aft1 Φ1 aft2 Φ2 c),
      (h c _ (mem_uc main_arg0 (by decide))).trans (B4_main_arg0 m ρ aft1 Φ1 aft2 Φ2 c),
      (h c _ (mem_uc main_arg1 (by decide))).trans (B4_main_arg1 m ρ aft1 Φ1 aft2 Φ2 c),
      (h c _ (mem_uc main_arg2 (by decide))).trans (B4_main_arg2 m ρ aft1 Φ1 aft2 Φ2 c),
      (h c _ (mem_uc main_arg3 (by decide))).trans (B4_main_arg3 m ρ aft1 Φ1 aft2 Φ2 c),
      (h c _ (mem_uc main_arg4 (by decide))).trans (B4_main_arg4 m ρ aft1 Φ1 aft2 Φ2 c),
      (h c _ (mem_uc main_arg5 (by decide))).trans (B4_main_arg5 m ρ aft1 Φ1 aft2 Φ2 c),
      (h c _ (mem_uc main_arg6 (by decide))).trans (B4_main_arg6 m ρ aft1 Φ1 aft2 Φ2 c),
      (h c _ (mem_uc main_arg7 (by decide))).trans (B4_main_arg7 m ρ aft1 Φ1 aft2 Φ2 c),
      (h c _ (mem_uc main_arg8 (by decide))).trans (B4_main_arg8 m ρ aft1 Φ1 aft2 Φ2 c),
      (h c _ (mem_uc main_arg9 (by decide))).trans (B4_main_arg9 m ρ aft1 Φ1 aft2 Φ2 c),
      (h c _ (mem_uc main_arg10 (by decide))).trans (B4_main_arg10 m ρ aft1 Φ1 aft2 Φ2 c),
      (h c _ (mem_uc main_arg11 (by decide))).trans (B4_main_arg11 m ρ aft1 Φ1 aft2 Φ2 c)⟩)
    (run_all m ρ aft1 Φ1 aft2 Φ2 hb1 hi1 ho1 hb2 hi2 ho2)

end Run

end Cert.Proof.KI

end
-- ==== Proof.KI.AttnRuns.lean ====
/-
  The attention kernel of the block runs on a grid of eight query tiles by eight key tiles; point t = 8 qi + ki works on
  query tile qi and key tile ki. Three scratch buffers are carried along a query row: the running row maximum m, the running
  denominator l and the running numerator acc. At the first key tile (ki = 0) the body first resets them (m to minus
  infinity, l and acc to zero); at every key tile it updates them from the block's logits; at the last key tile (ki = 7)
  it divides acc by l, applies the output projection, adds the residual tile and stores the output tile. This module
  holds what the three control cases share: the windows' blocks, the two branch conditions in closed form over the grid,
  where the output window is idle, the memrefs the body is called with, and the region invariant with the three scratch
  buffers split off the scoped rest.
-/
import proofs.«105332_j8211977470193_2_alg».proof.Proof.Gen.KernelIdeal.Launch
import proofs.«105332_j8211977470193_2_alg».proof.Proof.Gen.KernelIdeal.Skeleton
import proofs.«105332_j8211977470193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it: rows 512 qi … 512 qi + 511 of the queries and of
    the residual, rows 512 ki … 512 ki + 511 of the keys and of the values, the whole projection weight. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input tile holds its block at every point, whether the pipeline fetched it there or left it in place because the
    block's index did not move (the query and residual tiles along a query row, the projection weight throughout). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's two branch conditions -/

/-- The reset's condition (ki = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the first key tile of each query row. -/
theorem hcond1_0 : ∀ t : Fin cfg1.N, cond1_0 (grid1.coords t) ↔ t.val % 8 = 0 :=
  (by decide +kernel : ∀ t : Fin grid1.N, cond1_0 (grid1.coords t) ↔ t.val % 8 = 0)

/-- The finalisation's condition (ki = 7). -/
abbrev cond1_1 (i : grid1.Coords) : Prop := k1_cond2 i = 1#1
/-- It holds exactly at the last key tile of each query row. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The five inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first key tile the output tile is idle: nothing is stored into it, -/
theorem idleAt1_5_A : ∀ t : Fin cfg1.N, cond1_0 (grid1.coords t) → ¬cond1_1 (grid1.coords t) → cfg1.idle 5 (grid1.coords t) = true := by decide +kernel
/-- and it is not written back there. -/
theorem noFlush1_5_A : ∀ t : Fin cfg1.N, cond1_0 (grid1.coords t) → ¬cond1_1 (grid1.coords t) → (cfg1.win 5).flush t = false := by decide +kernel
/-- The same at a middle key tile. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last key tile the output tile is live: the finalisation stores it whole. -/
theorem liveAt1_5_C : ∀ t : Fin cfg1.N, ¬cond1_0 (grid1.coords t) → cond1_1 (grid1.coords t) → cfg1.idle 5 (grid1.coords t) = false := by decide +kernel

/-! ## The memrefs the body is called with -/

/-- Each window's current staging memref at point t, and its wholeness. -/
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x2048 .f32 := win1_5.stage (cfg1.slots t 5)
abbrev hs1_5 (t : Fin cfg1.N) : (ms1_5 t).IsWhole := hstage1_5 ((cfg1.slots t 5).cast nbuf1_5)

/-- The three scratch operands: whole buffers of the kernel's own, passed beside the windows. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x2048 .f32 := Memref.whole cc1_scratch2
/-- The views through which the running maximum, denominator and numerator are stated. -/
abbrev VS1_0 : View sig .tc .vmem S512x1 .f32 := scM1_0.view
abbrev VS1_1 : View sig .tc .vmem S512x1 .f32 := scM1_1.view
abbrev VS1_2 : View sig .tc .vmem S512x2048 .f32 := scM1_2.view
/-- One staging buffer of the output window, through which the output tile's contents are stated (which one does not
    matter: the finalisation's store covers it). -/
abbrev VO1_5 : View sig .tc .vmem S512x2048 .f32 := (Memref.whole cc1_stg5_0 : Memref sig .tc .vmem S512x2048 .f32).view

/-! ## The region invariant, with the scratch split off -/

/-- What the region is entered with: the three scratch buffers owned at some contents each, every other scoped buffer
    that is no staging buffer of this region unopened, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

end Cert.Proof.KI

end
-- ==== Proof.KI.AttnRunA.lean ====
/-
  The attention body at the first key tile of a query row (ki = 0): the reset is taken, the finalisation is not. The three
  scratch buffers are taken at anything, since the reset stores each of them whole before anything reads them: the running
  maximum ends with the reset's piece under the update's piece, the denominator and the numerator likewise. The queries,
  keys and values are read; the projection weight, the residual tile and the output tile are not touched, and the output
  tile is handed back at whatever it held.
-/
import proofs.«105332_j8211977470193_2_alg».proof.Proof.KI.AttnRuns

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output tile (none) and in the three scratch buffers (last store first) at a
    first key tile, with the proof that the body runs to its return handing the inputs and the output tile back unchanged
    and each scratch buffer with its pieces written. -/
noncomputable def attnRunA (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) :
    Σ' (L5 : List (View.Piece (Elt F) S512x2048 .f32)) (LS0 : List (View.Piece (Elt F) S512x1 .f32)) (LS1 : List (View.Piece (Elt F) S512x1 .f32)), { LS2 : List (View.Piece (Elt F) S512x2048 .f32) //
      ∀ (xi5 : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xi5
            ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)
                ∗ (∃ f, a10.view.loc (c : Thread nD τ) ↦[a10.view.set]{fullShare} a10.view.writes (Elt F) f LS2)) -∗ K ⟨⟩))
          ⊢ wp frame (wpE (defs₀ (F := F)) Variants.none c none) E (cc1__attn_kernel i a2 h2 a3 h3 a4 h4 a5 h5 a6 h6 a7 h7 a8 h8 a9 h9 a10 h10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    iexists _; iexact HS2

end Cert.Proof.KI

end
-- ==== Proof.KI.AttnRunB.lean ====
/-
  The attention body at a middle key tile of a query row (0 < ki < 7): neither the reset nor the finalisation is taken. The
  three scratch buffers are taken at what the key tile before left in them; each is read and then stored whole, so each ends
  with one piece. The queries, keys and values are read; the projection weight, the residual tile and the output tile are
  not touched, and the output tile is handed back at whatever it held.
-/
import proofs.«105332_j8211977470193_2_alg».proof.Proof.KI.AttnRunA

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output tile (none) and in the three scratch buffers at a middle key tile, with
    the proof that the body runs to its return handing the inputs and the output tile back unchanged and each scratch buffer
    with its piece written. -/
noncomputable def attnRunB (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    Σ' (L5 : List (View.Piece (Elt F) S512x2048 .f32)) (LS0 : List (View.Piece (Elt F) S512x1 .f32)) (LS1 : List (View.Piece (Elt F) S512x1 .f32)), { LS2 : List (View.Piece (Elt F) S512x2048 .f32) //
      ∀ (xi5 : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xi5
            ∗ owns (c : Thread nD τ) a8 fullShare xs0 ∗ owns (c : Thread nD τ) a9 fullShare xs1 ∗ owns (c : Thread nD τ) a10 fullShare xs2
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)
                ∗ (∃ f, a10.view.loc (c : Thread nD τ) ↦[a10.view.set]{fullShare} a10.view.writes (Elt F) f LS2)) -∗ K ⟨⟩))
          ⊢ wp frame (wpE (defs₀ (F := F)) Variants.none c none) E (cc1__attn_kernel i a2 h2 a3 h3 a4 h4 a5 h5 a6 h6 a7 h7 a8 h8 a9 h9 a10 h10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hfs0; obtain rfl := h9.eq_unread hfs1; obtain rfl := h10.eq_unread hfs2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    iexists _; iexact HS2

end Cert.Proof.KI

end
-- ==== Proof.KI.AttnRunC.lean ====
/-
  The attention body at the last key tile of a query row (ki = 7): the reset is not taken, the finalisation is. The three
  scratch buffers are taken at what the key tile before left in them and each ends with one piece, as at a middle key tile;
  then the numerator is divided by the denominator, multiplied by the projection weight, the residual tile is added, and the
  result is stored over the whole output tile, which is therefore taken at anything and ends with that one piece. All five
  inputs are read.
-/
import proofs.«105332_j8211977470193_2_alg».proof.Proof.KI.AttnRunB

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output tile and in the three scratch buffers at a last key tile, with the
    proof that the body runs to its return handing the inputs back unchanged and the output tile and each scratch buffer
    with its piece written. -/
noncomputable def attnRunC (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    Σ' (L5 : List (View.Piece (Elt F) S512x2048 .f32)) (LS0 : List (View.Piece (Elt F) S512x1 .f32)) (LS1 : List (View.Piece (Elt F) S512x1 .f32)), { LS2 : List (View.Piece (Elt F) S512x2048 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d)
            ∗ owns (c : Thread nD τ) a8 fullShare xs0 ∗ owns (c : Thread nD τ) a9 fullShare xs1 ∗ owns (c : Thread nD τ) a10 fullShare xs2
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)
                ∗ (∃ f, a10.view.loc (c : Thread nD τ) ↦[a10.view.set]{fullShare} a10.view.writes (Elt F) f LS2)) -∗ K ⟨⟩))
          ⊢ wp frame (wpE (defs₀ (F := F)) Variants.none c none) E (cc1__attn_kernel i a2 h2 a3 h3 a4 h4 a5 h5 a6 h6 a7 h7 a8 h8 a9 h9 a10 h10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := h2.eq_unread hf0; obtain rfl := h3.eq_unread hf1; obtain rfl := h4.eq_unread hf2
    obtain rfl := h5.eq_unread hf3; obtain rfl := h6.eq_unread hf4
    obtain rfl := h8.eq_unread hfs0; obtain rfl := h9.eq_unread hfs1; obtain rfl := h10.eq_unread hfs2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [HS0]; · iexists _; iexact HS0
    isplitl [HS1]; · iexists _; iexact HS1
    iexists _; iexact HS2

end Cert.Proof.KI

end
-- ==== Proof.KI.AttnData.lean ====
/-
  The attention kernel's proof data over its grid of eight query tiles by eight key tiles. At point t = 8 qi + ki the five
  input tiles hold the blocks their index maps select. The three scratch buffers carry the online softmax along a query row:
  after a first key tile they hold the reset-and-update computed from that point's blocks alone, after any other key tile the
  update of what the point before left. The output tile is idle except at the last key tile of a row, where it holds the
  finalisation of that row. This module reads each case's pieces back as whole tiles (they cover their buffers, so nothing of
  the earlier contents shows through), threads them through the points by recursion, states the invariant between points with
  the scratch at those contents, and proves the body obligation case by case.
-/
import proofs.«105332_j8211977470193_2_alg».proof.Proof.KI.AttnRunC

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## What each case leaves in the output tile and in the scratch -/

/-- At a first key tile nothing is stored into the output tile: no pieces. This placeholder (junk read back) is never consulted,
    since there the tile is neither written back nor passed on at named contents. -/
def attnOutA_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x2048 .f32 :=
  VO1_5.read (Elt F) (VO1_5.writes (Elt F) VO1_5.junk (attnRunA c i a2 h2 a3 h3 a4 h4 a5 h5 a6 h6 a7 h7 a8 h8 a9 h9 a10 h10 hc0 hc1 x0 x1 x2 x3 x4).1)

/-- At a first key tile the stores into the running maximum cover it (the reset's piece under the update's). -/
theorem attnScoverA_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) (y : S512x1.Idx) :
    ∃ pc ∈ (attnRunA c i a2 h2 a3 h3 a4 h4 a5 h5 a6 h6 a7 h7 a8 h8 a9 h9 a10 h10 hc0 hc1 x0 x1 x2 x3 x4).2.1, y ∈ pc.1.set :=
  View.cover_of_tiledL (attnRunA c i a2 h2 a3 h3 a4 h4 a5 h5 a6 h6 a7 h7 a8 h8 a9 h9 a10 h10 hc0 hc1 x0 x1 x2 x3 x4).2.1 S512x1.size (by sl_kernel_rfl) y

/-- The running maximum after a first key tile: its pieces read back. -/
def attnSoutA_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x1 .f32 :=
  VS1_0.read (Elt F) (VS1_0.writes (Elt F) VS1_0.junk (attnRunA c i a2 h2 a3 h3 a4 h4 a5 h5 a6 h6 a7 h7 a8 h8 a9 h9 a10 h10 hc0 hc1 x0 x1 x2 x3 x4).2.1)

/-- At a first key tile the stores into the running denominator cover it (the reset's piece under the update's). -/
theorem attnScoverA_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) (y : S512x1.Idx) :
    ∃ pc ∈ (attnRunA c i a2 h2 a3 h3 a4 h4 a5 h5 a6 h6 a7 h7 a8 h8 a9 h9 a10 h10 hc0 hc1 x0 x1 x2 x3 x4).2.2.1, y ∈ pc.1.set :=
  View.cover_of_tiledL (attnRunA c i a2 h2 a3 h3 a4 h4 a5 h5 a6 h6 a7 h7 a8 h8 a9 h9 a10 h10 hc0 hc1 x0 x1 x2 x3 x4).2.2.1 S512x1.size (by sl_kernel_rfl) y

/-- The running denominator after a first key tile: its pieces read back. -/
def attnSoutA_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x1 .f32 :=
  VS1_1.read (Elt F) (VS1_1.writes (Elt F) VS1_1.junk (attnRunA c i a2 h2 a3 h3 a4 h4 a5 h5 a6 h6 a7 h7 a8 h8 a9 h9 a10 h10 hc0 hc1 x0 x1 x2 x3 x4).2.2.1)

/-- At a first key tile the stores into the running numerator cover it (the reset's piece under the update's). -/
theorem attnScoverA_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) (y : S512x2048.Idx) :
    ∃ pc ∈ (attnRunA c i a2 h2 a3 h3 a4 h4 a5 h5 a6 h6 a7 h7 a8 h8 a9 h9 a10 h10 hc0 hc1 x0 x1 x2 x3 x4).2.2.2.1, y ∈ pc.1.set :=
  View.cover_of_tiledL (attnRunA c i a2 h2 a3 h3 a4 h4 a5 h5 a6 h6 a7 h7 a8 h8 a9 h9 a10 h10 hc0 hc1 x0 x1 x2 x3 x4).2.2.2.1 S512x2048.size (by sl_kernel_rfl) y

/-- The running numerator after a first key tile: its pieces read back. -/
def attnSoutA_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x2048 .f32 :=
  VS1_2.read (Elt F) (VS1_2.writes (Elt F) VS1_2.junk (attnRunA c i a2 h2 a3 h3 a4 h4 a5 h5 a6 h6 a7 h7 a8 h8 a9 h9 a10 h10 hc0 hc1 x0 x1 x2 x3 x4).2.2.2.1)

/-- At a middle key tile nothing is stored into the output tile: no pieces. This placeholder (junk read back) is never consulted,
    since there the tile is neither written back nor passed on at named contents. -/
def attnOutB_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VO1_5.read (Elt F) (VO1_5.writes (Elt F) VO1_5.junk (attnRunB c i a2 h2 a3 h3 a4 h4 a5 h5 a6 h6 a7 h7 a8 h8 a9 h9 a10 h10 hc0 hc1 x0 x1 x2 x3 x4 xs0 xs1 xs2).1)

/-- At a middle key tile the stores into the running maximum cover it. -/
theorem attnScoverB_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunB c i a2 h2 a3 h3 a4 h4 a5 h5 a6 h6 a7 h7 a8 h8 a9 h9 a10 h10 hc0 hc1 x0 x1 x2 x3 x4 xs0 xs1 xs2).2.1, y ∈ pc.1.set :=
  View.cover_of_tiledL (attnRunB c i a2 h2 a3 h3 a4 h4 a5 h5 a6 h6 a7 h7 a8 h8 a9 h9 a10 h10 hc0 hc1 x0 x1 x2 x3 x4 xs0 xs1 xs2).2.1 S512x1.size (by sl_kernel_rfl) y

/-- The running maximum after a middle key tile: its pieces read back. -/
def attnSoutB_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_0.read (Elt F) (VS1_0.writes (Elt F) VS1_0.junk (attnRunB c i a2 h2 a3 h3 a4 h4 a5 h5 a6 h6 a7 h7 a8 h8 a9 h9 a10 h10 hc0 hc1 x0 x1 x2 x3 x4 xs0 xs1 xs2).2.1)

/-- At a middle key tile the stores into the running denominator cover it. -/
theorem attnScoverB_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunB c i a2 h2 a3 h3 a4 h4 a5 h5 a6 h6 a7 h7 a8 h8 a9 h9 a10 h10 hc0 hc1 x0 x1 x2 x3 x4 xs0 xs1 xs2).2.2.1, y ∈ pc.1.set :=
  View.cover_of_tiledL (attnRunB c i a2 h2 a3 h3 a4 h4 a5 h5 a6 h6 a7 h7 a8 h8 a9 h9 a10 h10 hc0 hc1 x0 x1 x2 x3 x4 xs0 xs1 xs2).2.2.1 S512x1.size (by sl_kernel_rfl) y

/-- The running denominator after a middle key tile: its pieces read back. -/
def attnSoutB_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_1.read (Elt F) (VS1_1.writes (Elt F) VS1_1.junk (attnRunB c i a2 h2 a3 h3 a4 h4 a5 h5 a6 h6 a7 h7 a8 h8 a9 h9 a10 h10 hc0 hc1 x0 x1 x2 x3 x4 xs0 xs1 xs2).2.2.1)

/-- At a middle key tile the stores into the running numerator cover it. -/
theorem attnScoverB_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x2048.Idx) :
    ∃ pc ∈ (attnRunB c i a2 h2 a3 h3 a4 h4 a5 h5 a6 h6 a7 h7 a8 h8 a9 h9 a10 h10 hc0 hc1 x0 x1 x2 x3 x4 xs0 xs1 xs2).2.2.2.1, y ∈ pc.1.set :=
  View.cover_of_tiledL (attnRunB c i a2 h2 a3 h3 a4 h4 a5 h5 a6 h6 a7 h7 a8 h8 a9 h9 a10 h10 hc0 hc1 x0 x1 x2 x3 x4 xs0 xs1 xs2).2.2.2.1 S512x2048.size (by sl_kernel_rfl) y

/-- The running numerator after a middle key tile: its pieces read back. -/
def attnSoutB_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VS1_2.read (Elt F) (VS1_2.writes (Elt F) VS1_2.junk (attnRunB c i a2 h2 a3 h3 a4 h4 a5 h5 a6 h6 a7 h7 a8 h8 a9 h9 a10 h10 hc0 hc1 x0 x1 x2 x3 x4 xs0 xs1 xs2).2.2.2.1)

/-- At a last key tile the finalisation's one store writes the whole output tile. -/
theorem attnCoverC_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x2048.Idx) :
    ∃ pc ∈ (attnRunC c i a2 h2 a3 h3 a4 h4 a5 h5 a6 h6 a7 h7 a8 h8 a9 h9 a10 h10 hc0 hc1 x0 x1 x2 x3 x4 xs0 xs1 xs2).1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).1 S512x2048.size (by sl_kernel_rfl) y

/-- The output tile after a last key tile: the finalisation's piece read back. -/
def attnOutC_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VO1_5.read (Elt F) (VO1_5.writes (Elt F) VO1_5.junk (attnRunC c i a2 h2 a3 h3 a4 h4 a5 h5 a6 h6 a7 h7 a8 h8 a9 h9 a10 h10 hc0 hc1 x0 x1 x2 x3 x4 xs0 xs1 xs2).1)

/-- At a last key tile the stores into the running maximum cover it. -/
theorem attnScoverC_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunC c i a2 h2 a3 h3 a4 h4 a5 h5 a6 h6 a7 h7 a8 h8 a9 h9 a10 h10 hc0 hc1 x0 x1 x2 x3 x4 xs0 xs1 xs2).2.1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).2.1 S512x1.size (by sl_kernel_rfl) y

/-- The running maximum after a last key tile: its pieces read back. -/
def attnSoutC_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_0.read (Elt F) (VS1_0.writes (Elt F) VS1_0.junk (attnRunC c i a2 h2 a3 h3 a4 h4 a5 h5 a6 h6 a7 h7 a8 h8 a9 h9 a10 h10 hc0 hc1 x0 x1 x2 x3 x4 xs0 xs1 xs2).2.1)

/-- At a last key tile the stores into the running denominator cover it. -/
theorem attnScoverC_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunC c i a2 h2 a3 h3 a4 h4 a5 h5 a6 h6 a7 h7 a8 h8 a9 h9 a10 h10 hc0 hc1 x0 x1 x2 x3 x4 xs0 xs1 xs2).2.2.1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).2.2.1 S512x1.size (by sl_kernel_rfl) y

/-- The running denominator after a last key tile: its pieces read back. -/
def attnSoutC_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_1.read (Elt F) (VS1_1.writes (Elt F) VS1_1.junk (attnRunC c i a2 h2 a3 h3 a4 h4 a5 h5 a6 h6 a7 h7 a8 h8 a9 h9 a10 h10 hc0 hc1 x0 x1 x2 x3 x4 xs0 xs1 xs2).2.2.1)

/-- At a last key tile the stores into the running numerator cover it. -/
theorem attnScoverC_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x2048.Idx) :
    ∃ pc ∈ (attnRunC c i a2 h2 a3 h3 a4 h4 a5 h5 a6 h6 a7 h7 a8 h8 a9 h9 a10 h10 hc0 hc1 x0 x1 x2 x3 x4 xs0 xs1 xs2).2.2.2.1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).2.2.2.1 S512x2048.size (by sl_kernel_rfl) y

/-- The running numerator after a last key tile: its pieces read back. -/
def attnSoutC_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VS1_2.read (Elt F) (VS1_2.writes (Elt F) VS1_2.junk (attnRunC c i a2 h2 a3 h3 a4 h4 a5 h5 a6 h6 a7 h7 a8 h8 a9 h9 a10 h10 hc0 hc1 x0 x1 x2 x3 x4 xs0 xs1 xs2).2.2.2.1)

/-- The output tile and the three scratch buffers after a first key tile, together. -/
def attnOutsA (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x2048 .f32 × Vec F S512x1 .f32 × Vec F S512x1 .f32 × Vec F S512x2048 .f32 :=
  (attnOutA_5 c i a2 h2 a3 h3 a4 h4 a5 h5 a6 h6 a7 h7 a8 h8 a9 h9 a10 h10 hc0 hc1 x0 x1 x2 x3 x4, attnSoutA_0 c i a2 h2 a3 h3 a4 h4 a5 h5 a6 h6 a7 h7 a8 h8 a9 h9 a10 h10 hc0 hc1 x0 x1 x2 x3 x4, attnSoutA_1 c i a2 h2 a3 h3 a4 h4 a5 h5 a6 h6 a7 h7 a8 h8 a9 h9 a10 h10 hc0 hc1 x0 x1 x2 x3 x4, attnSoutA_2 c i a2 h2 a3 h3 a4 h4 a5 h5 a6 h6 a7 h7 a8 h8 a9 h9 a10 h10 hc0 hc1 x0 x1 x2 x3 x4)

/-- The output tile and the three scratch buffers after a middle key tile, together. -/
def attnOutsB (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 × Vec F S512x1 .f32 × Vec F S512x1 .f32 × Vec F S512x2048 .f32 :=
  (attnOutB_5 c i a2 h2 a3 h3 a4 h4 a5 h5 a6 h6 a7 h7 a8 h8 a9 h9 a10 h10 hc0 hc1 x0 x1 x2 x3 x4 xs0 xs1 xs2, attnSoutB_0 c i a2 h2 a3 h3 a4 h4 a5 h5 a6 h6 a7 h7 a8 h8 a9 h9 a10 h10 hc0 hc1 x0 x1 x2 x3 x4 xs0 xs1 xs2, attnSoutB_1 c i a2 h2 a3 h3 a4 h4 a5 h5 a6 h6 a7 h7 a8 h8 a9 h9 a10 h10 hc0 hc1 x0 x1 x2 x3 x4 xs0 xs1 xs2, attnSoutB_2 c i a2 h2 a3 h3 a4 h4 a5 h5 a6 h6 a7 h7 a8 h8 a9 h9 a10 h10 hc0 hc1 x0 x1 x2 x3 x4 xs0 xs1 xs2)

/-- The output tile and the three scratch buffers after a last key tile, together. -/
def attnOutsC (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 × Vec F S512x1 .f32 × Vec F S512x1 .f32 × Vec F S512x2048 .f32 :=
  (attnOutC_5 c i a2 h2 a3 h3 a4 h4 a5 h5 a6 h6 a7 h7 a8 h8 a9 h9 a10 h10 hc0 hc1 x0 x1 x2 x3 x4 xs0 xs1 xs2, attnSoutC_0 c i a2 h2 a3 h3 a4 h4 a5 h5 a6 h6 a7 h7 a8 h8 a9 h9 a10 h10 hc0 hc1 x0 x1 x2 x3 x4 xs0 xs1 xs2, attnSoutC_1 c i a2 h2 a3 h3 a4 h4 a5 h5 a6 h6 a7 h7 a8 h8 a9 h9 a10 h10 hc0 hc1 x0 x1 x2 x3 x4 xs0 xs1 xs2, attnSoutC_2 c i a2 h2 a3 h3 a4 h4 a5 h5 a6 h6 a7 h7 a8 h8 a9 h9 a10 h10 hc0 hc1 x0 x1 x2 x3 x4 xs0 xs1 xs2)

section Region
variable (V : (c : Dev nD) → (b : Ref sig .tc) → Buf (Elt F) ((c : Thread nD τ).loc b))

/-! ## What the output tile and the scratch hold after each point -/

/-- The output tile, the running maximum, the running denominator and the running numerator after the body at position n:
    at a first key tile the reset-and-update from the point's blocks alone; at a middle or last key tile the update (and the
    finalisation) over what the point before left in the scratch. -/
def outsAt1 (c : Dev nD) : (n : ℕ) → n < cfg1.N → Vec F S512x2048 .f32 × Vec F S512x1 .f32 × Vec F S512x1 .f32 × Vec F S512x2048 .f32
  | 0, hn => attnOutsA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 8 = 0 then
      if h1 : (n + 1) % 8 = 7 then
        False.elim (by omega)
      else
        attnOutsA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 8 = 7 then
        attnOutsC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2
      else
        attnOutsB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2

/-- At a first key tile: the reset-and-update, from the point's blocks alone. -/
theorem outsAt1_A (c : Dev nD) (t : Fin cfg1.N) (h0 : t.val % 8 = 0) (h1 : ¬t.val % 8 = 7) :
    outsAt1 V c t.val t.isLt = attnOutsA c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- At a middle key tile: the update over what the point before left. -/
theorem outsAt1_B (c : Dev nD) (t : Fin cfg1.N) (h0 : ¬t.val % 8 = 0) (h1 : ¬t.val % 8 = 7) :
    outsAt1 V c t.val t.isLt = attnOutsB c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a last key tile: the update and the finalisation over what the point before left. -/
theorem outsAt1_C (c : Dev nD) (t : Fin cfg1.N) (h0 : ¬t.val % 8 = 0) (h1 : t.val % 8 = 7) :
    outsAt1 V c t.val t.isLt = attnOutsC c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the region is entered with; afterwards the three scratch buffers at
    what the point before left in them, every other scoped buffer unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
          ∗ Pipeline.scopedRestBut (Ix := Unit) (Name := ℕ) (U := UR sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl

/-- After point n: the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
          ∗ Pipeline.scopedRestBut (Ix := Unit) (Name := ℕ) (U := UR sig nD τ) (Lvl := ℕ) (Val := Elt F) spec1 c [cc1_scratch0, cc1_scratch1, cc1_scratch2]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-! ## The proof data -/

/-- The attention kernel's proof data on core c: the arrays as the region finds them; after the body at point t each input
    tile at its block and the output tile at what the point leaves in it; between points the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window: each input tile its block, the output tile the first component of outsAt1. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input tile holds its block whenever the body is handed it. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input tile is never idle, so the body must leave it at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

/-! ## The body obligation -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The input tiles hold their blocks; the closed forms say which of the three cases the point is in.
    At a first key tile the scratch is handed over at whatever it holds (what the region was entered with at the very first
    point, what the previous query row left otherwise) and comes back at the reset-and-update; at a middle or last key tile
    it is handed over at what the point before left and comes back updated. Each scratch buffer comes back with its pieces
    written over what it held, and since the pieces cover it that is the pieces read back. The output tile is idle and handed
    back untouched except at a last key tile, where the finalisation's piece covers it. The rest of the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold attnOutsA attnSoutA_0 attnSoutA_1 attnSoutA_2; (try dsimp only)
      by_cases hz : t.val = 0
      · rw [PhiS1_castSucc V c t, PhiS1_zero V c _ _ hz, PhiA1_eq]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
        iapply ((attnRunA c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (attnScoverA_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (attnScoverA_1 c _ _ _ _ _ _ _ _ _ _ _ _ _ _ _ _ _ _ _ _ _ _ _ _ _ _)
              unfold owns; iexists _; isplitr
              swap; · iexact HS2
              ipureintro; exact View.read_writes_of_cover _ _ _ _ _ (attnScoverA_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
        iapply ((attnRunA c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (attnScoverA_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (attnScoverA_1 c _ _ _ _ _ _ _ _ _ _ _ _ _ _ _ _ _ _ _ _ _ _ _ _ _ _)
              unfold owns; iexists _; isplitr
              swap; · iexact HS2
              ipureintro; exact View.read_writes_of_cover _ _ _ _ _ (attnScoverA_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold attnOutsC attnOutC_5 attnSoutC_0 attnSoutC_1 attnSoutC_2; (try dsimp only)
      have hz : t.val ≠ 0 := by omega
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((attnRunC c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (attnScoverC_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (attnScoverC_1 c _ _ _ _ _ _ _ _ _ _ _ _ _ _ _ _ _ _ _ _ _ _ _ _ _ _ _ _ _)
            unfold owns; iexists _; isplitr
            swap; · iexact HS2
            ipureintro; exact View.read_writes_of_cover _ _ _ _ _ (attnScoverC_2 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (attnCoverC_5 c _ _ _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold attnOutsB attnSoutB_0 attnSoutB_1 attnSoutB_2; (try dsimp only)
      have hz : t.val ≠ 0 := by omega
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((attnRunB c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (attnScoverB_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (attnScoverB_1 c _ _ _ _ _ _ _ _ _ _ _ _ _ _ _ _ _ _ _ _ _ _ _ _ _ _ _ _ _)
            unfold owns; iexists _; isplitr
            swap; · iexact HS2
            ipureintro; exact View.read_writes_of_cover _ _ _ _ _ (attnScoverB_2 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the region was entered with: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.Proof.KI

end
-- ==== Proof.KI.FfnRuns.lean ====
/-
  The third kernel of the block is the feed-forward half: on a grid of 8 row tiles by 16 hidden tiles (point t = 16 si + fi)
  it normalises the 512 rows of the activation tile by their root mean square and scales them by the norm weights (once per
  row tile, at fi = 0, into a buffer h it keeps), multiplies h by the gate and up weight tiles, takes silu(gate) * up, multiplies
  that by the down weight tile and adds the product into an accumulator acc it also keeps (set to zero at fi = 0); at fi = 15 it
  stores activation + acc into the output tile. This module holds what the three control cases of that body share: the two
  branch conditions with their closed forms over the grid, where the output tile is idle and where it is written back, the
  names of the tiles the body is called on, and the region invariant opened at the two kept buffers.
    first hidden tile  (fi = 0):      the initialisation is taken, the finalisation is not;
    middle hidden tile (0 < fi < 15): neither is taken;
    last hidden tile   (fi = 15):     the finalisation is taken, the initialisation is not.
-/
import proofs.«105332_j8211977470193_2_alg».proof.Proof.Gen.KernelIdeal.Launch
import proofs.«105332_j8211977470193_2_alg».proof.Proof.Gen.KernelIdeal.Skeleton
import proofs.«105332_j8211977470193_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's two branch conditions -/

/-- The initialisation's condition (the hidden-tile coordinate is 0), as the body computes it from the grid coordinates. -/
abbrev ffnInit (i : grid2.Coords) : Prop :=
  (Scalar.cmpi .ne (Scalar.extui (Scalar.cmpi .eq (BitVec.ofNat 32 (i 1).val) 0#32)) 0#32) = 1#1
/-- It holds exactly at the first hidden tile of each row tile. -/
theorem ffnInit_iff : ∀ t : Fin cfg2.N, ffnInit (grid2.coords t) ↔ t.val % 16 = 0 :=
  (by decide +kernel : ∀ t : Fin grid2.N, ffnInit (grid2.coords t) ↔ t.val % 16 = 0)

/-- The finalisation's condition (the hidden-tile coordinate is 15). -/
abbrev ffnFin (i : grid2.Coords) : Prop := k2_cond2 i = 1#1
/-- It holds exactly at the last hidden tile of each row tile. -/
theorem ffnFin_iff : ∀ t : Fin cfg2.N, ffnFin (grid2.coords t) ↔ t.val % 16 = 15 :=
  (by decide +kernel : ∀ t : Fin grid2.N, ffnFin (grid2.coords t) ↔ t.val % 16 = 15)

/-! ## Where the windows are idle -/

/-- The five input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At a first hidden tile nothing is stored into the output tile: the window is idle there, -/
theorem idleAt2_5_first : ∀ t : Fin cfg2.N, ffnInit (grid2.coords t) → ¬ffnFin (grid2.coords t) → cfg2.idle 5 (grid2.coords t) = true := by decide +kernel
/-- and its block is not written back. -/
theorem noFlush2_5_first : ∀ t : Fin cfg2.N, ffnInit (grid2.coords t) → ¬ffnFin (grid2.coords t) → (cfg2.win 5).flush t = false := by decide +kernel
/-- The same at a middle hidden tile. -/
theorem idleAt2_5_mid : ∀ t : Fin cfg2.N, ¬ffnInit (grid2.coords t) → ¬ffnFin (grid2.coords t) → cfg2.idle 5 (grid2.coords t) = true := by decide +kernel
theorem noFlush2_5_mid : ∀ t : Fin cfg2.N, ¬ffnInit (grid2.coords t) → ¬ffnFin (grid2.coords t) → (cfg2.win 5).flush t = false := by decide +kernel
/-- At a last hidden tile the output tile is stored: the window is live. -/
theorem liveAt2_5_last : ∀ t : Fin cfg2.N, ¬ffnInit (grid2.coords t) → ffnFin (grid2.coords t) → cfg2.idle 5 (grid2.coords t) = false := by decide +kernel

/-! ## The tiles the body is called on -/

/-- Each window's current staging tile at point t, as the pipeline passes it to the body, and its wholeness. -/
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x512 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x2048 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x2048 .f32 := win2_5.stage (cfg2.slots t 5)
abbrev hs2_5 (t : Fin cfg2.N) : (ms2_5 t).IsWhole := hstage2_5 ((cfg2.slots t 5).cast nbuf2_5)

/-- The two buffers the kernel keeps from one hidden tile to the next: the normalised rows h and the accumulator acc. -/
abbrev scM2_0 : Memref sig .tc .vmem S512x2048 .f32 := Memref.whole cc2_scratch0
abbrev scM2_1 : Memref sig .tc .vmem S512x2048 .f32 := Memref.whole cc2_scratch1
/-- The views through which what they hold is stated. -/
abbrev VS2_0 : View sig .tc .vmem S512x2048 .f32 := scM2_0.view
abbrev VS2_1 : View sig .tc .vmem S512x2048 .f32 := scM2_1.view
/-- One staging buffer of the output window, through which its contents are stated (which one does not matter: the
    pieces cover it). -/
abbrev VO2_5 : View sig .tc .vmem S512x2048 .f32 := (Memref.whole cc2_stg5_0 : Memref sig .tc .vmem S512x2048 .f32).view

/-! ## The region invariant, opened at the two kept buffers -/

/-- Every other scoped buffer of the core, unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- What the launch hands the region: h and acc each at some contents, the other scoped buffers, the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ restBut2 (F := F) c) ∗ (∃ r, prngReg c r)) := by
  unfold Pipeline.ΦA; rw [scopedRest2_split]; simp only [scM2_0, scM2_1, owns_whole]; try rfl

end Cert.Proof.KI

end
-- ==== Proof.KI.FfnRunA.lean ====
/-
  The feed-forward body at a first hidden tile (fi = 0), run once on symbolic operands. The initialisation is taken: the
  normalised rows are stored whole into h and zeros whole into acc; then h and acc are loaded back, the hidden tile's
  contribution silu(h Wg) * (h Wu) Wd is added to acc and stored; the finalisation is not taken, so nothing is stored into the
  output tile. From the five input tiles at their contents, the output tile at any contents and h and acc at anything, the body
  ends with the inputs and the output tile as they were and h and acc each holding the pieces its stores wrote. Neither h nor
  acc is read before it is stored whole, so nothing here depends on what the point before left.
-/
import proofs.«105332_j8211977470193_2_alg».proof.Proof.KI.FfnRuns

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in h and in acc at a first hidden tile (last store first), with the proof that the
    body runs to its return handing the inputs and the untouched output tile back unchanged and h and acc with their
    pieces written. -/
noncomputable def ffnRunA (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) :
    Σ' (Lh : List (View.Piece (Elt F) S512x2048 .f32)), { Lacc : List (View.Piece (Elt F) S512x2048 .f32) //
      ∀ (xi5 : Vec F S512x2048 .f32) (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare xi5
            ∗ (∃ d, owns (c : Thread nD τ) a6 fullShare d) ∗ (∃ d, owns (c : Thread nD τ) a7 fullShare d)
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
                ∗ owns (c : Thread nD τ) a5 fullShare xi5
                ∗ (∃ f, a6.view.loc (c : Thread nD τ) ↦[a6.view.set]{fullShare} a6.view.writes (Elt F) f Lh)
                ∗ (∃ f, a7.view.loc (c : Thread nD τ) ↦[a7.view.set]{fullShare} a7.view.writes (Elt F) f Lacc)) -∗ K ⟨⟩))
          ⊢ wp frame (wpE (defs₀ (F := F)) Variants.none c none) E (cc2__ffn_kernel i a0 hw0 a1 hw1 a2 hw2 a3 hw3 a4 hw4 a5 hw5 a6 hw6 a7 hw7) K } := by
  refine ⟨?_, ?_, fun xi5 E K => ?run⟩
  case run =>
    simp only [cc2__ffn_kernel_eq_skeleton]; unfold cc2__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := hw0.eq_unread hf0; obtain rfl := hw1.eq_unread hf1; obtain rfl := hw2.eq_unread hf2
    obtain rfl := hw3.eq_unread hf3; obtain rfl := hw4.eq_unread hf4; obtain rfl := hw5.eq_unread hf5
    sl_exec (disch := first | exact hc0 | exact hc1)
    sl_step
    iapply Hk
    isplitl [H0]
    · iexists _; isplitr; · ipureintro; exact hw0.read_unread _
      iexact H0
    isplitl [H1]
    · iexists _; isplitr; · ipureintro; exact hw1.read_unread _
      iexact H1
    isplitl [H2]
    · iexists _; isplitr; · ipureintro; exact hw2.read_unread _
      iexact H2
    isplitl [H3]
    · iexists _; isplitr; · ipureintro; exact hw3.read_unread _
      iexact H3
    isplitl [H4]
    · iexists _; isplitr; · ipureintro; exact hw4.read_unread _
      iexact H4
    isplitl [H5]
    · iexists _; isplitr; · ipureintro; exact hw5.read_unread _
      iexact H5
    isplitl [H6]; · iexists _; iexact H6
    iexists _; iexact H7

end Cert.Proof.KI

end
-- ==== Proof.KI.FfnRunB.lean ====
/-
  The feed-forward body at a middle hidden tile (0 < fi < 15), run once on symbolic operands. Neither branch is taken: h and
  acc are loaded, the hidden tile's contribution silu(h Wg) * (h Wu) Wd is added to acc and stored. From the five input tiles at
  their contents, the output tile at any contents, and h and acc at what the point before left, the body ends with the inputs,
  the output tile and h as they were and acc holding the piece its one store wrote.
-/
import proofs.«105332_j8211977470193_2_alg».proof.Proof.KI.FfnRunA

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The piece the body's store leaves in acc at a middle hidden tile, with the proof that the body runs to its return
    handing the inputs, the untouched output tile and h back unchanged and acc with its piece written. -/
noncomputable def ffnRunB (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ¬ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) :
    { Lacc : List (View.Piece (Elt F) S512x2048 .f32) //
      ∀ (xi5 : Vec F S512x2048 .f32) (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare xi5
            ∗ owns (c : Thread nD τ) a6 fullShare xh ∗ owns (c : Thread nD τ) a7 fullShare xacc
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
                ∗ owns (c : Thread nD τ) a5 fullShare xi5
                ∗ owns (c : Thread nD τ) a6 fullShare xh
                ∗ (∃ f, a7.view.loc (c : Thread nD τ) ↦[a7.view.set]{fullShare} a7.view.writes (Elt F) f Lacc)) -∗ K ⟨⟩))
          ⊢ wp frame (wpE (defs₀ (F := F)) Variants.none c none) E (cc2__ffn_kernel i a0 hw0 a1 hw1 a2 hw2 a3 hw3 a4 hw4 a5 hw5 a6 hw6 a7 hw7) K } := by
  refine ⟨?_, fun xi5 E K => ?run⟩
  case run =>
    simp only [cc2__ffn_kernel_eq_skeleton]; unfold cc2__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hw0.eq_unread hf0; obtain rfl := hw1.eq_unread hf1; obtain rfl := hw2.eq_unread hf2
    obtain rfl := hw3.eq_unread hf3; obtain rfl := hw4.eq_unread hf4; obtain rfl := hw5.eq_unread hf5
    obtain rfl := hw6.eq_unread hf6; obtain rfl := hw7.eq_unread hf7
    sl_exec (disch := first | exact hc0 | exact hc1)
    sl_step
    iapply Hk
    isplitl [H0]
    · iexists _; isplitr; · ipureintro; exact hw0.read_unread _
      iexact H0
    isplitl [H1]
    · iexists _; isplitr; · ipureintro; exact hw1.read_unread _
      iexact H1
    isplitl [H2]
    · iexists _; isplitr; · ipureintro; exact hw2.read_unread _
      iexact H2
    isplitl [H3]
    · iexists _; isplitr; · ipureintro; exact hw3.read_unread _
      iexact H3
    isplitl [H4]
    · iexists _; isplitr; · ipureintro; exact hw4.read_unread _
      iexact H4
    isplitl [H5]
    · iexists _; isplitr; · ipureintro; exact hw5.read_unread _
      iexact H5
    isplitl [H6]
    · iexists _; isplitr; · ipureintro; exact hw6.read_unread _
      iexact H6
    iexists _; iexact H7

end Cert.Proof.KI

end
-- ==== Proof.KI.FfnRunC.lean ====
/-
  The feed-forward body at a last hidden tile (fi = 15), run once on symbolic operands. The initialisation is not taken: h
  and acc are loaded, the hidden tile's contribution silu(h Wg) * (h Wu) Wd is added to acc and stored; then the finalisation is
  taken: the activation tile and acc are loaded and activation + acc is stored whole into the output tile. From the five input
  tiles at their contents, the output tile at anything, and h and acc at what the point before left, the body ends with the
  inputs and h as they were, and acc and the output tile each holding the piece its one store wrote.
-/
import proofs.«105332_j8211977470193_2_alg».proof.Proof.KI.FfnRunB

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body's stores leave in the output tile and in acc at a last hidden tile, with the proof that the body
    runs to its return handing the inputs and h back unchanged and the output tile and acc with their pieces written. -/
noncomputable def ffnRunC (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) :
    Σ' (Lo : List (View.Piece (Elt F) S512x2048 .f32)), { Lacc : List (View.Piece (Elt F) S512x2048 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d)
            ∗ owns (c : Thread nD τ) a6 fullShare xh ∗ owns (c : Thread nD τ) a7 fullShare xacc
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
                ∗ (∃ f, a5.view.loc (c : Thread nD τ) ↦[a5.view.set]{fullShare} a5.view.writes (Elt F) f Lo)
                ∗ owns (c : Thread nD τ) a6 fullShare xh
                ∗ (∃ f, a7.view.loc (c : Thread nD τ) ↦[a7.view.set]{fullShare} a7.view.writes (Elt F) f Lacc)) -∗ K ⟨⟩))
          ⊢ wp frame (wpE (defs₀ (F := F)) Variants.none c none) E (cc2__ffn_kernel i a0 hw0 a1 hw1 a2 hw2 a3 hw3 a4 hw4 a5 hw5 a6 hw6 a7 hw7) K } := by
  refine ⟨?_, ?_, fun E K => ?run⟩
  case run =>
    simp only [cc2__ffn_kernel_eq_skeleton]; unfold cc2__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := hw0.eq_unread hf0; obtain rfl := hw1.eq_unread hf1; obtain rfl := hw2.eq_unread hf2
    obtain rfl := hw3.eq_unread hf3; obtain rfl := hw4.eq_unread hf4
    obtain rfl := hw6.eq_unread hf6; obtain rfl := hw7.eq_unread hf7
    sl_exec (disch := first | exact hc0 | exact hc1)
    sl_step
    iapply Hk
    isplitl [H0]
    · iexists _; isplitr; · ipureintro; exact hw0.read_unread _
      iexact H0
    isplitl [H1]
    · iexists _; isplitr; · ipureintro; exact hw1.read_unread _
      iexact H1
    isplitl [H2]
    · iexists _; isplitr; · ipureintro; exact hw2.read_unread _
      iexact H2
    isplitl [H3]
    · iexists _; isplitr; · ipureintro; exact hw3.read_unread _
      iexact H3
    isplitl [H4]
    · iexists _; isplitr; · ipureintro; exact hw4.read_unread _
      iexact H4
    isplitl [H5]; · iexists _; iexact H5
    isplitl [H6]
    · iexists _; isplitr; · ipureintro; exact hw6.read_unread _
      iexact H6
    iexists _; iexact H7

end Cert.Proof.KI

end
-- ==== Proof.KI.FfnData.lean ====
/-
  The feed-forward kernel's proof data over its grid of 8 row tiles by 16 hidden tiles, point t = 16 si + fi. At every point
  the five input tiles hold the blocks of their arrays that the index maps select (rows 512 si … 512 si + 511 of the
  activations and the whole norm-weight row, both left in place while fi runs; columns 512 fi … 512 fi + 511 of the gate and
  of the up weights; rows 512 fi … 512 fi + 511 of the down weights). What the output tile, the normalised rows h and the
  accumulator acc hold after each point is defined by recursion on the point: at fi = 0, h and acc are what the
  initialisation and the first accumulation wrote, from this point's blocks alone; at 0 < fi < 15, h is what the point before
  left and acc is what the one store wrote from the blocks and from what the point before left in h and acc; at fi = 15 the
  same, and the output tile is what the finalisation wrote. Where the output tile is not stored (fi < 15) the window is idle:
  its buffer is handed back as found and is not written back. Between points the invariant holds h and acc at exactly those
  contents, beside the other scoped buffers and the generator register; before the first point they are at anything.
-/
import proofs.«105332_j8211977470193_2_alg».proof.Proof.KI.FfnRunC

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input tile holds its block at every point, whether the pipeline fetched it there or left it in place because the
    block's index did not move (the activation tile and the norm weights while fi runs). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region

/-! ## What each control case leaves in the buffers it stores -/

/-- At a first hidden tile the initialisation's store writes all of h, -/
theorem scoverA_h (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) (y : S512x2048.Idx) :
    ∃ pc ∈ (ffnRunA c i a0 hw0 a1 hw1 a2 hw2 a3 hw3 a4 hw4 a5 hw5 a6 hw6 a7 hw7 hc0 hc1 x0 x1 x2 x3 x4).1, y ∈ pc.1.set :=
  View.cover_of_tiledL (ffnRunA c i a0 hw0 a1 hw1 a2 hw2 a3 hw3 a4 hw4 a5 hw5 a6 hw6 a7 hw7 hc0 hc1 x0 x1 x2 x3 x4).1 S512x2048.size (by sl_kernel_rfl) y

/-- and the stores into acc (the zeros, then the first accumulation) write all of acc. -/
theorem scoverA_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) (y : S512x2048.Idx) :
    ∃ pc ∈ (ffnRunA c i a0 hw0 a1 hw1 a2 hw2 a3 hw3 a4 hw4 a5 hw5 a6 hw6 a7 hw7 hc0 hc1 x0 x1 x2 x3 x4).2.1, y ∈ pc.1.set :=
  View.cover_of_tiledL (ffnRunA c i a0 hw0 a1 hw1 a2 hw2 a3 hw3 a4 hw4 a5 hw5 a6 hw6 a7 hw7 hc0 hc1 x0 x1 x2 x3 x4).2.1 S512x2048.size (by sl_kernel_rfl) y

/-- What a first hidden tile leaves in h: its pieces read back. -/
def soutA_h (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) : Vec F S512x2048 .f32 :=
  VS2_0.read (Elt F) (VS2_0.writes (Elt F) VS2_0.junk (ffnRunA c i a0 hw0 a1 hw1 a2 hw2 a3 hw3 a4 hw4 a5 hw5 a6 hw6 a7 hw7 hc0 hc1 x0 x1 x2 x3 x4).1)

/-- What a first hidden tile leaves in acc: its pieces read back. -/
def soutA_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) : Vec F S512x2048 .f32 :=
  VS2_1.read (Elt F) (VS2_1.writes (Elt F) VS2_1.junk (ffnRunA c i a0 hw0 a1 hw1 a2 hw2 a3 hw3 a4 hw4 a5 hw5 a6 hw6 a7 hw7 hc0 hc1 x0 x1 x2 x3 x4).2.1)

/-- At a middle hidden tile the one store into acc writes all of it. -/
theorem scoverB_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ¬ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) (y : S512x2048.Idx) :
    ∃ pc ∈ (ffnRunB c i a0 hw0 a1 hw1 a2 hw2 a3 hw3 a4 hw4 a5 hw5 a6 hw6 a7 hw7 hc0 hc1 x0 x1 x2 x3 x4 xh xacc).1, y ∈ pc.1.set :=
  View.cover_of_tiledL (ffnRunB c i a0 hw0 a1 hw1 a2 hw2 a3 hw3 a4 hw4 a5 hw5 a6 hw6 a7 hw7 hc0 hc1 x0 x1 x2 x3 x4 xh xacc).1 S512x2048.size (by sl_kernel_rfl) y

/-- What a middle hidden tile leaves in acc: its piece read back. -/
def soutB_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ¬ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) : Vec F S512x2048 .f32 :=
  VS2_1.read (Elt F) (VS2_1.writes (Elt F) VS2_1.junk (ffnRunB c i a0 hw0 a1 hw1 a2 hw2 a3 hw3 a4 hw4 a5 hw5 a6 hw6 a7 hw7 hc0 hc1 x0 x1 x2 x3 x4 xh xacc).1)

/-- At a last hidden tile the finalisation's store writes the whole output tile, -/
theorem coverC_out (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) (y : S512x2048.Idx) :
    ∃ pc ∈ (ffnRunC c i a0 hw0 a1 hw1 a2 hw2 a3 hw3 a4 hw4 a5 hw5 a6 hw6 a7 hw7 hc0 hc1 x0 x1 x2 x3 x4 xh xacc).1, y ∈ pc.1.set :=
  View.cover_of_tiledL (ffnRunC c i a0 hw0 a1 hw1 a2 hw2 a3 hw3 a4 hw4 a5 hw5 a6 hw6 a7 hw7 hc0 hc1 x0 x1 x2 x3 x4 xh xacc).1 S512x2048.size (by sl_kernel_rfl) y

/-- and the one store into acc writes all of it. -/
theorem scoverC_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) (y : S512x2048.Idx) :
    ∃ pc ∈ (ffnRunC c i a0 hw0 a1 hw1 a2 hw2 a3 hw3 a4 hw4 a5 hw5 a6 hw6 a7 hw7 hc0 hc1 x0 x1 x2 x3 x4 xh xacc).2.1, y ∈ pc.1.set :=
  View.cover_of_tiledL (ffnRunC c i a0 hw0 a1 hw1 a2 hw2 a3 hw3 a4 hw4 a5 hw5 a6 hw6 a7 hw7 hc0 hc1 x0 x1 x2 x3 x4 xh xacc).2.1 S512x2048.size (by sl_kernel_rfl) y

/-- What a last hidden tile leaves in the output tile: its piece read back. -/
def outC (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) : Vec F S512x2048 .f32 :=
  VO2_5.read (Elt F) (VO2_5.writes (Elt F) VO2_5.junk (ffnRunC c i a0 hw0 a1 hw1 a2 hw2 a3 hw3 a4 hw4 a5 hw5 a6 hw6 a7 hw7 hc0 hc1 x0 x1 x2 x3 x4 xh xacc).1)

/-- What a last hidden tile leaves in acc: its piece read back. -/
def soutC_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) : Vec F S512x2048 .f32 :=
  VS2_1.read (Elt F) (VS2_1.writes (Elt F) VS2_1.junk (ffnRunC c i a0 hw0 a1 hw1 a2 hw2 a3 hw3 a4 hw4 a5 hw5 a6 hw6 a7 hw7 hc0 hc1 x0 x1 x2 x3 x4 xh xacc).2.1)

/-- Where nothing is stored into the output tile (every point but a last hidden tile) the window is idle and is not
    written back: what is stated for it there is never consulted. A fixed tile stands in. -/
def outIdle2 : Vec F S512x2048 .f32 :=
  VO2_5.read (Elt F) (VO2_5.writes (Elt F) VO2_5.junk [])

section Region
variable (V : (c : Dev nD) → (b : Ref sig .tc) → Buf (Elt F) ((c : Thread nD τ).loc b))

/-! ## What the output tile, h and acc hold after each point -/

/-- After a first hidden tile: the output tile untouched (a stand-in), h and acc at what that case wrote from the point's
    own blocks. -/
def ffnAtA (c : Dev nD) (t : Fin cfg2.N) (h0 : t.val % 16 = 0) (h1 : ¬t.val % 16 = 15) :
    Vec F S512x2048 .f32 × Vec F S512x2048 .f32 × Vec F S512x2048 .f32 :=
  (outIdle2, soutA_h c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((ffnInit_iff t).mpr h0) (fun h => h1 ((ffnFin_iff t).mp h)) (iblk2 V c 0 t) (iblk2 V c 1 t) (iblk2 V c 2 t) (iblk2 V c 3 t) (iblk2 V c 4 t), soutA_acc c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((ffnInit_iff t).mpr h0) (fun h => h1 ((ffnFin_iff t).mp h)) (iblk2 V c 0 t) (iblk2 V c 1 t) (iblk2 V c 2 t) (iblk2 V c 3 t) (iblk2 V c 4 t))

/-- After a middle hidden tile, from what the point before left in h (xh) and in acc (xacc): the output tile untouched,
    h still xh, acc at what the one store wrote. -/
def ffnAtB (c : Dev nD) (t : Fin cfg2.N) (h0 : ¬t.val % 16 = 0) (h1 : ¬t.val % 16 = 15) (xh xacc : Vec F S512x2048 .f32) :
    Vec F S512x2048 .f32 × Vec F S512x2048 .f32 × Vec F S512x2048 .f32 :=
  (outIdle2, xh, soutB_acc c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) (fun h => h1 ((ffnFin_iff t).mp h)) (iblk2 V c 0 t) (iblk2 V c 1 t) (iblk2 V c 2 t) (iblk2 V c 3 t) (iblk2 V c 4 t) xh xacc)

/-- After a last hidden tile, from xh and xacc: the output tile at what the finalisation wrote, h still xh, acc at what
    the one store wrote. -/
def ffnAtC (c : Dev nD) (t : Fin cfg2.N) (h0 : ¬t.val % 16 = 0) (h1 : t.val % 16 = 15) (xh xacc : Vec F S512x2048 .f32) :
    Vec F S512x2048 .f32 × Vec F S512x2048 .f32 × Vec F S512x2048 .f32 :=
  (outC c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) ((ffnFin_iff t).mpr h1) (iblk2 V c 0 t) (iblk2 V c 1 t) (iblk2 V c 2 t) (iblk2 V c 3 t) (iblk2 V c 4 t) xh xacc, xh, soutC_acc c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) ((ffnFin_iff t).mpr h1) (iblk2 V c 0 t) (iblk2 V c 1 t) (iblk2 V c 2 t) (iblk2 V c 3 t) (iblk2 V c 4 t) xh xacc)

/-- What the output tile's staging buffer, h and acc hold after the body at position n (in that order): the case the
    closed forms select at n, run at the point's tiles and blocks; a middle or last hidden tile over what position n - 1
    left in h and acc, a first hidden tile over nothing. -/
def outsAt2 (c : Dev nD) : (n : ℕ) → n < cfg2.N → Vec F S512x2048 .f32 × Vec F S512x2048 .f32 × Vec F S512x2048 .f32
  | 0, hn => ffnAtA V c ⟨0, hn⟩ (Nat.zero_mod _) (by intro h; (try dsimp only at h); omega)
  | n + 1, hn =>
    if h0 : (n + 1) % 16 = 0 then
      ffnAtA V c ⟨n + 1, hn⟩ h0 (by intro h; (try dsimp only at h); omega)
    else if h1 : (n + 1) % 16 = 15 then
      ffnAtC V c ⟨n + 1, hn⟩ h0 h1 (outsAt2 c n (Nat.lt_of_succ_lt hn)).2.1 (outsAt2 c n (Nat.lt_of_succ_lt hn)).2.2
    else
      ffnAtB V c ⟨n + 1, hn⟩ h0 h1 (outsAt2 c n (Nat.lt_of_succ_lt hn)).2.1 (outsAt2 c n (Nat.lt_of_succ_lt hn)).2.2

/-- At a first hidden tile: that case's contents, whatever came before. -/
theorem outsAt2_A (c : Dev nD) (t : Fin cfg2.N) (h0 : t.val % 16 = 0) (h1 : ¬t.val % 16 = 15) :
    outsAt2 V c t.val t.isLt = ffnAtA V c t h0 h1 := by
  obtain ⟨n, hn⟩ := t
  cases n with
  | zero => rfl
  | succ n => exact (dif_pos h0).trans rfl

/-- At a middle hidden tile: that case's contents over what the point before left. -/
theorem outsAt2_B (c : Dev nD) (t : Fin cfg2.N) (h0 : ¬t.val % 16 = 0) (h1 : ¬t.val % 16 = 15) :
    outsAt2 V c t.val t.isLt = ffnAtB V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

/-- At a last hidden tile: that case's contents over what the point before left. -/
theorem outsAt2_C (c : Dev nD) (t : Fin cfg2.N) (h0 : ¬t.val % 16 = 0) (h1 : t.val % 16 = 15) :
    outsAt2 V c t.val t.isLt = ffnAtC V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position n: before the first point what the launch hands over (h and acc at anything); afterwards h and acc at
    what position n - 1 left in them, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2))
      ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2))
      ∗ restBut2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2))
      ∗ restBut2 (F := F) c) ∗ (∃ r, prngReg c r)) := by
  cases n with
  | zero => exact absurd rfl hz
  | succ n => rfl

/-! ## The proof data -/

/-- The feed-forward kernel's proof data on core c: the arrays as the region finds them; after the body at point t each
    input tile at its block and the output tile at the first component of what that point leaves; between points the
    invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- An input window is never idle: the body leaves its tile at its block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]

/-! ## The body obligation -/

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The input tiles hold their blocks; the closed forms say which control case the point is in. At a
    first hidden tile the run takes h and acc at anything (what the launch handed over at the very first point, what the
    previous row tile left otherwise) and the output tile is handed back as found; at a middle hidden tile the invariant
    supplies h and acc at what the point before left, h goes back unchanged and acc at this point's contents; at a last
    hidden tile the same, and the output tile comes back written whole. Where a store's pieces cover a buffer, what it
    holds is the pieces read back, whatever it held before. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 128 := lt_of_lt_of_eq t.isLt (show cfg2.N = 128 from N_2)
  by_cases h0 : t.val % 16 = 0
  · have h1 : ¬t.val % 16 = 15 := by omega
    rw [Dat.leavesExact_idle (dat2 V c) 5 t (idleAt2_5_first t ((ffnInit_iff t).mpr h0) (fun h => h1 ((ffnFin_iff t).mp h))) (noFlush2_5_first t ((ffnInit_iff t).mpr h0) (fun h => h1 ((ffnFin_iff t).mp h)))]
    rw [outsAt2_A V c t h0 h1]
    unfold ffnAtA soutA_h soutA_acc; (try dsimp only)
    by_cases hz : t.val = 0
    · rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunA c (grid2.coords t) _ _ _ _ _ _ _ _ _ _ _ _ _ _ _ _ ((ffnInit_iff t).mpr h0) (fun h => h1 ((ffnFin_iff t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e6, HS0⟩, ⟨%e7, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverA_h c _ _ _ _ _ _ _ _ _ _ _ _ _ _ _ _ _ _ _ _ _ _ _ _)
            unfold owns; iexists _; isplitr
            swap; · iexact HS1
            ipureintro; exact View.read_writes_of_cover _ _ _ _ _ (scoverA_acc c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunA c (grid2.coords t) _ _ _ _ _ _ _ _ _ _ _ _ _ _ _ _ ((ffnInit_iff t).mpr h0) (fun h => h1 ((ffnFin_iff t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%e6, HS0⟩, ⟨%e7, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverA_h c _ _ _ _ _ _ _ _ _ _ _ _ _ _ _ _ _ _ _ _ _ _ _ _)
            unfold owns; iexists _; isplitr
            swap; · iexact HS1
            ipureintro; exact View.read_writes_of_cover _ _ _ _ _ (scoverA_acc c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 16 = 15
    · rw [show (dat2 V c).leavesExact 5 t = owns (c : Thread nD τ) (ms2_5 t) fullShare ((dat2 V c).after 5 t) from by
        unfold Dat.leavesExact; rw [liveAt2_5_last t (fun h => h0 ((ffnInit_iff t).mp h)) ((ffnFin_iff t).mpr h1)], after2_5]
      rw [outsAt2_C V c t h0 h1]
      unfold ffnAtC outC soutC_acc; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunC c (grid2.coords t) _ _ _ _ _ _ _ _ _ _ _ _ _ _ _ _ (fun h => h0 ((ffnInit_iff t).mp h)) ((ffnFin_iff t).mpr h1) (iblk2 V c 0 t) (iblk2 V c 1 t) (iblk2 V c 2 t) (iblk2 V c 3 t) (iblk2 V c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%e7, HS1⟩⟩
      isplitl [HS0 HS1 Hr Hg]
      · isplitl [HS0 HS1 Hr]
        · isplitl [HS0 HS1]
          · isplitl [HS0]; · iexact HS0
            unfold owns; iexists _; isplitr
            swap; · iexact HS1
            ipureintro; exact View.read_writes_of_cover _ _ _ _ _ (scoverC_acc c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_out c _ _ _ _ _ _ _ _ _ _ _ _ _ _ _ _ _ _ _ _ _ _ _ _ _ _)
    · rw [Dat.leavesExact_idle (dat2 V c) 5 t (idleAt2_5_mid t (fun h => h0 ((ffnInit_iff t).mp h)) (fun h => h1 ((ffnFin_iff t).mp h))) (noFlush2_5_mid t (fun h => h0 ((ffnInit_iff t).mp h)) (fun h => h1 ((ffnFin_iff t).mp h)))]
      rw [outsAt2_B V c t h0 h1]
      unfold ffnAtB soutB_acc; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunB c (grid2.coords t) _ _ _ _ _ _ _ _ _ _ _ _ _ _ _ _ (fun h => h0 ((ffnInit_iff t).mp h)) (fun h => h1 ((ffnFin_iff t).mp h)) (iblk2 V c 0 t) (iblk2 V c 1 t) (iblk2 V c 2 t) (iblk2 V c 3 t) (iblk2 V c 4 t) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%e7, HS1⟩⟩
      isplitl [HS0 HS1 Hr Hg]
      · isplitl [HS0 HS1 Hr]
        · isplitl [HS0 HS1]
          · isplitl [HS0]; · iexact HS0
            unfold owns; iexists _; isplitr
            swap; · iexact HS1
            ipureintro; exact View.read_writes_of_cover _ _ _ _ _ (scoverB_acc c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: what h and acc hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region

end Cert.Proof.KI

end
-- ==== Proof.KI.Frame.lean ====
/-
  The idealized kernel program's run with all three kernels in place: the first kernel's proof data from this directory's
  own modules, the second's (attention, with the running maximum, denominator and numerator carried along the key axis)
  and the third's (feed-forward, with the normalised rows and the accumulator carried along the hidden axis) plugged into
  the whole-program run. Every weakly fair execution terminates; the result array holds what the third kernel's write-backs
  leave; every argument array holds what it was launched with.
-/
import proofs.«105332_j8211977470193_2_alg».proof.Proof.KI.Run
import proofs.«105332_j8211977470193_2_alg».proof.Proof.KI.AttnData
import proofs.«105332_j8211977470193_2_alg».proof.Proof.KI.FfnData

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
variable (m : (ℓ : Loc nD τ sig) → Buf (Elt F) ℓ) (ρ : Dev nD → PrngReg)

/-- The contents of every unscoped buffer when the second kernel is entered, when the third is entered, and at the end. -/
abbrev E2 : ((c : Dev nD) → (b : Ref sig .tc) → Buf (Elt F) ((c : Thread nD τ).loc b)) := R2 m ρ
abbrev E3 : ((c : Dev nD) → (b : Ref sig .tc) → Buf (Elt F) ((c : Thread nD τ).loc b)) := R3 m ρ (fun V c => (dat1 V c).after) (fun V c => (dat1 V c).Φ)

/-- The run, read at the result and the arguments. -/
theorem run_program : θ_run defs (onTc (τ := τ) (main (F := F))) ⟨m, fun _ => 0, ρ⟩ (fun r => ∀ c : Dev nD,
      r.2.mem ((c.tc : Thread nD τ).loc main_v17) = (dat2 (E3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_main m ρ (fun V c => (dat1 V c).after) (fun V c => (dat1 V c).Φ) (fun V c => (dat2 V c).after) (fun V c => (dat2 V c).Φ)
    (fun V c => body_obligation1 V c) (fun V c => hin1 V c) (fun V c => hout1 V c)
    (fun V c => body_obligation2 V c) (fun V c => hin2 V c) (fun V c => hout2 V c)

/-- The frame: every weakly fair execution terminates, nothing faulting, and the twelve argument arrays end unchanged. -/
theorem frame_program : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_program m ρ)

end

end Cert.Proof.KI

end
-- ==== Proof.KB.QkvRun.lean ====
/-
  The first kernel of the block, on one tile of 256 rows: the rows are normalised by their root mean square and scaled by
  the norm weights, multiplied by the fused query / key / value weight matrix, the query and key thirds are rotated by the
  position's cosines and sines (the query third also scaled by the reciprocal of the softmax scale), and the three thirds
  are stored, each whole, into the three output tiles. This module runs that body once on symbolic operands: from the five
  input tiles held at their contents and the three output tiles held at anything, it ends with the inputs as they were and
  each output tile holding the pieces its one store wrote. (The body also loads each output tile before storing into it and
  never uses what it loaded; that is why the output tiles are taken at some contents rather than ignored.)
-/
import proofs.«105332_j8211977470193_2_alg».proof.Proof.Gen.Kernel.Launch
import proofs.«105332_j8211977470193_2_alg».proof.Proof.Gen.Kernel.Skeleton
import proofs.«105332_j8211977470193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the query, key and value tiles (last store first), with the proof that the body
    runs to its return handing the inputs back unchanged and each output tile with its pieces written. -/
noncomputable def qkvRun (c : Dev nD) (i : grid0.Coords)
    (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) :
    Σ' (Lq : List (View.Piece (Elt F) S256x2048 .bf16)) (Lk : List (View.Piece (Elt F) S256x2048 .bf16)), { Lv : List (View.Piece (Elt F) S256x2048 .bf16) //
      ∀ (E : Set ℕ) (K : PUnit → sProp 𝕄),
        iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare x4
            ∗ (∃ d, owns (c : Thread nD τ) a6 fullShare d) ∗ (∃ d, owns (c : Thread nD τ) a7 fullShare d) ∗ (∃ d, owns (c : Thread nD τ) a8 fullShare d)
            ∗ (iprop(owns (c : Thread nD τ) a1 fullShare x0 ∗ owns (c : Thread nD τ) a2 fullShare x1 ∗ owns (c : Thread nD τ) a3 fullShare x2
                ∗ owns (c : Thread nD τ) a4 fullShare x3 ∗ owns (c : Thread nD τ) a5 fullShare x4
                ∗ (∃ f, a6.view.loc (c : Thread nD τ) ↦[a6.view.set]{fullShare} a6.view.writes (Elt F) f Lq)
                ∗ (∃ f, a7.view.loc (c : Thread nD τ) ↦[a7.view.set]{fullShare} a7.view.writes (Elt F) f Lk)
                ∗ (∃ f, a8.view.loc (c : Thread nD τ) ↦[a8.view.set]{fullShare} a8.view.writes (Elt F) f Lv)) -∗ K ⟨⟩))
          ⊢ wp frame (wpE (defs₀ (F := F)) Variants.none c none) E (cc0__qkv_kernel i a1 h1 a2 h2 a3 h3 a4 h4 a5 h5 a6 h6 a7 h7 a8 h8) K } := by
  refine ⟨?_, ?_, ?_, fun E K => ?run⟩
  case run =>
    simp only [cc0__qkv_kernel_eq_skeleton]; unfold cc0__qkv_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := h1.eq_unread hf1; obtain rfl := h2.eq_unread hf2; obtain rfl := h3.eq_unread hf3
    obtain rfl := h4.eq_unread hf4; obtain rfl := h5.eq_unread hf5
    sl_exec
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexists _; iexact H6
    isplitl [H7]; · iexists _; iexact H7
    iexists _; iexact H8

end Cert.Proof.KB

end
-- ==== Proof.KB.QkvData.lean ====
/-
  The first kernel's proof data over its grid of sixteen row tiles. At point t the five input tiles hold the blocks of their
  arrays that the index maps select (rows 256 t … 256 t + 255 of the activations, of the cosines and of the sines; the whole
  norm-weight row and the whole fused weight matrix at every point), and after the body the three output tiles hold what the
  body's stores wrote, read back as whole tiles: the pieces each store wrote tile the buffer, so nothing of the earlier
  contents shows through. Nothing is carried from one point to the next and no window is ever idle, so the invariant between
  points is the scoped rest and the generator register, untouched.
-/
import proofs.«105332_j8211977470193_2_alg».proof.Proof.KB.QkvRun

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input tile holds its block at every point, whether the pipeline fetched it there or left it in place because the
    block's index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The staging memrefs at a point, as the pipeline passes them to the body -/

abbrev ms0_0 (t : Fin cfg0.N) : Memref sig .tc .vmem S256x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x6144 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2048 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2048 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x2048 .bf16 := win0_7.stage (cfg0.slots t 7)
abbrev hs0_7 (t : Fin cfg0.N) : (ms0_7 t).IsWhole := hstage0_7 ((cfg0.slots t 7).cast nbuf0_7)

/-- One staging buffer of each output window, through which its contents are stated (which one does not matter: the
    pieces cover it). -/
abbrev VOq : View sig .tc .vmem S256x2048 .bf16 := (Memref.whole cc0_stg5_0 : Memref sig .tc .vmem S256x2048 .bf16).view
abbrev VOk : View sig .tc .vmem S256x2048 .bf16 := (Memref.whole cc0_stg6_0 : Memref sig .tc .vmem S256x2048 .bf16).view
abbrev VOv : View sig .tc .vmem S256x2048 .bf16 := (Memref.whole cc0_stg7_0 : Memref sig .tc .vmem S256x2048 .bf16).view

end Region

/-! ## What the body leaves in each output tile -/

/-- The one store into each output tile writes the whole tile. -/
theorem coverQ (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) (y : S256x2048.Idx) :
    ∃ pc ∈ (qkvRun c i a1 h1 a2 h2 a3 h3 a4 h4 a5 h5 a6 h6 a7 h7 a8 h8 x0 x1 x2 x3 x4).1, y ∈ pc.1.set :=
  View.cover_of_tiledL (qkvRun c i a1 h1 a2 h2 a3 h3 a4 h4 a5 h5 a6 h6 a7 h7 a8 h8 x0 x1 x2 x3 x4).1 S256x2048.size (by sl_kernel_rfl) y
theorem coverK (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) (y : S256x2048.Idx) :
    ∃ pc ∈ (qkvRun c i a1 h1 a2 h2 a3 h3 a4 h4 a5 h5 a6 h6 a7 h7 a8 h8 x0 x1 x2 x3 x4).2.1, y ∈ pc.1.set :=
  View.cover_of_tiledL (qkvRun c i a1 h1 a2 h2 a3 h3 a4 h4 a5 h5 a6 h6 a7 h7 a8 h8 x0 x1 x2 x3 x4).2.1 S256x2048.size (by sl_kernel_rfl) y
theorem coverV (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) (y : S256x2048.Idx) :
    ∃ pc ∈ (qkvRun c i a1 h1 a2 h2 a3 h3 a4 h4 a5 h5 a6 h6 a7 h7 a8 h8 x0 x1 x2 x3 x4).2.2.1, y ∈ pc.1.set :=
  View.cover_of_tiledL (qkvRun c i a1 h1 a2 h2 a3 h3 a4 h4 a5 h5 a6 h6 a7 h7 a8 h8 x0 x1 x2 x3 x4).2.2.1 S256x2048.size (by sl_kernel_rfl) y

/-- The query, key and value tiles after the body: the stores' pieces read back. -/
def outQ (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) : Vec F S256x2048 .bf16 :=
  VOq.read (Elt F) (VOq.writes (Elt F) VOq.junk (qkvRun c i a1 h1 a2 h2 a3 h3 a4 h4 a5 h5 a6 h6 a7 h7 a8 h8 x0 x1 x2 x3 x4).1)
def outK (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) : Vec F S256x2048 .bf16 :=
  VOk.read (Elt F) (VOk.writes (Elt F) VOk.junk (qkvRun c i a1 h1 a2 h2 a3 h3 a4 h4 a5 h5 a6 h6 a7 h7 a8 h8 x0 x1 x2 x3 x4).2.1)
def outV (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) : Vec F S256x2048 .bf16 :=
  VOv.read (Elt F) (VOv.writes (Elt F) VOv.junk (qkvRun c i a1 h1 a2 h2 a3 h3 a4 h4 a5 h5 a6 h6 a7 h7 a8 h8 x0 x1 x2 x3 x4).2.2.1)

section Region
variable (V : (c : Dev nD) → (b : Ref sig .tc) → Buf (Elt F) ((c : Thread nD τ).loc b))

/-! ## The proof data -/

/-- The first kernel's proof data on core c: the arrays as the region finds them; after the body at point t each input
    tile at its block and each output tile at what the stores wrote from the input blocks; between points the scoped rest
    and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨6, _⟩ => outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
    | ⟨7, _⟩ => outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outQ c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_6 (c : Dev nD) (t : Fin cfg0.N) : (dat0 V c).after 6 t = outK c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]
theorem after0_7 (c : Dev nD) (t : Fin cfg0.N) : (dat0 V c).after 7 t = outV c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

/-- What the body is called with at point t, window by window, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4000000 in
/-- The body at any point: the input tiles hold their blocks, so the run applies; each output tile comes back with its
    pieces written over whatever it held, and since the pieces cover the tile that is the tile read back whole; the
    invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold outQ outK outV
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((qkvRun c (grid0.coords t) _ _ _ _ _ _ _ _ _ _ _ _ _ _ _ _ (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, ⟨%e5, H5⟩, ⟨%e6, H6⟩, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverQ c _ _ _ _ _ _ _ _ _ _ _ _ _ _ _ _ _ _ _ _ _ _)
  isplitl [H6]
  · unfold owns; iexists _; isplitr
    swap; · iexact H6
    ipureintro; exact View.read_writes_of_cover _ _ _ _ _ (coverK c _ _ _ _ _ _ _ _ _ _ _ _ _ _ _ _ _ _ _ _ _ _)
  unfold owns; iexists _; isplitr
  swap; · iexact H7
  ipureintro; exact View.read_writes_of_cover _ _ _ _ _ (coverV c _ _ _ _ _ _ _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region

end Cert.Proof.KB

end
-- ==== Proof.KB.Run.lean ====
/-
  The whole word-level kernel program run once: fifteen host operations prepare the weights (transposes, the fused
  query / key / value weight matrix, the change of float format, the two norm weights reshaped to rows), then the three
  kernels run one after the other, each reading arrays the one before it wrote. The run is stated over the contents of
  every unscoped buffer at the four boundaries: at launch; after the host operations; after each kernel, where the kernel's
  output arrays hold what its write-backs leave and every other buffer is as before. Every weakly fair execution terminates
  with every unscoped buffer at the last boundary's contents; the argument arrays are never written, so they end as launched,
  and the program's result is the third kernel's output array.
  The second and third kernels enter through the two things that vary in a kernel's proof data — what each window's tile
  holds after the body at each point, and the invariant between points — with their body obligations and the two
  entailments between their invariants and the plain one (scoped rest and generator register).
-/
import proofs.«105332_j8211977470193_2_alg».proof.Proof.KB.QkvData
import proofs.«105332_j8211977470193_2_alg».proof.Proof.Gen.Kernel.Regions

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

section Run

variable (m : (ℓ : Loc nD τ sig) → Buf (Elt F) ℓ) (ρ : Dev nD → PrngReg)
variable (aft1 : ((c : Dev nD) → (b : Ref sig .tc) → Buf (Elt F) ((c : Thread nD τ).loc b)) → (c : Dev nD) → (w : Fin cfg1.W) → Fin cfg1.N → (cfg1.win w).block.Idx → Elt F (cfg1.win w).elt)
  (Φ1 : ((c : Dev nD) → (b : Ref sig .tc) → Buf (Elt F) ((c : Thread nD τ).loc b)) → (c : Dev nD) → Fin (cfg1.N + 1) → sProp (MT nD τ sig Unit (Elt F) ℕ (UR sig nD τ) ℕ))
variable (aft2 : ((c : Dev nD) → (b : Ref sig .tc) → Buf (Elt F) ((c : Thread nD τ).loc b)) → (c : Dev nD) → (w : Fin cfg2.W) → Fin cfg2.N → (cfg2.win w).block.Idx → Elt F (cfg2.win w).elt)
  (Φ2 : ((c : Dev nD) → (b : Ref sig .tc) → Buf (Elt F) ((c : Thread nD τ).loc b)) → (c : Dev nD) → Fin (cfg2.N + 1) → sProp (MT nD τ sig Unit (Elt F) ℕ (UR sig nD τ) ℕ))

/-- The second and third kernels' proof data from their two varying parts: the arrays as the region finds them, full
    shares, nothing owed. -/
def d1 (V : ((c : Dev nD) → (b : Ref sig .tc) → Buf (Elt F) ((c : Thread nD τ).loc b))) (c : Dev nD) : Dat τ (Elt F) Unit ℕ (UR sig nD τ) ℕ cfg1 c where
  A w := V c (Pipeline.arrRef spec1 w)
  after := aft1 V c
  Φ := Φ1 V c
  q _ := fullShare
  owed _ := 0
def d2 (V : ((c : Dev nD) → (b : Ref sig .tc) → Buf (Elt F) ((c : Thread nD τ).loc b))) (c : Dev nD) : Dat τ (Elt F) Unit ℕ (UR sig nD τ) ℕ cfg2 c where
  A w := V c (Pipeline.arrRef spec2 w)
  after := aft2 V c
  Φ := Φ2 V c
  q _ := fullShare
  owed _ := 0

/-! ## The buffers' contents at each boundary -/

/-- At launch, -/
abbrev B0 : Dev nD → Valuation τ sig (Elt F) := fun c b => (s₀ m ρ).mem ((c : Dev nD), b)
/-- after the host operations (the first kernel's entry), -/
abbrev B1 : Dev nD → Valuation τ sig (Elt F) := fun c => StableHlo.after hostOps0 (B0 m ρ c)
abbrev R1 : ((c : Dev nD) → (b : Ref sig .tc) → Buf (Elt F) ((c : Thread nD τ).loc b)) := fun c b => B1 m ρ c b
/-- after the first kernel: its arrays at what its write-backs leave, -/
def B2 (c : Dev nD) : Valuation τ sig (Elt F) :=
  Pipeline.withArrays spec0 c (B1 m ρ c) fun w => (dat0 (R1 m ρ) c).arrAt w cfg0.N
abbrev R2 : ((c : Dev nD) → (b : Ref sig .tc) → Buf (Elt F) ((c : Thread nD τ).loc b)) := fun c b => B2 m ρ c b
/-- after the second, -/
def B3 (c : Dev nD) : Valuation τ sig (Elt F) :=
  Pipeline.withArrays spec1 c (B2 m ρ c) fun w => (d1 aft1 Φ1 (R2 m ρ) c).arrAt w cfg1.N
abbrev R3 : ((c : Dev nD) → (b : Ref sig .tc) → Buf (Elt F) ((c : Thread nD τ).loc b)) := fun c b => B3 m ρ aft1 Φ1 c b
/-- after the third. -/
def B4 (c : Dev nD) : Valuation τ sig (Elt F) :=
  Pipeline.withArrays spec2 c (B3 m ρ aft1 Φ1 c) fun w => (d2 aft2 Φ2 (R3 m ρ aft1 Φ1) c).arrAt w cfg2.N
abbrev R4 : ((c : Dev nD) → (b : Ref sig .tc) → Buf (Elt F) ((c : Thread nD τ).loc b)) := fun c b => B4 m ρ aft1 Φ1 aft2 Φ2 c b

theorem B2_arr (c : Dev nD) (w : Fin cfg0.W) :
    B2 m ρ c (Proc.devRef .tc (Pipeline.arrRef spec0 w)) = (dat0 (R1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
theorem B3_arr (c : Dev nD) (w : Fin cfg1.W) :
    B3 m ρ aft1 Φ1 c (Proc.devRef .tc (Pipeline.arrRef spec1 w)) = (d1 aft1 Φ1 (R2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ aft1 Φ1 c (Proc.devRef .tc b) = B2 m ρ c (Proc.devRef .tc b) := by
  unfold B3; exact Pipeline.withArrays_of_ne spec1 c _ _ b hb
theorem B4_arr (c : Dev nD) (w : Fin cfg2.W) :
    B4 m ρ aft1 Φ1 aft2 Φ2 c (Proc.devRef .tc (Pipeline.arrRef spec2 w)) = (d2 aft2 Φ2 (R3 m ρ aft1 Φ1) c).arrAt w cfg2.N := by
  unfold B4; exact Pipeline.withArrays_arr spec2 launch2.win.arr_inj c _ _ w
theorem B4_of_ne (c : Dev nD) (b : Ref sig .tc) (hb : ∀ w, Pipeline.arrRef spec2 w ≠ b) :
    B4 m ρ aft1 Φ1 aft2 Φ2 c (Proc.devRef .tc b) = B3 m ρ aft1 Φ1 c (Proc.devRef .tc b) := by
  unfold B4; exact Pipeline.withArrays_of_ne spec2 c _ _ b hb

theorem hF0 (c : Dev nD) (w : Fin cfg0.W) : (dat0 (R1 m ρ) c).arrAt w cfg0.N = R2 m ρ c (Pipeline.arrRef spec0 w) := (B2_arr m ρ c w).symm
theorem hrest0 (c : Dev nD) : ∀ b, b ∉ Finset.univ.image (Pipeline.arrRef spec0) → R2 m ρ c b = R1 m ρ c b :=
  fun b hb => B2_of_ne m ρ c b fun w e => hb (Finset.mem_image.mpr ⟨w, Finset.mem_univ _, e⟩)
theorem hF1 (c : Dev nD) (w : Fin cfg1.W) : (d1 aft1 Φ1 (R2 m ρ) c).arrAt w cfg1.N = R3 m ρ aft1 Φ1 c (Pipeline.arrRef spec1 w) := (B3_arr m ρ aft1 Φ1 c w).symm
theorem hrest1 (c : Dev nD) : ∀ b, b ∉ Finset.univ.image (Pipeline.arrRef spec1) → R3 m ρ aft1 Φ1 c b = R2 m ρ c b :=
  fun b hb => B3_of_ne m ρ aft1 Φ1 c b fun w e => hb (Finset.mem_image.mpr ⟨w, Finset.mem_univ _, e⟩)
theorem hF2 (c : Dev nD) (w : Fin cfg2.W) : (d2 aft2 Φ2 (R3 m ρ aft1 Φ1) c).arrAt w cfg2.N = R4 m ρ aft1 Φ1 aft2 Φ2 c (Pipeline.arrRef spec2 w) := (B4_arr m ρ aft1 Φ1 aft2 Φ2 c w).symm
theorem hrest2 (c : Dev nD) : ∀ b, b ∉ Finset.univ.image (Pipeline.arrRef spec2) → R4 m ρ aft1 Φ1 aft2 Φ2 c b = R3 m ρ aft1 Φ1 c b :=
  fun b hb => B4_of_ne m ρ aft1 Φ1 aft2 Φ2 c b fun w e => hb (Finset.mem_image.mpr ⟨w, Finset.mem_univ _, e⟩)

/-! ## The arguments end as launched, and the result is the third kernel's output array -/

/-- The activations are an input of the first kernel and the residual input of the second: never written back. -/
theorem B4_main_arg0 (c : Dev nD) : B4 m ρ aft1 Φ1 aft2 Φ2 c (Proc.devRef .tc main_arg0) = m ((c : Thread nD τ).loc main_arg0) :=
  (B4_of_ne m ρ aft1 Φ1 aft2 Φ2 c main_arg0 (by decide)).trans <| (B3_arr m ρ aft1 Φ1 c 4).trans <| ((d1 aft1 Φ1 (R2 m ρ) c).arrAt_in 4 rfl _).trans <|
    (show (d1 aft1 Φ1 (R2 m ρ) c).A 4 = R2 m ρ c (Pipeline.arrRef spec1 4) from rfl).trans <| (B2_arr m ρ c 0).trans <|
    ((dat0 (R1 m ρ) c).arrAt_in 0 rfl _).trans <| (A_eq0 (R1 m ρ) c 0).trans (V1_of m c main_arg0 (by decide))
/-- Argument 1 is read by the host operations only: no kernel stages it and nothing writes it. -/
theorem B4_main_arg1 (c : Dev nD) : B4 m ρ aft1 Φ1 aft2 Φ2 c (Proc.devRef .tc main_arg1) = m ((c : Thread nD τ).loc main_arg1) :=
  (B4_of_ne m ρ aft1 Φ1 aft2 Φ2 c main_arg1 (by decide)).trans <| (B3_of_ne m ρ aft1 Φ1 c main_arg1 (by decide)).trans <|
    (B2_of_ne m ρ c main_arg1 (by decide)).trans (V1_of m c main_arg1 (by decide))
/-- Argument 2 is read by the host operations only: no kernel stages it and nothing writes it. -/
theorem B4_main_arg2 (c : Dev nD) : B4 m ρ aft1 Φ1 aft2 Φ2 c (Proc.devRef .tc main_arg2) = m ((c : Thread nD τ).loc main_arg2) :=
  (B4_of_ne m ρ aft1 Φ1 aft2 Φ2 c main_arg2 (by decide)).trans <| (B3_of_ne m ρ aft1 Φ1 c main_arg2 (by decide)).trans <|
    (B2_of_ne m ρ c main_arg2 (by decide)).trans (V1_of m c main_arg2 (by decide))
/-- Argument 3 is read by the host operations only: no kernel stages it and nothing writes it. -/
theorem B4_main_arg3 (c : Dev nD) : B4 m ρ aft1 Φ1 aft2 Φ2 c (Proc.devRef .tc main_arg3) = m ((c : Thread nD τ).loc main_arg3) :=
  (B4_of_ne m ρ aft1 Φ1 aft2 Φ2 c main_arg3 (by decide)).trans <| (B3_of_ne m ρ aft1 Φ1 c main_arg3 (by decide)).trans <|
    (B2_of_ne m ρ c main_arg3 (by decide)).trans (V1_of m c main_arg3 (by decide))
/-- Argument 4 is read by the host operations only: no kernel stages it and nothing writes it. -/
theorem B4_main_arg4 (c : Dev nD) : B4 m ρ aft1 Φ1 aft2 Φ2 c (Proc.devRef .tc main_arg4) = m ((c : Thread nD τ).loc main_arg4) :=
  (B4_of_ne m ρ aft1 Φ1 aft2 Φ2 c main_arg4 (by decide)).trans <| (B3_of_ne m ρ aft1 Φ1 c main_arg4 (by decide)).trans <|
    (B2_of_ne m ρ c main_arg4 (by decide)).trans (V1_of m c main_arg4 (by decide))
/-- Argument 5 is read by the host operations only: no kernel stages it and nothing writes it. -/
theorem B4_main_arg5 (c : Dev nD) : B4 m ρ aft1 Φ1 aft2 Φ2 c (Proc.devRef .tc main_arg5) = m ((c : Thread nD τ).loc main_arg5) :=
  (B4_of_ne m ρ aft1 Φ1 aft2 Φ2 c main_arg5 (by decide)).trans <| (B3_of_ne m ρ aft1 Φ1 c main_arg5 (by decide)).trans <|
    (B2_of_ne m ρ c main_arg5 (by decide)).trans (V1_of m c main_arg5 (by decide))
/-- Argument 6 is read by the host operations only: no kernel stages it and nothing writes it. -/
theorem B4_main_arg6 (c : Dev nD) : B4 m ρ aft1 Φ1 aft2 Φ2 c (Proc.devRef .tc main_arg6) = m ((c : Thread nD τ).loc main_arg6) :=
  (B4_of_ne m ρ aft1 Φ1 aft2 Φ2 c main_arg6 (by decide)).trans <| (B3_of_ne m ρ aft1 Φ1 c main_arg6 (by decide)).trans <|
    (B2_of_ne m ρ c main_arg6 (by decide)).trans (V1_of m c main_arg6 (by decide))
/-- Argument 7 is read by the host operations only: no kernel stages it and nothing writes it. -/
theorem B4_main_arg7 (c : Dev nD) : B4 m ρ aft1 Φ1 aft2 Φ2 c (Proc.devRef .tc main_arg7) = m ((c : Thread nD τ).loc main_arg7) :=
  (B4_of_ne m ρ aft1 Φ1 aft2 Φ2 c main_arg7 (by decide)).trans <| (B3_of_ne m ρ aft1 Φ1 c main_arg7 (by decide)).trans <|
    (B2_of_ne m ρ c main_arg7 (by decide)).trans (V1_of m c main_arg7 (by decide))
/-- Argument 8 is read by the host operations only: no kernel stages it and nothing writes it. -/
theorem B4_main_arg8 (c : Dev nD) : B4 m ρ aft1 Φ1 aft2 Φ2 c (Proc.devRef .tc main_arg8) = m ((c : Thread nD τ).loc main_arg8) :=
  (B4_of_ne m ρ aft1 Φ1 aft2 Φ2 c main_arg8 (by decide)).trans <| (B3_of_ne m ρ aft1 Φ1 c main_arg8 (by decide)).trans <|
    (B2_of_ne m ρ c main_arg8 (by decide)).trans (V1_of m c main_arg8 (by decide))
/-- Argument 9 is read by the host operations only: no kernel stages it and nothing writes it. -/
theorem B4_main_arg9 (c : Dev nD) : B4 m ρ aft1 Φ1 aft2 Φ2 c (Proc.devRef .tc main_arg9) = m ((c : Thread nD τ).loc main_arg9) :=
  (B4_of_ne m ρ aft1 Φ1 aft2 Φ2 c main_arg9 (by decide)).trans <| (B3_of_ne m ρ aft1 Φ1 c main_arg9 (by decide)).trans <|
    (B2_of_ne m ρ c main_arg9 (by decide)).trans (V1_of m c main_arg9 (by decide))
/-- Argument 10 is an input of the first kernel only: an input's array is never written back. -/
theorem B4_main_arg10 (c : Dev nD) : B4 m ρ aft1 Φ1 aft2 Φ2 c (Proc.devRef .tc main_arg10) = m ((c : Thread nD τ).loc main_arg10) :=
  (B4_of_ne m ρ aft1 Φ1 aft2 Φ2 c main_arg10 (by decide)).trans <| (B3_of_ne m ρ aft1 Φ1 c main_arg10 (by decide)).trans <|
    (B2_arr m ρ c 3).trans <| ((dat0 (R1 m ρ) c).arrAt_in 3 rfl _).trans <| (A_eq0 (R1 m ρ) c 3).trans (V1_of m c main_arg10 (by decide))
/-- Argument 11 is an input of the first kernel only: an input's array is never written back. -/
theorem B4_main_arg11 (c : Dev nD) : B4 m ρ aft1 Φ1 aft2 Φ2 c (Proc.devRef .tc main_arg11) = m ((c : Thread nD τ).loc main_arg11) :=
  (B4_of_ne m ρ aft1 Φ1 aft2 Φ2 c main_arg11 (by decide)).trans <| (B3_of_ne m ρ aft1 Φ1 c main_arg11 (by decide)).trans <|
    (B2_arr m ρ c 4).trans <| ((dat0 (R1 m ρ) c).arrAt_in 4 rfl _).trans <| (A_eq0 (R1 m ρ) c 4).trans (V1_of m c main_arg11 (by decide))

/-- The program's result is the third kernel's output array: what its write-backs leave. -/
theorem B4_result (c : Dev nD) : B4 m ρ aft1 Φ1 aft2 Φ2 c (Proc.devRef .tc main_v17) = (d2 aft2 Φ2 (R3 m ρ aft1 Φ1) c).arrAt 5 cfg2.N :=
  B4_arr m ρ aft1 Φ1 aft2 Φ2 c 5

/-! ## The proof data family and the thread state -/

abbrev adm : (p : Fin 3) → (pcfgs (F := F) p).Adm := fun p => (cfgs p).toPCfg_adm

/-- Every kernel's proof data, each at the contents its region is entered with. -/
def pdats : (p : Fin 3) → (c : Dev nD) → Dat τ (Elt F) Unit ℕ (UR sig nD τ) ℕ (Pipeline.pin (pcfgs (F := F)) adm p) c
  | ⟨0, _⟩ => fun c => dat0 (R1 m ρ) c
  | ⟨1, _⟩ => fun c => d1 aft1 Φ1 (R2 m ρ) c
  | ⟨2, _⟩ => fun c => d2 aft2 Φ2 (R3 m ρ aft1 Φ1) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B4 m ρ aft1 Φ1 aft2 Φ2 c) ∗ ∃ r, prngReg c r)

/-! ## What the second and third kernels owe -/

variable (hb1 : ∀ (V : ((c : Dev nD) → (b : Ref sig .tc) → Buf (Elt F) ((c : Thread nD τ).loc b))) (c : Dev nD), BodyObligation (d1 aft1 Φ1 V c) (defs₀ (F := F)) Variants.none () Set.univ)
  (hi1 : ∀ (V : ((c : Dev nD) → (b : Ref sig .tc) → Buf (Elt F) ((c : Thread nD τ).loc b))) (c : Dev nD), (Pipeline.ΦA spec1 c : sProp (MT nD τ sig Unit (Elt F) ℕ (UR sig nD τ) ℕ)) ⊢ Φ1 V c 0)
  (ho1 : ∀ (V : ((c : Dev nD) → (b : Ref sig .tc) → Buf (Elt F) ((c : Thread nD τ).loc b))) (c : Dev nD), Φ1 V c (Fin.last cfg1.N) ⊢ (Pipeline.ΦA spec1 c : sProp (MT nD τ sig Unit (Elt F) ℕ (UR sig nD τ) ℕ)))
variable (hb2 : ∀ (V : ((c : Dev nD) → (b : Ref sig .tc) → Buf (Elt F) ((c : Thread nD τ).loc b))) (c : Dev nD), BodyObligation (d2 aft2 Φ2 V c) (defs₀ (F := F)) Variants.none () Set.univ)
  (hi2 : ∀ (V : ((c : Dev nD) → (b : Ref sig .tc) → Buf (Elt F) ((c : Thread nD τ).loc b))) (c : Dev nD), (Pipeline.ΦA spec2 c : sProp (MT nD τ sig Unit (Elt F) ℕ (UR sig nD τ) ℕ)) ⊢ Φ2 V c 0)
  (ho2 : ∀ (V : ((c : Dev nD) → (b : Ref sig .tc) → Buf (Elt F) ((c : Thread nD τ).loc b))) (c : Dev nD), Φ2 V c (Fin.last cfg2.N) ⊢ (Pipeline.ΦA spec2 c : sProp (MT nD τ sig Unit (Elt F) ℕ (UR sig nD τ) ℕ)))

/-! ## The kernels as segments -/

set_option backward.isDefEq.respectTransparency.types false in
/-- Kernel 0 over the thread state: entered with every unscoped buffer at the contents before it, left with its arrays
    at what its write-backs leave and every other buffer as entered; the generator register goes into the kernel's
    invariant and comes back; nothing is owed; the kernel has no semaphore of its own. -/
def reg0 : Pipeline.RegionSeg (pcfgs (F := F)) adm (pdats m ρ aft1 Φ1 aft2 Φ2) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (R1 m ρ c)
  hentry c := by
    rw [Pipeline.ownSems0_none]
    have hsplit := Pipeline.arrays_of_unscopedBufs (p := 0) (pcfgs (F := F)) adm (pdats m ρ aft1 Φ1 aft2 Φ2) launch0.win launch0.arr_whole c
      ((pdats m ρ aft1 Φ1 aft2 Φ2 0 c).share_full fun _ => rfl) (R1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ aft1 Φ1 aft2 Φ2 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ aft1 Φ1 aft2 Φ2 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ aft1 Φ1 aft2 Φ2) ((pdats m ρ aft1 Φ1 aft2 Φ2 0 c).share_full fun _ => rfl)
      (R1 m ρ c) (R2 m ρ c) ((pdats m ρ aft1 Φ1 aft2 Φ2 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb1 hi1 ho1 in
set_option backward.isDefEq.respectTransparency.types false in
/-- Kernel 1 over the thread state: entered with every unscoped buffer at the contents before it, left with its arrays
    at what its write-backs leave and every other buffer as entered; the generator register goes into the kernel's
    invariant and comes back; nothing is owed; the kernel has no semaphore of its own. -/
def reg1 : Pipeline.RegionSeg (pcfgs (F := F)) adm (pdats m ρ aft1 Φ1 aft2 Φ2) () defs₀ 𝒱₀ L lv 1 where
  win := launch1.win.to₀
  block_pos := launch1.block_pos
  stage_whole := launch1.stage_whole
  K := PEmpty
  osem k := k.elim
  ho := Pipeline.OwnSemFacts.none _
  hbody c := (hb1 (R2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ aft1 Φ1 c) ∗ R c)
  X c := iprop(∃ r, prngReg c r)
  Y c := iprop(∃ r, prngReg c r)
  Z c := Pipeline.unscopedRest (Ix := Unit) (Name := ℕ) (U := UR sig nD τ) (Lvl := ℕ) spec1 c (R2 m ρ c)
  hentry c := by
    rw [Pipeline.ownSems0_none]
    have hsplit := Pipeline.arrays_of_unscopedBufs (p := 1) (pcfgs (F := F)) adm (pdats m ρ aft1 Φ1 aft2 Φ2) launch1.win launch1.arr_whole c
      ((pdats m ρ aft1 Φ1 aft2 Φ2 1 c).share_full fun _ => rfl) (R2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi1 (R2 m ρ) c)
    unfold Pipeline.ΦA
    iintro ⟨Hp, -, Hr⟩
    isplitl [Hr]; · iexact Hr
    iexact Hp
  hout c := by
    rw [Pipeline.ownSems0_none]
    refine BIBase.Entails.trans (ho1 (R2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ aft1 Φ1 aft2 Φ2) ((pdats m ρ aft1 Φ1 aft2 Φ2 1 c).share_full fun _ => rfl)
      (R2 m ρ c) (R3 m ρ aft1 Φ1 c) ((pdats m ρ aft1 Φ1 aft2 Φ2 1 c).arrAt · cfg1.N) (hF1 m ρ aft1 Φ1 c) (hrest1 m ρ aft1 Φ1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

include hb2 hi2 ho2 in
set_option backward.isDefEq.respectTransparency.types false in
/-- Kernel 2 over the thread state: entered with every unscoped buffer at the contents before it, left with its arrays
    at what its write-backs leave and every other buffer as entered; the generator register goes into the kernel's
    invariant and comes back; nothing is owed; the kernel has no semaphore of its own. -/
def reg2 : Pipeline.RegionSeg (pcfgs (F := F)) adm (pdats m ρ aft1 Φ1 aft2 Φ2) () defs₀ 𝒱₀ L lv 2 where
  win := launch2.win.to₀
  block_pos := launch2.block_pos
  stage_whole := launch2.stage_whole
  K := PEmpty
  osem k := k.elim
  ho := Pipeline.OwnSemFacts.none _
  hbody c := (hb2 (R3 m ρ aft1 Φ1) c).loose
  hwaits := Pipeline.hwaits_of_owed_zero _ _ _ _ L lv 2 fun _ _ => rfl
  pre c := iprop(StableHlo.held (c : Thread nD τ) (Pipeline.ucRefs τ sig) (B3 m ρ aft1 Φ1 c) ∗ R c)
  post c := iprop(StableHlo.held (c : Thread nD τ) (Pipeline.ucRefs τ sig) (B4 m ρ aft1 Φ1 aft2 Φ2 c) ∗ R c)
  X c := iprop(∃ r, prngReg c r)
  Y c := iprop(∃ r, prngReg c r)
  Z c := Pipeline.unscopedRest (Ix := Unit) (Name := ℕ) (U := UR sig nD τ) (Lvl := ℕ) spec2 c (R3 m ρ aft1 Φ1 c)
  hentry c := by
    rw [Pipeline.ownSems0_none]
    have hsplit := Pipeline.arrays_of_unscopedBufs (p := 2) (pcfgs (F := F)) adm (pdats m ρ aft1 Φ1 aft2 Φ2) launch2.win launch2.arr_whole c
      ((pdats m ρ aft1 Φ1 aft2 Φ2 2 c).share_full fun _ => rfl) (R3 m ρ aft1 Φ1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi2 (R3 m ρ aft1 Φ1) c)
    unfold Pipeline.ΦA
    iintro ⟨Hp, -, Hr⟩
    isplitl [Hr]; · iexact Hr
    iexact Hp
  hout c := by
    rw [Pipeline.ownSems0_none]
    refine BIBase.Entails.trans (ho2 (R3 m ρ aft1 Φ1) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ aft1 Φ1 aft2 Φ2) ((pdats m ρ aft1 Φ1 aft2 Φ2 2 c).share_full fun _ => rfl)
      (R3 m ρ aft1 Φ1 c) (R4 m ρ aft1 Φ1 aft2 Φ2 c) ((pdats m ρ aft1 Φ1 aft2 Φ2 2 c).arrAt · cfg2.N) (hF2 m ρ aft1 Φ1 aft2 Φ2 c) (hrest2 m ρ aft1 Φ1 aft2 Φ2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the host operations, then the three kernels. -/
abbrev segs : List (Pipeline.Seg (pcfgs (F := F)) adm (pdats m ρ aft1 Φ1 aft2 Φ2) () defs₀ 𝒱₀ L lv) :=
  [ .host (hseg hostOps0 hostOps0_sub hostOps0_fresh (B0 m ρ)),
    .region (reg0 m ρ aft1 Φ1 aft2 Φ2),
    .region (reg1 m ρ aft1 Φ1 aft2 Φ2 hb1 hi1 ho1),
    .region (reg2 m ρ aft1 Φ1 aft2 Φ2 hb2 hi2 ho2) ]

theorem main_run (c : Dev nD) : main (F := F) c = Pipeline.Seg.run (segs m ρ aft1 Φ1 aft2 Φ2 hb1 hi1 ho1 hb2 hi2 ho2) :=
  (main_chain c).trans (by chain_rfl)

include hb1 hi1 ho1 hb2 hi2 ho2

set_option backward.isDefEq.respectTransparency.types false in
/-- From any memory with zero counters every weakly fair execution of the program terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m ρ aft1 Φ1 aft2 Φ2 c b) :=
  Pipeline.θ_run_regions_kit (pcfgs (F := F)) adm (pdats m ρ aft1 Φ1 aft2 Φ2) () cellOf_inj emb₁ defs₀ 𝒱₀ L lv m ρ main
    (segs m ρ aft1 Φ1 aft2 Φ2 hb1 hi1 ho1 hb2 hi2 ho2)
    (fun c Q => by rw [main_run m ρ aft1 Φ1 aft2 Φ2 hb1 hi1 ho1 hb2 hi2 ho2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ aft1 Φ1 aft2 Φ2)
    (hch := ⟨fun _ => .rfl, fun _ => .rfl, fun _ => .rfl, fun _ => .rfl, fun c => by
      show (iprop(StableHlo.held (c : Thread nD τ) (Pipeline.ucRefs τ sig) (B4 m ρ aft1 Φ1 aft2 Φ2 c) ∗ R c) : sProp 𝕄)
        ⊢ iprop(Tₙ m ρ aft1 Φ1 aft2 Φ2 c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ aft1 Φ1 aft2 Φ2 c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ aft1 Φ1 aft2 Φ2 c) s')
      isplitl [Hh] <;> iassumption)
    (hQ := fun _ h => h)

/-- THE RUN, read at the arguments and the result: every weakly fair execution terminates, the result array holds what the
    third kernel's write-backs leave, and every argument array holds what it was launched with. -/
theorem run_main : θ_run defs (onTc (τ := τ) (main (F := F))) ⟨m, fun _ => 0, ρ⟩ (fun r => ∀ c : Dev nD,
      r.2.mem ((c.tc : Thread nD τ).loc main_v17) = (d2 aft2 Φ2 (R3 m ρ aft1 Φ1) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_v17 (by decide))).trans (B4_result m ρ aft1 Φ1 aft2 Φ2 c),
      (h c _ (mem_uc main_arg0 (by decide))).trans (B4_main_arg0 m ρ aft1 Φ1 aft2 Φ2 c),
      (h c _ (mem_uc main_arg1 (by decide))).trans (B4_main_arg1 m ρ aft1 Φ1 aft2 Φ2 c),
      (h c _ (mem_uc main_arg2 (by decide))).trans (B4_main_arg2 m ρ aft1 Φ1 aft2 Φ2 c),
      (h c _ (mem_uc main_arg3 (by decide))).trans (B4_main_arg3 m ρ aft1 Φ1 aft2 Φ2 c),
      (h c _ (mem_uc main_arg4 (by decide))).trans (B4_main_arg4 m ρ aft1 Φ1 aft2 Φ2 c),
      (h c _ (mem_uc main_arg5 (by decide))).trans (B4_main_arg5 m ρ aft1 Φ1 aft2 Φ2 c),
      (h c _ (mem_uc main_arg6 (by decide))).trans (B4_main_arg6 m ρ aft1 Φ1 aft2 Φ2 c),
      (h c _ (mem_uc main_arg7 (by decide))).trans (B4_main_arg7 m ρ aft1 Φ1 aft2 Φ2 c),
      (h c _ (mem_uc main_arg8 (by decide))).trans (B4_main_arg8 m ρ aft1 Φ1 aft2 Φ2 c),
      (h c _ (mem_uc main_arg9 (by decide))).trans (B4_main_arg9 m ρ aft1 Φ1 aft2 Φ2 c),
      (h c _ (mem_uc main_arg10 (by decide))).trans (B4_main_arg10 m ρ aft1 Φ1 aft2 Φ2 c),
      (h c _ (mem_uc main_arg11 (by decide))).trans (B4_main_arg11 m ρ aft1 Φ1 aft2 Φ2 c)⟩)
    (run_all m ρ aft1 Φ1 aft2 Φ2 hb1 hi1 ho1 hb2 hi2 ho2)

end Run

end Cert.Proof.KB

end
-- ==== Proof.KB.AttnRuns.lean ====
/-
  The attention kernel of the block runs on a grid of eight query tiles by eight key tiles; point t = 8 qi + ki works on
  query tile qi and key tile ki. Three scratch buffers are carried along a query row: the running row maximum m, the running
  denominator l and the running numerator acc. At the first key tile (ki = 0) the body first resets them (m to minus
  infinity, l and acc to zero); at every key tile it updates them from the block's logits; at the last key tile (ki = 7)
  it divides acc by l, applies the output projection, adds the residual tile and stores the output tile. This module
  holds what the three control cases share: the windows' blocks, the two branch conditions in closed form over the grid,
  where the output window is idle, the memrefs the body is called with, and the region invariant with the three scratch
  buffers split off the scoped rest.
-/
import proofs.«105332_j8211977470193_2_alg».proof.Proof.Gen.Kernel.Launch
import proofs.«105332_j8211977470193_2_alg».proof.Proof.Gen.Kernel.Skeleton
import proofs.«105332_j8211977470193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it: rows 512 qi … 512 qi + 511 of the queries and of
    the residual, rows 512 ki … 512 ki + 511 of the keys and of the values, the whole projection weight. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input tile holds its block at every point, whether the pipeline fetched it there or left it in place because the
    block's index did not move (the query and residual tiles along a query row, the projection weight throughout). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's two branch conditions -/

/-- The reset's condition (ki = 0), as the body computes it from the grid coordinates. -/
abbrev cond1_0 (i : grid1.Coords) : Prop := (Scalar.cmpi .ne (Scalar.extui (Scalar.cmpi .eq (BitVec.ofNat 32 (i 1).val) 0#32)) 0#32) = 1#1
/-- It holds exactly at the first key tile of each query row. -/
theorem hcond1_0 : ∀ t : Fin cfg1.N, cond1_0 (grid1.coords t) ↔ t.val % 8 = 0 :=
  (by decide +kernel : ∀ t : Fin grid1.N, cond1_0 (grid1.coords t) ↔ t.val % 8 = 0)

/-- The finalisation's condition (ki = 7). -/
abbrev cond1_1 (i : grid1.Coords) : Prop := k1_cond2 i = 1#1
/-- It holds exactly at the last key tile of each query row. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The five inputs are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first key tile the output tile is idle: nothing is stored into it, -/
theorem idleAt1_5_A : ∀ t : Fin cfg1.N, cond1_0 (grid1.coords t) → ¬cond1_1 (grid1.coords t) → cfg1.idle 5 (grid1.coords t) = true := by decide +kernel
/-- and it is not written back there. -/
theorem noFlush1_5_A : ∀ t : Fin cfg1.N, cond1_0 (grid1.coords t) → ¬cond1_1 (grid1.coords t) → (cfg1.win 5).flush t = false := by decide +kernel
/-- The same at a middle key tile. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last key tile the output tile is live: the finalisation stores it whole. -/
theorem liveAt1_5_C : ∀ t : Fin cfg1.N, ¬cond1_0 (grid1.coords t) → cond1_1 (grid1.coords t) → cfg1.idle 5 (grid1.coords t) = false := by decide +kernel

/-! ## The memrefs the body is called with -/

/-- Each window's current staging memref at point t, and its wholeness. -/
abbrev ms1_0 (t : Fin cfg1.N) : Memref sig .tc .vmem S512x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x2048 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x2048 .f32 := win1_5.stage (cfg1.slots t 5)
abbrev hs1_5 (t : Fin cfg1.N) : (ms1_5 t).IsWhole := hstage1_5 ((cfg1.slots t 5).cast nbuf1_5)

/-- The three scratch operands: whole buffers of the kernel's own, passed beside the windows. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x2048 .f32 := Memref.whole cc1_scratch2
/-- The views through which the running maximum, denominator and numerator are stated. -/
abbrev VS1_0 : View sig .tc .vmem S512x1 .f32 := scM1_0.view
abbrev VS1_1 : View sig .tc .vmem S512x1 .f32 := scM1_1.view
abbrev VS1_2 : View sig .tc .vmem S512x2048 .f32 := scM1_2.view
/-- One staging buffer of the output window, through which the output tile's contents are stated (which one does not
    matter: the finalisation's store covers it). -/
abbrev VO1_5 : View sig .tc .vmem S512x2048 .f32 := (Memref.whole cc1_stg5_0 : Memref sig .tc .vmem S512x2048 .f32).view

/-! ## The region invariant, with the scratch split off -/

/-- What the region is entered with: the three scratch buffers owned at some contents each, every other scoped buffer
    that is no staging buffer of this region unopened, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  unfold Pipeline.ΦA; rw [scopedRest1_split]; simp only [scM1_0, scM1_1, scM1_2, owns_whole]; try rfl

end Cert.Proof.KB

end
-- ==== Proof.KB.AttnRunA.lean ====
/-
  The attention body at the first key tile of a query row (ki = 0): the reset is taken, the finalisation is not. The three
  scratch buffers are taken at anything, since the reset stores each of them whole before anything reads them: the running
  maximum ends with the reset's piece under the update's piece, the denominator and the numerator likewise. The queries,
  keys and values are read; the projection weight, the residual tile and the output tile are not touched, and the output
  tile is handed back at whatever it held.
-/
import proofs.«105332_j8211977470193_2_alg».proof.Proof.KB.AttnRuns

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output tile (none) and in the three scratch buffers (last store first) at a
    first key tile, with the proof that the body runs to its return handing the inputs and the output tile back unchanged
    and each scratch buffer with its pieces written. -/
noncomputable def attnRunA (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) :
    Σ' (L5 : List (View.Piece (Elt F) S512x2048 .f32)) (LS0 : List (View.Piece (Elt F) S512x1 .f32)) (LS1 : List (View.Piece (Elt F) S512x1 .f32)), { LS2 : List (View.Piece (Elt F) S512x2048 .f32) //
      ∀ (xi5 : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xi5
            ∗ (∃ d, owns (c : Thread nD τ) a8 fullShare d) ∗ (∃ d, owns (c : Thread nD τ) a9 fullShare d) ∗ (∃ d, owns (c : Thread nD τ) a10 fullShare d)
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)
                ∗ (∃ f, a10.view.loc (c : Thread nD τ) ↦[a10.view.set]{fullShare} a10.view.writes (Elt F) f LS2)) -∗ K ⟨⟩))
          ⊢ wp frame (wpE (defs₀ (F := F)) Variants.none c none) E (cc1__attn_kernel i a2 h2 a3 h3 a4 h4 a5 h5 a6 h6 a7 h7 a8 h8 a9 h9 a10 h10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    iexists _; iexact HS2

end Cert.Proof.KB

end
-- ==== Proof.KB.AttnRunB.lean ====
/-
  The attention body at a middle key tile of a query row (0 < ki < 7): neither the reset nor the finalisation is taken. The
  three scratch buffers are taken at what the key tile before left in them; each is read and then stored whole, so each ends
  with one piece. The queries, keys and values are read; the projection weight, the residual tile and the output tile are
  not touched, and the output tile is handed back at whatever it held.
-/
import proofs.«105332_j8211977470193_2_alg».proof.Proof.KB.AttnRunA

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output tile (none) and in the three scratch buffers at a middle key tile, with
    the proof that the body runs to its return handing the inputs and the output tile back unchanged and each scratch buffer
    with its piece written. -/
noncomputable def attnRunB (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    Σ' (L5 : List (View.Piece (Elt F) S512x2048 .f32)) (LS0 : List (View.Piece (Elt F) S512x1 .f32)) (LS1 : List (View.Piece (Elt F) S512x1 .f32)), { LS2 : List (View.Piece (Elt F) S512x2048 .f32) //
      ∀ (xi5 : Vec F S512x2048 .f32) (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ owns (c : Thread nD τ) a7 fullShare xi5
            ∗ owns (c : Thread nD τ) a8 fullShare xs0 ∗ owns (c : Thread nD τ) a9 fullShare xs1 ∗ owns (c : Thread nD τ) a10 fullShare xs2
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ owns (c : Thread nD τ) a7 fullShare xi5
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)
                ∗ (∃ f, a10.view.loc (c : Thread nD τ) ↦[a10.view.set]{fullShare} a10.view.writes (Elt F) f LS2)) -∗ K ⟨⟩))
          ⊢ wp frame (wpE (defs₀ (F := F)) Variants.none c none) E (cc1__attn_kernel i a2 h2 a3 h3 a4 h4 a5 h5 a6 h6 a7 h7 a8 h8 a9 h9 a10 h10) K } := by
  refine ⟨[], ?_, ?_, ?_, fun xi5 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := h2.eq_unread hf0; obtain rfl := h3.eq_unread hf1; obtain rfl := h4.eq_unread hf2
    obtain rfl := h5.eq_unread hf3; obtain rfl := h6.eq_unread hf4; obtain rfl := h7.eq_unread hf5
    obtain rfl := h8.eq_unread hfs0; obtain rfl := h9.eq_unread hfs1; obtain rfl := h10.eq_unread hfs2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [HS0]; · iexists _; iexact HS0
    isplitl [HS1]; · iexists _; iexact HS1
    iexists _; iexact HS2

end Cert.Proof.KB

end
-- ==== Proof.KB.AttnRunC.lean ====
/-
  The attention body at the last key tile of a query row (ki = 7): the reset is not taken, the finalisation is. The three
  scratch buffers are taken at what the key tile before left in them and each ends with one piece, as at a middle key tile;
  then the numerator is divided by the denominator, multiplied by the projection weight, the residual tile is added, and the
  result is stored over the whole output tile, which is therefore taken at anything and ends with that one piece. All five
  inputs are read.
-/
import proofs.«105332_j8211977470193_2_alg».proof.Proof.KB.AttnRunB

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output tile and in the three scratch buffers at a last key tile, with the
    proof that the body runs to its return handing the inputs back unchanged and the output tile and each scratch buffer
    with its piece written. -/
noncomputable def attnRunC (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    Σ' (L5 : List (View.Piece (Elt F) S512x2048 .f32)) (LS0 : List (View.Piece (Elt F) S512x1 .f32)) (LS1 : List (View.Piece (Elt F) S512x1 .f32)), { LS2 : List (View.Piece (Elt F) S512x2048 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
            ∗ (∃ d, owns (c : Thread nD τ) a7 fullShare d)
            ∗ owns (c : Thread nD τ) a8 fullShare xs0 ∗ owns (c : Thread nD τ) a9 fullShare xs1 ∗ owns (c : Thread nD τ) a10 fullShare xs2
            ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare x4
                ∗ (∃ f, a7.view.loc (c : Thread nD τ) ↦[a7.view.set]{fullShare} a7.view.writes (Elt F) f L5)
                ∗ (∃ f, a8.view.loc (c : Thread nD τ) ↦[a8.view.set]{fullShare} a8.view.writes (Elt F) f LS0)
                ∗ (∃ f, a9.view.loc (c : Thread nD τ) ↦[a9.view.set]{fullShare} a9.view.writes (Elt F) f LS1)
                ∗ (∃ f, a10.view.loc (c : Thread nD τ) ↦[a10.view.set]{fullShare} a10.view.writes (Elt F) f LS2)) -∗ K ⟨⟩))
          ⊢ wp frame (wpE (defs₀ (F := F)) Variants.none c none) E (cc1__attn_kernel i a2 h2 a3 h3 a4 h4 a5 h5 a6 h6 a7 h7 a8 h8 a9 h9 a10 h10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, Hk⟩
    obtain rfl := h2.eq_unread hf0; obtain rfl := h3.eq_unread hf1; obtain rfl := h4.eq_unread hf2
    obtain rfl := h5.eq_unread hf3; obtain rfl := h6.eq_unread hf4
    obtain rfl := h8.eq_unread hfs0; obtain rfl := h9.eq_unread hfs1; obtain rfl := h10.eq_unread hfs2
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]; · iexists _; iexact H5
    isplitl [HS0]; · iexists _; iexact HS0
    isplitl [HS1]; · iexists _; iexact HS1
    iexists _; iexact HS2

end Cert.Proof.KB

end
-- ==== Proof.KB.AttnData.lean ====
/-
  The attention kernel's proof data over its grid of eight query tiles by eight key tiles. At point t = 8 qi + ki the five
  input tiles hold the blocks their index maps select. The three scratch buffers carry the online softmax along a query row:
  after a first key tile they hold the reset-and-update computed from that point's blocks alone, after any other key tile the
  update of what the point before left. The output tile is idle except at the last key tile of a row, where it holds the
  finalisation of that row. This module reads each case's pieces back as whole tiles (they cover their buffers, so nothing of
  the earlier contents shows through), threads them through the points by recursion, states the invariant between points with
  the scratch at those contents, and proves the body obligation case by case.
-/
import proofs.«105332_j8211977470193_2_alg».proof.Proof.KB.AttnRunC

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the output tile and in the scratch -/

/-- At a first key tile nothing is stored into the output tile: no pieces. This placeholder (junk read back) is never consulted,
    since there the tile is neither written back nor passed on at named contents. -/
def attnOutA_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x2048 .f32 :=
  VO1_5.read (Elt F) (VO1_5.writes (Elt F) VO1_5.junk (attnRunA c i a2 h2 a3 h3 a4 h4 a5 h5 a6 h6 a7 h7 a8 h8 a9 h9 a10 h10 hc0 hc1 x0 x1 x2 x3 x4).1)

/-- At a first key tile the stores into the running maximum cover it (the reset's piece under the update's). -/
theorem attnScoverA_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) (y : S512x1.Idx) :
    ∃ pc ∈ (attnRunA c i a2 h2 a3 h3 a4 h4 a5 h5 a6 h6 a7 h7 a8 h8 a9 h9 a10 h10 hc0 hc1 x0 x1 x2 x3 x4).2.1, y ∈ pc.1.set :=
  View.cover_of_tiledL (attnRunA c i a2 h2 a3 h3 a4 h4 a5 h5 a6 h6 a7 h7 a8 h8 a9 h9 a10 h10 hc0 hc1 x0 x1 x2 x3 x4).2.1 S512x1.size (by sl_kernel_rfl) y

/-- The running maximum after a first key tile: its pieces read back. -/
def attnSoutA_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x1 .f32 :=
  VS1_0.read (Elt F) (VS1_0.writes (Elt F) VS1_0.junk (attnRunA c i a2 h2 a3 h3 a4 h4 a5 h5 a6 h6 a7 h7 a8 h8 a9 h9 a10 h10 hc0 hc1 x0 x1 x2 x3 x4).2.1)

/-- At a first key tile the stores into the running denominator cover it (the reset's piece under the update's). -/
theorem attnScoverA_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) (y : S512x1.Idx) :
    ∃ pc ∈ (attnRunA c i a2 h2 a3 h3 a4 h4 a5 h5 a6 h6 a7 h7 a8 h8 a9 h9 a10 h10 hc0 hc1 x0 x1 x2 x3 x4).2.2.1, y ∈ pc.1.set :=
  View.cover_of_tiledL (attnRunA c i a2 h2 a3 h3 a4 h4 a5 h5 a6 h6 a7 h7 a8 h8 a9 h9 a10 h10 hc0 hc1 x0 x1 x2 x3 x4).2.2.1 S512x1.size (by sl_kernel_rfl) y

/-- The running denominator after a first key tile: its pieces read back. -/
def attnSoutA_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x1 .f32 :=
  VS1_1.read (Elt F) (VS1_1.writes (Elt F) VS1_1.junk (attnRunA c i a2 h2 a3 h3 a4 h4 a5 h5 a6 h6 a7 h7 a8 h8 a9 h9 a10 h10 hc0 hc1 x0 x1 x2 x3 x4).2.2.1)

/-- At a first key tile the stores into the running numerator cover it (the reset's piece under the update's). -/
theorem attnScoverA_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) (y : S512x2048.Idx) :
    ∃ pc ∈ (attnRunA c i a2 h2 a3 h3 a4 h4 a5 h5 a6 h6 a7 h7 a8 h8 a9 h9 a10 h10 hc0 hc1 x0 x1 x2 x3 x4).2.2.2.1, y ∈ pc.1.set :=
  View.cover_of_tiledL (attnRunA c i a2 h2 a3 h3 a4 h4 a5 h5 a6 h6 a7 h7 a8 h8 a9 h9 a10 h10 hc0 hc1 x0 x1 x2 x3 x4).2.2.2.1 S512x2048.size (by sl_kernel_rfl) y

/-- The running numerator after a first key tile: its pieces read back. -/
def attnSoutA_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x2048 .f32 :=
  VS1_2.read (Elt F) (VS1_2.writes (Elt F) VS1_2.junk (attnRunA c i a2 h2 a3 h3 a4 h4 a5 h5 a6 h6 a7 h7 a8 h8 a9 h9 a10 h10 hc0 hc1 x0 x1 x2 x3 x4).2.2.2.1)

/-- At a middle key tile nothing is stored into the output tile: no pieces. This placeholder (junk read back) is never consulted,
    since there the tile is neither written back nor passed on at named contents. -/
def attnOutB_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VO1_5.read (Elt F) (VO1_5.writes (Elt F) VO1_5.junk (attnRunB c i a2 h2 a3 h3 a4 h4 a5 h5 a6 h6 a7 h7 a8 h8 a9 h9 a10 h10 hc0 hc1 x0 x1 x2 x3 x4 xs0 xs1 xs2).1)

/-- At a middle key tile the stores into the running maximum cover it. -/
theorem attnScoverB_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunB c i a2 h2 a3 h3 a4 h4 a5 h5 a6 h6 a7 h7 a8 h8 a9 h9 a10 h10 hc0 hc1 x0 x1 x2 x3 x4 xs0 xs1 xs2).2.1, y ∈ pc.1.set :=
  View.cover_of_tiledL (attnRunB c i a2 h2 a3 h3 a4 h4 a5 h5 a6 h6 a7 h7 a8 h8 a9 h9 a10 h10 hc0 hc1 x0 x1 x2 x3 x4 xs0 xs1 xs2).2.1 S512x1.size (by sl_kernel_rfl) y

/-- The running maximum after a middle key tile: its pieces read back. -/
def attnSoutB_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_0.read (Elt F) (VS1_0.writes (Elt F) VS1_0.junk (attnRunB c i a2 h2 a3 h3 a4 h4 a5 h5 a6 h6 a7 h7 a8 h8 a9 h9 a10 h10 hc0 hc1 x0 x1 x2 x3 x4 xs0 xs1 xs2).2.1)

/-- At a middle key tile the stores into the running denominator cover it. -/
theorem attnScoverB_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunB c i a2 h2 a3 h3 a4 h4 a5 h5 a6 h6 a7 h7 a8 h8 a9 h9 a10 h10 hc0 hc1 x0 x1 x2 x3 x4 xs0 xs1 xs2).2.2.1, y ∈ pc.1.set :=
  View.cover_of_tiledL (attnRunB c i a2 h2 a3 h3 a4 h4 a5 h5 a6 h6 a7 h7 a8 h8 a9 h9 a10 h10 hc0 hc1 x0 x1 x2 x3 x4 xs0 xs1 xs2).2.2.1 S512x1.size (by sl_kernel_rfl) y

/-- The running denominator after a middle key tile: its pieces read back. -/
def attnSoutB_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_1.read (Elt F) (VS1_1.writes (Elt F) VS1_1.junk (attnRunB c i a2 h2 a3 h3 a4 h4 a5 h5 a6 h6 a7 h7 a8 h8 a9 h9 a10 h10 hc0 hc1 x0 x1 x2 x3 x4 xs0 xs1 xs2).2.2.1)

/-- At a middle key tile the stores into the running numerator cover it. -/
theorem attnScoverB_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x2048.Idx) :
    ∃ pc ∈ (attnRunB c i a2 h2 a3 h3 a4 h4 a5 h5 a6 h6 a7 h7 a8 h8 a9 h9 a10 h10 hc0 hc1 x0 x1 x2 x3 x4 xs0 xs1 xs2).2.2.2.1, y ∈ pc.1.set :=
  View.cover_of_tiledL (attnRunB c i a2 h2 a3 h3 a4 h4 a5 h5 a6 h6 a7 h7 a8 h8 a9 h9 a10 h10 hc0 hc1 x0 x1 x2 x3 x4 xs0 xs1 xs2).2.2.2.1 S512x2048.size (by sl_kernel_rfl) y

/-- The running numerator after a middle key tile: its pieces read back. -/
def attnSoutB_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VS1_2.read (Elt F) (VS1_2.writes (Elt F) VS1_2.junk (attnRunB c i a2 h2 a3 h3 a4 h4 a5 h5 a6 h6 a7 h7 a8 h8 a9 h9 a10 h10 hc0 hc1 x0 x1 x2 x3 x4 xs0 xs1 xs2).2.2.2.1)

/-- At a last key tile the finalisation's one store writes the whole output tile. -/
theorem attnCoverC_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x2048.Idx) :
    ∃ pc ∈ (attnRunC c i a2 h2 a3 h3 a4 h4 a5 h5 a6 h6 a7 h7 a8 h8 a9 h9 a10 h10 hc0 hc1 x0 x1 x2 x3 x4 xs0 xs1 xs2).1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).1 S512x2048.size (by sl_kernel_rfl) y

/-- The output tile after a last key tile: the finalisation's piece read back. -/
def attnOutC_5 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VO1_5.read (Elt F) (VO1_5.writes (Elt F) VO1_5.junk (attnRunC c i a2 h2 a3 h3 a4 h4 a5 h5 a6 h6 a7 h7 a8 h8 a9 h9 a10 h10 hc0 hc1 x0 x1 x2 x3 x4 xs0 xs1 xs2).1)

/-- At a last key tile the stores into the running maximum cover it. -/
theorem attnScoverC_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunC c i a2 h2 a3 h3 a4 h4 a5 h5 a6 h6 a7 h7 a8 h8 a9 h9 a10 h10 hc0 hc1 x0 x1 x2 x3 x4 xs0 xs1 xs2).2.1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).2.1 S512x1.size (by sl_kernel_rfl) y

/-- The running maximum after a last key tile: its pieces read back. -/
def attnSoutC_0 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_0.read (Elt F) (VS1_0.writes (Elt F) VS1_0.junk (attnRunC c i a2 h2 a3 h3 a4 h4 a5 h5 a6 h6 a7 h7 a8 h8 a9 h9 a10 h10 hc0 hc1 x0 x1 x2 x3 x4 xs0 xs1 xs2).2.1)

/-- At a last key tile the stores into the running denominator cover it. -/
theorem attnScoverC_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x1.Idx) :
    ∃ pc ∈ (attnRunC c i a2 h2 a3 h3 a4 h4 a5 h5 a6 h6 a7 h7 a8 h8 a9 h9 a10 h10 hc0 hc1 x0 x1 x2 x3 x4 xs0 xs1 xs2).2.2.1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).2.2.1 S512x1.size (by sl_kernel_rfl) y

/-- The running denominator after a last key tile: its pieces read back. -/
def attnSoutC_1 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x1 .f32 :=
  VS1_1.read (Elt F) (VS1_1.writes (Elt F) VS1_1.junk (attnRunC c i a2 h2 a3 h3 a4 h4 a5 h5 a6 h6 a7 h7 a8 h8 a9 h9 a10 h10 hc0 hc1 x0 x1 x2 x3 x4 xs0 xs1 xs2).2.2.1)

/-- At a last key tile the stores into the running numerator cover it. -/
theorem attnScoverC_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) (y : S512x2048.Idx) :
    ∃ pc ∈ (attnRunC c i a2 h2 a3 h3 a4 h4 a5 h5 a6 h6 a7 h7 a8 h8 a9 h9 a10 h10 hc0 hc1 x0 x1 x2 x3 x4 xs0 xs1 xs2).2.2.2.1, y ∈ pc.1.set :=
  View.cover_of_tiledL (attnRunC c i a2 h2 a3 h3 a4 h4 a5 h5 a6 h6 a7 h7 a8 h8 a9 h9 a10 h10 hc0 hc1 x0 x1 x2 x3 x4 xs0 xs1 xs2).2.2.2.1 S512x2048.size (by sl_kernel_rfl) y

/-- The running numerator after a last key tile: its pieces read back. -/
def attnSoutC_2 (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 :=
  VS1_2.read (Elt F) (VS1_2.writes (Elt F) VS1_2.junk (attnRunC c i a2 h2 a3 h3 a4 h4 a5 h5 a6 h6 a7 h7 a8 h8 a9 h9 a10 h10 hc0 hc1 x0 x1 x2 x3 x4 xs0 xs1 xs2).2.2.2.1)

/-- The output tile and the three scratch buffers after a first key tile, together. -/
def attnOutsA (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) : Vec F S512x2048 .f32 × Vec F S512x1 .f32 × Vec F S512x1 .f32 × Vec F S512x2048 .f32 :=
  (attnOutA_5 c i a2 h2 a3 h3 a4 h4 a5 h5 a6 h6 a7 h7 a8 h8 a9 h9 a10 h10 hc0 hc1 x0 x1 x2 x3 x4, attnSoutA_0 c i a2 h2 a3 h3 a4 h4 a5 h5 a6 h6 a7 h7 a8 h8 a9 h9 a10 h10 hc0 hc1 x0 x1 x2 x3 x4, attnSoutA_1 c i a2 h2 a3 h3 a4 h4 a5 h5 a6 h6 a7 h7 a8 h8 a9 h9 a10 h10 hc0 hc1 x0 x1 x2 x3 x4, attnSoutA_2 c i a2 h2 a3 h3 a4 h4 a5 h5 a6 h6 a7 h7 a8 h8 a9 h9 a10 h10 hc0 hc1 x0 x1 x2 x3 x4)

/-- The output tile and the three scratch buffers after a middle key tile, together. -/
def attnOutsB (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 × Vec F S512x1 .f32 × Vec F S512x1 .f32 × Vec F S512x2048 .f32 :=
  (attnOutB_5 c i a2 h2 a3 h3 a4 h4 a5 h5 a6 h6 a7 h7 a8 h8 a9 h9 a10 h10 hc0 hc1 x0 x1 x2 x3 x4 xs0 xs1 xs2, attnSoutB_0 c i a2 h2 a3 h3 a4 h4 a5 h5 a6 h6 a7 h7 a8 h8 a9 h9 a10 h10 hc0 hc1 x0 x1 x2 x3 x4 xs0 xs1 xs2, attnSoutB_1 c i a2 h2 a3 h3 a4 h4 a5 h5 a6 h6 a7 h7 a8 h8 a9 h9 a10 h10 hc0 hc1 x0 x1 x2 x3 x4 xs0 xs1 xs2, attnSoutB_2 c i a2 h2 a3 h3 a4 h4 a5 h5 a6 h6 a7 h7 a8 h8 a9 h9 a10 h10 hc0 hc1 x0 x1 x2 x3 x4 xs0 xs1 xs2)

/-- The output tile and the three scratch buffers after a last key tile, together. -/
def attnOutsC (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) : Vec F S512x2048 .f32 × Vec F S512x1 .f32 × Vec F S512x1 .f32 × Vec F S512x2048 .f32 :=
  (attnOutC_5 c i a2 h2 a3 h3 a4 h4 a5 h5 a6 h6 a7 h7 a8 h8 a9 h9 a10 h10 hc0 hc1 x0 x1 x2 x3 x4 xs0 xs1 xs2, attnSoutC_0 c i a2 h2 a3 h3 a4 h4 a5 h5 a6 h6 a7 h7 a8 h8 a9 h9 a10 h10 hc0 hc1 x0 x1 x2 x3 x4 xs0 xs1 xs2, attnSoutC_1 c i a2 h2 a3 h3 a4 h4 a5 h5 a6 h6 a7 h7 a8 h8 a9 h9 a10 h10 hc0 hc1 x0 x1 x2 x3 x4 xs0 xs1 xs2, attnSoutC_2 c i a2 h2 a3 h3 a4 h4 a5 h5 a6 h6 a7 h7 a8 h8 a9 h9 a10 h10 hc0 hc1 x0 x1 x2 x3 x4 xs0 xs1 xs2)

section Region
variable (V : (c : Dev nD) → (b : Ref sig .tc) → Buf (Elt F) ((c : Thread nD τ).loc b))

/-! ## What the output tile and the scratch hold after each point -/

/-- The output tile, the running maximum, the running denominator and the running numerator after the body at position n:
    at a first key tile the reset-and-update from the point's blocks alone; at a middle or last key tile the update (and the
    finalisation) over what the point before left in the scratch. -/
def outsAt1 (c : Dev nD) : (n : ℕ) → n < cfg1.N → Vec F S512x2048 .f32 × Vec F S512x1 .f32 × Vec F S512x1 .f32 × Vec F S512x2048 .f32
  | 0, hn => attnOutsA c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h0 : (n + 1) % 8 = 0 then
      if h1 : (n + 1) % 8 = 7 then
        False.elim (by omega)
      else
        attnOutsA c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩)
    else
      if h1 : (n + 1) % 8 = 7 then
        attnOutsC c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2
      else
        attnOutsB c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2.1 (outsAt1 c n (Nat.lt_of_succ_lt hn)).2.2.1 (outsAt1 c n (Nat.lt_of_succ_lt hn)).2.2.2

/-- At a first key tile: the reset-and-update, from the point's blocks alone. -/
theorem outsAt1_A (c : Dev nD) (t : Fin cfg1.N) (h0 : t.val % 8 = 0) (h1 : ¬t.val % 8 = 7) :
    outsAt1 V c t.val t.isLt = attnOutsA c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact (dif_pos h0).trans ((dif_neg h1).trans rfl)

/-- At a middle key tile: the update over what the point before left. -/
theorem outsAt1_B (c : Dev nD) (t : Fin cfg1.N) (h0 : ¬t.val % 8 = 0) (h1 : ¬t.val % 8 = 7) :
    outsAt1 V c t.val t.isLt = attnOutsB c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a last key tile: the update and the finalisation over what the point before left. -/
theorem outsAt1_C (c : Dev nD) (t : Fin cfg1.N) (h0 : ¬t.val % 8 = 0) (h1 : t.val % 8 = 7) :
    outsAt1 V c t.val t.isLt = attnOutsC c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position n: before the first point what the region is entered with; afterwards the three scratch buffers at
    what the point before left in them, every other scoped buffer unopened, and the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
          ∗ Pipeline.scopedRestBut (Ix := Unit) (Name := ℕ) (U := UR sig nD τ) (Lvl := ℕ) (Val := Elt F) spec1 c [cc1_scratch0, cc1_scratch1, cc1_scratch2]) ∗ (∃ r, prngReg c r))

theorem PhiS1_zero (c : Dev nD) (n : ℕ) (h : n ≤ cfg1.N) (hz : n = 0) : PhiS1 V c n h = Pipeline.ΦA spec1 c := by
  subst hz; rfl

/-- After point n: the scratch at that point's contents. -/
theorem PhiS1_succ (c : Dev nD) (n : ℕ) (hn : n < cfg1.N) :
    PhiS1 V c (n + 1) hn = iprop(iprop(iprop(owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2))
          ∗ Pipeline.scopedRestBut (Ix := Unit) (Name := ℕ) (U := UR sig nD τ) (Lvl := ℕ) (Val := Elt F) spec1 c [cc1_scratch0, cc1_scratch1, cc1_scratch2]) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2))
          ∗ Pipeline.scopedRestBut (Ix := Unit) (Name := ℕ) (U := UR sig nD τ) (Lvl := ℕ) (Val := Elt F) spec1 c [cc1_scratch0, cc1_scratch1, cc1_scratch2]) ∗ (∃ r, prngReg c r)) := by
  cases n with
  | zero => exact absurd rfl hz
  | succ n => rfl

/-! ## The proof data -/

/-- The attention kernel's proof data on core c: the arrays as the region finds them; after the body at point t each input
    tile at its block and the output tile at what the point leaves in it; between points the invariant above; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window: each input tile its block, the output tile the first component of outsAt1. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input tile holds its block whenever the body is handed it. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input tile is never idle, so the body must leave it at its block. -/
theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1_3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1_4 t, after1_4]

/-! ## The body obligation -/

/-- What the body is called with at point t, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point. The input tiles hold their blocks; the closed forms say which of the three cases the point is in.
    At a first key tile the scratch is handed over at whatever it holds (what the region was entered with at the very first
    point, what the previous query row left otherwise) and comes back at the reset-and-update; at a middle or last key tile
    it is handed over at what the point before left and comes back updated. Each scratch buffer comes back with its pieces
    written over what it held, and since the pieces cover it that is the pieces read back. The output tile is idle and handed
    back untouched except at a last key tile, where the finalisation's piece covers it. The rest of the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4]
  have hN : t.val < 64 := lt_of_lt_of_eq t.isLt (show cfg1.N = 64 from N_1)
  by_cases h0 : t.val % 8 = 0
  · by_cases h1 : t.val % 8 = 7
    · exfalso; omega
    · rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold attnOutsA attnSoutA_0 attnSoutA_1 attnSoutA_2; (try dsimp only)
      by_cases hz : t.val = 0
      · rw [PhiS1_castSucc V c t, PhiS1_zero V c _ _ hz, PhiA1_eq]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
        iapply ((attnRunA c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HS2]; · iexact HS2
        iintro ⟨H0, H1, H2, H3, H4, H5, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (attnScoverA_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (attnScoverA_1 c _ _ _ _ _ _ _ _ _ _ _ _ _ _ _ _ _ _ _ _ _ _ _ _ _ _)
              unfold owns; iexists _; isplitr
              swap; · iexact HS2
              ipureintro; exact View.read_writes_of_cover _ _ _ _ _ (attnScoverA_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS1_castSucc V c t, PhiS1_pos V c _ _ hz]
        iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
        iapply ((attnRunA c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HS2]; · iexists _; iexact HS2
        iintro ⟨H0, H1, H2, H3, H4, H5, ⟨%es0, HS0⟩, ⟨%es1, HS1⟩, ⟨%es2, HS2⟩⟩
        isplitl [HS0 HS1 HS2 Hr Hg]
        · isplitl [HS0 HS1 HS2 Hr]
          · isplitl [HS0 HS1 HS2]
            · isplitl [HS0]
              · unfold owns; iexists _; isplitr
                swap; · iexact HS0
                ipureintro; exact View.read_writes_of_cover _ _ _ _ _ (attnScoverA_0 c _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (attnScoverA_1 c _ _ _ _ _ _ _ _ _ _ _ _ _ _ _ _ _ _ _ _ _ _ _ _ _ _)
              unfold owns; iexists _; isplitr
              swap; · iexact HS2
              ipureintro; exact View.read_writes_of_cover _ _ _ _ _ (attnScoverA_2 c _ _ _ _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold attnOutsC attnOutC_5 attnSoutC_0 attnSoutC_1 attnSoutC_2; (try dsimp only)
      have hz : t.val ≠ 0 := by omega
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((attnRunC c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (attnScoverC_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (attnScoverC_1 c _ _ _ _ _ _ _ _ _ _ _ _ _ _ _ _ _ _ _ _ _ _ _ _ _ _ _ _ _)
            unfold owns; iexists _; isplitr
            swap; · iexact HS2
            ipureintro; exact View.read_writes_of_cover _ _ _ _ _ (attnScoverC_2 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (attnCoverC_5 c _ _ _ _ _ _ _ _ _ _ _ _ _ _ _ _ _ _ _ _ _ _ _ _ _ _ _ _ _)
    · rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold attnOutsB attnSoutB_0 attnSoutB_1 attnSoutB_2; (try dsimp only)
      have hz : t.val ≠ 0 := by omega
      rw [PhiS1_castSucc V c t, PhiS1_pos V c _ _ hz]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((attnRunB c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hr Hg]
      · isplitl [HS0 HS1 HS2 Hr]
        · isplitl [HS0 HS1 HS2]
          · isplitl [HS0]
            · unfold owns; iexists _; isplitr
              swap; · iexact HS0
              ipureintro; exact View.read_writes_of_cover _ _ _ _ _ (attnScoverB_0 c _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (attnScoverB_1 c _ _ _ _ _ _ _ _ _ _ _ _ _ _ _ _ _ _ _ _ _ _ _ _ _ _ _ _ _)
            unfold owns; iexists _; isplitr
            swap; · iexact HS2
            ipureintro; exact View.read_writes_of_cover _ _ _ _ _ (attnScoverB_2 c _ _ _ _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives back what the region was entered with: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1, HS2⟩, Hr⟩, Hg⟩
  isplitl [HS0 HS1 HS2 Hr]
  · isplitl [HS0 HS1 HS2]
    · isplitl [HS0]; · iexists _; iexact HS0
      isplitl [HS1]; · iexists _; iexact HS1
      iexists _; iexact HS2
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region

end Cert.Proof.KB

end
-- ==== Proof.KB.FfnRuns.lean ====
/-
  The third kernel of the block is the feed-forward half: on a grid of 8 row tiles by 16 hidden tiles (point t = 16 si + fi)
  it normalises the 512 rows of the activation tile by their root mean square and scales them by the norm weights (once per
  row tile, at fi = 0, into a buffer h it keeps), multiplies h by the gate and up weight tiles, takes silu(gate) * up, multiplies
  that by the down weight tile and adds the product into an accumulator acc it also keeps (set to zero at fi = 0); at fi = 15 it
  stores activation + acc into the output tile. This module holds what the three control cases of that body share: the two
  branch conditions with their closed forms over the grid, where the output tile is idle and where it is written back, the
  names of the tiles the body is called on, and the region invariant opened at the two kept buffers.
    first hidden tile  (fi = 0):      the initialisation is taken, the finalisation is not;
    middle hidden tile (0 < fi < 15): neither is taken;
    last hidden tile   (fi = 15):     the finalisation is taken, the initialisation is not.
-/
import proofs.«105332_j8211977470193_2_alg».proof.Proof.Gen.Kernel.Launch
import proofs.«105332_j8211977470193_2_alg».proof.Proof.Gen.Kernel.Skeleton
import proofs.«105332_j8211977470193_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The initialisation's condition (the hidden-tile coordinate is 0), as the body computes it from the grid coordinates. -/
abbrev ffnInit (i : grid2.Coords) : Prop :=
  (Scalar.cmpi .ne (Scalar.extui (Scalar.cmpi .eq (BitVec.ofNat 32 (i 1).val) 0#32)) 0#32) = 1#1
/-- It holds exactly at the first hidden tile of each row tile. -/
theorem ffnInit_iff : ∀ t : Fin cfg2.N, ffnInit (grid2.coords t) ↔ t.val % 16 = 0 :=
  (by decide +kernel : ∀ t : Fin grid2.N, ffnInit (grid2.coords t) ↔ t.val % 16 = 0)

/-- The finalisation's condition (the hidden-tile coordinate is 15). -/
abbrev ffnFin (i : grid2.Coords) : Prop := k2_cond2 i = 1#1
/-- It holds exactly at the last hidden tile of each row tile. -/
theorem ffnFin_iff : ∀ t : Fin cfg2.N, ffnFin (grid2.coords t) ↔ t.val % 16 = 15 :=
  (by decide +kernel : ∀ t : Fin grid2.N, ffnFin (grid2.coords t) ↔ t.val % 16 = 15)

/-! ## Where the windows are idle -/

/-- The five input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At a first hidden tile nothing is stored into the output tile: the window is idle there, -/
theorem idleAt2_5_first : ∀ t : Fin cfg2.N, ffnInit (grid2.coords t) → ¬ffnFin (grid2.coords t) → cfg2.idle 5 (grid2.coords t) = true := by decide +kernel
/-- and its block is not written back. -/
theorem noFlush2_5_first : ∀ t : Fin cfg2.N, ffnInit (grid2.coords t) → ¬ffnFin (grid2.coords t) → (cfg2.win 5).flush t = false := by decide +kernel
/-- The same at a middle hidden tile. -/
theorem idleAt2_5_mid : ∀ t : Fin cfg2.N, ¬ffnInit (grid2.coords t) → ¬ffnFin (grid2.coords t) → cfg2.idle 5 (grid2.coords t) = true := by decide +kernel
theorem noFlush2_5_mid : ∀ t : Fin cfg2.N, ¬ffnInit (grid2.coords t) → ¬ffnFin (grid2.coords t) → (cfg2.win 5).flush t = false := by decide +kernel
/-- At a last hidden tile the output tile is stored: the window is live. -/
theorem liveAt2_5_last : ∀ t : Fin cfg2.N, ¬ffnInit (grid2.coords t) → ffnFin (grid2.coords t) → cfg2.idle 5 (grid2.coords t) = false := by decide +kernel

/-! ## The tiles the body is called on -/

/-- Each window's current staging tile at point t, as the pipeline passes it to the body, and its wholeness. -/
abbrev ms2_0 (t : Fin cfg2.N) : Memref sig .tc .vmem S512x2048 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x512 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x2048 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x2048 .f32 := win2_5.stage (cfg2.slots t 5)
abbrev hs2_5 (t : Fin cfg2.N) : (ms2_5 t).IsWhole := hstage2_5 ((cfg2.slots t 5).cast nbuf2_5)

/-- The two buffers the kernel keeps from one hidden tile to the next: the normalised rows h and the accumulator acc. -/
abbrev scM2_0 : Memref sig .tc .vmem S512x2048 .f32 := Memref.whole cc2_scratch0
abbrev scM2_1 : Memref sig .tc .vmem S512x2048 .f32 := Memref.whole cc2_scratch1
/-- The views through which what they hold is stated. -/
abbrev VS2_0 : View sig .tc .vmem S512x2048 .f32 := scM2_0.view
abbrev VS2_1 : View sig .tc .vmem S512x2048 .f32 := scM2_1.view
/-- One staging buffer of the output window, through which its contents are stated (which one does not matter: the
    pieces cover it). -/
abbrev VO2_5 : View sig .tc .vmem S512x2048 .f32 := (Memref.whole cc2_stg5_0 : Memref sig .tc .vmem S512x2048 .f32).view

/-! ## The region invariant, opened at the two kept buffers -/

/-- Every other scoped buffer of the core, unopened. -/
abbrev restBut2 (c : Dev nD) : sProp 𝕄 :=
  Pipeline.scopedRestBut (Ix := Unit) (Name := ℕ) (U := UR sig nD τ) (Lvl := ℕ) (Val := Elt F) spec2 c [cc2_scratch0, cc2_scratch1]

/-- What the launch hands the region: h and acc each at some contents, the other scoped buffers, the generator register. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ restBut2 (F := F) c) ∗ (∃ r, prngReg c r)) := by
  unfold Pipeline.ΦA; rw [scopedRest2_split]; simp only [scM2_0, scM2_1, owns_whole]; try rfl

end Cert.Proof.KB

end
-- ==== Proof.KB.FfnRunA.lean ====
/-
  The feed-forward body at a first hidden tile (fi = 0), run once on symbolic operands. The initialisation is taken: the
  normalised rows are stored whole into h and zeros whole into acc; then h and acc are loaded back, the hidden tile's
  contribution silu(h Wg) * (h Wu) Wd is added to acc and stored; the finalisation is not taken, so nothing is stored into the
  output tile. From the five input tiles at their contents, the output tile at any contents and h and acc at anything, the body
  ends with the inputs and the output tile as they were and h and acc each holding the pieces its stores wrote. Neither h nor
  acc is read before it is stored whole, so nothing here depends on what the point before left.
-/
import proofs.«105332_j8211977470193_2_alg».proof.Proof.KB.FfnRuns

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in h and in acc at a first hidden tile (last store first), with the proof that the
    body runs to its return handing the inputs and the untouched output tile back unchanged and h and acc with their
    pieces written. -/
noncomputable def ffnRunA (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) :
    Σ' (Lh : List (View.Piece (Elt F) S512x2048 .f32)), { Lacc : List (View.Piece (Elt F) S512x2048 .f32) //
      ∀ (xi5 : Vec F S512x2048 .f32) (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare xi5
            ∗ (∃ d, owns (c : Thread nD τ) a6 fullShare d) ∗ (∃ d, owns (c : Thread nD τ) a7 fullShare d)
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
                ∗ owns (c : Thread nD τ) a5 fullShare xi5
                ∗ (∃ f, a6.view.loc (c : Thread nD τ) ↦[a6.view.set]{fullShare} a6.view.writes (Elt F) f Lh)
                ∗ (∃ f, a7.view.loc (c : Thread nD τ) ↦[a7.view.set]{fullShare} a7.view.writes (Elt F) f Lacc)) -∗ K ⟨⟩))
          ⊢ wp frame (wpE (defs₀ (F := F)) Variants.none c none) E (cc2__ffn_kernel i a0 hw0 a1 hw1 a2 hw2 a3 hw3 a4 hw4 a5 hw5 a6 hw6 a7 hw7) K } := by
  refine ⟨?_, ?_, fun xi5 E K => ?run⟩
  case run =>
    simp only [cc2__ffn_kernel_eq_skeleton]; unfold cc2__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := hw0.eq_unread hf0; obtain rfl := hw1.eq_unread hf1; obtain rfl := hw2.eq_unread hf2
    obtain rfl := hw3.eq_unread hf3; obtain rfl := hw4.eq_unread hf4; obtain rfl := hw5.eq_unread hf5
    sl_exec (disch := first | exact hc0 | exact hc1)
    sl_step
    iapply Hk
    isplitl [H0]
    · iexists _; isplitr; · ipureintro; exact hw0.read_unread _
      iexact H0
    isplitl [H1]
    · iexists _; isplitr; · ipureintro; exact hw1.read_unread _
      iexact H1
    isplitl [H2]
    · iexists _; isplitr; · ipureintro; exact hw2.read_unread _
      iexact H2
    isplitl [H3]
    · iexists _; isplitr; · ipureintro; exact hw3.read_unread _
      iexact H3
    isplitl [H4]
    · iexists _; isplitr; · ipureintro; exact hw4.read_unread _
      iexact H4
    isplitl [H5]
    · iexists _; isplitr; · ipureintro; exact hw5.read_unread _
      iexact H5
    isplitl [H6]; · iexists _; iexact H6
    iexists _; iexact H7

end Cert.Proof.KB

end
-- ==== Proof.KB.FfnRunB.lean ====
/-
  The feed-forward body at a middle hidden tile (0 < fi < 15), run once on symbolic operands. Neither branch is taken: h and
  acc are loaded, the hidden tile's contribution silu(h Wg) * (h Wu) Wd is added to acc and stored. From the five input tiles at
  their contents, the output tile at any contents, and h and acc at what the point before left, the body ends with the inputs,
  the output tile and h as they were and acc holding the piece its one store wrote.
-/
import proofs.«105332_j8211977470193_2_alg».proof.Proof.KB.FfnRunA

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The piece the body's store leaves in acc at a middle hidden tile, with the proof that the body runs to its return
    handing the inputs, the untouched output tile and h back unchanged and acc with its piece written. -/
noncomputable def ffnRunB (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ¬ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) :
    { Lacc : List (View.Piece (Elt F) S512x2048 .f32) //
      ∀ (xi5 : Vec F S512x2048 .f32) (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare xi5
            ∗ owns (c : Thread nD τ) a6 fullShare xh ∗ owns (c : Thread nD τ) a7 fullShare xacc
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
                ∗ owns (c : Thread nD τ) a5 fullShare xi5
                ∗ owns (c : Thread nD τ) a6 fullShare xh
                ∗ (∃ f, a7.view.loc (c : Thread nD τ) ↦[a7.view.set]{fullShare} a7.view.writes (Elt F) f Lacc)) -∗ K ⟨⟩))
          ⊢ wp frame (wpE (defs₀ (F := F)) Variants.none c none) E (cc2__ffn_kernel i a0 hw0 a1 hw1 a2 hw2 a3 hw3 a4 hw4 a5 hw5 a6 hw6 a7 hw7) K } := by
  refine ⟨?_, fun xi5 E K => ?run⟩
  case run =>
    simp only [cc2__ffn_kernel_eq_skeleton]; unfold cc2__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := hw0.eq_unread hf0; obtain rfl := hw1.eq_unread hf1; obtain rfl := hw2.eq_unread hf2
    obtain rfl := hw3.eq_unread hf3; obtain rfl := hw4.eq_unread hf4; obtain rfl := hw5.eq_unread hf5
    obtain rfl := hw6.eq_unread hf6; obtain rfl := hw7.eq_unread hf7
    sl_exec (disch := first | exact hc0 | exact hc1)
    sl_step
    iapply Hk
    isplitl [H0]
    · iexists _; isplitr; · ipureintro; exact hw0.read_unread _
      iexact H0
    isplitl [H1]
    · iexists _; isplitr; · ipureintro; exact hw1.read_unread _
      iexact H1
    isplitl [H2]
    · iexists _; isplitr; · ipureintro; exact hw2.read_unread _
      iexact H2
    isplitl [H3]
    · iexists _; isplitr; · ipureintro; exact hw3.read_unread _
      iexact H3
    isplitl [H4]
    · iexists _; isplitr; · ipureintro; exact hw4.read_unread _
      iexact H4
    isplitl [H5]
    · iexists _; isplitr; · ipureintro; exact hw5.read_unread _
      iexact H5
    isplitl [H6]
    · iexists _; isplitr; · ipureintro; exact hw6.read_unread _
      iexact H6
    iexists _; iexact H7

end Cert.Proof.KB

end
-- ==== Proof.KB.FfnRunC.lean ====
/-
  The feed-forward body at a last hidden tile (fi = 15), run once on symbolic operands. The initialisation is not taken: h
  and acc are loaded, the hidden tile's contribution silu(h Wg) * (h Wu) Wd is added to acc and stored; then the finalisation is
  taken: the activation tile and acc are loaded and activation + acc is stored whole into the output tile. From the five input
  tiles at their contents, the output tile at anything, and h and acc at what the point before left, the body ends with the
  inputs and h as they were, and acc and the output tile each holding the piece its one store wrote.
-/
import proofs.«105332_j8211977470193_2_alg».proof.Proof.KB.FfnRunB

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the output tile and in acc at a last hidden tile, with the proof that the body
    runs to its return handing the inputs and h back unchanged and the output tile and acc with their pieces written. -/
noncomputable def ffnRunC (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) :
    Σ' (Lo : List (View.Piece (Elt F) S512x2048 .f32)), { Lacc : List (View.Piece (Elt F) S512x2048 .f32) //
      ∀ (E : Set ℕ) (K : PUnit → sProp 𝕄),
        iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ (∃ d, owns (c : Thread nD τ) a5 fullShare d)
            ∗ owns (c : Thread nD τ) a6 fullShare xh ∗ owns (c : Thread nD τ) a7 fullShare xacc
            ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
                ∗ (∃ f, a5.view.loc (c : Thread nD τ) ↦[a5.view.set]{fullShare} a5.view.writes (Elt F) f Lo)
                ∗ owns (c : Thread nD τ) a6 fullShare xh
                ∗ (∃ f, a7.view.loc (c : Thread nD τ) ↦[a7.view.set]{fullShare} a7.view.writes (Elt F) f Lacc)) -∗ K ⟨⟩))
          ⊢ wp frame (wpE (defs₀ (F := F)) Variants.none c none) E (cc2__ffn_kernel i a0 hw0 a1 hw1 a2 hw2 a3 hw3 a4 hw4 a5 hw5 a6 hw6 a7 hw7) K } := by
  refine ⟨?_, ?_, fun E K => ?run⟩
  case run =>
    simp only [cc2__ffn_kernel_eq_skeleton]; unfold cc2__ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, Hk⟩
    obtain rfl := hw0.eq_unread hf0; obtain rfl := hw1.eq_unread hf1; obtain rfl := hw2.eq_unread hf2
    obtain rfl := hw3.eq_unread hf3; obtain rfl := hw4.eq_unread hf4
    obtain rfl := hw6.eq_unread hf6; obtain rfl := hw7.eq_unread hf7
    sl_exec (disch := first | exact hc0 | exact hc1)
    sl_step
    iapply Hk
    isplitl [H0]
    · iexists _; isplitr; · ipureintro; exact hw0.read_unread _
      iexact H0
    isplitl [H1]
    · iexists _; isplitr; · ipureintro; exact hw1.read_unread _
      iexact H1
    isplitl [H2]
    · iexists _; isplitr; · ipureintro; exact hw2.read_unread _
      iexact H2
    isplitl [H3]
    · iexists _; isplitr; · ipureintro; exact hw3.read_unread _
      iexact H3
    isplitl [H4]
    · iexists _; isplitr; · ipureintro; exact hw4.read_unread _
      iexact H4
    isplitl [H5]; · iexists _; iexact H5
    isplitl [H6]
    · iexists _; isplitr; · ipureintro; exact hw6.read_unread _
      iexact H6
    iexists _; iexact H7

end Cert.Proof.KB

end
-- ==== Proof.KB.FfnData.lean ====
/-
  The feed-forward kernel's proof data over its grid of 8 row tiles by 16 hidden tiles, point t = 16 si + fi. At every point
  the five input tiles hold the blocks of their arrays that the index maps select (rows 512 si … 512 si + 511 of the
  activations and the whole norm-weight row, both left in place while fi runs; columns 512 fi … 512 fi + 511 of the gate and
  of the up weights; rows 512 fi … 512 fi + 511 of the down weights). What the output tile, the normalised rows h and the
  accumulator acc hold after each point is defined by recursion on the point: at fi = 0, h and acc are what the
  initialisation and the first accumulation wrote, from this point's blocks alone; at 0 < fi < 15, h is what the point before
  left and acc is what the one store wrote from the blocks and from what the point before left in h and acc; at fi = 15 the
  same, and the output tile is what the finalisation wrote. Where the output tile is not stored (fi < 15) the window is idle:
  its buffer is handed back as found and is not written back. Between points the invariant holds h and acc at exactly those
  contents, beside the other scoped buffers and the generator register; before the first point they are at anything.
-/
import proofs.«105332_j8211977470193_2_alg».proof.Proof.KB.FfnRunC

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input tile holds its block at every point, whether the pipeline fetched it there or left it in place because the
    block's index did not move (the activation tile and the norm weights while fi runs). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region

/-! ## What each control case leaves in the buffers it stores -/

/-- At a first hidden tile the initialisation's store writes all of h, -/
theorem scoverA_h (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) (y : S512x2048.Idx) :
    ∃ pc ∈ (ffnRunA c i a0 hw0 a1 hw1 a2 hw2 a3 hw3 a4 hw4 a5 hw5 a6 hw6 a7 hw7 hc0 hc1 x0 x1 x2 x3 x4).1, y ∈ pc.1.set :=
  View.cover_of_tiledL (ffnRunA c i a0 hw0 a1 hw1 a2 hw2 a3 hw3 a4 hw4 a5 hw5 a6 hw6 a7 hw7 hc0 hc1 x0 x1 x2 x3 x4).1 S512x2048.size (by sl_kernel_rfl) y

/-- and the stores into acc (the zeros, then the first accumulation) write all of acc. -/
theorem scoverA_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) (y : S512x2048.Idx) :
    ∃ pc ∈ (ffnRunA c i a0 hw0 a1 hw1 a2 hw2 a3 hw3 a4 hw4 a5 hw5 a6 hw6 a7 hw7 hc0 hc1 x0 x1 x2 x3 x4).2.1, y ∈ pc.1.set :=
  View.cover_of_tiledL (ffnRunA c i a0 hw0 a1 hw1 a2 hw2 a3 hw3 a4 hw4 a5 hw5 a6 hw6 a7 hw7 hc0 hc1 x0 x1 x2 x3 x4).2.1 S512x2048.size (by sl_kernel_rfl) y

/-- What a first hidden tile leaves in h: its pieces read back. -/
def soutA_h (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) : Vec F S512x2048 .f32 :=
  VS2_0.read (Elt F) (VS2_0.writes (Elt F) VS2_0.junk (ffnRunA c i a0 hw0 a1 hw1 a2 hw2 a3 hw3 a4 hw4 a5 hw5 a6 hw6 a7 hw7 hc0 hc1 x0 x1 x2 x3 x4).1)

/-- What a first hidden tile leaves in acc: its pieces read back. -/
def soutA_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) : Vec F S512x2048 .f32 :=
  VS2_1.read (Elt F) (VS2_1.writes (Elt F) VS2_1.junk (ffnRunA c i a0 hw0 a1 hw1 a2 hw2 a3 hw3 a4 hw4 a5 hw5 a6 hw6 a7 hw7 hc0 hc1 x0 x1 x2 x3 x4).2.1)

/-- At a middle hidden tile the one store into acc writes all of it. -/
theorem scoverB_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ¬ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) (y : S512x2048.Idx) :
    ∃ pc ∈ (ffnRunB c i a0 hw0 a1 hw1 a2 hw2 a3 hw3 a4 hw4 a5 hw5 a6 hw6 a7 hw7 hc0 hc1 x0 x1 x2 x3 x4 xh xacc).1, y ∈ pc.1.set :=
  View.cover_of_tiledL (ffnRunB c i a0 hw0 a1 hw1 a2 hw2 a3 hw3 a4 hw4 a5 hw5 a6 hw6 a7 hw7 hc0 hc1 x0 x1 x2 x3 x4 xh xacc).1 S512x2048.size (by sl_kernel_rfl) y

/-- What a middle hidden tile leaves in acc: its piece read back. -/
def soutB_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ¬ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) : Vec F S512x2048 .f32 :=
  VS2_1.read (Elt F) (VS2_1.writes (Elt F) VS2_1.junk (ffnRunB c i a0 hw0 a1 hw1 a2 hw2 a3 hw3 a4 hw4 a5 hw5 a6 hw6 a7 hw7 hc0 hc1 x0 x1 x2 x3 x4 xh xacc).1)

/-- At a last hidden tile the finalisation's store writes the whole output tile, -/
theorem coverC_out (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) (y : S512x2048.Idx) :
    ∃ pc ∈ (ffnRunC c i a0 hw0 a1 hw1 a2 hw2 a3 hw3 a4 hw4 a5 hw5 a6 hw6 a7 hw7 hc0 hc1 x0 x1 x2 x3 x4 xh xacc).1, y ∈ pc.1.set :=
  View.cover_of_tiledL (ffnRunC c i a0 hw0 a1 hw1 a2 hw2 a3 hw3 a4 hw4 a5 hw5 a6 hw6 a7 hw7 hc0 hc1 x0 x1 x2 x3 x4 xh xacc).1 S512x2048.size (by sl_kernel_rfl) y

/-- and the one store into acc writes all of it. -/
theorem scoverC_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) (y : S512x2048.Idx) :
    ∃ pc ∈ (ffnRunC c i a0 hw0 a1 hw1 a2 hw2 a3 hw3 a4 hw4 a5 hw5 a6 hw6 a7 hw7 hc0 hc1 x0 x1 x2 x3 x4 xh xacc).2.1, y ∈ pc.1.set :=
  View.cover_of_tiledL (ffnRunC c i a0 hw0 a1 hw1 a2 hw2 a3 hw3 a4 hw4 a5 hw5 a6 hw6 a7 hw7 hc0 hc1 x0 x1 x2 x3 x4 xh xacc).2.1 S512x2048.size (by sl_kernel_rfl) y

/-- What a last hidden tile leaves in the output tile: its piece read back. -/
def outC (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) : Vec F S512x2048 .f32 :=
  VO2_5.read (Elt F) (VO2_5.writes (Elt F) VO2_5.junk (ffnRunC c i a0 hw0 a1 hw1 a2 hw2 a3 hw3 a4 hw4 a5 hw5 a6 hw6 a7 hw7 hc0 hc1 x0 x1 x2 x3 x4 xh xacc).1)

/-- What a last hidden tile leaves in acc: its piece read back. -/
def soutC_acc (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) : Vec F S512x2048 .f32 :=
  VS2_1.read (Elt F) (VS2_1.writes (Elt F) VS2_1.junk (ffnRunC c i a0 hw0 a1 hw1 a2 hw2 a3 hw3 a4 hw4 a5 hw5 a6 hw6 a7 hw7 hc0 hc1 x0 x1 x2 x3 x4 xh xacc).2.1)

/-- Where nothing is stored into the output tile (every point but a last hidden tile) the window is idle and is not
    written back: what is stated for it there is never consulted. A fixed tile stands in. -/
def outIdle2 : Vec F S512x2048 .f32 :=
  VO2_5.read (Elt F) (VO2_5.writes (Elt F) VO2_5.junk [])

section Region
variable (V : (c : Dev nD) → (b : Ref sig .tc) → Buf (Elt F) ((c : Thread nD τ).loc b))

/-! ## What the output tile, h and acc hold after each point -/

/-- After a first hidden tile: the output tile untouched (a stand-in), h and acc at what that case wrote from the point's
    own blocks. -/
def ffnAtA (c : Dev nD) (t : Fin cfg2.N) (h0 : t.val % 16 = 0) (h1 : ¬t.val % 16 = 15) :
    Vec F S512x2048 .f32 × Vec F S512x2048 .f32 × Vec F S512x2048 .f32 :=
  (outIdle2, soutA_h c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((ffnInit_iff t).mpr h0) (fun h => h1 ((ffnFin_iff t).mp h)) (iblk2 V c 0 t) (iblk2 V c 1 t) (iblk2 V c 2 t) (iblk2 V c 3 t) (iblk2 V c 4 t), soutA_acc c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((ffnInit_iff t).mpr h0) (fun h => h1 ((ffnFin_iff t).mp h)) (iblk2 V c 0 t) (iblk2 V c 1 t) (iblk2 V c 2 t) (iblk2 V c 3 t) (iblk2 V c 4 t))

/-- After a middle hidden tile, from what the point before left in h (xh) and in acc (xacc): the output tile untouched,
    h still xh, acc at what the one store wrote. -/
def ffnAtB (c : Dev nD) (t : Fin cfg2.N) (h0 : ¬t.val % 16 = 0) (h1 : ¬t.val % 16 = 15) (xh xacc : Vec F S512x2048 .f32) :
    Vec F S512x2048 .f32 × Vec F S512x2048 .f32 × Vec F S512x2048 .f32 :=
  (outIdle2, xh, soutB_acc c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) (fun h => h1 ((ffnFin_iff t).mp h)) (iblk2 V c 0 t) (iblk2 V c 1 t) (iblk2 V c 2 t) (iblk2 V c 3 t) (iblk2 V c 4 t) xh xacc)

/-- After a last hidden tile, from xh and xacc: the output tile at what the finalisation wrote, h still xh, acc at what
    the one store wrote. -/
def ffnAtC (c : Dev nD) (t : Fin cfg2.N) (h0 : ¬t.val % 16 = 0) (h1 : t.val % 16 = 15) (xh xacc : Vec F S512x2048 .f32) :
    Vec F S512x2048 .f32 × Vec F S512x2048 .f32 × Vec F S512x2048 .f32 :=
  (outC c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) ((ffnFin_iff t).mpr h1) (iblk2 V c 0 t) (iblk2 V c 1 t) (iblk2 V c 2 t) (iblk2 V c 3 t) (iblk2 V c 4 t) xh xacc, xh, soutC_acc c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) ((ffnFin_iff t).mpr h1) (iblk2 V c 0 t) (iblk2 V c 1 t) (iblk2 V c 2 t) (iblk2 V c 3 t) (iblk2 V c 4 t) xh xacc)

/-- What the output tile's staging buffer, h and acc hold after the body at position n (in that order): the case the
    closed forms select at n, run at the point's tiles and blocks; a middle or last hidden tile over what position n - 1
    left in h and acc, a first hidden tile over nothing. -/
def outsAt2 (c : Dev nD) : (n : ℕ) → n < cfg2.N → Vec F S512x2048 .f32 × Vec F S512x2048 .f32 × Vec F S512x2048 .f32
  | 0, hn => ffnAtA V c ⟨0, hn⟩ (Nat.zero_mod _) (by intro h; (try dsimp only at h); omega)
  | n + 1, hn =>
    if h0 : (n + 1) % 16 = 0 then
      ffnAtA V c ⟨n + 1, hn⟩ h0 (by intro h; (try dsimp only at h); omega)
    else if h1 : (n + 1) % 16 = 15 then
      ffnAtC V c ⟨n + 1, hn⟩ h0 h1 (outsAt2 c n (Nat.lt_of_succ_lt hn)).2.1 (outsAt2 c n (Nat.lt_of_succ_lt hn)).2.2
    else
      ffnAtB V c ⟨n + 1, hn⟩ h0 h1 (outsAt2 c n (Nat.lt_of_succ_lt hn)).2.1 (outsAt2 c n (Nat.lt_of_succ_lt hn)).2.2

/-- At a first hidden tile: that case's contents, whatever came before. -/
theorem outsAt2_A (c : Dev nD) (t : Fin cfg2.N) (h0 : t.val % 16 = 0) (h1 : ¬t.val % 16 = 15) :
    outsAt2 V c t.val t.isLt = ffnAtA V c t h0 h1 := by
  obtain ⟨n, hn⟩ := t
  cases n with
  | zero => rfl
  | succ n => exact (dif_pos h0).trans rfl

/-- At a middle hidden tile: that case's contents over what the point before left. -/
theorem outsAt2_B (c : Dev nD) (t : Fin cfg2.N) (h0 : ¬t.val % 16 = 0) (h1 : ¬t.val % 16 = 15) :
    outsAt2 V c t.val t.isLt = ffnAtB V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h1).trans rfl)

/-- At a last hidden tile: that case's contents over what the point before left. -/
theorem outsAt2_C (c : Dev nD) (t : Fin cfg2.N) (h0 : ¬t.val % 16 = 0) (h1 : t.val % 16 = 15) :
    outsAt2 V c t.val t.isLt = ffnAtC V c t h0 h1 (outsAt2 V c (t.val - 1) (Nat.lt_of_le_of_lt (Nat.sub_le _ _) t.isLt)).2.1 (outsAt2 V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h1).trans rfl)

/-! ## The invariant between points -/

/-- Before position n: before the first point what the launch hands over (h and acc at anything); afterwards h and acc at
    what position n - 1 left in them, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.1) ∗ owns (c : Thread nD τ) scM2_1 fullShare ((outsAt2 V c n hn).2.2))
      ∗ restBut2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare ((outsAt2 V c n hn).2.1) ∗ owns (c : Thread nD τ) scM2_1 fullShare ((outsAt2 V c n hn).2.2))
      ∗ restBut2 (F := F) c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.1) ∗ owns (c : Thread nD τ) scM2_1 fullShare ((outsAt2 V c (n - 1) (by omega)).2.2))
      ∗ restBut2 (F := F) c) ∗ (∃ r, prngReg c r)) := by
  cases n with
  | zero => exact absurd rfl hz
  | succ n => rfl

/-! ## The proof data -/

/-- The feed-forward kernel's proof data on core c: the arrays as the region finds them; after the body at point t each
    input tile at its block and the output tile at the first component of what that point leaves; between points the
    invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- The invariant at a point's start, restated at the point's position. -/
theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- An input window is never idle: the body leaves its tile at its block. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) :
    (dat2 V c).leavesExact 3 t = owns (c : Thread nD τ) (ms2_3 t) fullShare (iblk2 V c 3 t) := by
  unfold Dat.leavesExact; rw [liveAt2_3 t, after2_3]
theorem leaves2_4 (c : Dev nD) (t : Fin cfg2.N) :
    (dat2 V c).leavesExact 4 t = owns (c : Thread nD τ) (ms2_4 t) fullShare (iblk2 V c 4 t) := by
  unfold Dat.leavesExact; rw [liveAt2_4 t, after2_4]

/-! ## The body obligation -/

/-- What the body is called with at point t, window by window, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 8000000 in
/-- The body at any point. The input tiles hold their blocks; the closed forms say which control case the point is in. At a
    first hidden tile the run takes h and acc at anything (what the launch handed over at the very first point, what the
    previous row tile left otherwise) and the output tile is handed back as found; at a middle hidden tile the invariant
    supplies h and acc at what the point before left, h goes back unchanged and acc at this point's contents; at a last
    hidden tile the same, and the output tile comes back written whole. Where a store's pieces cover a buffer, what it
    holds is the pieces read back, whatever it held before. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4]
  have hN : t.val < 128 := lt_of_lt_of_eq t.isLt (show cfg2.N = 128 from N_2)
  by_cases h0 : t.val % 16 = 0
  · have h1 : ¬t.val % 16 = 15 := by omega
    rw [Dat.leavesExact_idle (dat2 V c) 5 t (idleAt2_5_first t ((ffnInit_iff t).mpr h0) (fun h => h1 ((ffnFin_iff t).mp h))) (noFlush2_5_first t ((ffnInit_iff t).mpr h0) (fun h => h1 ((ffnFin_iff t).mp h)))]
    rw [outsAt2_A V c t h0 h1]
    unfold ffnAtA soutA_h soutA_acc; (try dsimp only)
    by_cases hz : t.val = 0
    · rw [PhiS2_castSucc V c t, PhiS2_zero V c _ _ hz, PhiA2_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunA c (grid2.coords t) _ _ _ _ _ _ _ _ _ _ _ _ _ _ _ _ ((ffnInit_iff t).mpr h0) (fun h => h1 ((ffnFin_iff t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%e6, HS0⟩, ⟨%e7, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverA_h c _ _ _ _ _ _ _ _ _ _ _ _ _ _ _ _ _ _ _ _ _ _ _ _)
            unfold owns; iexists _; isplitr
            swap; · iexact HS1
            ipureintro; exact View.read_writes_of_cover _ _ _ _ _ (scoverA_acc c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunA c (grid2.coords t) _ _ _ _ _ _ _ _ _ _ _ _ _ _ _ _ ((ffnInit_iff t).mpr h0) (fun h => h1 ((ffnFin_iff t).mp h)) (iblk2 V c 0 t) (iblk2 V c 1 t) (iblk2 V c 2 t) (iblk2 V c 3 t) (iblk2 V c 4 t)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      iintro ⟨H0, H1, H2, H3, H4, H5, ⟨%e6, HS0⟩, ⟨%e7, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scoverA_h c _ _ _ _ _ _ _ _ _ _ _ _ _ _ _ _ _ _ _ _ _ _ _ _)
            unfold owns; iexists _; isplitr
            swap; · iexact HS1
            ipureintro; exact View.read_writes_of_cover _ _ _ _ _ (scoverA_acc c _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    by_cases h1 : t.val % 16 = 15
    · rw [show (dat2 V c).leavesExact 5 t = owns (c : Thread nD τ) (ms2_5 t) fullShare ((dat2 V c).after 5 t) from by
        unfold Dat.leavesExact; rw [liveAt2_5_last t (fun h => h0 ((ffnInit_iff t).mp h)) ((ffnFin_iff t).mpr h1)], after2_5]
      rw [outsAt2_C V c t h0 h1]
      unfold ffnAtC outC soutC_acc; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunC c (grid2.coords t) _ _ _ _ _ _ _ _ _ _ _ _ _ _ _ _ (fun h => h0 ((ffnInit_iff t).mp h)) ((ffnFin_iff t).mpr h1) (iblk2 V c 0 t) (iblk2 V c 1 t) (iblk2 V c 2 t) (iblk2 V c 3 t) (iblk2 V c 4 t) _ _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, HS0, ⟨%e7, HS1⟩⟩
      isplitl [HS0 HS1 Hr Hg]
      · isplitl [HS0 HS1 Hr]
        · isplitl [HS0 HS1]
          · isplitl [HS0]; · iexact HS0
            unfold owns; iexists _; isplitr
            swap; · iexact HS1
            ipureintro; exact View.read_writes_of_cover _ _ _ _ _ (scoverC_acc c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_out c _ _ _ _ _ _ _ _ _ _ _ _ _ _ _ _ _ _ _ _ _ _ _ _ _ _)
    · rw [Dat.leavesExact_idle (dat2 V c) 5 t (idleAt2_5_mid t (fun h => h0 ((ffnInit_iff t).mp h)) (fun h => h1 ((ffnFin_iff t).mp h))) (noFlush2_5_mid t (fun h => h0 ((ffnInit_iff t).mp h)) (fun h => h1 ((ffnFin_iff t).mp h)))]
      rw [outsAt2_B V c t h0 h1]
      unfold ffnAtB soutB_acc; (try dsimp only)
      rw [PhiS2_castSucc V c t, PhiS2_pos V c _ _ hz]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
      iapply ((ffnRunB c (grid2.coords t) _ _ _ _ _ _ _ _ _ _ _ _ _ _ _ _ (fun h => h0 ((ffnInit_iff t).mp h)) (fun h => h1 ((ffnFin_iff t).mp h)) (iblk2 V c 0 t) (iblk2 V c 1 t) (iblk2 V c 2 t) (iblk2 V c 3 t) (iblk2 V c 4 t) _ _).2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, ⟨%e7, HS1⟩⟩
      isplitl [HS0 HS1 Hr Hg]
      · isplitl [HS0 HS1 Hr]
        · isplitl [HS0 HS1]
          · isplitl [HS0]; · iexact HS0
            unfold owns; iexists _; isplitr
            swap; · iexact HS1
            ipureintro; exact View.read_writes_of_cover _ _ _ _ _ (scoverB_acc c _ _ _ _ _ _ _ _ _ _ _ _ _ _ _ _ _ _ _ _ _ _ _ _ _ _)
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point the invariant gives back what the launch handed over: what h and acc hold is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 128 := N_2; omega)

end Region

end Cert.Proof.KB

end
-- ==== Proof.KB.Frame.lean ====
/-
  The word-level kernel program's run with all three kernels in place: the first kernel's proof data from this directory's
  own modules, the second's (attention, with the running maximum, denominator and numerator carried along the key axis)
  and the third's (feed-forward, with the normalised rows and the accumulator carried along the hidden axis) plugged into
  the whole-program run. Every weakly fair execution terminates; the result array holds what the third kernel's write-backs
  leave; every argument array holds what it was launched with.
-/
import proofs.«105332_j8211977470193_2_alg».proof.Proof.KB.Run
import proofs.«105332_j8211977470193_2_alg».proof.Proof.KB.AttnData
import proofs.«105332_j8211977470193_2_alg».proof.Proof.KB.FfnData

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-- The contents of every unscoped buffer when the second kernel is entered, when the third is entered, and at the end. -/
abbrev E2 : ((c : Dev nD) → (b : Ref sig .tc) → Buf (Elt F) ((c : Thread nD τ).loc b)) := R2 m ρ
abbrev E3 : ((c : Dev nD) → (b : Ref sig .tc) → Buf (Elt F) ((c : Thread nD τ).loc b)) := R3 m ρ (fun V c => (dat1 V c).after) (fun V c => (dat1 V c).Φ)

/-- The run, read at the result and the arguments. -/
theorem run_program : θ_run defs (onTc (τ := τ) (main (F := F))) ⟨m, fun _ => 0, ρ⟩ (fun r => ∀ c : Dev nD,
      r.2.mem ((c.tc : Thread nD τ).loc main_v17) = (dat2 (E3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  run_main m ρ (fun V c => (dat1 V c).after) (fun V c => (dat1 V c).Φ) (fun V c => (dat2 V c).after) (fun V c => (dat2 V c).Φ)
    (fun V c => body_obligation1 V c) (fun V c => hin1 V c) (fun V c => hout1 V c)
    (fun V c => body_obligation2 V c) (fun V c => hin2 V c) (fun V c => hout2 V c)

/-- The frame: every weakly fair execution terminates, nothing faulting, and the twelve argument arrays end unchanged. -/
theorem frame_program : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2) (run_program m ρ)

end

end Cert.Proof.KB

end
-- ==== Proof.KI.Entry.lean ====
/-
  What the kernel program's host operations put into the arrays its three kernels read, entry by entry, on the extended
  reals (where a change of float format is the identity). The norm weights become one-row matrices; the query, key and value
  weight matrices are transposed and laid side by side into one matrix of 6144 columns, so that column n of the fused matrix
  is row n, n − 2048 or n − 4096 of the query, key or value weights; the output, gate, up and down projection weights are
  transposed. Between the kernels nothing touches these arrays, so each kernel finds them as the host operations left them,
  and finds the arrays an earlier kernel wrote at what that kernel's write-backs left.
-/
import proofs.«105332_j8211977470193_2_alg».proof.Proof.KI.Frame
import Idealize.ShloMosaic.Lib.StableHlo.Run
import Idealize.ShloMosaic.Lib.ValueLayout
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.StableHlo Idealize.ShloMosaic.ValueIdx

section
variable (m : (ℓ : Loc nD τ sig) → Buf (Elt Ideal) ℓ) (ρ : Dev nD → PrngReg) (c : Dev nD)

/-! ## The host operations' results -/

theorem host_v13 : (R1 (F := Ideal) m ρ c main_v13 : S1x2048.Idx → EReal)
    = shapeCast S1x2048 (m ((c.tc : Thread nD τ).loc main_arg1) : S2048.Idx → EReal) shapeCasts_S2048_S1x2048 := by
  show StableHlo.after hostOps0 (fun b => m (c, b)) (Proc.devRef .tc main_v13) = _
  after_results <;> rfl
theorem host_v14 : (R1 (F := Ideal) m ρ c main_v14 : S1x2048.Idx → EReal)
    = shapeCast S1x2048 (m ((c.tc : Thread nD τ).loc main_arg6) : S2048.Idx → EReal) shapeCasts_S2048_S1x2048 := by
  show StableHlo.after hostOps0 (fun b => m (c, b)) (Proc.devRef .tc main_v14) = _
  after_results <;> rfl
theorem host_v6 : (R1 (F := Ideal) m ρ c main_v6 : S2048x2048.Idx → EReal)
    = (truncf .bf16 (transpose S2048x2048 [1, 0] (m ((c.tc : Thread nD τ).loc main_arg5) : FVec Ideal S2048x2048 .f32) transposes_S2048x2048_S2048x2048_1_0) bitsLt_bf16_f32 : FVec Ideal S2048x2048 .bf16) := by
  show StableHlo.after hostOps0 (fun b => m (c, b)) (Proc.devRef .tc main_v6) = _
  after_results <;> rfl
theorem host_v8 : (R1 (F := Ideal) m ρ c main_v8 : S2048x8192.Idx → EReal)
    = (truncf .bf16 (transpose S2048x8192 [1, 0] (m ((c.tc : Thread nD τ).loc main_arg7) : FVec Ideal S8192x2048 .f32) transposes_S8192x2048_S2048x8192_1_0) bitsLt_bf16_f32 : FVec Ideal S2048x8192 .bf16) := by
  show StableHlo.after hostOps0 (fun b => m (c, b)) (Proc.devRef .tc main_v8) = _
  after_results <;> rfl
theorem host_v10 : (R1 (F := Ideal) m ρ c main_v10 : S2048x8192.Idx → EReal)
    = (truncf .bf16 (transpose S2048x8192 [1, 0] (m ((c.tc : Thread nD τ).loc main_arg8) : FVec Ideal S8192x2048 .f32) transposes_S8192x2048_S2048x8192_1_0) bitsLt_bf16_f32 : FVec Ideal S2048x8192 .bf16) := by
  show StableHlo.after hostOps0 (fun b => m (c, b)) (Proc.devRef .tc main_v10) = _
  after_results <;> rfl
theorem host_v12 : (R1 (F := Ideal) m ρ c main_v12 : S8192x2048.Idx → EReal)
    = (truncf .bf16 (transpose S8192x2048 [1, 0] (m ((c.tc : Thread nD τ).loc main_arg9) : FVec Ideal S2048x8192 .f32) transposes_S2048x8192_S8192x2048_1_0) bitsLt_bf16_f32 : FVec Ideal S8192x2048 .bf16) := by
  show StableHlo.after hostOps0 (fun b => m (c, b)) (Proc.devRef .tc main_v12) = _
  after_results <;> rfl

/-! ## Read at an entry -/

/-- The first norm weights as a row. -/
theorem entry_v13 (k : Fin 2048) : (R1 (F := Ideal) m ρ c main_v13 : S1x2048.Idx → EReal) (ix2 (0 : Fin 1) k)
    = (m ((c.tc : Thread nD τ).loc main_arg1) : S2048.Idx → EReal) (ix1 k) := by
  rw [host_v13]; exact shapeCast_a_1a_apply _ _ 0 k
/-- The second norm weights as a row. -/
theorem entry_v14 (k : Fin 2048) : (R1 (F := Ideal) m ρ c main_v14 : S1x2048.Idx → EReal) (ix2 (0 : Fin 1) k)
    = (m ((c.tc : Thread nD τ).loc main_arg6) : S2048.Idx → EReal) (ix1 k) := by
  rw [host_v14]; exact shapeCast_a_1a_apply _ _ 0 k
/-- The output projection weights, transposed. -/
theorem entry_v6 (d e : Fin 2048) : (R1 (F := Ideal) m ρ c main_v6 : S2048x2048.Idx → EReal) (ix2 d e)
    = (m ((c.tc : Thread nD τ).loc main_arg5) : S2048x2048.Idx → EReal) (ix2 e d) := by
  rw [host_v6]; exact transpose_ix2_apply _ _ d e
/-- The gate weights, transposed. -/
theorem entry_v8 (k : Fin 2048) (f : Fin 8192) : (R1 (F := Ideal) m ρ c main_v8 : S2048x8192.Idx → EReal) (ix2 k f)
    = (m ((c.tc : Thread nD τ).loc main_arg7) : S8192x2048.Idx → EReal) (ix2 f k) := by
  rw [host_v8]; exact transpose_ix2_apply _ _ k f
/-- The up weights, transposed. -/
theorem entry_v10 (k : Fin 2048) (f : Fin 8192) : (R1 (F := Ideal) m ρ c main_v10 : S2048x8192.Idx → EReal) (ix2 k f)
    = (m ((c.tc : Thread nD τ).loc main_arg8) : S8192x2048.Idx → EReal) (ix2 f k) := by
  rw [host_v10]; exact transpose_ix2_apply _ _ k f
/-- The down weights, transposed. -/
theorem entry_v12 (f : Fin 8192) (d : Fin 2048) : (R1 (F := Ideal) m ρ c main_v12 : S8192x2048.Idx → EReal) (ix2 f d)
    = (m ((c.tc : Thread nD τ).loc main_arg9) : S2048x8192.Idx → EReal) (ix2 d f) := by
  rw [host_v12]; exact transpose_ix2_apply _ _ f d

/-! ## The fused query / key / value weight matrix -/

theorem host_v4 : (R1 (F := Ideal) m ρ c main_v4 : S2048x6144.Idx → EReal)
    = (truncf .bf16 (concatenate S2048x6144 1 [⟨S2048x2048, transpose S2048x2048 [1, 0] (m ((c.tc : Thread nD τ).loc main_arg2) : FVec Ideal S2048x2048 .f32) transposes_S2048x2048_S2048x2048_1_0⟩, ⟨S2048x2048, transpose S2048x2048 [1, 0] (m ((c.tc : Thread nD τ).loc main_arg3) : FVec Ideal S2048x2048 .f32) transposes_S2048x2048_S2048x2048_1_0⟩, ⟨S2048x2048, transpose S2048x2048 [1, 0] (m ((c.tc : Thread nD τ).loc main_arg4) : FVec Ideal S2048x2048 .f32) transposes_S2048x2048_S2048x2048_1_0⟩] concatenates_S2048x2048_S2048x2048_S2048x2048_S2048x6144_d1) bitsLt_bf16_f32 : FVec Ideal S2048x6144 .bf16) := by
  show StableHlo.after hostOps0 (fun b => m (c, b)) (Proc.devRef .tc main_v4) = _
  after_results <;> rfl

/-- Column 0 + j of the fused weight matrix is row j of the query weights. -/
theorem entry_v4_q (k : Fin 2048) (j : Fin 2048) :
    (R1 (F := Ideal) m ρ c main_v4 : S2048x6144.Idx → EReal) (ix2 k (⟨0 + j.val, by have := j.isLt; omega⟩ : Fin 6144))
      = (m ((c.tc : Thread nD τ).loc main_arg2) : S2048x2048.Idx → EReal) (ix2 j k) := by
  rw [host_v4]
  refine (concatenate_apply_piece (t := S2048x6144) (1 : Fin 2)
    ([⟨S2048x2048, transpose S2048x2048 [1, 0] (m ((c.tc : Thread nD τ).loc main_arg2) : FVec Ideal S2048x2048 .f32) transposes_S2048x2048_S2048x2048_1_0⟩, ⟨S2048x2048, transpose S2048x2048 [1, 0] (m ((c.tc : Thread nD τ).loc main_arg3) : FVec Ideal S2048x2048 .f32) transposes_S2048x2048_S2048x2048_1_0⟩, ⟨S2048x2048, transpose S2048x2048 [1, 0] (m ((c.tc : Thread nD τ).loc main_arg4) : FVec Ideal S2048x2048 .f32) transposes_S2048x2048_S2048x2048_1_0⟩] : List ((s : Shape) × (s.Idx → EReal)))
    concatenates_S2048x2048_S2048x2048_S2048x2048_S2048x6144_d1
    (ix2 k (⟨0 + j.val, by have := j.isLt; omega⟩ : Fin 6144)) 0 (by show (0 : ℕ) < 3; omega) S2048x2048 _ rfl rfl 0 rfl (ix2 k j)
    (fun b hb => by
      match b with
      | ⟨0, _⟩ => rfl
      | ⟨1, _⟩ => exact absurd rfl hb)
    rfl).trans ?_
  exact transpose_ix2_apply _ _ k j
/-- Column 2048 + j of the fused weight matrix is row j of the key weights. -/
theorem entry_v4_k (k : Fin 2048) (j : Fin 2048) :
    (R1 (F := Ideal) m ρ c main_v4 : S2048x6144.Idx → EReal) (ix2 k (⟨2048 + j.val, by have := j.isLt; omega⟩ : Fin 6144))
      = (m ((c.tc : Thread nD τ).loc main_arg3) : S2048x2048.Idx → EReal) (ix2 j k) := by
  rw [host_v4]
  refine (concatenate_apply_piece (t := S2048x6144) (1 : Fin 2)
    ([⟨S2048x2048, transpose S2048x2048 [1, 0] (m ((c.tc : Thread nD τ).loc main_arg2) : FVec Ideal S2048x2048 .f32) transposes_S2048x2048_S2048x2048_1_0⟩, ⟨S2048x2048, transpose S2048x2048 [1, 0] (m ((c.tc : Thread nD τ).loc main_arg3) : FVec Ideal S2048x2048 .f32) transposes_S2048x2048_S2048x2048_1_0⟩, ⟨S2048x2048, transpose S2048x2048 [1, 0] (m ((c.tc : Thread nD τ).loc main_arg4) : FVec Ideal S2048x2048 .f32) transposes_S2048x2048_S2048x2048_1_0⟩] : List ((s : Shape) × (s.Idx → EReal)))
    concatenates_S2048x2048_S2048x2048_S2048x2048_S2048x6144_d1
    (ix2 k (⟨2048 + j.val, by have := j.isLt; omega⟩ : Fin 6144)) 1 (by show (1 : ℕ) < 3; omega) S2048x2048 _ rfl rfl 2048 rfl (ix2 k j)
    (fun b hb => by
      match b with
      | ⟨0, _⟩ => rfl
      | ⟨1, _⟩ => exact absurd rfl hb)
    rfl).trans ?_
  exact transpose_ix2_apply _ _ k j
/-- Column 4096 + j of the fused weight matrix is row j of the value weights. -/
theorem entry_v4_v (k : Fin 2048) (j : Fin 2048) :
    (R1 (F := Ideal) m ρ c main_v4 : S2048x6144.Idx → EReal) (ix2 k (⟨4096 + j.val, by have := j.isLt; omega⟩ : Fin 6144))
      = (m ((c.tc : Thread nD τ).loc main_arg4) : S2048x2048.Idx → EReal) (ix2 j k) := by
  rw [host_v4]
  refine (concatenate_apply_piece (t := S2048x6144) (1 : Fin 2)
    ([⟨S2048x2048, transpose S2048x2048 [1, 0] (m ((c.tc : Thread nD τ).loc main_arg2) : FVec Ideal S2048x2048 .f32) transposes_S2048x2048_S2048x2048_1_0⟩, ⟨S2048x2048, transpose S2048x2048 [1, 0] (m ((c.tc : Thread nD τ).loc main_arg3) : FVec Ideal S2048x2048 .f32) transposes_S2048x2048_S2048x2048_1_0⟩, ⟨S2048x2048, transpose S2048x2048 [1, 0] (m ((c.tc : Thread nD τ).loc main_arg4) : FVec Ideal S2048x2048 .f32) transposes_S2048x2048_S2048x2048_1_0⟩] : List ((s : Shape) × (s.Idx → EReal)))
    concatenates_S2048x2048_S2048x2048_S2048x2048_S2048x6144_d1
    (ix2 k (⟨4096 + j.val, by have := j.isLt; omega⟩ : Fin 6144)) 2 (by show (2 : ℕ) < 3; omega) S2048x2048 _ rfl rfl 4096 rfl (ix2 k j)
    (fun b hb => by
      match b with
      | ⟨0, _⟩ => rfl
      | ⟨1, _⟩ => exact absurd rfl hb)
    rfl).trans ?_
  exact transpose_ix2_apply _ _ k j

/-! ## What each kernel finds -/

/-- The second kernel finds the transposed output weights as the host operations left them, -/
theorem E2_v6 : E2 (F := Ideal) m ρ c main_v6 = R1 m ρ c main_v6 := B2_of_ne m ρ c main_v6 (by decide)
/-- the activations as launched, -/
theorem E2_arg0 : E2 (F := Ideal) m ρ c main_arg0 = m ((c.tc : Thread nD τ).loc main_arg0) :=
  (B2_arr m ρ c 0).trans <| ((dat0 (R1 m ρ) c).arrAt_in 0 rfl _).trans <| (A_eq0 (R1 m ρ) c 0).trans (V1_of m c main_arg0 (by decide))
/-- and the query, key and value arrays at what the first kernel's write-backs left. -/
theorem E2_q : E2 (F := Ideal) m ρ c main_v15_0 = (dat0 (R1 m ρ) c).arrAt 5 cfg0.N := B2_arr m ρ c 5
theorem E2_k : E2 (F := Ideal) m ρ c main_v15_1 = (dat0 (R1 m ρ) c).arrAt 6 cfg0.N := B2_arr m ρ c 6
theorem E2_v : E2 (F := Ideal) m ρ c main_v15_2 = (dat0 (R1 m ρ) c).arrAt 7 cfg0.N := B2_arr m ρ c 7
/-- The first kernel finds the activations, the cosines and the sines as launched. -/
theorem R1_arg0 : R1 (F := Ideal) m ρ c main_arg0 = m ((c.tc : Thread nD τ).loc main_arg0) := V1_of m c main_arg0 (by decide)
theorem R1_arg10 : R1 (F := Ideal) m ρ c main_arg10 = m ((c.tc : Thread nD τ).loc main_arg10) := V1_of m c main_arg10 (by decide)
theorem R1_arg11 : R1 (F := Ideal) m ρ c main_arg11 = m ((c.tc : Thread nD τ).loc main_arg11) := V1_of m c main_arg11 (by decide)

/-- The third kernel finds the second norm weights and the transposed gate, up and down weights as the host operations left
    them, -/
theorem E3_of_host (b : Ref sig .tc) (h0 : ∀ w, Pipeline.arrRef spec0 w ≠ b) (h1 : ∀ w, Pipeline.arrRef spec1 w ≠ b) :
    E3 (F := Ideal) m ρ c b = R1 m ρ c b :=
  (B3_of_ne m ρ _ _ c b h1).trans (B2_of_ne m ρ c b h0)
theorem E3_v14 : E3 (F := Ideal) m ρ c main_v14 = R1 m ρ c main_v14 := E3_of_host m ρ c main_v14 (by decide) (by decide)
theorem E3_v8 : E3 (F := Ideal) m ρ c main_v8 = R1 m ρ c main_v8 := E3_of_host m ρ c main_v8 (by decide) (by decide)
theorem E3_v10 : E3 (F := Ideal) m ρ c main_v10 = R1 m ρ c main_v10 := E3_of_host m ρ c main_v10 (by decide) (by decide)
theorem E3_v12 : E3 (F := Ideal) m ρ c main_v12 = R1 m ρ c main_v12 := E3_of_host m ρ c main_v12 (by decide) (by decide)
/-- and the attention output at what the second kernel's write-backs left. -/
theorem E3_v16 : E3 (F := Ideal) m ρ c main_v16 = (dat1 (E2 m ρ) c).arrAt 5 cfg1.N :=
  B3_arr m ρ _ _ c 5

end

end Cert.Proof.KI

end
-- ==== Proof.KI.QkvSpec.lean ====
/-
  What the first kernel computes, as three whole-array functions of its five argument arrays, index by index, on the
  extended reals. Row r of the activations x is normalised by its root mean square (the sum of its squares over the 2048
  features, divided by 2048, plus a small constant, under a reciprocal square root) and scaled by the norm weights w; the
  normalised row is multiplied by the fused weight matrix W, giving 6144 numbers: three thirds of 2048. The last third is
  the value row. The middle third, rotated by the row's cosines and sines, is the key row; the first third, rotated the
  same way and multiplied by the reciprocal of the softmax scale, is the query row. The rotation pairs column j < 1024 with
  column 1024 + j: the pair (a, b) goes to (a cos − b sin, a sin + b cos) with the cosine and sine of column j.
  No program is imported: the arrays are functions on index types of literal extents.
-/
import Idealize.ShloMosaic.PureOps.Ideal
import Idealize.ShloMosaic.Lib.ValueIdx

noncomputable section

namespace Cert.Proof.KI

open Idealize.ShloMosaic Idealize.ShloMosaic.ValueIdx

/-! ## One row -/

/-- The mean of the squares of a row of 2048 features (the divisor is the float word of 2048). -/
def meanSquare (xr : Fin 2048 → EReal) : EReal :=
  Ideal.div (∑ k : Fin 2048, xr k * xr k) (Ideal.ofBits .f32 0x45000000#32)

/-- The reciprocal root mean square of a row (the added constant is the float word 0x34000000). -/
def invRms (xr : Fin 2048 → EReal) : EReal :=
  Ideal.rsqrt (meanSquare xr + Ideal.ofBits .f32 0x34000000#32)

/-- The normalised row: each feature times the row's reciprocal root mean square, times its norm weight. -/
def normRow (xr wr : Fin 2048 → EReal) (k : Fin 2048) : EReal :=
  xr k * invRms xr * wr k

/-- The normalised row times the fused weight matrix: column n of the 6144. -/
def fused (xr wr : Fin 2048 → EReal) (W : Fin 2048 → Fin 6144 → EReal) (n : Fin 6144) : EReal :=
  ∑ k : Fin 2048, normRow xr wr k * W k n

/-- The third of the fused row that starts at column `o` (`o` = 0, 2048 or 4096). -/
def third (p : Fin 6144 → EReal) (o : Nat) (ho : o + 2048 ≤ 6144) (j : Fin 2048) : EReal :=
  p ⟨o + j.val, by have := j.isLt; omega⟩

/-- The rotation of a row of 2048 by the cosines `cr` and sines `sr` of its position: column j < 1024 is paired with
    column 1024 + j; the first of the pair becomes a cos − b sin, the second a sin + b cos. -/
def rotate (u : Fin 2048 → EReal) (cr sr : Fin 1024 → EReal) (j : Fin 2048) : EReal :=
  if h : j.val < 1024 then
    u ⟨j.val, by omega⟩ * cr ⟨j.val, h⟩ - u ⟨1024 + j.val, by omega⟩ * sr ⟨j.val, h⟩
  else
    u ⟨j.val - 1024, by have := j.isLt; omega⟩ * sr ⟨j.val - 1024, by have := j.isLt; omega⟩
      + u ⟨1024 + (j.val - 1024), by have := j.isLt; omega⟩ * cr ⟨j.val - 1024, by have := j.isLt; omega⟩

/-- The reciprocal of the softmax scale. -/
def invScale : EReal := ((262144 / 11863283 : ℝ) : EReal)

/-! ## The rows of the argument arrays -/

/-- Row r of the activations. -/
def xRow (x : (⟨2, ![4096, 2048]⟩ : Shape).Idx → EReal) (r : Fin 4096) : Fin 2048 → EReal := fun k => x (ix2 r k)

/-- The norm weights (the one row of their array). -/
def wRow (w : (⟨2, ![1, 2048]⟩ : Shape).Idx → EReal) : Fin 2048 → EReal := fun k => w (ix2 (0 : Fin 1) k)

/-- The fused weight matrix by row and column. -/
def wMat (W : (⟨2, ![2048, 6144]⟩ : Shape).Idx → EReal) : Fin 2048 → Fin 6144 → EReal := fun k n => W (ix2 k n)

/-- Row r of the cosines or of the sines. -/
def csRow (cs : (⟨2, ![4096, 1024]⟩ : Shape).Idx → EReal) (r : Fin 4096) : Fin 1024 → EReal := fun j => cs (ix2 r j)

/-- Row r of the fused product. -/
def fusedRow (x : (⟨2, ![4096, 2048]⟩ : Shape).Idx → EReal) (w : (⟨2, ![1, 2048]⟩ : Shape).Idx → EReal)
    (W : (⟨2, ![2048, 6144]⟩ : Shape).Idx → EReal) (r : Fin 4096) : Fin 6144 → EReal :=
  fused (xRow x r) (wRow w) (wMat W)

/-! ## The three arrays -/

/-- The value array at row r, column j: column 4096 + j of the fused row. -/
def vAt (x : (⟨2, ![4096, 2048]⟩ : Shape).Idx → EReal) (w : (⟨2, ![1, 2048]⟩ : Shape).Idx → EReal)
    (W : (⟨2, ![2048, 6144]⟩ : Shape).Idx → EReal) (r : Fin 4096) (j : Fin 2048) : EReal :=
  third (fusedRow x w W r) 4096 (by omega) j

/-- The key array at row r, column j: the rotated middle third of the fused row. -/
def kAt (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal)
    (r : Fin 4096) (j : Fin 2048) : EReal :=
  rotate (third (fusedRow x w W r) 2048 (by omega)) (csRow cs r) (csRow sn r) j

/-- The query array at row r, column j: the rotated first third of the fused row, times the reciprocal of the softmax
    scale. -/
def qAt (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal)
    (r : Fin 4096) (j : Fin 2048) : EReal :=
  rotate (third (fusedRow x w W r) 0 (by omega)) (csRow cs r) (csRow sn r) j * invScale

/-- The value array. -/
def vArr (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal) :
    (⟨2, ![4096, 2048]⟩ : Shape).Idx → EReal :=
  fun i => vAt x w W (i 0) (i 1)

/-- The key array. -/
def kArr (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal) :
    (⟨2, ![4096, 2048]⟩ : Shape).Idx → EReal :=
  fun i => kAt x w W cs sn (i 0) (i 1)

/-- The query array. -/
def qArr (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal) :
    (⟨2, ![4096, 2048]⟩ : Shape).Idx → EReal :=
  fun i => qAt x w W cs sn (i 0) (i 1)

/-- The value array at (r, j). -/
theorem vArr_apply (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal)
    (r : Fin 4096) (j : Fin 2048) : vArr x w W cs sn (ix2 r j) = vAt x w W r j := rfl

/-- The key array at (r, j). -/
theorem kArr_apply (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal)
    (r : Fin 4096) (j : Fin 2048) : kArr x w W cs sn (ix2 r j) = kAt x w W cs sn r j := rfl

/-- The query array at (r, j). -/
theorem qArr_apply (x : (⟨2, ![4096, 2048]⟩ : Shape).Idx → EReal) (w : (⟨2, ![1, 2048]⟩ : Shape).Idx → EReal)
    (W : (⟨2, ![2048, 6144]⟩ : Shape).Idx → EReal) (cs sn : (⟨2, ![4096, 1024]⟩ : Shape).Idx → EReal)
    (r : Fin 4096) (j : Fin 2048) : qArr x w W cs sn (ix2 r j) = qAt x w W cs sn r j := rfl

end Cert.Proof.KI

end
-- ==== Proof.KI.QkvTile.lean ====
/-
  The first kernel's arithmetic on one tile of 256 rows, read index by index at the exact instance. Row r of the tile's
  fused product is the normalised row r of the activations tile times the fused weight matrix; the value tile is its
  last third, the key tile its rotated middle third, the query tile its rotated first third times the reciprocal of the
  softmax scale — each the whole-array specification's row function applied to row r of the tiles.
-/
import proofs.«105332_j8211977470193_2_alg».proof.Proof.Gen.KernelIdeal.Skeleton
import proofs.«105332_j8211977470193_2_alg».proof.Proof.KI.QkvSpec
import proofs.«105332_j8211977470193_2_alg».proof.Proof.ScaleName
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.ValueIdx

/-! ## Two keepdims layout operations read at an index -/

/-- A vector of 256 entries cast to a column [256, 1] reads, at (i, u), the vector at i. -/
theorem shapeCast_col_apply {α : Type} (x : (⟨1, ![256]⟩ : Shape).Idx → α)
    (h : (⟨1, ![256]⟩ : Shape).ShapeCasts ⟨2, ![256, 1]⟩) (i : Fin 256) (u : Fin 1) :
    shapeCast ⟨2, ![256, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [256, 1] broadcast to [256, 2048] reads, at (p, c), the column at (p, 0). -/
theorem broadcastTo_col_apply {α : Type} (v : (⟨2, ![256, 1]⟩ : Shape).Idx → α)
    (h : (⟨2, ![256, 1]⟩ : Shape).Broadcasts ⟨2, ![256, 2048]⟩) (p : Fin 256) (c : Fin 2048) :
    broadcastTo ⟨2, ![256, 2048]⟩ v h (ix2 p c) = v (ix2 p (0 : Fin 1)) := by
  refine broadcastTo_apply v h (ix2 p c) (ix2 p (0 : Fin 1)) fun ax => ?_
  match ax with
  | ⟨0, _⟩ =>
    show p.val = if (256 : Nat) = 1 then 0 else p.val
    rw [if_neg (by decide)]
  | ⟨1, _⟩ => rfl

/-! ## The row statistic and the normalised tile -/

/-- The sum of the squares along a row of the tile. -/
theorem rowSumSq (x0 : Vec Ideal S256x2048 .f32) (hφ : FKind.Formats .f32)
    (hacc : (0x00000000#32 : BitVec 32) = 0x00000000#32) (r : Fin 256) :
    multiReduction (F := Ideal) .add [1] S256 (mulf x0 x0) 0x00000000#32 reduces_S256x2048_S256 hφ hacc (ix1 r)
      = ∑ k : Fin 2048, x0 (ix2 r k) * x0 (ix2 r k) := by
  refine (Ideal.multiReduction_add_single (mulf x0 x0) 0x00000000#32 reduces_S256x2048_S256 hφ hacc (ix1 r)).trans ?_
  show (∑ k : Fin 2048, _) = _
  refine Finset.sum_congr rfl fun k _ => ?_
  have e : reduces_S256x2048_S256.lift (ix1 r) k = ix2 r k :=
    funext fun a => Fin.ext (by match a with | ⟨0, _⟩ => rfl | ⟨1, _⟩ => rfl)
  rw [e]
  rfl

/-- The tile the matrix unit multiplies: the activations normalised row by row and scaled by the norm weights. -/
def normTile (x0 : Vec Ideal S256x2048 .f32) (x1 : Vec Ideal S1x2048 .f32) : FVec Ideal S256x2048 .bf16 :=
  truncf .bf16 (mulf (mulf x0 (broadcastTo S256x2048 (rsqrt (addf (divf (shapeCast S256x1
      (multiReduction (F := Ideal) .add [1] S256 (mulf x0 x0) 0x00000000#32 reduces_S256x2048_S256 (.inl rfl) rfl) shapeCasts_S256_S256x1)
      (broadcast S256x1 (Scalar.ofBits .f32 0x45000000#32))) (broadcast S256x1 (Scalar.ofBits .f32 0x34000000#32)))) broadcasts_S256x1_S256x2048))
    (broadcastTo S256x2048 (shapeCast S1x2048 x1 shapeCasts_S1x2048_S1x2048) broadcasts_S1x2048_S256x2048)) bitsLt_bf16_f32

/-- The normalised tile at (r, k) is the specification's normalised row of row r. -/
theorem normTile_apply (x0 : Vec Ideal S256x2048 .f32) (x1 : Vec Ideal S1x2048 .f32) (r : Fin 256) (k : Fin 2048) :
    normTile x0 x1 (ix2 r k) = normRow (fun k => x0 (ix2 r k)) (fun k => x1 (ix2 (0 : Fin 1) k)) k := by
  unfold normTile normRow invRms meanSquare
  have e1 := broadcastTo_col_apply (rsqrt (addf (divf (shapeCast S256x1
      (multiReduction (F := Ideal) .add [1] S256 (mulf x0 x0) 0x00000000#32 reduces_S256x2048_S256 (.inl rfl) rfl) shapeCasts_S256_S256x1)
      (broadcast S256x1 (Scalar.ofBits .f32 0x45000000#32))) (broadcast S256x1 (Scalar.ofBits .f32 0x34000000#32)))) broadcasts_S256x1_S256x2048 r k
  have e2 := shapeCast_col_apply (multiReduction (F := Ideal) .add [1] S256 (mulf x0 x0) 0x00000000#32 reduces_S256x2048_S256 (.inl rfl) rfl)
      shapeCasts_S256_S256x1 r (0 : Fin 1)
  have e3 := rowSumSq x0 (.inl rfl) rfl r
  have e4 := broadcastTo_1b_ab_apply (shapeCast S1x2048 x1 shapeCasts_S1x2048_S1x2048) broadcasts_S1x2048_S256x2048 r k
  have e5 : shapeCast S1x2048 x1 shapeCasts_S1x2048_S1x2048 = x1 := shapeCast_self x1 _
  show x0 (ix2 r k) * broadcastTo S256x2048 _ broadcasts_S256x1_S256x2048 (ix2 r k)
      * broadcastTo S256x2048 (shapeCast S1x2048 x1 shapeCasts_S1x2048_S1x2048) broadcasts_S1x2048_S256x2048 (ix2 r k) = _
  rw [e1, e4, e5]
  show x0 (ix2 r k) * Ideal.rsqrt (Ideal.div (shapeCast S256x1 _ shapeCasts_S256_S256x1 (ix2 r (0 : Fin 1))) (Ideal.ofBits .f32 0x45000000#32)
      + Ideal.ofBits .f32 0x34000000#32) * x1 (ix2 (0 : Fin 1) k) = _
  rw [e2, e3]

/-! ## The matrix product at an index -/

theorem qkvDot_lhs_0 (i : S256x6144.Idx) (q : dot_S256x2048_S2048x6144_S256x6144_1_0_0_1_n_n.contr.Idx) :
    (dot_S256x2048_S2048x6144_S256x6144_1_0_0_1_n_n.lhsIdx i q 0).val = (i 0).val := by
  unfold DotDims.lhsIdx
  rw [dif_neg (show ¬(0 : Fin S256x2048.rank) ∈ dot_S256x2048_S2048x6144_S256x6144_1_0_0_1_n_n.lhsBatch by decide),
    dif_pos (show (0 : Fin S256x2048.rank) ∈ dot_S256x2048_S2048x6144_S256x6144_1_0_0_1_n_n.lhsNonContracting by decide)]
  rfl
theorem qkvDot_lhs_1 (i : S256x6144.Idx) (q : dot_S256x2048_S2048x6144_S256x6144_1_0_0_1_n_n.contr.Idx) :
    (dot_S256x2048_S2048x6144_S256x6144_1_0_0_1_n_n.lhsIdx i q 1).val = (q ⟨0, by decide⟩).val :=
  dot_S256x2048_S2048x6144_S256x6144_1_0_0_1_n_n.lhsIdx_val_of_single rfl i q
theorem qkvDot_rhs_0 (i : S256x6144.Idx) (q : dot_S256x2048_S2048x6144_S256x6144_1_0_0_1_n_n.contr.Idx) :
    (dot_S256x2048_S2048x6144_S256x6144_1_0_0_1_n_n.rhsIdx i q 0).val = (q ⟨0, by decide⟩).val :=
  dot_S256x2048_S2048x6144_S256x6144_1_0_0_1_n_n.rhsIdx_val_of_single rfl i q
theorem qkvDot_rhs_1 (i : S256x6144.Idx) (q : dot_S256x2048_S2048x6144_S256x6144_1_0_0_1_n_n.contr.Idx) :
    (dot_S256x2048_S2048x6144_S256x6144_1_0_0_1_n_n.rhsIdx i q 1).val = (i 1).val := by
  unfold DotDims.rhsIdx
  rw [dif_neg (show ¬(1 : Fin S2048x6144.rank) ∈ dot_S256x2048_S2048x6144_S256x6144_1_0_0_1_n_n.rhsBatch by decide),
    dif_pos (show (1 : Fin S2048x6144.rank) ∈ dot_S256x2048_S2048x6144_S256x6144_1_0_0_1_n_n.rhsNonContracting by decide)]
  rfl

/-- The tile's matrix product with a zero accumulator, at (r, n): the sum over the 2048 contracted features. -/
theorem matmul_tile_apply (y0 : FVec Ideal S256x2048 .bf16) (y1 : FVec Ideal S2048x6144 .bf16) (r : Fin 256) (n : Fin 6144) :
    matmul (F := Ideal) dot_S256x2048_S2048x6144_S256x6144_1_0_0_1_n_n none y0 y1 (constant (F := Ideal) S256x6144 .f32 0x00000000#32) (ix2 r n)
      = ∑ k : Fin 2048, y0 (ix2 r k) * y1 (ix2 k n) := by
  refine (Ideal.matmul_constant_zero_apply dot_S256x2048_S2048x6144_S256x6144_1_0_0_1_n_n none y0 y1 (ix2 r n)).trans ?_
  rw [← Equiv.sum_comp (contrEquiv1 dot_S256x2048_S2048x6144_S256x6144_1_0_0_1_n_n 2048 rfl rfl).symm]
  refine Finset.sum_congr rfl fun k _ => ?_
  have hk := contrEquiv1_symm_val dot_S256x2048_S2048x6144_S256x6144_1_0_0_1_n_n 2048 rfl rfl k
  have el : dot_S256x2048_S2048x6144_S256x6144_1_0_0_1_n_n.lhsIdx (ix2 r n)
      ((contrEquiv1 dot_S256x2048_S2048x6144_S256x6144_1_0_0_1_n_n 2048 rfl rfl).symm k) = ix2 r k := funext fun a => Fin.ext (by
    match a with
    | ⟨0, _⟩ => exact qkvDot_lhs_0 _ _
    | ⟨1, _⟩ => exact (qkvDot_lhs_1 _ _).trans hk)
  have er : dot_S256x2048_S2048x6144_S256x6144_1_0_0_1_n_n.rhsIdx (ix2 r n)
      ((contrEquiv1 dot_S256x2048_S2048x6144_S256x6144_1_0_0_1_n_n 2048 rfl rfl).symm k) = ix2 k n := funext fun a => Fin.ext (by
    match a with
    | ⟨0, _⟩ => exact (qkvDot_rhs_0 _ _).trans hk
    | ⟨1, _⟩ => exact qkvDot_rhs_1 _ _)
  rw [el, er]

/-! ## The fused product of a tile -/

/-- Row r of the tile's fused product, as the specification's row function of row r of the tiles. -/
def fusedTile (x0 : Vec Ideal S256x2048 .f32) (x1 : Vec Ideal S1x2048 .f32) (x2 : Vec Ideal S2048x6144 .bf16) (r : Fin 256) :
    Fin 6144 → EReal :=
  fused (fun k => x0 (ix2 r k)) (fun k => x1 (ix2 (0 : Fin 1) k)) (fun k n => x2 (ix2 k n))

/-- The body's fused product is the matrix product of the normalised tile with the weights. -/
theorem pay3_eq (x0 : Vec Ideal S256x2048 .f32) (x1 : Vec Ideal S1x2048 .f32) (x2 : Vec Ideal S2048x6144 .bf16) :
    k0_pay3 (F := Ideal) x0 x1 x2 = matmul (F := Ideal) dot_S256x2048_S2048x6144_S256x6144_1_0_0_1_n_n none (normTile x0 x1)
      (shapeCast S2048x6144 x2 shapeCasts_S2048x6144_S2048x6144 : FVec Ideal S2048x6144 .bf16) (constant (F := Ideal) S256x6144 .f32 0x00000000#32) := rfl

/-- The body's fused product at (r, n). -/
theorem pay3_apply (x0 : Vec Ideal S256x2048 .f32) (x1 : Vec Ideal S1x2048 .f32) (x2 : Vec Ideal S2048x6144 .bf16)
    (r : Fin 256) (n : Fin 6144) : k0_pay3 (F := Ideal) x0 x1 x2 (ix2 r n) = fusedTile x0 x1 x2 r n := by
  rw [pay3_eq, shapeCast_self, matmul_tile_apply]
  unfold fusedTile fused
  refine Finset.sum_congr rfl fun k _ => ?_
  rw [normTile_apply]

/-! ## The value tile -/

/-- The value tile at (r, j): column 4096 + j of row r of the fused product. -/
theorem valueTile_apply (x0 : Vec Ideal S256x2048 .f32) (x1 : Vec Ideal S1x2048 .f32) (x2 : Vec Ideal S2048x6144 .bf16)
    (r : Fin 256) (j : Fin 2048) :
    k0_pay2 (F := Ideal) (k0_pay5 x0 x1 x2) (ix2 r j) = third (fusedTile x0 x1 x2 r) 4096 (by omega) j := by
  show extractStridedSlice S256x2048 ![0, 4096] (k0_pay3 (F := Ideal) x0 x1 x2) slices_S256x6144_o0_4096_S256x2048 (ix2 r j) = _
  refine (slice2_axis1_apply 4096 (k0_pay3 (F := Ideal) x0 x1 x2) slices_S256x6144_o0_4096_S256x2048 r j
    ⟨4096 + j.val, by have := j.isLt; omega⟩ rfl).trans ?_
  exact pay3_apply x0 x1 x2 r _

/-! ## Two halves of 1024 columns laid side by side -/

/-- Two [256, 1024] halves concatenated along the columns read, at a column below 1024, the first half there. -/
theorem concat_halves_left {α : Type} (A B : (⟨2, ![256, 1024]⟩ : Shape).Idx → α)
    (h : Shape.Concatenates [(⟨2, ![256, 1024]⟩ : Shape), ⟨2, ![256, 1024]⟩] ⟨2, ![256, 2048]⟩ 1)
    (r : Fin 256) (j : Fin 2048) (hj : j.val < 1024) :
    concatenate ⟨2, ![256, 2048]⟩ 1 [⟨⟨2, ![256, 1024]⟩, A⟩, ⟨⟨2, ![256, 1024]⟩, B⟩] h (ix2 r j) = A (ix2 r ⟨j.val, hj⟩) :=
  concatenate_pair_apply_left (1 : Fin 2) A B h (ix2 r j) rfl (ix2 r ⟨j.val, hj⟩) (fun b => by
    match b with
    | ⟨0, _⟩ => rfl
    | ⟨1, _⟩ => rfl)

/-- … and at a column from 1024 on, the second half at the column less 1024. -/
theorem concat_halves_right {α : Type} (A B : (⟨2, ![256, 1024]⟩ : Shape).Idx → α)
    (h : Shape.Concatenates [(⟨2, ![256, 1024]⟩ : Shape), ⟨2, ![256, 1024]⟩] ⟨2, ![256, 2048]⟩ 1)
    (r : Fin 256) (j : Fin 2048) (hj : ¬ j.val < 1024) :
    concatenate ⟨2, ![256, 2048]⟩ 1 [⟨⟨2, ![256, 1024]⟩, A⟩, ⟨⟨2, ![256, 1024]⟩, B⟩] h (ix2 r j)
      = B (ix2 r ⟨j.val - 1024, by have := j.isLt; omega⟩) :=
  concatenate_pair_apply_right (1 : Fin 2) A B h (ix2 r j) rfl rfl (ix2 r ⟨j.val - 1024, by have := j.isLt; omega⟩)
    (fun b hb => by
      match b with
      | ⟨0, _⟩ => rfl
      | ⟨1, _⟩ => exact (hb rfl).elim)
    (by show j.val - 1024 + 1024 = j.val; omega)

/-! ## The thirds of the fused product, by halves -/

/-- The first half of the middle third at (r, j): column 2048 + j of the fused product. -/
theorem pay7_apply (x0 : Vec Ideal S256x2048 .f32) (x1 : Vec Ideal S1x2048 .f32) (x2 : Vec Ideal S2048x6144 .bf16)
    (r : Fin 256) (j : Fin 1024) :
    k0_pay7 (F := Ideal) x0 x1 x2 (ix2 r j) = fusedTile x0 x1 x2 r ⟨2048 + j.val, by have := j.isLt; omega⟩ := by
  show extractStridedSlice S256x1024 ![0, 0] (k0_pay4 (F := Ideal) x0 x1 x2) slices_S256x2048_o0_0_S256x1024 (ix2 r j) = _
  refine (slice2_axis1_apply 0 (k0_pay4 (F := Ideal) x0 x1 x2) slices_S256x2048_o0_0_S256x1024 r j
    ⟨j.val, by have := j.isLt; omega⟩ (Nat.zero_add _).symm).trans ?_
  show extractStridedSlice S256x2048 ![0, 2048] (k0_pay3 (F := Ideal) x0 x1 x2) slices_S256x6144_o0_2048_S256x2048
    (ix2 r (⟨j.val, by have := j.isLt; omega⟩ : Fin 2048)) = _
  refine (slice2_axis1_apply 2048 (k0_pay3 (F := Ideal) x0 x1 x2) slices_S256x6144_o0_2048_S256x2048 r
    (⟨j.val, by have := j.isLt; omega⟩ : Fin 2048) ⟨2048 + j.val, by have := j.isLt; omega⟩ rfl).trans ?_
  exact pay3_apply x0 x1 x2 r _

/-- The second half of the middle third at (r, j): column 2048 + (1024 + j) of the fused product. -/
theorem pay8_apply (x0 : Vec Ideal S256x2048 .f32) (x1 : Vec Ideal S1x2048 .f32) (x2 : Vec Ideal S2048x6144 .bf16)
    (r : Fin 256) (j : Fin 1024) :
    k0_pay8 (F := Ideal) x0 x1 x2 (ix2 r j) = fusedTile x0 x1 x2 r ⟨2048 + (1024 + j.val), by have := j.isLt; omega⟩ := by
  show extractStridedSlice S256x1024 ![0, 1024] (k0_pay4 (F := Ideal) x0 x1 x2) slices_S256x2048_o0_1024_S256x1024 (ix2 r j) = _
  refine (slice2_axis1_apply 1024 (k0_pay4 (F := Ideal) x0 x1 x2) slices_S256x2048_o0_1024_S256x1024 r j
    ⟨1024 + j.val, by have := j.isLt; omega⟩ rfl).trans ?_
  show extractStridedSlice S256x2048 ![0, 2048] (k0_pay3 (F := Ideal) x0 x1 x2) slices_S256x6144_o0_2048_S256x2048
    (ix2 r (⟨1024 + j.val, by have := j.isLt; omega⟩ : Fin 2048)) = _
  refine (slice2_axis1_apply 2048 (k0_pay3 (F := Ideal) x0 x1 x2) slices_S256x6144_o0_2048_S256x2048 r
    (⟨1024 + j.val, by have := j.isLt; omega⟩ : Fin 2048) ⟨2048 + (1024 + j.val), by have := j.isLt; omega⟩ rfl).trans ?_
  exact pay3_apply x0 x1 x2 r _

/-- The first third of the tile's fused product. -/
def firstThirdTile (x0 : Vec Ideal S256x2048 .f32) (x1 : Vec Ideal S1x2048 .f32) (x2 : Vec Ideal S2048x6144 .bf16) :
    FVec Ideal S256x2048 .f32 :=
  extractStridedSlice S256x2048 ![0, 0] (k0_pay3 (F := Ideal) x0 x1 x2) slices_S256x6144_o0_0_S256x2048

/-- Its first half, -/
def firstThirdLo (x0 : Vec Ideal S256x2048 .f32) (x1 : Vec Ideal S1x2048 .f32) (x2 : Vec Ideal S2048x6144 .bf16) :
    FVec Ideal S256x1024 .f32 :=
  extractStridedSlice S256x1024 ![0, 0] (firstThirdTile x0 x1 x2) slices_S256x2048_o0_0_S256x1024

/-- and its second half. -/
def firstThirdHi (x0 : Vec Ideal S256x2048 .f32) (x1 : Vec Ideal S1x2048 .f32) (x2 : Vec Ideal S2048x6144 .bf16) :
    FVec Ideal S256x1024 .f32 :=
  extractStridedSlice S256x1024 ![0, 1024] (firstThirdTile x0 x1 x2) slices_S256x2048_o0_1024_S256x1024

/-- The first half of the first third at (r, j): column 0 + j of the fused product. -/
theorem firstThirdLo_apply (x0 : Vec Ideal S256x2048 .f32) (x1 : Vec Ideal S1x2048 .f32) (x2 : Vec Ideal S2048x6144 .bf16)
    (r : Fin 256) (j : Fin 1024) :
    firstThirdLo x0 x1 x2 (ix2 r j) = fusedTile x0 x1 x2 r ⟨0 + j.val, by have := j.isLt; omega⟩ := by
  show extractStridedSlice S256x1024 ![0, 0] (firstThirdTile x0 x1 x2) slices_S256x2048_o0_0_S256x1024 (ix2 r j) = _
  refine (slice2_axis1_apply 0 (firstThirdTile x0 x1 x2) slices_S256x2048_o0_0_S256x1024 r j
    ⟨j.val, by have := j.isLt; omega⟩ (Nat.zero_add _).symm).trans ?_
  show extractStridedSlice S256x2048 ![0, 0] (k0_pay3 (F := Ideal) x0 x1 x2) slices_S256x6144_o0_0_S256x2048
    (ix2 r (⟨j.val, by have := j.isLt; omega⟩ : Fin 2048)) = _
  refine (slice2_axis1_apply 0 (k0_pay3 (F := Ideal) x0 x1 x2) slices_S256x6144_o0_0_S256x2048 r
    (⟨j.val, by have := j.isLt; omega⟩ : Fin 2048) ⟨0 + j.val, by have := j.isLt; omega⟩ rfl).trans ?_
  exact pay3_apply x0 x1 x2 r _

/-- The second half of the first third at (r, j): column 0 + (1024 + j) of the fused product. -/
theorem firstThirdHi_apply (x0 : Vec Ideal S256x2048 .f32) (x1 : Vec Ideal S1x2048 .f32) (x2 : Vec Ideal S2048x6144 .bf16)
    (r : Fin 256) (j : Fin 1024) :
    firstThirdHi x0 x1 x2 (ix2 r j) = fusedTile x0 x1 x2 r ⟨0 + (1024 + j.val), by have := j.isLt; omega⟩ := by
  show extractStridedSlice S256x1024 ![0, 1024] (firstThirdTile x0 x1 x2) slices_S256x2048_o0_1024_S256x1024 (ix2 r j) = _
  refine (slice2_axis1_apply 1024 (firstThirdTile x0 x1 x2) slices_S256x2048_o0_1024_S256x1024 r j
    ⟨1024 + j.val, by have := j.isLt; omega⟩ rfl).trans ?_
  show extractStridedSlice S256x2048 ![0, 0] (k0_pay3 (F := Ideal) x0 x1 x2) slices_S256x6144_o0_0_S256x2048
    (ix2 r (⟨1024 + j.val, by have := j.isLt; omega⟩ : Fin 2048)) = _
  refine (slice2_axis1_apply 0 (k0_pay3 (F := Ideal) x0 x1 x2) slices_S256x6144_o0_0_S256x2048 r
    (⟨1024 + j.val, by have := j.isLt; omega⟩ : Fin 2048) ⟨0 + (1024 + j.val), by have := j.isLt; omega⟩ rfl).trans ?_
  exact pay3_apply x0 x1 x2 r _

/-! ## The key tile -/

/-- The key tile at (r, j): the rotated middle third of row r of the fused product. -/
theorem keyTile_apply (x0 : Vec Ideal S256x2048 .f32) (x1 : Vec Ideal S1x2048 .f32) (x2 : Vec Ideal S2048x6144 .bf16)
    (x3 x4 : Vec Ideal S256x1024 .f32) (r : Fin 256) (j : Fin 2048) :
    k0_pay1 (F := Ideal) x3 x4 (k0_pay7 x0 x1 x2) (k0_pay8 x0 x1 x2) (k0_pay9 x0 x1 x2 x3) (k0_pay10 x0 x1 x2 x4) (ix2 r j)
      = rotate (third (fusedTile x0 x1 x2 r) 2048 (by omega)) (fun j => x3 (ix2 r j)) (fun j => x4 (ix2 r j)) j := by
  unfold k0_pay1
  refine (truncf_apply (s := S256x2048) (φ := .f32) (ψ := .bf16) _ bitsLt_bf16_f32 (ix2 r j)).trans ?_
  unfold rotate
  by_cases hj : j.val < 1024
  · rw [dif_pos hj]
    refine (concat_halves_left _ _ _ r j hj).trans ?_
    show k0_pay7 (F := Ideal) x0 x1 x2 (ix2 r ⟨j.val, hj⟩) * x3 (ix2 r ⟨j.val, hj⟩)
        - k0_pay8 (F := Ideal) x0 x1 x2 (ix2 r ⟨j.val, hj⟩) * x4 (ix2 r ⟨j.val, hj⟩) = _
    rw [pay7_apply, pay8_apply]
    rfl
  · rw [dif_neg hj]
    refine (concat_halves_right _ _ _ r j hj).trans ?_
    show k0_pay7 (F := Ideal) x0 x1 x2 (ix2 r ⟨j.val - 1024, by have := j.isLt; omega⟩) * x4 (ix2 r ⟨j.val - 1024, by have := j.isLt; omega⟩)
        + k0_pay8 (F := Ideal) x0 x1 x2 (ix2 r ⟨j.val - 1024, by have := j.isLt; omega⟩) * x3 (ix2 r ⟨j.val - 1024, by have := j.isLt; omega⟩) = _
    rw [pay7_apply, pay8_apply]
    rfl

/-! ## The query tile -/

/-- The body's query payload over the two halves of the first third. -/
theorem pay6_eq (x0 : Vec Ideal S256x2048 .f32) (x1 : Vec Ideal S1x2048 .f32) (x2 : Vec Ideal S2048x6144 .bf16)
    (x3 x4 : Vec Ideal S256x1024 .f32) :
    k0_pay6 (F := Ideal) x0 x1 x2 x3 x4
      = truncf .bf16 (mulf (concatenate S256x2048 1
          [⟨S256x1024, subf (mulf (firstThirdLo x0 x1 x2) x3) (mulf (firstThirdHi x0 x1 x2) x4)⟩,
           ⟨S256x1024, addf (mulf (firstThirdLo x0 x1 x2) x4) (mulf (firstThirdHi x0 x1 x2) x3)⟩]
          concatenates_S256x1024_S256x1024_S256x2048_d1)
        (broadcast S256x2048 (Named.named (F := Ideal) κ "inv_scale" (φ := .f32) 0x3CB504F3#32))) bitsLt_bf16_f32 := rfl

/-- The query tile at (r, j): the rotated first third of row r of the fused product, times the reciprocal of the
    softmax scale. -/
theorem queryTile_apply (x0 : Vec Ideal S256x2048 .f32) (x1 : Vec Ideal S1x2048 .f32) (x2 : Vec Ideal S2048x6144 .bf16)
    (x3 x4 : Vec Ideal S256x1024 .f32) (r : Fin 256) (j : Fin 2048) :
    k0_pay6 (F := Ideal) x0 x1 x2 x3 x4 (ix2 r j)
      = rotate (third (fusedTile x0 x1 x2 r) 0 (by omega)) (fun j => x3 (ix2 r j)) (fun j => x4 (ix2 r j)) j * invScale := by
  rw [pay6_eq]
  refine (truncf_apply (s := S256x2048) (φ := .f32) (ψ := .bf16) _ bitsLt_bf16_f32 (ix2 r j)).trans ?_
  refine (mulf_apply (s := S256x2048) (φ := .f32) _ _ (ix2 r j)).trans ?_
  refine congrArg₂ (· * ·) ?_ Cert.Proof.ScaleName.inv_scale_eq
  unfold rotate
  by_cases hj : j.val < 1024
  · rw [dif_pos hj]
    refine (concat_halves_left _ _ _ r j hj).trans ?_
    show firstThirdLo x0 x1 x2 (ix2 r ⟨j.val, hj⟩) * x3 (ix2 r ⟨j.val, hj⟩)
        - firstThirdHi x0 x1 x2 (ix2 r ⟨j.val, hj⟩) * x4 (ix2 r ⟨j.val, hj⟩) = _
    rw [firstThirdLo_apply, firstThirdHi_apply]
    rfl
  · rw [dif_neg hj]
    refine (concat_halves_right _ _ _ r j hj).trans ?_
    show firstThirdLo x0 x1 x2 (ix2 r ⟨j.val - 1024, by have := j.isLt; omega⟩) * x4 (ix2 r ⟨j.val - 1024, by have := j.isLt; omega⟩)
        + firstThirdHi x0 x1 x2 (ix2 r ⟨j.val - 1024, by have := j.isLt; omega⟩) * x3 (ix2 r ⟨j.val - 1024, by have := j.isLt; omega⟩) = _
    rw [firstThirdLo_apply, firstThirdHi_apply]
    rfl

end Cert.Proof.KI

end
-- ==== Proof.KI.QkvValue.lean ====
/-
  The first kernel's three output arrays after its run, at the exact instance: each is the whole-array specification of
  the five argument arrays as the region finds them. Each output tile the body leaves is its one store's payload of the
  input tiles; the payload at (r, j) is the specification's row function of row r of the tiles; the input tiles at grid
  point t are rows 256 t … 256 t + 255 of their arrays (the norm weights and the fused weights whole); and the sixteen
  write-backs of rows 256 t … 256 t + 255 cover the 4096 rows.
-/
import proofs.«105332_j8211977470193_2_alg».proof.Proof.KI.QkvData
import proofs.«105332_j8211977470193_2_alg».proof.Proof.KI.QkvTile
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Tiles
variable {F : FTy → Type} [FloatOps F] [Named F]

/-! ## Each output tile is its store's payload -/

/-- The offsets of every load and store of the body are zero. -/
theorem zeroOffsets : (![0, 0] : Fin 2 → Nat) = fun _ => 0 := funext fun a => by fin_cases a <;> rfl

/-- The value tile after the body is the last third of the fused product of the input tiles, -/
theorem outV_eq (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) :
    outV c i a1 h1 a2 h2 a3 h3 a4 h4 a5 h5 a6 h6 a7 h7 a8 h8 x0 x1 x2 x3 x4 = k0_pay2 (k0_pay5 x0 x1 x2) := by
  unfold outV
  rw [View.read_writes_eq_canon _ _ _ (coverV c i a1 h1 a2 h2 a3 h3 a4 h4 a5 h5 a6 h6 a7 h7 a8 h8 x0 x1 x2 x3 x4)]
  unfold qkvRun
  dsimp only
  try sl_unfold_words
  rw [View.canon_unit_zero zeroOffsets]
  simp only [View.readAt_eq_ld, h1.read_unread, h2.read_unread, h3.read_unread, h4.read_unread, h5.read_unread,
    View.ld_unit_zero (S := S256x2048) zeroOffsets, View.ld_unit_zero (S := S1x2048) zeroOffsets,
    View.ld_unit_zero (S := S2048x6144) zeroOffsets, View.ld_unit_zero (S := S256x1024) zeroOffsets]

/-- the key tile the rotated middle third, -/
theorem outK_eq (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) :
    outK c i a1 h1 a2 h2 a3 h3 a4 h4 a5 h5 a6 h6 a7 h7 a8 h8 x0 x1 x2 x3 x4
      = k0_pay1 x3 x4 (k0_pay7 x0 x1 x2) (k0_pay8 x0 x1 x2) (k0_pay9 x0 x1 x2 x3) (k0_pay10 x0 x1 x2 x4) := by
  unfold outK
  rw [View.read_writes_eq_canon _ _ _ (coverK c i a1 h1 a2 h2 a3 h3 a4 h4 a5 h5 a6 h6 a7 h7 a8 h8 x0 x1 x2 x3 x4)]
  unfold qkvRun
  dsimp only
  try sl_unfold_words
  rw [View.canon_unit_zero zeroOffsets]
  simp only [View.readAt_eq_ld, h1.read_unread, h2.read_unread, h3.read_unread, h4.read_unread, h5.read_unread,
    View.ld_unit_zero (S := S256x2048) zeroOffsets, View.ld_unit_zero (S := S1x2048) zeroOffsets,
    View.ld_unit_zero (S := S2048x6144) zeroOffsets, View.ld_unit_zero (S := S256x1024) zeroOffsets]

/-- and the query tile the rotated and scaled first third. -/
theorem outQ_eq (c : Dev nD) (i : grid0.Coords) (a1 : Memref sig .tc .vmem S256x2048 .f32) (h1 : a1.IsWhole) (a2 : Memref sig .tc .vmem S1x2048 .f32) (h2 : a2.IsWhole)
    (a3 : Memref sig .tc .vmem S2048x6144 .bf16) (h3 : a3.IsWhole) (a4 : Memref sig .tc .vmem S256x1024 .f32) (h4 : a4.IsWhole)
    (a5 : Memref sig .tc .vmem S256x1024 .f32) (h5 : a5.IsWhole) (a6 : Memref sig .tc .vmem S256x2048 .bf16) (h6 : a6.IsWhole)
    (a7 : Memref sig .tc .vmem S256x2048 .bf16) (h7 : a7.IsWhole) (a8 : Memref sig .tc .vmem S256x2048 .bf16) (h8 : a8.IsWhole)
    (x0 : Vec F S256x2048 .f32) (x1 : Vec F S1x2048 .f32) (x2 : Vec F S2048x6144 .bf16) (x3 : Vec F S256x1024 .f32) (x4 : Vec F S256x1024 .f32) :
    outQ c i a1 h1 a2 h2 a3 h3 a4 h4 a5 h5 a6 h6 a7 h7 a8 h8 x0 x1 x2 x3 x4 = k0_pay6 x0 x1 x2 x3 x4 := by
  unfold outQ
  rw [View.read_writes_eq_canon _ _ _ (coverQ c i a1 h1 a2 h2 a3 h3 a4 h4 a5 h5 a6 h6 a7 h7 a8 h8 x0 x1 x2 x3 x4)]
  unfold qkvRun
  dsimp only
  try sl_unfold_words
  rw [View.canon_unit_zero zeroOffsets]
  simp only [View.readAt_eq_ld, h1.read_unread, h2.read_unread, h3.read_unread, h4.read_unread, h5.read_unread,
    View.ld_unit_zero (S := S256x2048) zeroOffsets, View.ld_unit_zero (S := S1x2048) zeroOffsets,
    View.ld_unit_zero (S := S2048x6144) zeroOffsets, View.ld_unit_zero (S := S256x1024) zeroOffsets]

end Tiles

/-! ## A tile against the arrays: row r of the tile is row R of the array -/

section Rows
variable (x : S4096x2048.Idx → EReal) (w : S1x2048.Idx → EReal) (W : S2048x6144.Idx → EReal) (cs sn : S4096x1024.Idx → EReal)
variable (x0 : Vec Ideal S256x2048 .f32) (x1 : Vec Ideal S1x2048 .f32) (x2 : Vec Ideal S2048x6144 .bf16) (x3 x4 : Vec Ideal S256x1024 .f32)

/-- When row r of the activations tile is row R of the activations, and the norm-weight and weight tiles are their
    arrays, row r of the tile's fused product is row R of the arrays' fused product. -/
theorem fusedTile_eq_fusedRow (r : Fin 256) (R : Fin 4096) (e0 : ∀ k : Fin 2048, x0 (ix2 r k) = x (ix2 R k))
    (e1 : ∀ k : Fin 2048, x1 (ix2 (0 : Fin 1) k) = w (ix2 (0 : Fin 1) k))
    (e2 : ∀ (k : Fin 2048) (n : Fin 6144), x2 (ix2 k n) = W (ix2 k n)) :
    fusedTile x0 x1 x2 r = fusedRow x w W R := by
  unfold fusedTile fusedRow xRow wRow wMat
  rw [show (fun k => x0 (ix2 r k)) = fun k => x (ix2 R k) from funext e0,
    show (fun k => x1 (ix2 (0 : Fin 1) k)) = fun k => w (ix2 (0 : Fin 1) k) from funext e1,
    show (fun k n => x2 (ix2 k n)) = fun k n => W (ix2 k n) from funext fun k => funext (e2 k)]

/-- The value tile at (r, j) is the value array at (R, j). -/
theorem valueTile_block (r : Fin 256) (R : Fin 4096) (e0 : ∀ k : Fin 2048, x0 (ix2 r k) = x (ix2 R k))
    (e1 : ∀ k : Fin 2048, x1 (ix2 (0 : Fin 1) k) = w (ix2 (0 : Fin 1) k))
    (e2 : ∀ (k : Fin 2048) (n : Fin 6144), x2 (ix2 k n) = W (ix2 k n)) (j : Fin 2048) :
    k0_pay2 (F := Ideal) (k0_pay5 x0 x1 x2) (ix2 r j) = vArr x w W cs sn (ix2 R j) := by
  rw [valueTile_apply, vArr_apply, fusedTile_eq_fusedRow x w W x0 x1 x2 r R e0 e1 e2]
  rfl

/-- The key tile at (r, j) is the key array at (R, j), when also row r of the cosine and sine tiles is row R of the
    cosines and sines. -/
theorem keyTile_block (r : Fin 256) (R : Fin 4096) (e0 : ∀ k : Fin 2048, x0 (ix2 r k) = x (ix2 R k))
    (e1 : ∀ k : Fin 2048, x1 (ix2 (0 : Fin 1) k) = w (ix2 (0 : Fin 1) k))
    (e2 : ∀ (k : Fin 2048) (n : Fin 6144), x2 (ix2 k n) = W (ix2 k n))
    (e3 : ∀ j : Fin 1024, x3 (ix2 r j) = cs (ix2 R j)) (e4 : ∀ j : Fin 1024, x4 (ix2 r j) = sn (ix2 R j)) (j : Fin 2048) :
    k0_pay1 (F := Ideal) x3 x4 (k0_pay7 x0 x1 x2) (k0_pay8 x0 x1 x2) (k0_pay9 x0 x1 x2 x3) (k0_pay10 x0 x1 x2 x4) (ix2 r j)
      = kArr x w W cs sn (ix2 R j) := by
  rw [keyTile_apply, kArr_apply, fusedTile_eq_fusedRow x w W x0 x1 x2 r R e0 e1 e2,
    show (fun j => x3 (ix2 r j)) = csRow cs R from funext e3, show (fun j => x4 (ix2 r j)) = csRow sn R from funext e4]
  rfl

/-- The query tile at (r, j) is the query array at (R, j). -/
theorem queryTile_block (r : Fin 256) (R : Fin 4096) (e0 : ∀ k : Fin 2048, x0 (ix2 r k) = x (ix2 R k))
    (e1 : ∀ k : Fin 2048, x1 (ix2 (0 : Fin 1) k) = w (ix2 (0 : Fin 1) k))
    (e2 : ∀ (k : Fin 2048) (n : Fin 6144), x2 (ix2 k n) = W (ix2 k n))
    (e3 : ∀ j : Fin 1024, x3 (ix2 r j) = cs (ix2 R j)) (e4 : ∀ j : Fin 1024, x4 (ix2 r j) = sn (ix2 R j)) (j : Fin 2048) :
    k0_pay6 (F := Ideal) x0 x1 x2 x3 x4 (ix2 r j) = qArr x w W cs sn (ix2 R j) := by
  rw [queryTile_apply, qArr_apply, fusedTile_eq_fusedRow x w W x0 x1 x2 r R e0 e1 e2,
    show (fun j => x3 (ix2 r j)) = csRow cs R from funext e3, show (fun j => x4 (ix2 r j)) = csRow sn R from funext e4]
  rfl

end Rows

/-! ## The tiles at a grid point, and the write-backs -/

/-- The printed index maps over the sixteen grid points: the row-blocked windows are at block (t, 0), the two whole
    windows at block (0, 0). -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

section Region
variable (V : (c : Dev nD) → (b : Ref sig .tc) → Buf (Elt Ideal) ((c : Thread nD τ).loc b))

/-- The activations tile at point t, at (r, k), is the activations at row 256 t + r. -/
theorem iblk0_0_apply (c : Dev nD) (t : Fin cfg0.N) (r : Fin 256) (k : Fin 2048) (i : S4096x2048.Idx)
    (hi0 : (i 0).val = 256 * t.val + r.val) (hi1 : (i 1).val = k.val) :
    (iblk0 V c 0 t : Vec Ideal S256x2048 .f32) (ix2 r k) = (V c main_arg0 : S4096x2048.Idx → EReal) i := by
  obtain ⟨f00, f01, -⟩ := idx_facts0 t
  unfold iblk0
  rw [View.read_apply]
  show V c main_arg0 _ = V c main_arg0 _
  congr 1
  funext a
  apply Fin.ext
  match a with
  | ⟨0, _⟩ => show win0_0.index t (0 : Fin 2) * 256 + 1 * r.val = (i 0).val; rw [f00, hi0]; omega
  | ⟨1, _⟩ => show win0_0.index t (1 : Fin 2) * 2048 + 1 * k.val = (i 1).val; rw [f01, hi1]; omega

/-- The norm-weight tile at any point is the norm-weight row. -/
theorem iblk0_1_apply (c : Dev nD) (t : Fin cfg0.N) (k : Fin 2048) :
    (iblk0 V c 1 t : Vec Ideal S1x2048 .f32) (ix2 (0 : Fin 1) k) = (V c main_v13 : S1x2048.Idx → EReal) (ix2 (0 : Fin 1) k) := by
  obtain ⟨-, -, f10, f11, -⟩ := idx_facts0 t
  unfold iblk0
  rw [View.read_apply]
  show V c main_v13 _ = V c main_v13 _
  congr 1
  funext a
  apply Fin.ext
  match a with
  | ⟨0, _⟩ => show win0_1.index t (0 : Fin 2) * 1 + 1 * 0 = 0; rw [f10]
  | ⟨1, _⟩ => show win0_1.index t (1 : Fin 2) * 2048 + 1 * k.val = k.val; rw [f11]; omega

/-- The weight tile at any point is the fused weight matrix. -/
theorem iblk0_2_apply (c : Dev nD) (t : Fin cfg0.N) (k : Fin 2048) (n : Fin 6144) :
    (iblk0 V c 2 t : Vec Ideal S2048x6144 .bf16) (ix2 k n) = (V c main_v4 : S2048x6144.Idx → EReal) (ix2 k n) := by
  obtain ⟨-, -, -, -, f20, f21, -⟩ := idx_facts0 t
  unfold iblk0
  rw [View.read_apply]
  show V c main_v4 _ = V c main_v4 _
  congr 1
  funext a
  apply Fin.ext
  match a with
  | ⟨0, _⟩ => show win0_2.index t (0 : Fin 2) * 2048 + 1 * k.val = k.val; rw [f20]; omega
  | ⟨1, _⟩ => show win0_2.index t (1 : Fin 2) * 6144 + 1 * n.val = n.val; rw [f21]; omega

/-- The cosine tile at point t, at (r, j), is the cosines at row 256 t + r. -/
theorem iblk0_3_apply (c : Dev nD) (t : Fin cfg0.N) (r : Fin 256) (j : Fin 1024) (i : S4096x1024.Idx)
    (hi0 : (i 0).val = 256 * t.val + r.val) (hi1 : (i 1).val = j.val) :
    (iblk0 V c 3 t : Vec Ideal S256x1024 .f32) (ix2 r j) = (V c main_arg10 : S4096x1024.Idx → EReal) i := by
  obtain ⟨-, -, -, -, -, -, f30, f31, -⟩ := idx_facts0 t
  unfold iblk0
  rw [View.read_apply]
  show V c main_arg10 _ = V c main_arg10 _
  congr 1
  funext a
  apply Fin.ext
  match a with
  | ⟨0, _⟩ => show win0_3.index t (0 : Fin 2) * 256 + 1 * r.val = (i 0).val; rw [f30, hi0]; omega
  | ⟨1, _⟩ => show win0_3.index t (1 : Fin 2) * 1024 + 1 * j.val = (i 1).val; rw [f31, hi1]; omega

/-- The sine tile at point t, at (r, j), is the sines at row 256 t + r. -/
theorem iblk0_4_apply (c : Dev nD) (t : Fin cfg0.N) (r : Fin 256) (j : Fin 1024) (i : S4096x1024.Idx)
    (hi0 : (i 0).val = 256 * t.val + r.val) (hi1 : (i 1).val = j.val) :
    (iblk0 V c 4 t : Vec Ideal S256x1024 .f32) (ix2 r j) = (V c main_arg11 : S4096x1024.Idx → EReal) i := by
  obtain ⟨-, -, -, -, -, -, -, -, f40, f41, -⟩ := idx_facts0 t
  unfold iblk0
  rw [View.read_apply]
  show V c main_arg11 _ = V c main_arg11 _
  congr 1
  funext a
  apply Fin.ext
  match a with
  | ⟨0, _⟩ => show win0_4.index t (0 : Fin 2) * 256 + 1 * r.val = (i 0).val; rw [f40, hi0]; omega
  | ⟨1, _⟩ => show win0_4.index t (1 : Fin 2) * 1024 + 1 * j.val = (i 1).val; rw [f41, hi1]; omega

/-- What point t writes back into the value array is rows 256 t … 256 t + 255 of the specification. -/
theorem flushedV_eq (c : Dev nD) (t : Fin cfg0.N) :
    (dat0 (F := Ideal) V c).flushed 7 t = ((cfg0.win 7).blk t).view.read (Elt Ideal)
      (vArr (V c main_arg0) (V c main_v13) (V c main_v4) (V c main_arg10) (V c main_arg11)) := by
  have hN : cfg0.N = 16 := N_0
  have ht : t.val < 16 := by have := t.isLt; omega
  have f7 := (idx_facts0 t).2.2.2.2.2.2.2.2.2.2.2.2.2.2
  show (cfg0.win 7).cut (grid0.coords t) ((dat0 V c).after 7 t) = _
  rw [after0_7, outV_eq]
  funext y
  obtain ⟨r, j, rfl⟩ : ∃ (r : Fin 256) (j : Fin 2048), y = ix2 r j := ⟨y 0, y 1, eq_ix2 y⟩
  rw [View.read_apply]
  show k0_pay2 (F := Ideal) (k0_pay5 (iblk0 V c 0 t) (iblk0 V c 1 t) (iblk0 V c 2 t)) (ix2 r j) = _
  refine (valueTile_block (V c main_arg0) (V c main_v13) (V c main_v4) (V c main_arg10) (V c main_arg11)
    (iblk0 V c 0 t) (iblk0 V c 1 t) (iblk0 V c 2 t) r ⟨256 * t.val + r.val, by have := r.isLt; omega⟩
    (fun k => iblk0_0_apply V c t r k (ix2 ⟨256 * t.val + r.val, by have := r.isLt; omega⟩ k) rfl rfl)
    (fun k => iblk0_1_apply V c t k) (fun k n => iblk0_2_apply V c t k n) j).trans ?_
  refine congrArg _ (funext fun a => Fin.ext ?_)
  match a with
  | ⟨0, _⟩ => show 256 * t.val + r.val = win0_7.index t (0 : Fin 2) * 256 + 1 * r.val; rw [f7.1]; omega
  | ⟨1, _⟩ => show j.val = win0_7.index t (1 : Fin 2) * 2048 + 1 * j.val; rw [f7.2]; omega

/-- An index of the value array is in point t's block iff each coordinate is in the block's range. -/
theorem mem_blk7 (t : Fin cfg0.N) (i : S4096x2048.Idx) :
    i ∈ ((cfg0.win 7).blk t).view.set ↔ ∀ a : Fin 2, win0_7.index t a * S256x2048.size a ≤ (i a).val
      ∧ (i a).val < win0_7.index t a * S256x2048.size a + S256x2048.size a := by
  show i ∈ ((View.whole main_v15_2).slice (win0_7.rect t)).set ↔ _
  rw [View.set_slice_whole, Rect.mem_set_unit]
  exact Iff.rfl

/-- Every index of the value array is in the block of the point that covers its row: row R is in block R / 256. -/
theorem cover7 (i : S4096x2048.Idx) :
    ∃ t : Fin cfg0.N, (cfg0.win 7).flush t = true ∧ i ∈ ((cfg0.win 7).blk t).view.set := by
  have hN : cfg0.N = 16 := N_0
  have hi0 : (i 0).val < 4096 := (i 0).isLt
  have hi1 : (i 1).val < 2048 := (i 1).isLt
  have hq : (i 0).val / 256 < cfg0.N := by rw [hN]; omega
  have f7 := (idx_facts0 ⟨(i 0).val / 256, hq⟩).2.2.2.2.2.2.2.2.2.2.2.2.2.2
  have f70 : win0_7.index ⟨(i 0).val / 256, hq⟩ (0 : Fin 2) = (i 0).val / 256 := f7.1
  refine ⟨⟨(i 0).val / 256, hq⟩, flush0_7 _, ?_⟩
  rw [mem_blk7]
  intro a
  match a with
  | ⟨0, _⟩ =>
    show win0_7.index ⟨(i 0).val / 256, hq⟩ (0 : Fin 2) * 256 ≤ (i 0).val
      ∧ (i 0).val < win0_7.index ⟨(i 0).val / 256, hq⟩ (0 : Fin 2) * 256 + 256
    rw [f70]; omega
  | ⟨1, _⟩ =>
    show win0_7.index ⟨(i 0).val / 256, hq⟩ (1 : Fin 2) * 2048 ≤ (i 1).val
      ∧ (i 1).val < win0_7.index ⟨(i 0).val / 256, hq⟩ (1 : Fin 2) * 2048 + 2048
    rw [f7.2]; omega

/-- **The value array after the first kernel** is the specification of the argument arrays as the region finds them. -/
theorem arrV_eq (c : Dev nD) :
    (dat0 (F := Ideal) V c).arrAt 7 cfg0.N
      = vArr (V c main_arg0) (V c main_v13) (V c main_v4) (V c main_arg10) (V c main_arg11) :=
  (dat0 (F := Ideal) V c).arrAt_eq_of_cover 7 _ (fun t _ => flushedV_eq V c t) (cover7)

/-- What point t writes back into the key array is rows 256 t … 256 t + 255 of the specification. -/
theorem flushedK_eq (c : Dev nD) (t : Fin cfg0.N) :
    (dat0 (F := Ideal) V c).flushed 6 t = ((cfg0.win 6).blk t).view.read (Elt Ideal)
      (kArr (V c main_arg0) (V c main_v13) (V c main_v4) (V c main_arg10) (V c main_arg11)) := by
  have hN : cfg0.N = 16 := N_0
  have ht : t.val < 16 := by have := t.isLt; omega
  have f6 := (idx_facts0 t).2.2.2.2.2.2.2.2.2.2.2.2
  show (cfg0.win 6).cut (grid0.coords t) ((dat0 V c).after 6 t) = _
  rw [after0_6, outK_eq]
  funext y
  obtain ⟨r, j, rfl⟩ : ∃ (r : Fin 256) (j : Fin 2048), y = ix2 r j := ⟨y 0, y 1, eq_ix2 y⟩
  rw [View.read_apply]
  show k0_pay1 (F := Ideal) (iblk0 V c 3 t) (iblk0 V c 4 t) (k0_pay7 (iblk0 V c 0 t) (iblk0 V c 1 t) (iblk0 V c 2 t)) (k0_pay8 (iblk0 V c 0 t) (iblk0 V c 1 t) (iblk0 V c 2 t))
      (k0_pay9 (iblk0 V c 0 t) (iblk0 V c 1 t) (iblk0 V c 2 t) (iblk0 V c 3 t)) (k0_pay10 (iblk0 V c 0 t) (iblk0 V c 1 t) (iblk0 V c 2 t) (iblk0 V c 4 t)) (ix2 r j) = _
  refine (keyTile_block (V c main_arg0) (V c main_v13) (V c main_v4) (V c main_arg10) (V c main_arg11)
    (iblk0 V c 0 t) (iblk0 V c 1 t) (iblk0 V c 2 t) (iblk0 V c 3 t) (iblk0 V c 4 t) r ⟨256 * t.val + r.val, by have := r.isLt; omega⟩
    (fun k => iblk0_0_apply V c t r k (ix2 ⟨256 * t.val + r.val, by have := r.isLt; omega⟩ k) rfl rfl)
    (fun k => iblk0_1_apply V c t k) (fun k n => iblk0_2_apply V c t k n)
    (fun j => iblk0_3_apply V c t r j (ix2 ⟨256 * t.val + r.val, by have := r.isLt; omega⟩ j) rfl rfl)
    (fun j => iblk0_4_apply V c t r j (ix2 ⟨256 * t.val + r.val, by have := r.isLt; omega⟩ j) rfl rfl) j).trans ?_
  refine congrArg _ (funext fun a => Fin.ext ?_)
  match a with
  | ⟨0, _⟩ => show 256 * t.val + r.val = win0_6.index t (0 : Fin 2) * 256 + 1 * r.val; rw [f6.1]; omega
  | ⟨1, _⟩ => show j.val = win0_6.index t (1 : Fin 2) * 2048 + 1 * j.val; rw [f6.2.1]; omega

/-- An index of the key array is in point t's block iff each coordinate is in the block's range. -/
theorem mem_blk6 (t : Fin cfg0.N) (i : S4096x2048.Idx) :
    i ∈ ((cfg0.win 6).blk t).view.set ↔ ∀ a : Fin 2, win0_6.index t a * S256x2048.size a ≤ (i a).val
      ∧ (i a).val < win0_6.index t a * S256x2048.size a + S256x2048.size a := by
  show i ∈ ((View.whole main_v15_1).slice (win0_6.rect t)).set ↔ _
  rw [View.set_slice_whole, Rect.mem_set_unit]
  exact Iff.rfl

/-- Every index of the key array is in the block of the point that covers its row. -/
theorem cover6 (i : S4096x2048.Idx) :
    ∃ t : Fin cfg0.N, (cfg0.win 6).flush t = true ∧ i ∈ ((cfg0.win 6).blk t).view.set := by
  have hN : cfg0.N = 16 := N_0
  have hi0 : (i 0).val < 4096 := (i 0).isLt
  have hi1 : (i 1).val < 2048 := (i 1).isLt
  have hq : (i 0).val / 256 < cfg0.N := by rw [hN]; omega
  have f6 := (idx_facts0 ⟨(i 0).val / 256, hq⟩).2.2.2.2.2.2.2.2.2.2.2.2
  have f60 : win0_6.index ⟨(i 0).val / 256, hq⟩ (0 : Fin 2) = (i 0).val / 256 := f6.1
  refine ⟨⟨(i 0).val / 256, hq⟩, flush0_6 _, ?_⟩
  rw [mem_blk6]
  intro a
  match a with
  | ⟨0, _⟩ =>
    show win0_6.index ⟨(i 0).val / 256, hq⟩ (0 : Fin 2) * 256 ≤ (i 0).val
      ∧ (i 0).val < win0_6.index ⟨(i 0).val / 256, hq⟩ (0 : Fin 2) * 256 + 256
    rw [f60]; omega
  | ⟨1, _⟩ =>
    show win0_6.index ⟨(i 0).val / 256, hq⟩ (1 : Fin 2) * 2048 ≤ (i 1).val
      ∧ (i 1).val < win0_6.index ⟨(i 0).val / 256, hq⟩ (1 : Fin 2) * 2048 + 2048
    rw [f6.2.1]; omega

/-- **The key array after the first kernel** is the specification of the argument arrays as the region finds them. -/
theorem arrK_eq (c : Dev nD) :
    (dat0 (F := Ideal) V c).arrAt 6 cfg0.N
      = kArr (V c main_arg0) (V c main_v13) (V c main_v4) (V c main_arg10) (V c main_arg11) :=
  (dat0 (F := Ideal) V c).arrAt_eq_of_cover 6 _ (fun t _ => flushedK_eq V c t) (cover6)

/-- What point t writes back into the query array is rows 256 t … 256 t + 255 of the specification. -/
theorem flushedQ_eq (c : Dev nD) (t : Fin cfg0.N) :
    (dat0 (F := Ideal) V c).flushed 5 t = ((cfg0.win 5).blk t).view.read (Elt Ideal)
      (qArr (V c main_arg0) (V c main_v13) (V c main_v4) (V c main_arg10) (V c main_arg11)) := by
  have hN : cfg0.N = 16 := N_0
  have ht : t.val < 16 := by have := t.isLt; omega
  have f5 := (idx_facts0 t).2.2.2.2.2.2.2.2.2.2
  show (cfg0.win 5).cut (grid0.coords t) ((dat0 V c).after 5 t) = _
  rw [after0_5, outQ_eq]
  funext y
  obtain ⟨r, j, rfl⟩ : ∃ (r : Fin 256) (j : Fin 2048), y = ix2 r j := ⟨y 0, y 1, eq_ix2 y⟩
  rw [View.read_apply]
  show k0_pay6 (F := Ideal) (iblk0 V c 0 t) (iblk0 V c 1 t) (iblk0 V c 2 t) (iblk0 V c 3 t) (iblk0 V c 4 t) (ix2 r j) = _
  refine (queryTile_block (V c main_arg0) (V c main_v13) (V c main_v4) (V c main_arg10) (V c main_arg11)
    (iblk0 V c 0 t) (iblk0 V c 1 t) (iblk0 V c 2 t) (iblk0 V c 3 t) (iblk0 V c 4 t) r ⟨256 * t.val + r.val, by have := r.isLt; omega⟩
    (fun k => iblk0_0_apply V c t r k (ix2 ⟨256 * t.val + r.val, by have := r.isLt; omega⟩ k) rfl rfl)
    (fun k => iblk0_1_apply V c t k) (fun k n => iblk0_2_apply V c t k n)
    (fun j => iblk0_3_apply V c t r j (ix2 ⟨256 * t.val + r.val, by have := r.isLt; omega⟩ j) rfl rfl)
    (fun j => iblk0_4_apply V c t r j (ix2 ⟨256 * t.val + r.val, by have := r.isLt; omega⟩ j) rfl rfl) j).trans ?_
  refine congrArg _ (funext fun a => Fin.ext ?_)
  match a with
  | ⟨0, _⟩ => show 256 * t.val + r.val = win0_5.index t (0 : Fin 2) * 256 + 1 * r.val; rw [f5.1]; omega
  | ⟨1, _⟩ => show j.val = win0_5.index t (1 : Fin 2) * 2048 + 1 * j.val; rw [f5.2.1]; omega

/-- An index of the query array is in point t's block iff each coordinate is in the block's range. -/
theorem mem_blk5 (t : Fin cfg0.N) (i : S4096x2048.Idx) :
    i ∈ ((cfg0.win 5).blk t).view.set ↔ ∀ a : Fin 2, win0_5.index t a * S256x2048.size a ≤ (i a).val
      ∧ (i a).val < win0_5.index t a * S256x2048.size a + S256x2048.size a := by
  show i ∈ ((View.whole main_v15_0).slice (win0_5.rect t)).set ↔ _
  rw [View.set_slice_whole, Rect.mem_set_unit]
  exact Iff.rfl

/-- Every index of the query array is in the block of the point that covers its row. -/
theorem cover5 (i : S4096x2048.Idx) :
    ∃ t : Fin cfg0.N, (cfg0.win 5).flush t = true ∧ i ∈ ((cfg0.win 5).blk t).view.set := by
  have hN : cfg0.N = 16 := N_0
  have hi0 : (i 0).val < 4096 := (i 0).isLt
  have hi1 : (i 1).val < 2048 := (i 1).isLt
  have hq : (i 0).val / 256 < cfg0.N := by rw [hN]; omega
  have f5 := (idx_facts0 ⟨(i 0).val / 256, hq⟩).2.2.2.2.2.2.2.2.2.2
  have f50 : win0_5.index ⟨(i 0).val / 256, hq⟩ (0 : Fin 2) = (i 0).val / 256 := f5.1
  refine ⟨⟨(i 0).val / 256, hq⟩, flush0_5 _, ?_⟩
  rw [mem_blk5]
  intro a
  match a with
  | ⟨0, _⟩ =>
    show win0_5.index ⟨(i 0).val / 256, hq⟩ (0 : Fin 2) * 256 ≤ (i 0).val
      ∧ (i 0).val < win0_5.index ⟨(i 0).val / 256, hq⟩ (0 : Fin 2) * 256 + 256
    rw [f50]; omega
  | ⟨1, _⟩ =>
    show win0_5.index ⟨(i 0).val / 256, hq⟩ (1 : Fin 2) * 2048 ≤ (i 1).val
      ∧ (i 1).val < win0_5.index ⟨(i 0).val / 256, hq⟩ (1 : Fin 2) * 2048 + 2048
    rw [f5.2.1]; omega

/-- **The query array after the first kernel** is the specification of the argument arrays as the region finds them. -/
theorem arrQ_eq (c : Dev nD) :
    (dat0 (F := Ideal) V c).arrAt 5 cfg0.N
      = qArr (V c main_arg0) (V c main_v13) (V c main_v4) (V c main_arg10) (V c main_arg11) :=
  (dat0 (F := Ideal) V c).arrAt_eq_of_cover 5 _ (fun t _ => flushedQ_eq V c t) (cover5)

end Region

end Cert.Proof.KI

end
-- ==== Proof.LibExtendedReals.lean ====
import Idealize.ShloMosaic.PureOps.Ideal
import Idealize.ShloMosaic.PureOps.Ideal.Laws

/-!
# Real numbers among the extended reals

The exact reading of a float computation takes its values in the extended reals. Most of its algebra
holds only where no `∞ - ∞` or `0 * ∞` can occur, that is, on the entries that are real numbers. This
module names those entries and carries the property through the operations of the exact reading.

* `IsReal x`, `IsPos x`, `IsNonneg x`: the extended real `x` is a real number, a positive one, a
  nonnegative one.
* Closure: sums, products, negations, maxima, minima, absolute values and finite sums of reals are
  reals; a square of a real and a finite sum of nonnegative reals are nonnegative reals; a nonnegative
  real plus a positive real is a positive real; the exact quotient of a real (nonnegative real,
  positive real) by a positive real is a real (nonnegative real, positive real); the reciprocal square
  root of a positive real and the logistic function of a real are reals; whatever is clamped between two
  reals is a real; anything below `+∞` kept above a positive real is a positive real; an extended real
  strictly between `0` (or `-∞`) and `+∞` is a positive real (a real).
* `ste_collapse`: `h + (q - h) = q` for a real `h` and any extended real `q` (at `h = ±∞` it fails).
* `fold_max_lt_top`: a fold of `max` over reals, started below `+∞`, stays below `+∞`.
* The 32-bit float words the programs use, as the reals they denote: `2048`, `8192`, `2^25`, `2^24`,
  `1e-8`, `1e-5`, `127` and `1` are positive reals, `-128` and `-1` are reals, the word of `-∞` is
  below `+∞`, and the word of `1.0` is the extended real `1`.
-/

noncomputable section

open scoped BigOperators

namespace Cert.ExtendedReals

open Idealize.ShloMosaic

/-! ## Real entries among the extended reals -/

/-- An extended real that is (the coercion of) a real number. -/
def IsReal (x : EReal) : Prop := ∃ r : ℝ, x = (r : EReal)

/-- An extended real that is a positive real number. -/
def IsPos (x : EReal) : Prop := ∃ r : ℝ, 0 < r ∧ x = (r : EReal)

/-- An extended real that is a nonnegative real number. -/
def IsNonneg (x : EReal) : Prop := ∃ r : ℝ, 0 ≤ r ∧ x = (r : EReal)

theorem IsReal.coe (r : ℝ) : IsReal (r : EReal) := ⟨r, rfl⟩
theorem IsPos.isReal {x : EReal} (h : IsPos x) : IsReal x := let ⟨r, _, e⟩ := h; ⟨r, e⟩
theorem IsNonneg.isReal {x : EReal} (h : IsNonneg x) : IsReal x := let ⟨r, _, e⟩ := h; ⟨r, e⟩

theorem IsReal.ne_top {x : EReal} (h : IsReal x) : x ≠ ⊤ := by obtain ⟨r, rfl⟩ := h; exact EReal.coe_ne_top r
theorem IsReal.lt_top {x : EReal} (h : IsReal x) : x < ⊤ := lt_top_iff_ne_top.2 h.ne_top

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.maxr {x y : EReal} (hx : IsReal x) (hy : IsReal y) : IsReal (max x y) := by
  rcases le_total x y with h | h
  · rw [max_eq_right h]; exact hy
  · rw [max_eq_left h]; exact hx
theorem IsReal.minr {x y : EReal} (hx : IsReal x) (hy : IsReal y) : IsReal (min x y) := by
  rcases le_total x y with h | h
  · rw [min_eq_left h]; exact hx
  · rw [min_eq_right h]; exact hy
/-- The absolute value, as the exact instance reads it, of a real is a real. -/
theorem IsReal.abs {x : EReal} (hx : IsReal x) : IsReal (max x (-x)) := hx.maxr hx.neg

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem IsNonneg.add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
/-- A finite sum of nonnegative reals is a nonnegative real. -/
theorem IsNonneg.sum {ι : Type*} (s : Finset ι) (f : ι → EReal) (h : ∀ i ∈ s, IsNonneg (f i)) : IsNonneg (∑ i ∈ s, f i) := by
  classical
  induction s using Finset.induction_on with
  | empty => exact ⟨0, le_refl 0, by simp⟩
  | insert a s ha ih =>
    rw [Finset.sum_insert ha]
    exact (h a (Finset.mem_insert_self a s)).add (ih fun i hi => h i (Finset.mem_insert_of_mem hi))
/-- The square of a real is a nonnegative real. -/
theorem IsReal.mul_self {x : EReal} (hx : IsReal x) : IsNonneg (x * x) := by
  obtain ⟨a, rfl⟩ := hx; exact ⟨a * a, mul_self_nonneg a, (EReal.coe_mul a a).symm⟩
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩

/-- The exact instance's quotient of a real by a positive real is a real … -/
theorem IsReal.div {x y : EReal} (hx : IsReal x) (hy : IsPos y) : IsReal (Ideal.div x y) := by
  obtain ⟨b, hb, rfl⟩ := hy
  rw [Ideal.div_coe hb.ne' x]; exact hx.mul (IsReal.coe _)
/-- … of a nonnegative real, a nonnegative real … -/
theorem IsNonneg.div {x y : EReal} (hx : IsNonneg x) (hy : IsPos y) : IsNonneg (Ideal.div x y) := by
  obtain ⟨a, ha, rfl⟩ := hx; obtain ⟨b, hb, rfl⟩ := hy
  rw [Ideal.div_coe hb.ne' (a : EReal), ← EReal.coe_mul]
  exact ⟨a * (1 / b), mul_nonneg ha (by positivity), rfl⟩
/-- … and of a positive real, a positive real. -/
theorem IsPos.div {x y : EReal} (hx : IsPos x) (hy : IsPos y) : IsPos (Ideal.div x y) := by
  obtain ⟨a, ha, rfl⟩ := hx; obtain ⟨b, hb, rfl⟩ := hy
  rw [Ideal.div_coe hb.ne' (a : EReal), ← EReal.coe_mul]
  exact ⟨a * (1 / b), mul_pos ha (by positivity), rfl⟩

/-- The reciprocal square root of a positive real is a real. -/
theorem IsPos.rsqrt {x : EReal} (hx : IsPos x) : IsReal (Ideal.rsqrt x) := by
  obtain ⟨a, ha, rfl⟩ := hx
  rw [Ideal.rsqrt_coe, if_neg (not_lt.2 ha.le), if_neg ha.ne']; exact IsReal.coe _

/-- The logistic function of a real is a real. -/
theorem IsReal.logistic {x : EReal} (hx : IsReal x) : IsReal (Ideal.logistic x) := by
  obtain ⟨a, rfl⟩ := hx; rw [Ideal.logistic_coe]; exact IsReal.coe _

/-- Whatever is clamped between two reals is a real. -/
theorem isReal_clamp {lo hi : EReal} (hlo : IsReal lo) (hhi : IsReal hi) (t : EReal) : IsReal (min hi (max lo t)) := by
  induction t using EReal.rec with
  | bot => rw [max_eq_left bot_le]; exact hhi.minr hlo
  | top => rw [max_eq_right le_top, min_eq_left le_top]; exact hhi
  | coe r => exact hhi.minr (hlo.maxr (IsReal.coe r))

/-- Anything below `+∞`, kept above a positive real, is a positive real. -/
theorem isPos_max_of_lt_top {t e : EReal} (ht : t < ⊤) (he : IsPos e) : IsPos (max t e) := by
  obtain ⟨b, hb, rfl⟩ := he
  induction t using EReal.rec with
  | bot => rw [max_eq_right bot_le]; exact ⟨b, hb, rfl⟩
  | top => exact absurd ht (lt_irrefl _)
  | coe r =>
    rcases le_total (r : EReal) (b : EReal) with h | h
    · rw [max_eq_right h]; exact ⟨b, hb, rfl⟩
    · rw [max_eq_left h]; exact ⟨r, lt_of_lt_of_le hb (EReal.coe_le_coe_iff.1 h), rfl⟩

/-- An extended real strictly between `0` and `+∞` is a positive real. -/
theorem isPos_of_lt {x : EReal} (h0 : 0 < x) (ht : x < ⊤) : IsPos x := by
  induction x using EReal.rec with
  | bot => exact absurd h0 (not_lt.2 bot_le)
  | top => exact absurd ht (lt_irrefl _)
  | coe r => exact ⟨r, EReal.coe_pos.1 h0, rfl⟩

/-- An extended real strictly between `-∞` and `+∞` is a real. -/
theorem isReal_of_lt {x : EReal} (hb : ⊥ < x) (ht : x < ⊤) : IsReal x := by
  induction x using EReal.rec with
  | bot => exact absurd hb (lt_irrefl _)
  | top => exact absurd ht (lt_irrefl _)
  | coe r => exact ⟨r, rfl⟩

/-- The straight-through form collapses at a real: `h + (q - h) = q` for a real `h` and ANY `q`
    (at `q = ±∞` both sides are that infinity). -/
theorem ste_collapse {h : EReal} (hh : IsReal h) (q : EReal) : h + (q - h) = q := by
  obtain ⟨a, rfl⟩ := hh
  induction q using EReal.rec with
  | bot => simp
  | top => simp
  | coe r => rw [← EReal.coe_sub, ← EReal.coe_add]; exact congrArg _ (by ring)

/-- The maximum from the word of `-∞` of reals is below `+∞`. -/
theorem fold_max_lt_top {ι : Type*} (s : Finset ι) (f : ι → EReal) (b : EReal) (hb : b < ⊤) (h : ∀ i ∈ s, IsReal (f i)) :
    s.fold max b f < ⊤ :=
  (Finset.fold_max_lt _).2 ⟨hb, fun i hi => (h i hi).lt_top⟩

/-! ## The literal words -/

theorem word_n2048 : IsPos (Ideal.ofBits .f32 0x45000000#32) := by
  refine isPos_of_lt ?_ ?_ <;> simp [Ideal.ofBits, Ideal.ieee, -EReal.coe_mul] <;> norm_num
theorem word_n8192 : IsPos (Ideal.ofBits .f32 0x46000000#32) := by
  refine isPos_of_lt ?_ ?_ <;> simp [Ideal.ofBits, Ideal.ieee, -EReal.coe_mul] <;> norm_num
theorem word_N25 : IsPos (Ideal.ofBits .f32 0x4C000000#32) := by
  refine isPos_of_lt ?_ ?_ <;> simp [Ideal.ofBits, Ideal.ieee, -EReal.coe_mul] <;> norm_num
theorem word_N24 : IsPos (Ideal.ofBits .f32 0x4B800000#32) := by
  refine isPos_of_lt ?_ ?_ <;> simp [Ideal.ofBits, Ideal.ieee, -EReal.coe_mul] <;> norm_num
theorem word_eps8 : IsPos (Ideal.ofBits .f32 0x322BCC77#32) := by
  refine isPos_of_lt ?_ ?_ <;> simp [Ideal.ofBits, Ideal.ieee, -EReal.coe_mul] <;> norm_num
theorem word_eps5 : IsPos (Ideal.ofBits .f32 0x3727C5AC#32) := by
  refine isPos_of_lt ?_ ?_ <;> simp [Ideal.ofBits, Ideal.ieee, -EReal.coe_mul] <;> norm_num
theorem word_127 : IsPos (Ideal.ofBits .f32 0x42FE0000#32) := by
  refine isPos_of_lt ?_ ?_ <;> simp [Ideal.ofBits, Ideal.ieee, -EReal.coe_mul] <;> norm_num
theorem word_one : IsPos (Ideal.ofBits .f32 0x3F800000#32) := by
  refine isPos_of_lt ?_ ?_ <;> simp [Ideal.ofBits, Ideal.ieee, -EReal.coe_mul] <;> norm_num
theorem word_m128 : IsReal (Ideal.ofBits .f32 0xC3000000#32) :=
  ⟨-128, by simp [Ideal.ofBits, Ideal.ieee, -EReal.coe_mul]; norm_num⟩
theorem word_mone : IsReal (Ideal.ofBits .f32 0xBF800000#32) :=
  ⟨-1, by simp [Ideal.ofBits, Ideal.ieee, -EReal.coe_mul]; norm_num⟩
theorem word_ninf_lt_top : Ideal.ofBits .f32 0xFF800000#32 < (⊤ : EReal) := by
  simp [Ideal.ofBits, Ideal.ieee]
/-- The word of `1.0` is the extended real `1`. -/
theorem word_one_eq : Ideal.ofBits .f32 0x3F800000#32 = (1 : EReal) := by
  simp [Ideal.ofBits, Ideal.ieee, -EReal.coe_mul]; norm_num

end Cert.ExtendedReals

end
-- ==== Proof.KI.QkvReal.lean ====
/-
  Every entry of the first kernel's three specification arrays is a real number when every entry of the five argument
  arrays is. The mean of the squares of a row of reals is a nonnegative real (a sum of squares of reals divided by the
  positive number 2048); adding the positive constant 2^-23 makes it positive, so its reciprocal square root is a real;
  sums, differences and products of reals are reals, and the reciprocal of the softmax scale is a real.
-/
import proofs.«105332_j8211977470193_2_alg».proof.Proof.KI.QkvSpec
import proofs.«105332_j8211977470193_2_alg».proof.Proof.LibExtendedReals

noncomputable section

namespace Cert.Proof.KI

open Idealize.ShloMosaic Idealize.ShloMosaic.ValueIdx Cert.ExtendedReals

/-! ## Two facts about reals among the extended reals -/

/-- The float word 0x34000000 is the positive real 2^-23. -/
theorem word_eps23 : IsPos (Ideal.ofBits .f32 0x34000000#32) := by
  refine isPos_of_lt ?_ ?_ <;> simp [Ideal.ofBits, Ideal.ieee, -EReal.coe_mul] <;> norm_num

/-- The difference of two reals is a real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- The reciprocal of the softmax scale is a real. -/
theorem invScale_real : IsReal invScale := IsReal.coe _

/-! ## One row -/

/-- The mean of the squares of a row of reals is a nonnegative real. -/
theorem meanSquare_nonneg {xr : Fin 2048 → EReal} (hx : ∀ k, IsReal (xr k)) : IsNonneg (meanSquare xr) :=
  (IsNonneg.sum Finset.univ (fun k => xr k * xr k) fun k _ => (hx k).mul_self).div word_n2048

/-- The reciprocal root mean square of a row of reals is a real. -/
theorem invRms_real {xr : Fin 2048 → EReal} (hx : ∀ k, IsReal (xr k)) : IsReal (invRms xr) :=
  ((meanSquare_nonneg hx).add_pos word_eps23).rsqrt

/-- The normalised row of reals, with real norm weights, is real. -/
theorem normRow_real {xr wr : Fin 2048 → EReal} (hx : ∀ k, IsReal (xr k)) (hw : ∀ k, IsReal (wr k)) (k : Fin 2048) :
    IsReal (normRow xr wr k) :=
  ((hx k).mul (invRms_real hx)).mul (hw k)

/-- The fused product of a real row with real weights is real. -/
theorem fused_real {xr wr : Fin 2048 → EReal} {W : Fin 2048 → Fin 6144 → EReal} (hx : ∀ k, IsReal (xr k))
    (hw : ∀ k, IsReal (wr k)) (hW : ∀ k n, IsReal (W k n)) (n : Fin 6144) : IsReal (fused xr wr W n) :=
  IsReal.sum Finset.univ (fun k => normRow xr wr k * W k n) fun k _ => (normRow_real hx hw k).mul (hW k n)

/-- A third of a real row is real. -/
theorem third_real {p : Fin 6144 → EReal} (hp : ∀ n, IsReal (p n)) (o : Nat) (ho : o + 2048 ≤ 6144) (j : Fin 2048) :
    IsReal (third p o ho j) := hp _

/-- The rotation of a real row by real cosines and sines is real. -/
theorem rotate_real {u : Fin 2048 → EReal} {cr sr : Fin 1024 → EReal} (hu : ∀ j, IsReal (u j)) (hc : ∀ j, IsReal (cr j))
    (hs : ∀ j, IsReal (sr j)) (j : Fin 2048) : IsReal (rotate u cr sr j) := by
  unfold rotate
  split
  · exact isReal_sub ((hu _).mul (hc _)) ((hu _).mul (hs _))
  · exact ((hu _).mul (hs _)).add ((hu _).mul (hc _))

/-! ## The three arrays -/

section Arrays
variable {x : (⟨2, ![4096, 2048]⟩ : Shape).Idx → EReal} {w : (⟨2, ![1, 2048]⟩ : Shape).Idx → EReal}
  {W : (⟨2, ![2048, 6144]⟩ : Shape).Idx → EReal} {cs sn : (⟨2, ![4096, 1024]⟩ : Shape).Idx → EReal}

/-- A row of the fused product of real arrays is real. -/
theorem fusedRow_real (hx : ∀ i, IsReal (x i)) (hw : ∀ i, IsReal (w i)) (hW : ∀ i, IsReal (W i)) (r : Fin 4096)
    (n : Fin 6144) : IsReal (fusedRow x w W r n) :=
  fused_real (fun k => hx _) (fun k => hw _) (fun k n => hW _) n

/-- The value array of real arguments is real, entry by entry. -/
theorem vAt_real (hx : ∀ i, IsReal (x i)) (hw : ∀ i, IsReal (w i)) (hW : ∀ i, IsReal (W i)) (r : Fin 4096)
    (j : Fin 2048) : IsReal (vAt x w W r j) :=
  third_real (fusedRow_real hx hw hW r) 4096 (by omega) j

/-- The key array of real arguments is real, entry by entry. -/
theorem kAt_real (hx : ∀ i, IsReal (x i)) (hw : ∀ i, IsReal (w i)) (hW : ∀ i, IsReal (W i)) (hc : ∀ i, IsReal (cs i))
    (hs : ∀ i, IsReal (sn i)) (r : Fin 4096) (j : Fin 2048) : IsReal (kAt x w W cs sn r j) :=
  rotate_real (third_real (fusedRow_real hx hw hW r) 2048 (by omega)) (fun j => hc _) (fun j => hs _) j

/-- The query array of real arguments is real, entry by entry. -/
theorem qAt_real (hx : ∀ i, IsReal (x i)) (hw : ∀ i, IsReal (w i)) (hW : ∀ i, IsReal (W i)) (hc : ∀ i, IsReal (cs i))
    (hs : ∀ i, IsReal (sn i)) (r : Fin 4096) (j : Fin 2048) : IsReal (qAt x w W cs sn r j) :=
  (rotate_real (third_real (fusedRow_real hx hw hW r) 0 (by omega)) (fun j => hc _) (fun j => hs _) j).mul invScale_real

/-- The value array of real arguments is real. -/
theorem vArr_real (hx : ∀ i, IsReal (x i)) (hw : ∀ i, IsReal (w i)) (hW : ∀ i, IsReal (W i))
    (i : (⟨2, ![4096, 2048]⟩ : Shape).Idx) : IsReal (vArr x w W cs sn i) :=
  vAt_real hx hw hW (i 0) (i 1)

/-- The key array of real arguments is real. -/
theorem kArr_real (hx : ∀ i, IsReal (x i)) (hw : ∀ i, IsReal (w i)) (hW : ∀ i, IsReal (W i)) (hc : ∀ i, IsReal (cs i))
    (hs : ∀ i, IsReal (sn i)) (i : (⟨2, ![4096, 2048]⟩ : Shape).Idx) : IsReal (kArr x w W cs sn i) :=
  kAt_real hx hw hW hc hs (i 0) (i 1)

/-- The query array of real arguments is real. -/
theorem qArr_real (hx : ∀ i, IsReal (x i)) (hw : ∀ i, IsReal (w i)) (hW : ∀ i, IsReal (W i)) (hc : ∀ i, IsReal (cs i))
    (hs : ∀ i, IsReal (sn i)) (i : (⟨2, ![4096, 2048]⟩ : Shape).Idx) : IsReal (qArr x w W cs sn i) :=
  qAt_real hx hw hW hc hs (i 0) (i 1)

end Arrays

end Cert.Proof.KI

end
-- ==== Proof.LibOnlineSoftmax.lean ====
import Mathlib
import Idealize.ShloMosaic.PureOps.Ideal

/-!
# The online (blockwise) softmax-weighted sum on the extended reals

Scores `s j k` and values `v j k` are real; `j` runs over `n` key blocks and `k` over the keys
inside a block.  The online algorithm carries a running maximum `m`, a running denominator `l`
and a running numerator `acc`, started at `(⊥, 0, 0)`, and for each block replaces them by

* `m' = max m bm`                                  (`bm` the block's maximum),
* `l' = exp (m - m') * l + ∑ k, exp (s k - m')`,
* `acc' = exp (m - m') * acc + ∑ k, exp (s k - m') * v k`,

all computed with the extended-real operations.  We show that every intermediate value is the
coercion of a real number with a closed form, and that at the end `acc / l` is the ordinary
softmax-weighted sum `∑ j k, exp (s j k - M) / (∑ j k, exp (s j k - M)) * v j k`.
-/

noncomputable section

open Idealize.ShloMosaic

namespace Cert.Lib.OnlineSoftmax

/-! ### Sums of coerced reals -/

/-- The coercion `ℝ → EReal` commutes with finite sums (over a finset). -/
theorem coe_sum {ι : Type*} (t : Finset ι) (f : ι → ℝ) :
    ((∑ i ∈ t, f i : ℝ) : EReal) = ∑ i ∈ t, ((f i : ℝ) : EReal) := by
  classical
  induction t using Finset.induction_on with
  | empty => simp
  | insert a t ha ih => rw [Finset.sum_insert ha, Finset.sum_insert ha, EReal.coe_add, ih]

/-- The coercion `ℝ → EReal` commutes with finite sums (over a finite type). -/
theorem coe_sum_univ {ι : Type*} [Fintype ι] (f : ι → ℝ) :
    ((∑ i, f i : ℝ) : EReal) = ∑ i, ((f i : ℝ) : EReal) :=
  coe_sum Finset.univ f

/-- The coercion `ℝ → EReal` commutes with `max`. -/
theorem coe_max (x y : ℝ) : ((max x y : ℝ) : EReal) = max (x : EReal) (y : EReal) :=
  EReal.coe_strictMono.monotone.map_max

/-! ### A block maximum known by its universal property -/

/-- An extended real that is attained by a family of reals is the coercion of its own
    real part. -/
theorem coe_toReal_of_attained {ι : Type*} {sb : ι → ℝ} {bm : EReal}
    (hatt : ∃ k, (sb k : EReal) = bm) : ((bm.toReal : ℝ) : EReal) = bm := by
  obtain ⟨k, rfl⟩ := hatt
  rw [EReal.toReal_coe]

/-- The real part of an attained upper bound is a real upper bound. -/
theorem le_toReal_of_upper {ι : Type*} {sb : ι → ℝ} {bm : EReal}
    (hub : ∀ k, (sb k : EReal) ≤ bm) (hatt : ∃ k, (sb k : EReal) = bm) (k : ι) :
    sb k ≤ bm.toReal := by
  have h := hub k
  rw [← coe_toReal_of_attained hatt] at h
  exact EReal.coe_le_coe_iff.mp h

/-- The real part of an attained upper bound is attained over the reals. -/
theorem exists_eq_toReal_of_attained {ι : Type*} {sb : ι → ℝ} {bm : EReal}
    (hatt : ∃ k, (sb k : EReal) = bm) : ∃ k, sb k = bm.toReal := by
  obtain ⟨k, rfl⟩ := hatt
  exact ⟨k, by rw [EReal.toReal_coe]⟩

/-! ### One step of the recurrence, from a real running maximum -/

/-- The transport of one update from the extended reals to the reals, all quantities real:
    `exp (m - m') * a + ∑ k, exp (s k - m') * w k`. -/
theorem step_coe {ι : Type*} [Fintype ι] (m m' a : ℝ) (sb w : ι → ℝ) :
    Ideal.exp ((m : EReal) - (m' : EReal)) * (a : EReal)
        + ∑ k, Ideal.exp ((sb k : EReal) - (m' : EReal)) * (w k : EReal)
      = ((Real.exp (m - m') * a + ∑ k, Real.exp (sb k - m') * w k : ℝ) : EReal) := by
  simp only [← EReal.coe_sub, Ideal.exp_coe, ← EReal.coe_mul, ← coe_sum_univ, ← EReal.coe_add]

/-- The same transport for the denominator (no value factor). -/
theorem step_coe_one {ι : Type*} [Fintype ι] (m m' a : ℝ) (sb : ι → ℝ) :
    Ideal.exp ((m : EReal) - (m' : EReal)) * (a : EReal)
        + ∑ k, Ideal.exp ((sb k : EReal) - (m' : EReal))
      = ((Real.exp (m - m') * a + ∑ k, Real.exp (sb k - m') : ℝ) : EReal) := by
  simp only [← EReal.coe_sub, Ideal.exp_coe, ← EReal.coe_mul, ← coe_sum_univ, ← EReal.coe_add]

/-- One step, the new maximum: the maximum of a real running maximum and an attained block
    maximum is the coercion of the real maximum. -/
theorem step_max {ι : Type*} {sb : ι → ℝ} {bm : EReal} (m : ℝ)
    (hatt : ∃ k, (sb k : EReal) = bm) :
    max (m : EReal) bm = ((max m bm.toReal : ℝ) : EReal) := by
  rw [coe_max, coe_toReal_of_attained hatt]

/-- One step, the denominator: from a real running maximum `m` and a real `l`, the updated
    denominator is the coercion of the real update, the new maximum being
    `max m bm.toReal`. -/
theorem step_l {ι : Type*} [Fintype ι] (m l : ℝ) (sb : ι → ℝ) (bm : EReal)
    (hatt : ∃ k, (sb k : EReal) = bm) :
    Ideal.exp ((m : EReal) - max (m : EReal) bm) * (l : EReal)
        + ∑ k, Ideal.exp ((sb k : EReal) - max (m : EReal) bm)
      = ((Real.exp (m - max m bm.toReal) * l
          + ∑ k, Real.exp (sb k - max m bm.toReal) : ℝ) : EReal) := by
  rw [step_max m hatt, step_coe_one]

/-- One step, the numerator: from a real running maximum `m` and a real `acc`, the updated
    numerator is the coercion of the real update. -/
theorem step_acc {ι : Type*} [Fintype ι] (m acc : ℝ) (sb vb : ι → ℝ) (bm : EReal)
    (hatt : ∃ k, (sb k : EReal) = bm) :
    Ideal.exp ((m : EReal) - max (m : EReal) bm) * (acc : EReal)
        + ∑ k, Ideal.exp ((sb k : EReal) - max (m : EReal) bm) * (vb k : EReal)
      = ((Real.exp (m - max m bm.toReal) * acc
          + ∑ k, Real.exp (sb k - max m bm.toReal) * vb k : ℝ) : EReal) := by
  rw [step_max m hatt, step_coe]

/-! ### The first step, from `(⊥, 0, 0)` -/

/-- The first step, the new maximum: `max ⊥ bm = bm`, a real. -/
theorem first_max {ι : Type*} {sb : ι → ℝ} {bm : EReal}
    (hatt : ∃ k, (sb k : EReal) = bm) :
    max (⊥ : EReal) bm = ((bm.toReal : ℝ) : EReal) := by
  rw [coe_toReal_of_attained hatt, max_eq_right bot_le]

/-- The first step, the denominator: the term carried from the empty state vanishes. -/
theorem first_l {ι : Type*} [Fintype ι] (sb : ι → ℝ) (bm : EReal)
    (hatt : ∃ k, (sb k : EReal) = bm) :
    Ideal.exp ((⊥ : EReal) - max (⊥ : EReal) bm) * (0 : EReal)
        + ∑ k, Ideal.exp ((sb k : EReal) - max (⊥ : EReal) bm)
      = ((∑ k, Real.exp (sb k - bm.toReal) : ℝ) : EReal) := by
  rw [first_max hatt, mul_zero, zero_add]
  simp only [← EReal.coe_sub, Ideal.exp_coe, ← coe_sum_univ]

/-- The first step, the numerator: the term carried from the empty state vanishes. -/
theorem first_acc {ι : Type*} [Fintype ι] (sb vb : ι → ℝ) (bm : EReal)
    (hatt : ∃ k, (sb k : EReal) = bm) :
    Ideal.exp ((⊥ : EReal) - max (⊥ : EReal) bm) * (0 : EReal)
        + ∑ k, Ideal.exp ((sb k : EReal) - max (⊥ : EReal) bm) * (vb k : EReal)
      = ((∑ k, Real.exp (sb k - bm.toReal) * vb k : ℝ) : EReal) := by
  rw [first_max hatt, mul_zero, zero_add]
  simp only [← EReal.coe_sub, Ideal.exp_coe, ← EReal.coe_mul, ← coe_sum_univ]

/-! ### The invariant over the reals -/

/-- Changing the reference point of an exponential:
    `exp (m - m') * exp (x - m) = exp (x - m')`. -/
theorem exp_shift (m m' x : ℝ) :
    Real.exp (m - m') * Real.exp (x - m) = Real.exp (x - m') := by
  rw [← Real.exp_add]
  congr 1
  ring

/-- Rescaling a weighted sum of exponentials from the reference point `m` to `m'`. -/
theorem rescale_sum {κ : Type*} (A : Finset κ) (s w : κ → ℝ) (m m' : ℝ) :
    Real.exp (m - m') * ∑ x ∈ A, Real.exp (s x - m) * w x
      = ∑ x ∈ A, Real.exp (s x - m') * w x := by
  rw [Finset.mul_sum]
  refine Finset.sum_congr rfl fun x _ => ?_
  rw [← mul_assoc, exp_shift]

/-- Rescaling a sum of exponentials from the reference point `m` to `m'`. -/
theorem rescale_sum_one {κ : Type*} (A : Finset κ) (s : κ → ℝ) (m m' : ℝ) :
    Real.exp (m - m') * ∑ x ∈ A, Real.exp (s x - m) = ∑ x ∈ A, Real.exp (s x - m') := by
  simpa using rescale_sum A s (fun _ => 1) m m'

/-- The invariant, for two disjoint sets of keys: the rescaled weighted sum over `A` plus the
    weighted sum over `B` is the weighted sum over `A ∪ B`, whatever the two reference
    points are. -/
theorem invariant_union {κ : Type*} [DecidableEq κ] (A B : Finset κ) (hAB : Disjoint A B)
    (s w : κ → ℝ) (m m' : ℝ) :
    Real.exp (m - m') * (∑ x ∈ A, Real.exp (s x - m) * w x)
        + ∑ x ∈ B, Real.exp (s x - m') * w x
      = ∑ x ∈ A ∪ B, Real.exp (s x - m') * w x := by
  rw [rescale_sum, Finset.sum_union hAB]

/-- The invariant, blockwise, for the numerator: the rescaled sum over the blocks in `J`
    plus the sum over a new block `j` is the sum over the blocks in `insert j J`. -/
theorem invariant_insert {β ι : Type*} [DecidableEq β] [Fintype ι] (J : Finset β) (j : β)
    (hj : j ∉ J) (s w : β → ι → ℝ) (m m' : ℝ) :
    Real.exp (m - m') * (∑ i ∈ J, ∑ k, Real.exp (s i k - m) * w i k)
        + ∑ k, Real.exp (s j k - m') * w j k
      = ∑ i ∈ insert j J, ∑ k, Real.exp (s i k - m') * w i k := by
  rw [Finset.sum_insert hj, Finset.mul_sum, add_comm]
  congr 1
  exact Finset.sum_congr rfl fun i _ => rescale_sum Finset.univ (s i) (w i) m m'

/-- The invariant, blockwise, for the denominator. -/
theorem invariant_insert_one {β ι : Type*} [DecidableEq β] [Fintype ι] (J : Finset β) (j : β)
    (hj : j ∉ J) (s : β → ι → ℝ) (m m' : ℝ) :
    Real.exp (m - m') * (∑ i ∈ J, ∑ k, Real.exp (s i k - m))
        + ∑ k, Real.exp (s j k - m')
      = ∑ i ∈ insert j J, ∑ k, Real.exp (s i k - m') := by
  simpa using invariant_insert J j hj s (fun _ _ => 1) m m'

/-- The invariant for the maximum: if `m` is the maximum of `s` over `A` and `mb` over `B`
    (each an attained upper bound), then `max m mb` is the maximum over `A ∪ B`. -/
theorem invariant_max {κ : Type*} [DecidableEq κ] (A B : Finset κ) (s : κ → ℝ) (m mb : ℝ)
    (hA : ∀ x ∈ A, s x ≤ m) (hB : ∀ x ∈ B, s x ≤ mb)
    (hatt : (∃ x ∈ A, s x = m) ∨ A = ∅) (hattB : ∃ x ∈ B, s x = mb) (hm : A = ∅ → m ≤ mb) :
    (∀ x ∈ A ∪ B, s x ≤ max m mb) ∧ ∃ x ∈ A ∪ B, s x = max m mb := by
  refine ⟨fun x hx => ?_, ?_⟩
  · rcases Finset.mem_union.mp hx with h | h
    · exact (hA x h).trans (le_max_left _ _)
    · exact (hB x h).trans (le_max_right _ _)
  · obtain ⟨y, hyB, hy⟩ := hattB
    rcases le_total m mb with h | h
    · exact ⟨y, Finset.mem_union_right _ hyB, by rw [hy, max_eq_right h]⟩
    · rcases hatt with ⟨x, hxA, hx⟩ | hAe
      · exact ⟨x, Finset.mem_union_left _ hxA, by rw [hx, max_eq_left h]⟩
      · exact ⟨y, Finset.mem_union_right _ hyB, by rw [hy, max_eq_right (hm hAe)]⟩

/-! ### The recurrence, and its closed form -/

/-- One update of the online state `(m, l, acc)` by a block with scores `sb`, values `vb` and
    block maximum `bm`, with the extended-real operations. -/
def step {ι : Type*} [Fintype ι] (sb vb : ι → ℝ) (bm : EReal) (st : EReal × EReal × EReal) :
    EReal × EReal × EReal :=
  (max st.1 bm,
   Ideal.exp (st.1 - max st.1 bm) * st.2.1 + ∑ k, Ideal.exp ((sb k : EReal) - max st.1 bm),
   Ideal.exp (st.1 - max st.1 bm) * st.2.2
     + ∑ k, Ideal.exp ((sb k : EReal) - max st.1 bm) * (vb k : EReal))

/-- The online state after the first `j` blocks (`j ≤ n`; it stops changing after `n`),
    started at `(⊥, 0, 0)`. -/
def state {n : ℕ} {ι : Type*} [Fintype ι] (s v : Fin n → ι → ℝ) (bm : Fin n → EReal) :
    ℕ → EReal × EReal × EReal
  | 0 => (⊥, 0, 0)
  | j + 1 =>
    if h : j < n then step (s ⟨j, h⟩) (v ⟨j, h⟩) (bm ⟨j, h⟩) (state s v bm j)
    else state s v bm j

/-- The empty state. -/
theorem state_zero {n : ℕ} {ι : Type*} [Fintype ι] (s v : Fin n → ι → ℝ) (bm : Fin n → EReal) :
    state s v bm 0 = (⊥, 0, 0) := rfl

/-- The state after one more block. -/
theorem state_succ {n : ℕ} {ι : Type*} [Fintype ι] (s v : Fin n → ι → ℝ) (bm : Fin n → EReal)
    {j : ℕ} (h : j < n) :
    state s v bm (j + 1) = step (s ⟨j, h⟩) (v ⟨j, h⟩) (bm ⟨j, h⟩) (state s v bm j) := by
  rw [state, dif_pos h]

/-- The first `j` of the `n` blocks. -/
def firstBlocks (n j : ℕ) : Finset (Fin n) := Finset.univ.filter fun i => i.val < j

/-- No block comes before the first. -/
theorem firstBlocks_zero (n : ℕ) : firstBlocks n 0 = ∅ := by
  simp [firstBlocks]

/-- All `n` blocks come before the `n`-th. -/
theorem firstBlocks_self (n : ℕ) : firstBlocks n n = Finset.univ := by
  simp [firstBlocks]

/-- Membership in the first `j` blocks. -/
theorem mem_firstBlocks {n j : ℕ} {i : Fin n} : i ∈ firstBlocks n j ↔ i.val < j := by
  simp [firstBlocks]

/-- The first `j + 1` blocks are the first `j` and block `j`. -/
theorem firstBlocks_succ {n j : ℕ} (h : j < n) :
    firstBlocks n (j + 1) = insert ⟨j, h⟩ (firstBlocks n j) := by
  ext i
  simp only [mem_firstBlocks, Finset.mem_insert, Fin.ext_iff]
  omega

/-- Block `j` is not among the first `j`. -/
theorem not_mem_firstBlocks {n j : ℕ} (h : j < n) : (⟨j, h⟩ : Fin n) ∉ firstBlocks n j := by
  simp [mem_firstBlocks]

/-- The running maximum over the first `j` blocks as an extended real (`⊥` when `j = 0`). -/
def runMaxE {n : ℕ} {ι : Type*} [Fintype ι] (s : Fin n → ι → ℝ) (j : ℕ) : EReal :=
  (firstBlocks n j).sup fun i => Finset.univ.sup fun k => ((s i k : ℝ) : EReal)

/-- The running maximum over the first `j` blocks as a real (meaningful when `0 < j`). -/
def runMax {n : ℕ} {ι : Type*} [Fintype ι] (s : Fin n → ι → ℝ) (j : ℕ) : ℝ :=
  (runMaxE s j).toReal

/-- A block maximum given by its universal property is the supremum of the block. -/
theorem blockSup_eq {ι : Type*} [Fintype ι] {sb : ι → ℝ} {bm : EReal}
    (hub : ∀ k, (sb k : EReal) ≤ bm) (hatt : ∃ k, (sb k : EReal) = bm) :
    (Finset.univ.sup fun k => ((sb k : ℝ) : EReal)) = bm := by
  refine le_antisymm (Finset.sup_le fun k _ => hub k) ?_
  obtain ⟨k, hk⟩ := hatt
  rw [← hk]
  exact Finset.le_sup (f := fun k => ((sb k : ℝ) : EReal)) (Finset.mem_univ k)

/-- The running maximum before any block is `⊥`. -/
theorem runMaxE_zero {n : ℕ} {ι : Type*} [Fintype ι] (s : Fin n → ι → ℝ) : runMaxE s 0 = ⊥ := by
  simp [runMaxE, firstBlocks_zero]

/-- The running maximum after one more block. -/
theorem runMaxE_succ {n : ℕ} {ι : Type*} [Fintype ι] (s : Fin n → ι → ℝ) (bm : Fin n → EReal)
    (hub : ∀ j k, (s j k : EReal) ≤ bm j) (hatt : ∀ j, ∃ k, (s j k : EReal) = bm j)
    {j : ℕ} (h : j < n) :
    runMaxE s (j + 1) = max (runMaxE s j) (bm ⟨j, h⟩) := by
  rw [runMaxE, firstBlocks_succ h, Finset.sup_insert, blockSup_eq (hub _) (hatt _), max_comm]
  rfl

/-- Every score of the first `j` blocks is below the running maximum. -/
theorem le_runMaxE {n : ℕ} {ι : Type*} [Fintype ι] (s : Fin n → ι → ℝ) {j : ℕ} {i : Fin n}
    (hi : i.val < j) (k : ι) : ((s i k : ℝ) : EReal) ≤ runMaxE s j := by
  refine le_trans ?_ (Finset.le_sup (f := fun i => Finset.univ.sup fun k => ((s i k : ℝ) : EReal))
    (mem_firstBlocks.mpr hi))
  exact Finset.le_sup (f := fun k => ((s i k : ℝ) : EReal)) (Finset.mem_univ k)

/-- After at least one block the running maximum is (the coercion of) a real. -/
theorem coe_runMax {n : ℕ} {ι : Type*} [Fintype ι] [Nonempty ι] (s : Fin n → ι → ℝ) {j : ℕ}
    (hj : 0 < j) (hjn : j ≤ n) : ((runMax s j : ℝ) : EReal) = runMaxE s j := by
  refine EReal.coe_toReal (ne_of_lt ?_) (ne_of_gt ?_)
  · exact (Finset.sup_lt_iff (bot_lt_top)).2 fun i _ =>
      (Finset.sup_lt_iff (bot_lt_top)).2 fun k _ => EReal.coe_lt_top _
  · have h0 : 0 < n := lt_of_lt_of_le hj hjn
    obtain ⟨k⟩ := ‹Nonempty ι›
    exact lt_of_lt_of_le (EReal.bot_lt_coe _) (le_runMaxE s (i := ⟨0, h0⟩) hj k)

/-- Every score of the first `j` blocks is below the real running maximum. -/
theorem le_runMax {n : ℕ} {ι : Type*} [Fintype ι] [Nonempty ι] (s : Fin n → ι → ℝ) {j : ℕ}
    (hj : 0 < j) (hjn : j ≤ n) {i : Fin n} (hi : i.val < j) (k : ι) : s i k ≤ runMax s j := by
  have h := le_runMaxE s hi k
  rw [← coe_runMax s hj hjn] at h
  exact EReal.coe_le_coe_iff.mp h

/-- The real running maximum is attained among the first `j` blocks. -/
theorem exists_eq_runMax {n : ℕ} {ι : Type*} [Fintype ι] [Nonempty ι] (s : Fin n → ι → ℝ) {j : ℕ}
    (hj : 0 < j) (hjn : j ≤ n) : ∃ i : Fin n, i.val < j ∧ ∃ k, s i k = runMax s j := by
  have h0 : 0 < n := lt_of_lt_of_le hj hjn
  have hne : (firstBlocks n j).Nonempty := ⟨⟨0, h0⟩, mem_firstBlocks.mpr hj⟩
  obtain ⟨i, hi, hsup⟩ := Finset.exists_mem_eq_sup (firstBlocks n j) hne
    (fun i => Finset.univ.sup fun k => ((s i k : ℝ) : EReal))
  obtain ⟨k, -, hk⟩ := Finset.exists_mem_eq_sup (Finset.univ : Finset ι) Finset.univ_nonempty
    (fun k => ((s i k : ℝ) : EReal))
  refine ⟨i, mem_firstBlocks.mp hi, k, ?_⟩
  have h : ((s i k : ℝ) : EReal) = runMaxE s j := by
    rw [runMaxE, hsup]
    exact hk.symm
  rw [runMax, ← h, EReal.toReal_coe]

/-- The real running maximum after all `n` blocks is the maximum of all scores: any attained
    upper bound of the scores equals it. -/
theorem runMax_eq_of_isMax {n : ℕ} {ι : Type*} [Fintype ι] [Nonempty ι] (s : Fin n → ι → ℝ)
    (hn : 0 < n) (M : ℝ) (hub : ∀ i k, s i k ≤ M) (hatt : ∃ i k, s i k = M) :
    runMax s n = M := by
  refine le_antisymm ?_ ?_
  · obtain ⟨i, -, k, h⟩ := exists_eq_runMax s hn le_rfl
    rw [← h]
    exact hub i k
  · obtain ⟨i, k, h⟩ := hatt
    rw [← h]
    exact le_runMax s hn le_rfl i.isLt k

/-- The factor carried from the previous state, transported to the reals; before any block
    the carried quantity is `0` and the factor does not matter. -/
theorem scale_coe {n : ℕ} {ι : Type*} [Fintype ι] [Nonempty ι] (s : Fin n → ι → ℝ) {j : ℕ}
    (hjn : j ≤ n) (m' X : ℝ) (hX : j = 0 → X = 0) :
    Ideal.exp (runMaxE s j - (m' : EReal)) * (X : EReal)
      = ((Real.exp (runMax s j - m') * X : ℝ) : EReal) := by
  rcases Nat.eq_zero_or_pos j with h | h
  · simp [hX h]
  · rw [← coe_runMax s h hjn, ← EReal.coe_sub, Ideal.exp_coe, ← EReal.coe_mul]

/-- **The closed form of the online state.**  After the first `j ≤ n` blocks the state is
    the running maximum `M_j`, the denominator `∑ exp (s - M_j)` and the numerator
    `∑ exp (s - M_j) * v`, the sums over the keys of the first `j` blocks. -/
theorem state_eq {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (j : ℕ) (hjn : j ≤ n) :
    state s v bm j
      = (runMaxE s j,
         ((∑ i ∈ firstBlocks n j, ∑ k, Real.exp (s i k - runMax s j) : ℝ) : EReal),
         ((∑ i ∈ firstBlocks n j, ∑ k, Real.exp (s i k - runMax s j) * v i k : ℝ) : EReal)) := by
  induction j with
  | zero => simp [state_zero, runMaxE_zero, firstBlocks_zero]
  | succ j ih =>
    have h : j < n := hjn
    have hm : max (runMaxE s j) (bm ⟨j, h⟩) = ((runMax s (j + 1) : ℝ) : EReal) := by
      rw [← runMaxE_succ s bm hub hatt h, coe_runMax s (Nat.succ_pos j) hjn]
    rw [state_succ s v bm h, ih h.le, step]
    simp only
    rw [hm]
    refine Prod.ext ?_ (Prod.ext ?_ ?_)
    · exact coe_runMax s (Nat.succ_pos j) hjn
    · simp only
      rw [scale_coe s h.le _ _ (fun h0 => by rw [h0, firstBlocks_zero, Finset.sum_empty])]
      simp only [← EReal.coe_sub, Ideal.exp_coe, ← coe_sum_univ, ← EReal.coe_add]
      rw [invariant_insert_one _ _ (not_mem_firstBlocks h), ← firstBlocks_succ h]
    · simp only
      rw [scale_coe s h.le _ _ (fun h0 => by rw [h0, firstBlocks_zero, Finset.sum_empty])]
      simp only [← EReal.coe_sub, Ideal.exp_coe, ← EReal.coe_mul, ← coe_sum_univ, ← EReal.coe_add]
      rw [invariant_insert _ _ (not_mem_firstBlocks h), ← firstBlocks_succ h]

/-- The closed form after at least one block, the maximum written as a real. -/
theorem state_eq_coe {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (j : ℕ) (hj : 0 < j) (hjn : j ≤ n) :
    state s v bm j
      = (((runMax s j : ℝ) : EReal),
         ((∑ i ∈ firstBlocks n j, ∑ k, Real.exp (s i k - runMax s j) : ℝ) : EReal),
         ((∑ i ∈ firstBlocks n j, ∑ k, Real.exp (s i k - runMax s j) * v i k : ℝ) : EReal)) := by
  rw [state_eq s v bm hub hatt j hjn, coe_runMax s hj hjn]

/-- The closed form after all `n` blocks. -/
theorem state_final {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (hn : 0 < n) :
    state s v bm n
      = (((runMax s n : ℝ) : EReal),
         ((∑ i, ∑ k, Real.exp (s i k - runMax s n) : ℝ) : EReal),
         ((∑ i, ∑ k, Real.exp (s i k - runMax s n) * v i k : ℝ) : EReal)) := by
  rw [state_eq_coe s v bm hub hatt n hn le_rfl, firstBlocks_self]

/-! ### The end: the quotient is the softmax-weighted sum -/

/-- The denominator is positive. -/
theorem sum_exp_pos {n : ℕ} {ι : Type*} [Fintype ι] [Nonempty ι] (s : Fin n → ι → ℝ)
    (hn : 0 < n) (M : ℝ) : 0 < ∑ i, ∑ k, Real.exp (s i k - M) := by
  haveI : Nonempty (Fin n) := ⟨⟨0, hn⟩⟩
  exact Finset.sum_pos
    (fun i _ => Finset.sum_pos (fun k _ => Real.exp_pos _) Finset.univ_nonempty)
    Finset.univ_nonempty

/-- The softmax-weighted sum does not depend on the reference point subtracted from the
    scores. -/
theorem softmax_shift {n : ℕ} {ι : Type*} [Fintype ι] (s v : Fin n → ι → ℝ) (M M' : ℝ) :
    ∑ i, ∑ k, Real.exp (s i k - M) / (∑ i, ∑ k, Real.exp (s i k - M)) * v i k
      = ∑ i, ∑ k, Real.exp (s i k - M') / (∑ i, ∑ k, Real.exp (s i k - M')) * v i k := by
  have hL : ∑ i, ∑ k, Real.exp (s i k - M)
      = Real.exp (M' - M) * ∑ i, ∑ k, Real.exp (s i k - M') := by
    rw [Finset.mul_sum]
    exact Finset.sum_congr rfl fun i _ => (rescale_sum_one Finset.univ (s i) M' M).symm
  rw [hL]
  refine Finset.sum_congr rfl fun i _ => Finset.sum_congr rfl fun k _ => ?_
  rw [← exp_shift M' M (s i k), mul_div_mul_left _ _ (Real.exp_ne_zero _)]

/-- **The end**, with the running maximum as reference point: the final numerator divided by
    the final denominator is the softmax-weighted sum of the values. -/
theorem final_div_runMax {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (hn : 0 < n) :
    Ideal.div (state s v bm n).2.2 (state s v bm n).2.1
      = ((∑ i, ∑ k, Real.exp (s i k - runMax s n)
            / (∑ i, ∑ k, Real.exp (s i k - runMax s n)) * v i k : ℝ) : EReal) := by
  rw [state_final s v bm hub hatt hn]
  simp only
  rw [Ideal.div_coe (ne_of_gt (sum_exp_pos s hn _)), ← EReal.coe_mul]
  congr 1
  rw [Finset.sum_mul]
  refine Finset.sum_congr rfl fun i _ => ?_
  rw [Finset.sum_mul]
  refine Finset.sum_congr rfl fun k _ => ?_
  ring

/-- **The end**, with any real reference point `M` (in particular the maximum of all scores):
    the final numerator divided by the final denominator is
    `∑ i k, exp (s i k - M) / (∑ i k, exp (s i k - M)) * v i k`. -/
theorem final_div {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (hn : 0 < n) (M : ℝ) :
    Ideal.div (state s v bm n).2.2 (state s v bm n).2.1
      = ((∑ i, ∑ k, Real.exp (s i k - M)
            / (∑ i, ∑ k, Real.exp (s i k - M)) * v i k : ℝ) : EReal) := by
  rw [final_div_runMax s v bm hub hatt hn, softmax_shift s v (runMax s n) M]

/-! ### The reference spelling -/

/-- The whole (one-pass) softmax-weighted sum, spelled with the extended-real operations
    over any finite nonempty type of keys — exponentials of `s - max ⊥ M`, the denominator
    accumulated from `0`, each weight a quotient — is the coercion of the real one. -/
theorem reference_eq {κ : Type*} [Fintype κ] [Nonempty κ] (s v : κ → ℝ) (M : ℝ) :
    ∑ x, Ideal.div (Ideal.exp ((s x : EReal) - max (⊥ : EReal) (M : EReal)))
          (0 + ∑ y, Ideal.exp ((s y : EReal) - max (⊥ : EReal) (M : EReal))) * (v x : EReal)
      = ((∑ x, Real.exp (s x - M) / (∑ y, Real.exp (s y - M)) * v x : ℝ) : EReal) := by
  have hL : (∑ y, Real.exp (s y - M)) ≠ 0 :=
    ne_of_gt (Finset.sum_pos (fun y _ => Real.exp_pos _) Finset.univ_nonempty)
  rw [max_eq_right bot_le, zero_add]
  simp only [← EReal.coe_sub, Ideal.exp_coe, ← coe_sum_univ]
  simp only [Ideal.div_coe hL, ← EReal.coe_mul, ← coe_sum_univ]
  congr 1
  refine Finset.sum_congr rfl fun x _ => ?_
  ring

/-- The reference spelling with the keys in blocks (a double sum). -/
theorem reference_eq_blocks {n : ℕ} {ι : Type*} [Fintype ι] [Nonempty ι] (s v : Fin n → ι → ℝ)
    (hn : 0 < n) (M : ℝ) :
    ∑ i, ∑ k, Ideal.div (Ideal.exp ((s i k : EReal) - max (⊥ : EReal) (M : EReal)))
          (0 + ∑ i, ∑ k, Ideal.exp ((s i k : EReal) - max (⊥ : EReal) (M : EReal)))
        * (v i k : EReal)
      = ((∑ i, ∑ k, Real.exp (s i k - M) / (∑ i, ∑ k, Real.exp (s i k - M)) * v i k : ℝ)
          : EReal) := by
  have hL : (∑ i, ∑ k, Real.exp (s i k - M)) ≠ 0 := ne_of_gt (sum_exp_pos s hn M)
  rw [max_eq_right bot_le, zero_add]
  simp only [← EReal.coe_sub, Ideal.exp_coe, ← coe_sum_univ]
  simp only [Ideal.div_coe hL, ← EReal.coe_mul, ← coe_sum_univ]
  congr 1
  refine Finset.sum_congr rfl fun i _ => Finset.sum_congr rfl fun k _ => ?_
  ring

/-- **Online equals reference**: the final quotient of the online recurrence is the
    reference spelling of the softmax-weighted sum, for any real `M`. -/
theorem final_div_eq_reference {n : ℕ} {ι : Type*} [Fintype ι] [Nonempty ι]
    (s v : Fin n → ι → ℝ) (bm : Fin n → EReal) (hub : ∀ j k, (s j k : EReal) ≤ bm j)
    (hatt : ∀ j, ∃ k, (s j k : EReal) = bm j) (hn : 0 < n) (M : ℝ) :
    Ideal.div (state s v bm n).2.2 (state s v bm n).2.1
      = ∑ i, ∑ k, Ideal.div (Ideal.exp ((s i k : EReal) - max (⊥ : EReal) (M : EReal)))
            (0 + ∑ i, ∑ k, Ideal.exp ((s i k : EReal) - max (⊥ : EReal) (M : EReal)))
          * (v i k : EReal) := by
  rw [final_div s v bm hub hatt hn M, reference_eq_blocks s v hn M]

/-! ### The components of the closed form, and uniqueness of the recurrence -/

/-- The running maximum carried by the online state. -/
theorem state_m {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (j : ℕ) (hjn : j ≤ n) :
    (state s v bm j).1 = runMaxE s j := by
  rw [state_eq s v bm hub hatt j hjn]

/-- The denominator carried by the online state; it does not depend on the values. -/
theorem state_l {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (j : ℕ) (hjn : j ≤ n) :
    (state s v bm j).2.1
      = ((∑ i ∈ firstBlocks n j, ∑ k, Real.exp (s i k - runMax s j) : ℝ) : EReal) := by
  rw [state_eq s v bm hub hatt j hjn]

/-- The numerator carried by the online state. -/
theorem state_acc {n : ℕ} {ι : Type*} [Fintype ι] [Nonempty ι] (s v : Fin n → ι → ℝ)
    (bm : Fin n → EReal) (hub : ∀ j k, (s j k : EReal) ≤ bm j)
    (hatt : ∀ j, ∃ k, (s j k : EReal) = bm j) (j : ℕ) (hjn : j ≤ n) :
    (state s v bm j).2.2
      = ((∑ i ∈ firstBlocks n j, ∑ k, Real.exp (s i k - runMax s j) * v i k : ℝ) : EReal) := by
  rw [state_eq s v bm hub hatt j hjn]

/-- Any sequence of triples that starts at `(⊥, 0, 0)` and advances by `step` on the blocks
    in order is the online state. -/
theorem eq_state_of_rec {n : ℕ} {ι : Type*} [Fintype ι] (s v : Fin n → ι → ℝ)
    (bm : Fin n → EReal) (f : ℕ → EReal × EReal × EReal) (h0 : f 0 = (⊥, 0, 0))
    (hs : ∀ (j : ℕ) (h : j < n), f (j + 1) = step (s ⟨j, h⟩) (v ⟨j, h⟩) (bm ⟨j, h⟩) (f j))
    (j : ℕ) (hjn : j ≤ n) : f j = state s v bm j := by
  induction j with
  | zero => rw [h0, state_zero]
  | succ j ih =>
    have h : j < n := hjn
    rw [hs j h, state_succ s v bm h, ih h.le]

end Cert.Lib.OnlineSoftmax
-- ==== Proof.KI.AttnSpec.lean ====
/-
  What the attention kernel of the block computes, as one function of its arrays, index by index. The queries, keys and
  values are real arrays of 4096 rows of 2048 features; the keys and values are taken in eight blocks of 512 rows. For a
  query row r the score against key row 512 j + k is the inner product of the two rows; the weights are the softmax of the
  scores over all 4096 keys; the context row is the weighted sum of the value rows; and the result is the residual plus the
  context row multiplied by the projection weight. The context is a real number; the projection weight and the residual are
  extended reals, as the arrays of the program are.
-/
import Idealize.ShloMosaic.PureOps.Ideal
import Idealize.ShloMosaic.Lib.ValueIdx
import proofs.«105332_j8211977470193_2_alg».proof.Proof.LibOnlineSoftmax

noncomputable section

open scoped BigOperators

namespace Cert.Proof.KI

open Idealize.ShloMosaic Idealize.ShloMosaic.ValueIdx

/-- The arrays' index types, over literal extents. -/
abbrev I4096x2048 : Type := (⟨2, ![4096, 2048]⟩ : Shape).Idx
abbrev I2048x2048 : Type := (⟨2, ![2048, 2048]⟩ : Shape).Idx

/-- Key block j's row k is row 512 j + k of the keys (and of the values). -/
def keyRow (j : Fin 8) (k : Fin 512) : Fin 4096 := ⟨512 * j.val + k.val, by have := j.isLt; have := k.isLt; omega⟩

theorem keyRow_val (j : Fin 8) (k : Fin 512) : (keyRow j k).val = 512 * j.val + k.val := rfl

/-- The score of query row r against key row 512 j + k: the inner product of the two rows. -/
def score (qR kR : I4096x2048 → ℝ) (r : Fin 4096) (j : Fin 8) (k : Fin 512) : ℝ :=
  ∑ d : Fin 2048, qR (ix2 r d) * kR (ix2 (keyRow j k) d)

/-- Column d of the values, by key block and row in the block. -/
def valCol (vR : I4096x2048 → ℝ) (d : Fin 2048) (j : Fin 8) (k : Fin 512) : ℝ := vR (ix2 (keyRow j k) d)

/-- The softmax weight of key row 512 j + k for query row r. -/
def weight (qR kR : I4096x2048 → ℝ) (r : Fin 4096) (j : Fin 8) (k : Fin 512) : ℝ :=
  Real.exp (score qR kR r j k) / ∑ j' : Fin 8, ∑ k' : Fin 512, Real.exp (score qR kR r j' k')

/-- The context: the weighted sum of the value rows. -/
def ctx (qR kR vR : I4096x2048 → ℝ) (r : Fin 4096) (d : Fin 2048) : ℝ :=
  ∑ j : Fin 8, ∑ k : Fin 512, weight qR kR r j k * valCol vR d j k

/-- The result at row r and column e: the residual plus the context row times the projection weight's column. -/
def attnAt (qR kR vR : I4096x2048 → ℝ) (Wo : I2048x2048 → EReal) (x : I4096x2048 → EReal) (r : Fin 4096) (e : Fin 2048) : EReal :=
  x (ix2 r e) + ∑ d : Fin 2048, ((ctx qR kR vR r d : ℝ) : EReal) * Wo (ix2 d e)

/-- The result array. -/
def attnArr (qR kR vR : I4096x2048 → ℝ) (Wo : I2048x2048 → EReal) (x : I4096x2048 → EReal) : I4096x2048 → EReal :=
  fun i => attnAt qR kR vR Wo x (i 0) (i 1)

theorem score_apply (qR kR : I4096x2048 → ℝ) (r : Fin 4096) (j : Fin 8) (k : Fin 512) :
    score qR kR r j k = ∑ d : Fin 2048, qR (ix2 r d) * kR (ix2 (keyRow j k) d) := rfl

theorem ctx_apply (qR kR vR : I4096x2048 → ℝ) (r : Fin 4096) (d : Fin 2048) :
    ctx qR kR vR r d = ∑ j : Fin 8, ∑ k : Fin 512,
      Real.exp (score qR kR r j k) / (∑ j' : Fin 8, ∑ k' : Fin 512, Real.exp (score qR kR r j' k')) * valCol vR d j k := rfl

theorem attnArr_apply (qR kR vR : I4096x2048 → ℝ) (Wo : I2048x2048 → EReal) (x : I4096x2048 → EReal) (r : Fin 4096) (e : Fin 2048) :
    attnArr qR kR vR Wo x (ix2 r e) = x (ix2 r e) + ∑ d : Fin 2048, ((ctx qR kR vR r d : ℝ) : EReal) * Wo (ix2 d e) := rfl

/-- The online recurrence over the eight key blocks ends at the context: whatever block maxima it carried, provided each
    is an attained upper bound of its block's scores, the final numerator over the final denominator is the context. -/
theorem online_final (qR kR vR : I4096x2048 → ℝ) (r : Fin 4096) (d : Fin 2048) (bm : Fin 8 → EReal)
    (hub : ∀ j k, ((score qR kR r j k : ℝ) : EReal) ≤ bm j) (hatt : ∀ j, ∃ k, ((score qR kR r j k : ℝ) : EReal) = bm j) :
    Ideal.div (Cert.Lib.OnlineSoftmax.state (score qR kR r) (valCol vR d) bm 8).2.2
        (Cert.Lib.OnlineSoftmax.state (score qR kR r) (valCol vR d) bm 8).2.1
      = ((ctx qR kR vR r d : ℝ) : EReal) := by
  rw [Cert.Lib.OnlineSoftmax.final_div (score qR kR r) (valCol vR d) bm hub hatt (by decide) 0]
  simp only [sub_zero]
  rfl

end Cert.Proof.KI

end
-- ==== Proof.KI.FfnPieces.lean ====
/-
  What each control case of the feed-forward body leaves in h, in acc and in the output tile, as the body's own arithmetic
  applied to what it loaded. Every store of the body writes a whole tile, so a buffer read back after the case holds the last
  store's value; and a load that follows a whole store reads that store's value. So: a first hidden tile leaves in h the
  normalised rows of the activation tile and in acc the first hidden tile's contribution added to zeros; a middle or last
  hidden tile leaves in acc what the point before left plus its own contribution, computed from the h the point before left;
  a last hidden tile leaves in the output tile the activation tile plus that final accumulator.
-/
import proofs.«105332_j8211977470193_2_alg».proof.Proof.KI.FfnData
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL.Sem
open Idealize.ShloMosaic.Pipeline (Dat)
open scoped BigOperators

variable {F : FTy → Type} [FloatOps F] [Named F]

/-- Both coordinates of a whole tile's offset are zero. -/
theorem ffn_hz2 : (![0, 0] : Fin 2 → Nat) = fun _ => 0 := funext fun a => by fin_cases a <;> rfl

/-- A first hidden tile leaves in h the normalised rows: the root-mean-square normalisation of the activation tile scaled
    by the norm weights. -/
theorem soutA_h_eq (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) :
    soutA_h c i a0 hw0 a1 hw1 a2 hw2 a3 hw3 a4 hw4 a5 hw5 a6 hw6 a7 hw7 hc0 hc1 x0 x1 x2 x3 x4 = k2_pay1 x0 x1 := by
  unfold soutA_h
  rw [View.read_writes_eq_canon _ _ _ (scoverA_h c i a0 hw0 a1 hw1 a2 hw2 a3 hw3 a4 hw4 a5 hw5 a6 hw6 a7 hw7 hc0 hc1 x0 x1 x2 x3 x4)]
  unfold ffnRunA
  dsimp only
  try sl_unfold_words
  rw [View.canon_cons_unit_zero (S := S512x2048) ffn_hz2]
  simp only [View.readAt_eq_ld, hw0.read_unread, hw1.read_unread, View.readCov_unit_zero (S := S512x2048) _ ffn_hz2, View.ld_unit_zero (S := S512x2048) ffn_hz2, View.ld_unit_zero (S := S2048x512) ffn_hz2, View.ld_unit_zero (S := S1x2048) ffn_hz2]

/-- A first hidden tile leaves in acc the tile's contribution, computed from the h just stored, added to the zeros just
    stored. -/
theorem soutA_acc_eq (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ffnInit i) (hc1 : ¬ffnFin i)
    (x0 : Vec F S512x2048 .f32) (x1 : Vec F S1x2048 .f32) (x2 : Vec F S2048x512 .bf16) (x3 : Vec F S2048x512 .bf16) (x4 : Vec F S512x2048 .bf16) :
    soutA_acc c i a0 hw0 a1 hw1 a2 hw2 a3 hw3 a4 hw4 a5 hw5 a6 hw6 a7 hw7 hc0 hc1 x0 x1 x2 x3 x4 = k2_pay3 (k2_pay1 x0 x1) x2 x3 (k2_pay2 (F := F)) x4 := by
  unfold soutA_acc
  rw [View.read_writes_eq_canon _ _ _ (scoverA_acc c i a0 hw0 a1 hw1 a2 hw2 a3 hw3 a4 hw4 a5 hw5 a6 hw6 a7 hw7 hc0 hc1 x0 x1 x2 x3 x4)]
  unfold ffnRunA
  dsimp only
  try sl_unfold_words
  rw [View.canon_cons_unit_zero (S := S512x2048) ffn_hz2]
  simp only [View.readAt_eq_ld, hw0.read_unread, hw1.read_unread, hw2.read_unread, hw3.read_unread, hw4.read_unread, View.readCov_unit_zero (S := S512x2048) _ ffn_hz2, View.ld_unit_zero (S := S512x2048) ffn_hz2, View.ld_unit_zero (S := S2048x512) ffn_hz2, View.ld_unit_zero (S := S1x2048) ffn_hz2]

/-- A middle hidden tile leaves in acc what it held plus the tile's contribution, from the h it was handed. -/
theorem soutB_acc_eq (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ¬ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) :
    soutB_acc c i a0 hw0 a1 hw1 a2 hw2 a3 hw3 a4 hw4 a5 hw5 a6 hw6 a7 hw7 hc0 hc1 x0 x1 x2 x3 x4 xh xacc = k2_pay3 xh x2 x3 xacc x4 := by
  unfold soutB_acc
  rw [View.read_writes_eq_canon _ _ _ (scoverB_acc c i a0 hw0 a1 hw1 a2 hw2 a3 hw3 a4 hw4 a5 hw5 a6 hw6 a7 hw7 hc0 hc1 x0 x1 x2 x3 x4 xh xacc)]
  unfold ffnRunB
  dsimp only
  try sl_unfold_words
  rw [View.canon_cons_unit_zero (S := S512x2048) ffn_hz2]
  simp only [View.readAt_eq_ld, hw2.read_unread, hw3.read_unread, hw4.read_unread, hw6.read_unread, hw7.read_unread, View.readCov_unit_zero (S := S512x2048) _ ffn_hz2, View.ld_unit_zero (S := S512x2048) ffn_hz2, View.ld_unit_zero (S := S2048x512) ffn_hz2, View.ld_unit_zero (S := S1x2048) ffn_hz2]

/-- A last hidden tile leaves the same in acc, -/
theorem soutC_acc_eq (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) :
    soutC_acc c i a0 hw0 a1 hw1 a2 hw2 a3 hw3 a4 hw4 a5 hw5 a6 hw6 a7 hw7 hc0 hc1 x0 x1 x2 x3 x4 xh xacc = k2_pay3 xh x2 x3 xacc x4 := by
  unfold soutC_acc
  rw [View.read_writes_eq_canon _ _ _ (scoverC_acc c i a0 hw0 a1 hw1 a2 hw2 a3 hw3 a4 hw4 a5 hw5 a6 hw6 a7 hw7 hc0 hc1 x0 x1 x2 x3 x4 xh xacc)]
  unfold ffnRunC
  dsimp only
  try sl_unfold_words
  rw [View.canon_cons_unit_zero (S := S512x2048) ffn_hz2]
  simp only [View.readAt_eq_ld, hw2.read_unread, hw3.read_unread, hw4.read_unread, hw6.read_unread, hw7.read_unread, View.readCov_unit_zero (S := S512x2048) _ ffn_hz2, View.ld_unit_zero (S := S512x2048) ffn_hz2, View.ld_unit_zero (S := S2048x512) ffn_hz2, View.ld_unit_zero (S := S1x2048) ffn_hz2]

/-- and in the output tile the activation tile plus that accumulator. -/
theorem outC_eq (c : Dev nD) (i : grid2.Coords)
    (a0 : Memref sig .tc .vmem S512x2048 .f32) (hw0 : a0.IsWhole) (a1 : Memref sig .tc .vmem S1x2048 .f32) (hw1 : a1.IsWhole)
    (a2 : Memref sig .tc .vmem S2048x512 .bf16) (hw2 : a2.IsWhole) (a3 : Memref sig .tc .vmem S2048x512 .bf16) (hw3 : a3.IsWhole)
    (a4 : Memref sig .tc .vmem S512x2048 .bf16) (hw4 : a4.IsWhole) (a5 : Memref sig .tc .vmem S512x2048 .f32) (hw5 : a5.IsWhole)
    (a6 : Memref sig .tc .vmem S512x2048 .f32) (hw6 : a6.IsWhole) (a7 : Memref sig .tc .vmem S512x2048 .f32) (hw7 : a7.IsWhole)
    (hc0 : ¬ffnInit i) (hc1 : ffnFin i)
    (x0 : Vec F S512x2048 .f32) (x1 : Vec F S1x2048 .f32) (x2 : Vec F S2048x512 .bf16) (x3 : Vec F S2048x512 .bf16) (x4 : Vec F S512x2048 .bf16)
    (xh : Vec F S512x2048 .f32) (xacc : Vec F S512x2048 .f32) :
    outC c i a0 hw0 a1 hw1 a2 hw2 a3 hw3 a4 hw4 a5 hw5 a6 hw6 a7 hw7 hc0 hc1 x0 x1 x2 x3 x4 xh xacc = k2_pay4 x0 (k2_pay3 xh x2 x3 xacc x4) := by
  unfold outC
  rw [View.read_writes_eq_canon _ _ _ (coverC_out c i a0 hw0 a1 hw1 a2 hw2 a3 hw3 a4 hw4 a5 hw5 a6 hw6 a7 hw7 hc0 hc1 x0 x1 x2 x3 x4 xh xacc)]
  unfold ffnRunC
  dsimp only
  try sl_unfold_words
  rw [View.canon_cons_unit_zero (S := S512x2048) ffn_hz2]
  simp only [View.readAt_eq_ld, hw0.read_unread, hw2.read_unread, hw3.read_unread, hw4.read_unread, hw6.read_unread, hw7.read_unread, View.readCov_unit_zero (S := S512x2048) _ ffn_hz2, View.ld_unit_zero (S := S512x2048) ffn_hz2, View.ld_unit_zero (S := S2048x512) ffn_hz2, View.ld_unit_zero (S := S1x2048) ffn_hz2]

end Cert.Proof.KI

end
-- ==== Proof.KI.FfnSpec.lean ====
/-
  The feed-forward half-block as one function of its arrays, entry by entry, over the extended reals. For activations x of
  4096 rows by 2048 columns, a norm weight row w, gate and up weights of 2048 by 8192 and down weights of 8192 by 2048:
  each row of x is divided by the root of (its mean square plus a small constant) and scaled by w, giving h; the gate and up
  projections are the products h Wg and h Wu; the hidden activation is gate * logistic(gate) * up; the result is x plus the
  hidden activation times Wd. The contraction over the 8192 hidden columns is taken here in sixteen runs of 512, each run's
  partial sum added to what the earlier runs gave, starting from zero; the last theorem says that over the extended reals,
  where addition is commutative and associative and zero is its unit, the sixteen partial sums are the one sum over all 8192
  hidden columns. The two float constants are kept as the words that encode them.
-/
import Idealize.ShloMosaic.PureOps.Ideal
import Idealize.ShloMosaic.Lib.ValueIdx

noncomputable section

open scoped BigOperators

namespace Cert.Proof.KI

open Idealize.ShloMosaic Idealize.ShloMosaic.ValueIdx

/-- The small constant added to a row's mean square (the word of 2^-23). -/
def ffnEps : EReal := Ideal.ofBits .f32 0x34000000#32
/-- The number of columns a row's squares are averaged over (the word of 2048). -/
def ffnCols : EReal := Ideal.ofBits .f32 0x45000000#32

section Spec
variable (x : (⟨2, ![4096, 2048]⟩ : Shape).Idx → EReal) (w : (⟨2, ![1, 2048]⟩ : Shape).Idx → EReal)
  (Wg : (⟨2, ![2048, 8192]⟩ : Shape).Idx → EReal) (Wu : (⟨2, ![2048, 8192]⟩ : Shape).Idx → EReal)
  (Wd : (⟨2, ![8192, 2048]⟩ : Shape).Idx → EReal)

/-- Row r of x normalised by its root mean square and scaled by the norm weights, at column k. -/
def ffnHrow (r : Fin 4096) (k : Fin 2048) : EReal :=
  x (ix2 r k) * Ideal.rsqrt (Ideal.div (∑ k' : Fin 2048, x (ix2 r k') * x (ix2 r k')) ffnCols + ffnEps) * w (ix2 (0 : Fin 1) k)

/-- The gate projection: normalised row r against hidden column f of the gate weights. -/
def ffnGate (r : Fin 4096) (f : Fin 8192) : EReal := ∑ k : Fin 2048, ffnHrow x w r k * Wg (ix2 k f)

/-- The up projection likewise. -/
def ffnUp (r : Fin 4096) (f : Fin 8192) : EReal := ∑ k : Fin 2048, ffnHrow x w r k * Wu (ix2 k f)

/-- The hidden activation: gate times its logistic, times up. -/
def ffnAct (r : Fin 4096) (f : Fin 8192) : EReal :=
  (ffnGate x w Wg r f * Ideal.logistic (ffnGate x w Wg r f)) * ffnUp x w Wu r f

/-- The down projection accumulated over the first j runs of 512 hidden columns, in order: zero, then each run's partial
    sum added to what came before. -/
def ffnAccAfter : (j : ℕ) → j ≤ 16 → Fin 4096 → Fin 2048 → EReal
  | 0, _, _, _ => 0
  | j + 1, hj, r, d => ffnAccAfter j (Nat.le_of_succ_le hj) r d
      + ∑ k : Fin 512, ffnAct x w Wg Wu r ⟨512 * j + k.val, by have := k.isLt; omega⟩
          * Wd (ix2 (⟨512 * j + k.val, by have := k.isLt; omega⟩ : Fin 8192) d)

/-- The half-block's result: the activations plus the down projection accumulated over all sixteen runs. -/
def ffnArr : (⟨2, ![4096, 2048]⟩ : Shape).Idx → EReal :=
  fun i => x i + ffnAccAfter x w Wg Wu Wd 16 (Nat.le_refl 16) (i 0) (i 1)

theorem ffnHrow_apply (r : Fin 4096) (k : Fin 2048) : ffnHrow x w r k
    = x (ix2 r k) * Ideal.rsqrt (Ideal.div (∑ k' : Fin 2048, x (ix2 r k') * x (ix2 r k')) ffnCols + ffnEps) * w (ix2 (0 : Fin 1) k) := rfl
theorem ffnGate_apply (r : Fin 4096) (f : Fin 8192) : ffnGate x w Wg r f = ∑ k : Fin 2048, ffnHrow x w r k * Wg (ix2 k f) := rfl
theorem ffnUp_apply (r : Fin 4096) (f : Fin 8192) : ffnUp x w Wu r f = ∑ k : Fin 2048, ffnHrow x w r k * Wu (ix2 k f) := rfl
theorem ffnAct_apply (r : Fin 4096) (f : Fin 8192) : ffnAct x w Wg Wu r f
    = (ffnGate x w Wg r f * Ideal.logistic (ffnGate x w Wg r f)) * ffnUp x w Wu r f := rfl
theorem ffnAccAfter_zero (h : 0 ≤ 16) (r : Fin 4096) (d : Fin 2048) : ffnAccAfter x w Wg Wu Wd 0 h r d = 0 := rfl
theorem ffnAccAfter_succ (j : ℕ) (hj : j + 1 ≤ 16) (r : Fin 4096) (d : Fin 2048) :
    ffnAccAfter x w Wg Wu Wd (j + 1) hj r d = ffnAccAfter x w Wg Wu Wd j (Nat.le_of_succ_le hj) r d
      + ∑ k : Fin 512, ffnAct x w Wg Wu r ⟨512 * j + k.val, by have := k.isLt; omega⟩
          * Wd (ix2 (⟨512 * j + k.val, by have := k.isLt; omega⟩ : Fin 8192) d) := rfl
theorem ffnArr_apply (r : Fin 4096) (d : Fin 2048) :
    ffnArr x w Wg Wu Wd (ix2 r d) = x (ix2 r d) + ffnAccAfter x w Wg Wu Wd 16 (Nat.le_refl 16) r d := rfl

/-! ## Sixteen partial sums are one sum -/

/-- One term of the down projection, as a function of the hidden column's number (zero past the last column). -/
def ffnTerm (r : Fin 4096) (d : Fin 2048) (n : ℕ) : EReal :=
  if h : n < 8192 then ffnAct x w Wg Wu r ⟨n, h⟩ * Wd (ix2 (⟨n, h⟩ : Fin 8192) d) else 0

/-- After j runs the accumulator is the sum of the first 512 j terms. -/
theorem ffnAccAfter_eq_range (r : Fin 4096) (d : Fin 2048) : ∀ (j : ℕ) (hj : j ≤ 16),
    ffnAccAfter x w Wg Wu Wd j hj r d = ∑ n ∈ Finset.range (512 * j), ffnTerm x w Wg Wu Wd r d n
  | 0, _ => by rw [ffnAccAfter_zero, Nat.mul_zero, Finset.range_zero, Finset.sum_empty]
  | j + 1, hj => by
    rw [ffnAccAfter_succ, ffnAccAfter_eq_range r d j (Nat.le_of_succ_le hj), Nat.mul_succ, Finset.sum_range_add]
    refine congrArg (_ + ·) ?_
    rw [← Fin.sum_univ_eq_sum_range (fun k => ffnTerm x w Wg Wu Wd r d (512 * j + k)) 512]
    refine Finset.sum_congr rfl fun k _ => ?_
    have hk : 512 * j + k.val < 8192 := by have := k.isLt; omega
    unfold ffnTerm; rw [dif_pos hk]

/-- THE REGROUPING: accumulated over all sixteen runs, the down projection is the one sum over the 8192 hidden columns. -/
theorem ffnAccAfter_full (r : Fin 4096) (d : Fin 2048) :
    ffnAccAfter x w Wg Wu Wd 16 (Nat.le_refl 16) r d = ∑ f : Fin 8192, ffnAct x w Wg Wu r f * Wd (ix2 f d) := by
  rw [ffnAccAfter_eq_range, show 512 * 16 = 8192 from rfl, ← Fin.sum_univ_eq_sum_range (ffnTerm x w Wg Wu Wd r d) 8192]
  exact Finset.sum_congr rfl fun f _ => by unfold ffnTerm; rw [dif_pos f.isLt]

/-- So the result is the activations plus ONE whole contraction over the hidden columns. -/
theorem ffnArr_eq_whole (r : Fin 4096) (d : Fin 2048) :
    ffnArr x w Wg Wu Wd (ix2 r d) = x (ix2 r d) + ∑ f : Fin 8192, ffnAct x w Wg Wu r f * Wd (ix2 f d) := by
  rw [ffnArr_apply, ffnAccAfter_full]

/-- The same at any index of the result. -/
theorem ffnArr_eq_whole_idx (i : (⟨2, ![4096, 2048]⟩ : Shape).Idx) :
    ffnArr x w Wg Wu Wd i = x i + ∑ f : Fin 8192, ffnAct x w Wg Wu (i 0) f * Wd (ix2 f (i 1)) := by
  obtain ⟨r, d, rfl⟩ : ∃ (r : Fin 4096) (d : Fin 2048), i = ix2 r d := ⟨i 0, i 1, eq_ix2 i⟩
  exact ffnArr_eq_whole x w Wg Wu Wd r d

end Spec

end Cert.Proof.KI

end
-- ==== Proof.KI.FfnPayIdx.lean ====
/-
  The feed-forward body's arithmetic read entry by entry over the extended reals: each stored value at row r and column k
  (or d) of its tile, as a formula in the entries of what the body loaded. The normalised rows: entry (r, k) of the activation
  tile times the reciprocal root of (the mean of row r's squares plus the small constant) times entry k of the norm weights.
  The accumulation: the accumulator's entry plus, over the tile's 512 hidden columns, (gate times logistic of gate times up)
  times the down weights' entry, where gate and up at (r, k) are sums over the 2048 columns of the normalised row r against
  column k of the gate and up weight tiles. The finalisation: the activation tile's entry plus the accumulator's. The format
  changes on the way into the products are the identity over the extended reals.
-/
import proofs.«105332_j8211977470193_2_alg».proof.Proof.Gen.KernelIdeal.Skeleton
import proofs.«105332_j8211977470193_2_alg».proof.Proof.KI.FfnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.SL.Sem
open scoped BigOperators

/-! ## Layout steps at an entry -/

/-- A column of 512 values broadcast along 2048 columns reads, at (r, k), the column's entry r. -/
theorem bcastCol_apply {α : Type} (R : S512x1.Idx → α) (h : S512x1.Broadcasts S512x2048) (r : Fin 512) (k : Fin 2048) :
    broadcastTo S512x2048 R h (ix2 r k) = R (ix2 r (0 : Fin 1)) := by
  refine broadcastTo_apply R h (ix2 r k) (ix2 r (0 : Fin 1)) fun ax => ?_
  match ax with
  | ⟨0, _⟩ => rfl
  | ⟨1, _⟩ => rfl

/-- A vector of 512 values recast as a column reads, at (r, 0), the vector's entry r. -/
theorem castCol_apply {α : Type} (v : S512.Idx → α) (h : S512.ShapeCasts S512x1) (r : Fin 512) :
    shapeCast S512x1 v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- The sum along the columns of a [512, 2048] tile reads, at row r, the sum of that row's 2048 entries. -/
theorem rowSum_apply (src : FVec Ideal S512x2048 .f32) (h : S512x2048.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 2048, src (ix2 r k) :=
  (Ideal.multiReduction_add_single src _ h hφ hacc (ix1 r)).trans
    (Finset.sum_congr rfl fun k _ => congrArg src (funext fun a => Fin.ext (by
      match a with
      | ⟨0, _⟩ => rfl
      | ⟨1, _⟩ => rfl)))

/-! ### The product GU: [512,2048] by [2048,512] -/

theorem lhsGU_0 (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhsGU_1 (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem rhsGU_0 (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q
theorem rhsGU_1 (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Into zeros, the product at (p, q) is the sum over the 2048 contracted coordinates of left (p, k) times right (k, q). -/
theorem matmulGU_apply (L : FVec Ideal S512x2048 .bf16) (R : FVec Ideal S2048x512 .bf16) (p : Fin 512) (q : Fin 512) :
    matmul dot_S512x2048_S2048x512_S512x512_1_0_0_1_n_n none L R (constant (F := Ideal) S512x512 .f32 0x00000000#32) (ix2 p q)
      = ∑ k : Fin 2048, L (ix2 p k) * R (ix2 k q) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 p q) ((contrEquiv1 dot_S512x2048_S2048x512_S512x512_1_0_0_1_n_n 2048 rfl rfl).symm k) = ix2 p k := funext fun a => Fin.ext (by
    match a with
    | ⟨0, _⟩ => exact lhsGU_0 _ _
    | ⟨1, _⟩ => exact (lhsGU_1 _ _).trans hk)
  have er : dot_S512x2048_S2048x512_S512x512_1_0_0_1_n_n.rhsIdx (ix2 p q) ((contrEquiv1 dot_S512x2048_S2048x512_S512x512_1_0_0_1_n_n 2048 rfl rfl).symm k) = ix2 k q := funext fun a => Fin.ext (by
    match a with
    | ⟨0, _⟩ => exact (rhsGU_0 _ _).trans hk
    | ⟨1, _⟩ => exact rhsGU_1 _ _)
  rw [el, er]

/-! ### The product Dn: [512,512] by [512,2048] -/

theorem lhsDn_0 (i : S512x2048.Idx) (q : dot_S512x512_S512x2048_S512x2048_1_0_0_1_n_n.contr.Idx) : (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhsDn_1 (i : S512x2048.Idx) (q : dot_S512x512_S512x2048_S512x2048_1_0_0_1_n_n.contr.Idx) : (dot_S512x512_S512x2048_S512x2048_1_0_0_1_n_n.lhsIdx i q 1).val = (q ⟨0, by decide⟩).val :=
  dot_S512x512_S512x2048_S512x2048_1_0_0_1_n_n.lhsIdx_val_of_single rfl i q
theorem rhsDn_0 (i : S512x2048.Idx) (q : dot_S512x512_S512x2048_S512x2048_1_0_0_1_n_n.contr.Idx) : (dot_S512x512_S512x2048_S512x2048_1_0_0_1_n_n.rhsIdx i q 0).val = (q ⟨0, by decide⟩).val :=
  dot_S512x512_S512x2048_S512x2048_1_0_0_1_n_n.rhsIdx_val_of_single rfl i q
theorem rhsDn_1 (i : S512x2048.Idx) (q : dot_S512x512_S512x2048_S512x2048_1_0_0_1_n_n.contr.Idx) : (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- Into zeros, the product at (p, q) is the sum over the 512 contracted coordinates of left (p, k) times right (k, q). -/
theorem matmulDn_apply (L : FVec Ideal S512x512 .bf16) (R : FVec Ideal S512x2048 .bf16) (p : Fin 512) (q : Fin 2048) :
    matmul dot_S512x512_S512x2048_S512x2048_1_0_0_1_n_n none L R (constant (F := Ideal) S512x2048 .f32 0x00000000#32) (ix2 p q)
      = ∑ k : Fin 512, L (ix2 p k) * R (ix2 k q) := by
  simp only [matmul]
  rw [Ideal.matmul_constant_zero_apply, ← Equiv.sum_comp (contrEquiv1 dot_S512x512_S512x2048_S512x2048_1_0_0_1_n_n 512 rfl rfl).symm]
  refine Finset.sum_congr rfl fun k _ => ?_
  have hk := contrEquiv1_symm_val dot_S512x512_S512x2048_S512x2048_1_0_0_1_n_n 512 rfl rfl k
  have el : dot_S512x512_S512x2048_S512x2048_1_0_0_1_n_n.lhsIdx (ix2 p q) ((contrEquiv1 dot_S512x512_S512x2048_S512x2048_1_0_0_1_n_n 512 rfl rfl).symm k) = ix2 p k := funext fun a => Fin.ext (by
    match a with
    | ⟨0, _⟩ => exact lhsDn_0 _ _
    | ⟨1, _⟩ => exact (lhsDn_1 _ _).trans hk)
  have er : dot_S512x512_S512x2048_S512x2048_1_0_0_1_n_n.rhsIdx (ix2 p q) ((contrEquiv1 dot_S512x512_S512x2048_S512x2048_1_0_0_1_n_n 512 rfl rfl).symm k) = ix2 k q := funext fun a => Fin.ext (by
    match a with
    | ⟨0, _⟩ => exact (rhsDn_0 _ _).trans hk
    | ⟨1, _⟩ => exact rhsDn_1 _ _)
  rw [el, er]

/-! ## The stored values at an entry -/

/-- The zeros the initialisation stores. -/
theorem ffn_pay2_apply (r : Fin 512) (d : Fin 2048) : k2_pay2 (F := Ideal) (ix2 r d) = 0 := by
  unfold k2_pay2
  simp only [shapeCast_self]
  exact Ideal.ofBits_zero_f32

/-- The finalisation's value: the activation tile's entry plus the accumulator's. -/
theorem ffn_pay4_apply (v26 v28 : Vec Ideal S512x2048 .f32) (r : Fin 512) (d : Fin 2048) :
    k2_pay4 v26 v28 (ix2 r d) = v26 (ix2 r d) + v28 (ix2 r d) := by
  unfold k2_pay4
  simp only [shapeCast_self]
  rfl

/-- The normalised rows: entry (r, k) times the reciprocal root of (row r's mean square plus the small constant) times the
    norm weight k. -/
theorem ffn_pay1_apply (v26 : Vec Ideal S512x2048 .f32) (v38 : Vec Ideal S1x2048 .f32) (r : Fin 512) (k : Fin 2048) :
    k2_pay1 v26 v38 (ix2 r k)
      = v26 (ix2 r k) * Ideal.rsqrt (Ideal.div (∑ k' : Fin 2048, v26 (ix2 r k') * v26 (ix2 r k')) ffnCols + ffnEps)
          * v38 (ix2 (0 : Fin 1) k) := by
  unfold k2_pay1
  simp only [shapeCast_self]
  refine (congrArg₂ (fun a b : EReal => v26 (ix2 r k) * a * b) (bcastCol_apply _ _ r k) (broadcastTo_1b_ab_apply _ _ r k)).trans ?_
  refine congrArg (fun s : EReal => v26 (ix2 r k) * Ideal.rsqrt (Ideal.div s ffnCols + ffnEps) * v38 (ix2 (0 : Fin 1) k)) ?_
  exact (castCol_apply _ _ r).trans (rowSum_apply _ _ _ _ r)

/-- One hidden tile's contribution added to the accumulator: at (r, d), the accumulator's entry plus the sum over the tile's
    512 hidden columns k of (gate * logistic gate * up) at (r, k) times the down weights' (k, d), gate and up the sums over the
    2048 columns of row r of h against column k of the gate and up weight tiles. -/
theorem ffn_pay3_apply (v3 : Vec Ideal S512x2048 .f32) (v5 v8 : Vec Ideal S2048x512 .bf16) (v14 : Vec Ideal S512x2048 .f32)
    (v16 : Vec Ideal S512x2048 .bf16) (r : Fin 512) (d : Fin 2048) :
    k2_pay3 v3 v5 v8 v14 v16 (ix2 r d)
      = v14 (ix2 r d) + ∑ k : Fin 512,
          (((∑ k' : Fin 2048, v3 (ix2 r k') * v5 (ix2 k' k)) * Ideal.logistic (∑ k' : Fin 2048, v3 (ix2 r k') * v5 (ix2 k' k)))
            * (∑ k' : Fin 2048, v3 (ix2 r k') * v8 (ix2 k' k))) * v16 (ix2 k d) := by
  unfold k2_pay3
  simp only [shapeCast_self]
  refine congrArg (v14 (ix2 r d) + ·) ?_
  refine (matmulDn_apply _ _ r d).trans ?_
  refine Finset.sum_congr rfl fun k _ => ?_
  refine congrArg (· * v16 (ix2 k d)) ?_
  exact congrArg₂ (fun g u : EReal => (g * Ideal.logistic g) * u) (matmulGU_apply _ _ r k) (matmulGU_apply _ _ r k)

/-! ## One point's step against the specification -/

section Steps
variable (X : (⟨2, ![4096, 2048]⟩ : Shape).Idx → EReal) (W : (⟨2, ![1, 2048]⟩ : Shape).Idx → EReal)
  (Wg : (⟨2, ![2048, 8192]⟩ : Shape).Idx → EReal) (Wu : (⟨2, ![2048, 8192]⟩ : Shape).Idx → EReal)
  (Wd : (⟨2, ![8192, 2048]⟩ : Shape).Idx → EReal)

/-- The accumulated down projection depends on the number of runs only through its value. -/
theorem ffnAccAfter_cast {j j' : ℕ} (e : j = j') (hj : j ≤ 16) (hj' : j' ≤ 16) (R : Fin 4096) (d : Fin 2048) :
    ffnAccAfter X W Wg Wu Wd j hj R d = ffnAccAfter X W Wg Wu Wd j' hj' R d := by
  subst e; rfl

/-- If row r of the activation tile is row R of the activations and the norm-weight tile is the norm weights, the
    initialisation's value on row r is the specification's normalised row R. -/
theorem hrow_step (R : Fin 4096) (x0 : Vec Ideal S512x2048 .f32) (x1 : Vec Ideal S1x2048 .f32) (r : Fin 512)
    (h0 : ∀ k : Fin 2048, x0 (ix2 r k) = X (ix2 R k))
    (h1 : ∀ k : Fin 2048, x1 (ix2 (0 : Fin 1) k) = W (ix2 (0 : Fin 1) k)) (k : Fin 2048) :
    k2_pay1 x0 x1 (ix2 r k) = ffnHrow X W R k := by
  rw [ffn_pay1_apply, ffnHrow_apply, h0 k, h1 k]
  refine congrArg (fun s : EReal => X (ix2 R k) * Ideal.rsqrt (Ideal.div s ffnCols + ffnEps) * W (ix2 (0 : Fin 1) k)) ?_
  exact Finset.sum_congr rfl fun k' _ => by rw [h0 k']

/-- If row r of h is the specification's normalised row R, the weight tiles are hidden columns 512 j … 512 j + 511 of the
    gate and up weights and hidden rows 512 j … of the down weights, and the accumulator's entry is the down projection
    accumulated over j runs, then the accumulation's value at (r, d) is the down projection accumulated over j + 1 runs. -/
theorem acc_step (R : Fin 4096) (j : ℕ) (hj : j + 1 ≤ 16)
    (xh : Vec Ideal S512x2048 .f32) (x2 x3 : Vec Ideal S2048x512 .bf16) (xacc : Vec Ideal S512x2048 .f32)
    (x4 : Vec Ideal S512x2048 .bf16) (r : Fin 512) (d : Fin 2048)
    (hh : ∀ k' : Fin 2048, xh (ix2 r k') = ffnHrow X W R k')
    (h2 : ∀ (k' : Fin 2048) (k : Fin 512), x2 (ix2 k' k) = Wg (ix2 k' (⟨512 * j + k.val, by have := k.isLt; omega⟩ : Fin 8192)))
    (h3 : ∀ (k' : Fin 2048) (k : Fin 512), x3 (ix2 k' k) = Wu (ix2 k' (⟨512 * j + k.val, by have := k.isLt; omega⟩ : Fin 8192)))
    (h4 : ∀ k : Fin 512, x4 (ix2 k d) = Wd (ix2 (⟨512 * j + k.val, by have := k.isLt; omega⟩ : Fin 8192) d))
    (hacc : xacc (ix2 r d) = ffnAccAfter X W Wg Wu Wd j (Nat.le_of_succ_le hj) R d) :
    k2_pay3 xh x2 x3 xacc x4 (ix2 r d) = ffnAccAfter X W Wg Wu Wd (j + 1) hj R d := by
  rw [ffn_pay3_apply, ffnAccAfter_succ, hacc]
  refine congrArg (_ + ·) (Finset.sum_congr rfl fun k _ => ?_)
  rw [h4 k, ffnAct_apply, ffnGate_apply, ffnUp_apply]
  have hg : (∑ k' : Fin 2048, xh (ix2 r k') * x2 (ix2 k' k))
      = ∑ k' : Fin 2048, ffnHrow X W R k' * Wg (ix2 k' (⟨512 * j + k.val, by have := k.isLt; omega⟩ : Fin 8192)) :=
    Finset.sum_congr rfl fun k' _ => by rw [hh k', h2 k' k]
  have hu : (∑ k' : Fin 2048, xh (ix2 r k') * x3 (ix2 k' k))
      = ∑ k' : Fin 2048, ffnHrow X W R k' * Wu (ix2 k' (⟨512 * j + k.val, by have := k.isLt; omega⟩ : Fin 8192)) :=
    Finset.sum_congr rfl fun k' _ => by rw [hh k', h3 k' k]
  rw [hg, hu]

end Steps

end Cert.Proof.KI

end
-- ==== Proof.KI.FfnValue.lean ====
/-
  The feed-forward kernel's result array over the extended reals: after its 128 grid points the output array holds, entry
  by entry, the activations plus the down projection of the hidden activation, the function the specification names. The
  steps: where each window's block sits in its array (rows 512 si … of the activations and of the result, the whole norm-weight
  row, hidden columns 512 fi … of the gate and up weights, hidden rows 512 fi … of the down weights, read off the printed index
  maps once over the grid); the invariant along a row tile — after the point (si, fi) the kept buffer h holds the normalised
  rows 512 si … and the accumulator holds the down projection accumulated over hidden tiles 0 … fi —, by induction on the
  point, a first hidden tile starting afresh and every other one continuing from the point before; what a last hidden tile
  writes back, which is the block of the specified array at rows 512 si …; and the cover: row r of the result lies in the
  block the point 16 (r / 512) + 15 writes back, and only the last hidden tiles write back.
-/
import proofs.«105332_j8211977470193_2_alg».proof.Proof.KI.FfnPieces
import proofs.«105332_j8211977470193_2_alg».proof.Proof.KI.FfnPayIdx

set_option maxRecDepth 16384

noncomputable section

namespace Cert.Proof.KI

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)
open scoped BigOperators

section Value
variable (V : (c : Dev nD) → (b : Ref sig .tc) → Buf (Elt Ideal) ((c : Thread nD τ).loc b))

/-! ## The arrays, and where each window's block sits -/

/-- The five arrays the kernel reads, as the region finds them: the activations, the norm weights as a row, the gate, up
    and down weights. -/
abbrev arrX (c : Dev nD) : S4096x2048.Idx → EReal := V c main_v16
abbrev arrW (c : Dev nD) : S1x2048.Idx → EReal := V c main_v14
abbrev arrWg (c : Dev nD) : S2048x8192.Idx → EReal := V c main_v8
abbrev arrWu (c : Dev nD) : S2048x8192.Idx → EReal := V c main_v10
abbrev arrWd (c : Dev nD) : S8192x2048.Idx → EReal := V c main_v12

/-- The printed index maps at point t = 16 si + fi, decided over the grid: the activation and result blocks are at block
    row si, the weight tiles at hidden block fi, the norm weights whole. -/
theorem idxFacts2 : ∀ t : Fin cfg2.N,
    win2_0.index t (0 : Fin 2) = t.val / 16 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = t.val % 16
    ∧ win2_3.index t (0 : Fin 2) = 0 ∧ win2_3.index t (1 : Fin 2) = t.val % 16
    ∧ win2_4.index t (0 : Fin 2) = t.val % 16 ∧ win2_4.index t (1 : Fin 2) = 0
    ∧ win2_5.index t (0 : Fin 2) = t.val / 16 ∧ win2_5.index t (1 : Fin 2) = 0 :=
  (by decide +kernel : ∀ t : Fin grid2.N, _)

/-- Row r of the activation block at point t is row 512 (t / 16) + r of the activations. -/
theorem blk0_apply (c : Dev nD) (t : Fin cfg2.N) (r : Fin 512) (k : Fin 2048) (R : Fin 4096)
    (hR : R.val = 512 * (t.val / 16) + r.val) :
    (iblk2 V c 0 t : Vec Ideal S512x2048 .f32) (ix2 r k) = arrX V c (ix2 R k) := by
  obtain ⟨e0, e1, -⟩ := idxFacts2 t
  unfold iblk2
  rw [View.read_apply]
  show V c main_v16 _ = V c main_v16 _
  refine congrArg (V c main_v16) (funext fun a => Fin.ext ?_)
  match a with
  | ⟨0, _⟩ => show win2_0.index t (0 : Fin 2) * 512 + 1 * r.val = R.val; rw [e0, hR]; omega
  | ⟨1, _⟩ => show win2_0.index t (1 : Fin 2) * 2048 + 1 * k.val = k.val; rw [e1]; omega

/-- The norm-weight block is the whole row. -/
theorem blk1_apply (c : Dev nD) (t : Fin cfg2.N) (k : Fin 2048) :
    (iblk2 V c 1 t : Vec Ideal S1x2048 .f32) (ix2 (0 : Fin 1) k) = arrW V c (ix2 (0 : Fin 1) k) := by
  obtain ⟨-, -, e0, e1, -⟩ := idxFacts2 t
  unfold iblk2
  rw [View.read_apply]
  show V c main_v14 _ = V c main_v14 _
  refine congrArg (V c main_v14) (funext fun a => Fin.ext ?_)
  match a with
  | ⟨0, _⟩ => show win2_1.index t (0 : Fin 2) * 1 + 1 * 0 = 0; rw [e0]
  | ⟨1, _⟩ => show win2_1.index t (1 : Fin 2) * 2048 + 1 * k.val = k.val; rw [e1]; omega

/-- Column k of the gate weight tile at point t is hidden column 512 (t % 16) + k of the gate weights. -/
theorem blk2_apply (c : Dev nD) (t : Fin cfg2.N) (k' : Fin 2048) (k : Fin 512) :
    (iblk2 V c 2 t : Vec Ideal S2048x512 .bf16) (ix2 k' k)
      = arrWg V c (ix2 k' (⟨512 * (t.val % 16) + k.val, by have := k.isLt; omega⟩ : Fin 8192)) := by
  obtain ⟨-, -, -, -, e0, e1, -⟩ := idxFacts2 t
  unfold iblk2
  rw [View.read_apply]
  show V c main_v8 _ = V c main_v8 _
  refine congrArg (V c main_v8) (funext fun a => Fin.ext ?_)
  match a with
  | ⟨0, _⟩ => show win2_2.index t (0 : Fin 2) * 2048 + 1 * k'.val = k'.val; rw [e0]; omega
  | ⟨1, _⟩ => show win2_2.index t (1 : Fin 2) * 512 + 1 * k.val = 512 * (t.val % 16) + k.val; rw [e1]; omega

/-- The up weight tile likewise. -/
theorem blk3_apply (c : Dev nD) (t : Fin cfg2.N) (k' : Fin 2048) (k : Fin 512) :
    (iblk2 V c 3 t : Vec Ideal S2048x512 .bf16) (ix2 k' k)
      = arrWu V c (ix2 k' (⟨512 * (t.val % 16) + k.val, by have := k.isLt; omega⟩ : Fin 8192)) := by
  obtain ⟨-, -, -, -, -, -, e0, e1, -⟩ := idxFacts2 t
  unfold iblk2
  rw [View.read_apply]
  show V c main_v10 _ = V c main_v10 _
  refine congrArg (V c main_v10) (funext fun a => Fin.ext ?_)
  match a with
  | ⟨0, _⟩ => show win2_3.index t (0 : Fin 2) * 2048 + 1 * k'.val = k'.val; rw [e0]; omega
  | ⟨1, _⟩ => show win2_3.index t (1 : Fin 2) * 512 + 1 * k.val = 512 * (t.val % 16) + k.val; rw [e1]; omega

/-- Row k of the down weight tile at point t is hidden row 512 (t % 16) + k of the down weights. -/
theorem blk4_apply (c : Dev nD) (t : Fin cfg2.N) (k : Fin 512) (d : Fin 2048) :
    (iblk2 V c 4 t : Vec Ideal S512x2048 .bf16) (ix2 k d)
      = arrWd V c (ix2 (⟨512 * (t.val % 16) + k.val, by have := k.isLt; omega⟩ : Fin 8192) d) := by
  obtain ⟨-, -, -, -, -, -, -, -, e0, e1, -⟩ := idxFacts2 t
  unfold iblk2
  rw [View.read_apply]
  show V c main_v12 _ = V c main_v12 _
  refine congrArg (V c main_v12) (funext fun a => Fin.ext ?_)
  match a with
  | ⟨0, _⟩ => show win2_4.index t (0 : Fin 2) * 512 + 1 * k.val = 512 * (t.val % 16) + k.val; rw [e0]; omega
  | ⟨1, _⟩ => show win2_4.index t (1 : Fin 2) * 2048 + 1 * d.val = d.val; rw [e1]; omega

/-! ## The invariant along a row tile -/

/-- After position n = 16 si + fi: h holds the normalised rows 512 si … of the activations, and the accumulator the down
    projection accumulated over hidden tiles 0 … fi, on those rows. -/
def FfnInv (c : Dev nD) (n : ℕ) (hn : n < cfg2.N) : Prop :=
  (∀ (r : Fin 512) (k : Fin 2048) (R : Fin 4096), R.val = 512 * (n / 16) + r.val →
      (outsAt2 V c n hn).2.1 (ix2 r k) = ffnHrow (arrX V c) (arrW V c) R k)
  ∧ (∀ (r : Fin 512) (d : Fin 2048) (R : Fin 4096) (hj : n % 16 + 1 ≤ 16), R.val = 512 * (n / 16) + r.val →
      (outsAt2 V c n hn).2.2 (ix2 r d) = ffnAccAfter (arrX V c) (arrW V c) (arrWg V c) (arrWu V c) (arrWd V c) (n % 16 + 1) hj R d)

/-- A first hidden tile establishes it afresh. -/
theorem ffnInv_first (c : Dev nD) (t : Fin cfg2.N) (h0 : t.val % 16 = 0) : FfnInv V c t.val t.isLt := by
  have h1 : ¬t.val % 16 = 15 := by omega
  unfold FfnInv
  rw [outsAt2_A V c t h0 h1]
  unfold ffnAtA
  dsimp only
  rw [soutA_h_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((ffnInit_iff t).mpr h0) (fun h => h1 ((ffnFin_iff t).mp h)) (iblk2 V c 0 t) (iblk2 V c 1 t) (iblk2 V c 2 t) (iblk2 V c 3 t) (iblk2 V c 4 t), soutA_acc_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) ((ffnInit_iff t).mpr h0) (fun h => h1 ((ffnFin_iff t).mp h)) (iblk2 V c 0 t) (iblk2 V c 1 t) (iblk2 V c 2 t) (iblk2 V c 3 t) (iblk2 V c 4 t)]
  have hh : ∀ (r : Fin 512) (R : Fin 4096), R.val = 512 * (t.val / 16) + r.val → ∀ k : Fin 2048,
      k2_pay1 (iblk2 V c 0 t) (iblk2 V c 1 t) (ix2 r k) = ffnHrow (arrX V c) (arrW V c) R k :=
    fun r R hR k => hrow_step (arrX V c) (arrW V c) R (iblk2 V c 0 t) (iblk2 V c 1 t) r
      (fun k => blk0_apply V c t r k R hR) (fun k => blk1_apply V c t k) k
  refine ⟨fun r k R hR => hh r R hR k, fun r d R hj hR => ?_⟩
  refine acc_step (arrX V c) (arrW V c) (arrWg V c) (arrWu V c) (arrWd V c) R (t.val % 16) hj (k2_pay1 (iblk2 V c 0 t) (iblk2 V c 1 t)) (iblk2 V c 2 t) (iblk2 V c 3 t)
    (k2_pay2 (F := Ideal)) (iblk2 V c 4 t) r d (hh r R hR) (fun k' k => blk2_apply V c t k' k) (fun k' k => blk3_apply V c t k' k)
    (fun k => blk4_apply V c t k d) ?_
  exact (ffn_pay2_apply r d).trans ((ffnAccAfter_zero (arrX V c) (arrW V c) (arrWg V c) (arrWu V c) (arrWd V c) (Nat.zero_le 16) R d).symm.trans
    (ffnAccAfter_cast (arrX V c) (arrW V c) (arrWg V c) (arrWu V c) (arrWd V c) h0.symm _ _ R d))

/-- Every other hidden tile carries it on from the point before. -/
theorem ffnInv_next (c : Dev nD) (t : Fin cfg2.N) (h0 : ¬t.val % 16 = 0)
    (ih : FfnInv V c (t.val - 1) (Nat.lt_of_le_of_lt (Nat.sub_le _ _) t.isLt)) : FfnInv V c t.val t.isLt := by
  have hN : t.val < 128 := lt_of_lt_of_eq t.isLt (show cfg2.N = 128 from N_2)
  obtain ⟨ihh, iha⟩ := ih
  have hrow : ∀ (r : Fin 512) (R : Fin 4096), R.val = 512 * (t.val / 16) + r.val → R.val = 512 * ((t.val - 1) / 16) + r.val :=
    fun r R hR => by omega
  have hprev : (t.val - 1) % 16 + 1 = t.val % 16 := by omega
  unfold FfnInv
  by_cases h1 : t.val % 16 = 15
  · rw [outsAt2_C V c t h0 h1]
    unfold ffnAtC
    dsimp only
    rw [soutC_acc_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) ((ffnFin_iff t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2]
    refine ⟨fun r k R hR => ihh r k R (hrow r R hR), fun r d R hj hR => ?_⟩
    refine acc_step (arrX V c) (arrW V c) (arrWg V c) (arrWu V c) (arrWd V c) R (t.val % 16) hj (outsAt2 V c (t.val - 1) (Nat.lt_of_le_of_lt (Nat.sub_le _ _) t.isLt)).2.1 (iblk2 V c 2 t) (iblk2 V c 3 t)
      (outsAt2 V c (t.val - 1) (Nat.lt_of_le_of_lt (Nat.sub_le _ _) t.isLt)).2.2 (iblk2 V c 4 t) r d (fun k' => ihh r k' R (hrow r R hR)) (fun k' k => blk2_apply V c t k' k)
      (fun k' k => blk3_apply V c t k' k) (fun k => blk4_apply V c t k d) ?_
    exact (iha r d R (by omega) (hrow r R hR)).trans (ffnAccAfter_cast (arrX V c) (arrW V c) (arrWg V c) (arrWu V c) (arrWd V c) hprev _ _ R d)
  · rw [outsAt2_B V c t h0 h1]
    unfold ffnAtB
    dsimp only
    rw [soutB_acc_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) (fun h => h1 ((ffnFin_iff t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2]
    refine ⟨fun r k R hR => ihh r k R (hrow r R hR), fun r d R hj hR => ?_⟩
    refine acc_step (arrX V c) (arrW V c) (arrWg V c) (arrWu V c) (arrWd V c) R (t.val % 16) hj (outsAt2 V c (t.val - 1) (Nat.lt_of_le_of_lt (Nat.sub_le _ _) t.isLt)).2.1 (iblk2 V c 2 t) (iblk2 V c 3 t)
      (outsAt2 V c (t.val - 1) (Nat.lt_of_le_of_lt (Nat.sub_le _ _) t.isLt)).2.2 (iblk2 V c 4 t) r d (fun k' => ihh r k' R (hrow r R hR)) (fun k' k => blk2_apply V c t k' k)
      (fun k' k => blk3_apply V c t k' k) (fun k => blk4_apply V c t k d) ?_
    exact (iha r d R (by omega) (hrow r R hR)).trans (ffnAccAfter_cast (arrX V c) (arrW V c) (arrWg V c) (arrWu V c) (arrWd V c) hprev _ _ R d)

/-- So it holds after every point. -/
theorem ffnInv_all (c : Dev nD) : ∀ (n : ℕ) (hn : n < cfg2.N), FfnInv V c n hn := by
  intro n
  induction n with
  | zero => intro hn; exact ffnInv_first V c ⟨0, hn⟩ (Nat.zero_mod _)
  | succ n ih =>
    intro hn
    by_cases h0 : (n + 1) % 16 = 0
    · exact ffnInv_first V c ⟨n + 1, hn⟩ h0
    · exact ffnInv_next V c ⟨n + 1, hn⟩ h0 (ih (Nat.lt_of_succ_lt hn))

/-! ## What a last hidden tile writes back, the cover, the array -/

/-- The specified result array at the region's arrays. -/
abbrev ffnResult (c : Dev nD) : S4096x2048.Idx → EReal := ffnArr (arrX V c) (arrW V c) (arrWg V c) (arrWu V c) (arrWd V c)

/-- What a last hidden tile of row tile si writes back is rows 512 si … 512 si + 511 of the specified result. -/
theorem flushed2_5_eq (c : Dev nD) (t : Fin cfg2.N) (hf : (cfg2.win 5).flush t = true) :
    (dat2 V c).flushed 5 t = ((cfg2.win 5).blk t).view.read (Elt Ideal) (ffnResult V c) := by
  have hN : t.val < 128 := lt_of_lt_of_eq t.isLt (show cfg2.N = 128 from N_2)
  have h1 : t.val % 16 = 15 := (flush2_5 t).mp hf
  have h0 : ¬t.val % 16 = 0 := by omega
  obtain ⟨-, -, -, -, -, -, -, -, -, -, e0, e1⟩ := idxFacts2 t
  have hinv := (ffnInv_all V c t.val t.isLt).2
  rw [outsAt2_C V c t h0 h1] at hinv
  unfold ffnAtC at hinv
  dsimp only at hinv
  rw [soutC_acc_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) ((ffnFin_iff t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2] at hinv
  show (cfg2.win 5).cut (grid2.coords t) ((dat2 V c).after 5 t) = _
  rw [after2_5, outsAt2_C V c t h0 h1]
  unfold ffnAtC
  dsimp only
  rw [outC_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) (fun h => h0 ((ffnInit_iff t).mp h)) ((ffnFin_iff t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2]
  show (k2_pay4 (iblk2 V c 0 t) (k2_pay3 (outsAt2 V c (t.val - 1) (Nat.lt_of_le_of_lt (Nat.sub_le _ _) t.isLt)).2.1 (iblk2 V c 2 t) (iblk2 V c 3 t) (outsAt2 V c (t.val - 1) (Nat.lt_of_le_of_lt (Nat.sub_le _ _) t.isLt)).2.2 (iblk2 V c 4 t)) : Vec Ideal S512x2048 .f32)
    = fun y : S512x2048.Idx => ffnResult V c (((cfg2.win 5).blk t).view.emb y)
  funext y
  obtain ⟨r, d, rfl⟩ : ∃ (r : Fin 512) (d : Fin 2048), y = ix2 r d := ⟨y 0, y 1, eq_ix2 y⟩
  have hemb : ((cfg2.win 5).blk t).view.emb (ix2 r d)
      = (ix2 (⟨512 * (t.val / 16) + r.val, by have := r.isLt; omega⟩ : Fin 4096) d : S4096x2048.Idx) :=
    funext fun a => Fin.ext (by
      match a with
      | ⟨0, _⟩ => show win2_5.index t (0 : Fin 2) * 512 + 1 * r.val = 512 * (t.val / 16) + r.val; rw [e0]; omega
      | ⟨1, _⟩ => show win2_5.index t (1 : Fin 2) * 2048 + 1 * d.val = d.val; rw [e1]; omega)
  rw [hemb, ffn_pay4_apply]
  show _ = ffnArr (arrX V c) (arrW V c) (arrWg V c) (arrWu V c) (arrWd V c) (ix2 (⟨512 * (t.val / 16) + r.val, by have := r.isLt; omega⟩ : Fin 4096) d)
  rw [ffnArr_apply, blk0_apply V c t r d ⟨512 * (t.val / 16) + r.val, by have := r.isLt; omega⟩ rfl]
  refine congrArg (_ + ·) ?_
  exact (hinv r d ⟨512 * (t.val / 16) + r.val, by have := r.isLt; omega⟩ (by omega) rfl).trans
    (ffnAccAfter_cast (arrX V c) (arrW V c) (arrWg V c) (arrWu V c) (arrWd V c) (by omega) _ _ _ d)

/-- An index of the result array is in point t's block iff each coordinate is in the block's range. -/
theorem mem_blk2_5 (t : Fin cfg2.N) (i : S4096x2048.Idx) :
    i ∈ ((cfg2.win 5).blk t).view.set ↔ ∀ a : Fin 2, win2_5.index t a * S512x2048.size a ≤ (i a).val
      ∧ (i a).val < win2_5.index t a * S512x2048.size a + S512x2048.size a := by
  show i ∈ ((View.whole main_v17).slice (win2_5.rect t)).set ↔ _
  rw [View.set_slice_whole, Rect.mem_set_unit]
  exact Iff.rfl

/-- Row r of the result lies in the block the last hidden tile of row tile r / 512 writes back. -/
theorem cover2_5 (i : S4096x2048.Idx) :
    ∃ t : Fin cfg2.N, (cfg2.win 5).flush t = true ∧ i ∈ ((cfg2.win 5).blk t).view.set := by
  have hi0 : (i 0).val < 4096 := (i 0).isLt
  have hi1 : (i 1).val < 2048 := (i 1).isLt
  have hN : cfg2.N = 128 := N_2
  have ht : 16 * ((i 0).val / 512) + 15 < cfg2.N := by rw [hN]; omega
  obtain ⟨-, -, -, -, -, -, -, -, -, -, e0, e1⟩ := idxFacts2 ⟨16 * ((i 0).val / 512) + 15, ht⟩
  refine ⟨⟨16 * ((i 0).val / 512) + 15, ht⟩, (flush2_5 _).mpr (by show (16 * ((i 0).val / 512) + 15) % 16 = 15; omega), ?_⟩
  rw [mem_blk2_5]
  intro a
  match a with
  | ⟨0, _⟩ =>
    show win2_5.index ⟨16 * ((i 0).val / 512) + 15, ht⟩ (0 : Fin 2) * 512 ≤ (i 0).val
      ∧ (i 0).val < win2_5.index ⟨16 * ((i 0).val / 512) + 15, ht⟩ (0 : Fin 2) * 512 + 512
    rw [e0]
    show (16 * ((i 0).val / 512) + 15) / 16 * 512 ≤ (i 0).val ∧ (i 0).val < (16 * ((i 0).val / 512) + 15) / 16 * 512 + 512
    omega
  | ⟨1, _⟩ =>
    show win2_5.index ⟨16 * ((i 0).val / 512) + 15, ht⟩ (1 : Fin 2) * 2048 ≤ (i 1).val
      ∧ (i 1).val < win2_5.index ⟨16 * ((i 0).val / 512) + 15, ht⟩ (1 : Fin 2) * 2048 + 2048
    rw [e1]
    omega

/-- THE VALUE of the feed-forward kernel: after its grid the result array is the specified function of the five arrays the
    region found — the activations plus the down projection of gate * logistic(gate) * up of the normalised rows. -/
theorem ffn_value (c : Dev nD) : (dat2 (F := Ideal) V c).arrAt 5 cfg2.N = ffnResult V c :=
  (dat2 (F := Ideal) V c).arrAt_eq_of_cover 5 (ffnResult V c) (flushed2_5_eq V c) cover2_5

/-- The same with the sixteen partial sums regrouped into one contraction over the 8192 hidden columns. -/
theorem ffn_value_whole (c : Dev nD) (i : S4096x2048.Idx) :
    (dat2 (F := Ideal) V c).arrAt 5 cfg2.N i
      = arrX V c i + ∑ f : Fin 8192, ffnAct (arrX V c) (arrW V c) (arrWg V c) (arrWu V c) (i 0) f * arrWd V c (ix2 f (i 1)) :=
  (congrFun (ffn_value V c) i).trans (ffnArr_eq_whole_idx (arrX V c) (arrW V c) (arrWg V c) (arrWu V c) (arrWd V c) i)

/-- The same statement with the five arrays spelt as the region's buffers. -/
theorem ffn_value_arrays (c : Dev nD) :
    (dat2 (F := Ideal) V c).arrAt 5 cfg2.N
      = ffnArr (V c main_v16) (V c main_v14) (V c main_v8) (V c main_v10) (V c main_v12) :=
  ffn_value V c

end Value

end Cert.Proof.KI

end
-- ==== Proof.Bridge.lean ====
/-
  The kernel's result is the reference's result. The kernel program's result array is what its third kernel's write-backs
  leave; traced back through the three kernels it is the feed-forward stage of the attention stage of the three arrays the
  first stage makes from the arguments and the weights the host operations prepared. The reference computes the same three
  stages as one line of array operations. Stage by stage the two agree: the first and third as extended reals, by
  re-indexing alone; the second on real numbers, which is where the inputs' finiteness is used — the first stage's arrays
  are then real, the kernel's query scaled by 262144 / 11863283 before the scores gives the reference's scores divided by
  11863283 / 262144 after, and the blockwise softmax-weighted sum is the whole one.
  This module is the composition; each stage's two facts enter as hypotheses and are supplied where the stages are proved.
-/
import proofs.«105332_j8211977470193_2_alg».proof.Proof.KI.Entry
import proofs.«105332_j8211977470193_2_alg».proof.Proof.KI.QkvValue
import proofs.«105332_j8211977470193_2_alg».proof.Proof.KI.QkvReal
import proofs.«105332_j8211977470193_2_alg».proof.Proof.KI.AttnSpec
import proofs.«105332_j8211977470193_2_alg».proof.Proof.KI.FfnValue
import proofs.«105332_j8211977470193_2_alg».proof.Proof.RefReadPatched
import Idealize.ShloMosaic.Lib.ValueIdx

set_option maxRecDepth 16384

noncomputable section

namespace Cert.Proof.Bridge

open Cert.KernelIdeal Cert.KernelIdeal.Gen
open Cert.Proof.KI Cert.ExtendedReals
open Idealize.ShloMosaic Idealize.ShloMosaic.TcCoe Idealize.ShloMosaic.ValueIdx Idealize.SL.Sem

section
variable (m : (ℓ : Loc nD τ sig) → Buf (Elt Ideal) ℓ) (ρ : Dev nD → PrngReg) (c : Dev nD)

/-! ## The twelve arguments and the arrays the host operations prepare, as functions of an index -/

abbrev A0 : S4096x2048.Idx → EReal := m ((c.tc : Thread nD τ).loc main_arg0)
abbrev A1 : S2048.Idx → EReal := m ((c.tc : Thread nD τ).loc main_arg1)
abbrev A2 : S2048x2048.Idx → EReal := m ((c.tc : Thread nD τ).loc main_arg2)
abbrev A3 : S2048x2048.Idx → EReal := m ((c.tc : Thread nD τ).loc main_arg3)
abbrev A4 : S2048x2048.Idx → EReal := m ((c.tc : Thread nD τ).loc main_arg4)
abbrev A5 : S2048x2048.Idx → EReal := m ((c.tc : Thread nD τ).loc main_arg5)
abbrev A6 : S2048.Idx → EReal := m ((c.tc : Thread nD τ).loc main_arg6)
abbrev A7 : S8192x2048.Idx → EReal := m ((c.tc : Thread nD τ).loc main_arg7)
abbrev A8 : S8192x2048.Idx → EReal := m ((c.tc : Thread nD τ).loc main_arg8)
abbrev A9 : S2048x8192.Idx → EReal := m ((c.tc : Thread nD τ).loc main_arg9)
abbrev A10 : S4096x1024.Idx → EReal := m ((c.tc : Thread nD τ).loc main_arg10)
abbrev A11 : S4096x1024.Idx → EReal := m ((c.tc : Thread nD τ).loc main_arg11)
/-- The first norm weights as a row, the fused weight matrix, and the transposed projection weights. -/
abbrev W1row : S1x2048.Idx → EReal := R1 (F := Ideal) m ρ c main_v13
abbrev Wf : S2048x6144.Idx → EReal := R1 (F := Ideal) m ρ c main_v4

/-- Every entry of the norm-weight row is an entry of the norm weights. -/
theorem w1row_real (h1 : ∀ i, IsReal (A1 m c i)) (i : S1x2048.Idx) : IsReal (W1row m ρ c i) := by
  obtain ⟨u, k, rfl⟩ : ∃ (u : Fin 1) (k : Fin 2048), i = ix2 u k := ⟨i 0, i 1, eq_ix2 i⟩
  obtain rfl : u = 0 := Subsingleton.elim _ _
  rw [show W1row m ρ c (ix2 (0 : Fin 1) k) = A1 m c (ix1 k) from entry_v13 m ρ c k]
  exact h1 _

/-- Every entry of the fused weight matrix is an entry of the query, key or value weights. -/
theorem wf_real (h2 : ∀ i, IsReal (A2 m c i)) (h3 : ∀ i, IsReal (A3 m c i)) (h4 : ∀ i, IsReal (A4 m c i))
    (i : S2048x6144.Idx) : IsReal (Wf m ρ c i) := by
  obtain ⟨k, n, rfl⟩ : ∃ (k : Fin 2048) (n : Fin 6144), i = ix2 k n := ⟨i 0, i 1, eq_ix2 i⟩
  have hn6 := n.isLt
  by_cases hn1 : n.val < 2048
  · have hn : n = ⟨0 + (⟨n.val, hn1⟩ : Fin 2048).val, by show 0 + n.val < 6144; omega⟩ := Fin.ext (by show n.val = 0 + n.val; omega)
    rw [hn, show Wf m ρ c (ix2 k _) = A2 m c (ix2 (⟨n.val, hn1⟩ : Fin 2048) k) from entry_v4_q m ρ c k ⟨n.val, hn1⟩]
    exact h2 _
  · by_cases hn2 : n.val < 4096
    · have hj : n.val - 2048 < 2048 := by omega
      have hn : n = ⟨2048 + (⟨n.val - 2048, hj⟩ : Fin 2048).val, by show 2048 + (n.val - 2048) < 6144; omega⟩ :=
        Fin.ext (by show n.val = 2048 + (n.val - 2048); omega)
      rw [hn, show Wf m ρ c (ix2 k _) = A3 m c (ix2 (⟨n.val - 2048, hj⟩ : Fin 2048) k) from entry_v4_k m ρ c k ⟨n.val - 2048, hj⟩]
      exact h3 _
    · have hj : n.val - 4096 < 2048 := by omega
      have hn : n = ⟨4096 + (⟨n.val - 4096, hj⟩ : Fin 2048).val, by show 4096 + (n.val - 4096) < 6144; omega⟩ :=
        Fin.ext (by show n.val = 4096 + (n.val - 4096); omega)
      rw [hn, show Wf m ρ c (ix2 k _) = A4 m c (ix2 (⟨n.val - 4096, hj⟩ : Fin 2048) k) from entry_v4_v m ρ c k ⟨n.val - 4096, hj⟩]
      exact h4 _

/-! ## What the first kernel leaves, in the spec's words -/

theorem e2_query : (E2 (F := Ideal) m ρ c main_v15_0 : I4096x2048 → EReal) = qArr (A0 m c) (W1row m ρ c) (Wf m ρ c) (A10 m c) (A11 m c) := by
  rw [E2_q, arrQ_eq, R1_arg0, R1_arg10, R1_arg11]
theorem e2_key : (E2 (F := Ideal) m ρ c main_v15_1 : I4096x2048 → EReal) = kArr (A0 m c) (W1row m ρ c) (Wf m ρ c) (A10 m c) (A11 m c) := by
  rw [E2_k, arrK_eq, R1_arg0, R1_arg10, R1_arg11]
theorem e2_value : (E2 (F := Ideal) m ρ c main_v15_2 : I4096x2048 → EReal) = vArr (A0 m c) (W1row m ρ c) (Wf m ρ c) (A10 m c) (A11 m c) := by
  rw [E2_v, arrV_eq, R1_arg0, R1_arg10, R1_arg11]

/-! ## The composition -/

/-- The kernel program's result array is the reference's result term of the same arguments, given that every argument entry
    is a real number and given each stage's two facts. -/
theorem result_eq
    (hreal : (∀ i, IsReal (A0 m c i)) ∧ (∀ i, IsReal (A1 m c i)) ∧ (∀ i, IsReal (A2 m c i)) ∧ (∀ i, IsReal (A3 m c i))
      ∧ (∀ i, IsReal (A4 m c i)) ∧ (∀ i, IsReal (A5 m c i)) ∧ (∀ i, IsReal (A6 m c i)) ∧ (∀ i, IsReal (A7 m c i))
      ∧ (∀ i, IsReal (A8 m c i)) ∧ (∀ i, IsReal (A9 m c i)) ∧ (∀ i, IsReal (A10 m c i)) ∧ (∀ i, IsReal (A11 m c i)))
    -- the reference's first stage, entry by entry, in the spec's words
    (S1q : ∀ (r : Fin 4096) (j : Fin 2048), Cert.ReferenceIdeal.Read.val_main_v23 (F := Ideal) (A0 m c) (A1 m c) (A2 m c) (A10 m c) (A11 m c) (ix2 r j)
      = rotate (third (fusedRow (A0 m c) (W1row m ρ c) (Wf m ρ c) r) 0 (by omega)) (csRow (A10 m c) r) (csRow (A11 m c) r) j)
    (S1k : ∀ (r : Fin 4096) (j : Fin 2048), Cert.ReferenceIdeal.Read.val_main_v34 (F := Ideal) (A0 m c) (A1 m c) (A3 m c) (A10 m c) (A11 m c) (ix2 r j) = kAt (A0 m c) (W1row m ρ c) (Wf m ρ c) (A10 m c) (A11 m c) r j)
    (S1v : ∀ (r : Fin 4096) (j : Fin 2048), Cert.ReferenceIdeal.Read.val_main_v36 (F := Ideal) (A0 m c) (A1 m c) (A4 m c) (ix2 r j) = vAt (A0 m c) (W1row m ρ c) (Wf m ρ c) r j)
    -- the second kernel's value, for real query, key and value arrays
    (K2 : ∀ (qR kR vR : I4096x2048 → ℝ),
      (∀ i, (E2 (F := Ideal) m ρ c main_v15_0 : I4096x2048 → EReal) i = ((qR i : ℝ) : EReal)) →
      (∀ i, (E2 (F := Ideal) m ρ c main_v15_1 : I4096x2048 → EReal) i = ((kR i : ℝ) : EReal)) →
      (∀ i, (E2 (F := Ideal) m ρ c main_v15_2 : I4096x2048 → EReal) i = ((vR i : ℝ) : EReal)) →
      ((dat1 (F := Ideal) (E2 m ρ) c).arrAt 5 cfg1.N : I4096x2048 → EReal)
        = attnArr qR kR vR (E2 (F := Ideal) m ρ c main_v6) (E2 (F := Ideal) m ρ c main_arg0))
    -- the reference's second stage
    (S2 : ∀ (qU kR vR : I4096x2048 → ℝ),
      (∀ i, Cert.ReferenceIdeal.Read.val_main_v23 (F := Ideal) (A0 m c) (A1 m c) (A2 m c) (A10 m c) (A11 m c) i = ((qU i : ℝ) : EReal)) → (∀ i, Cert.ReferenceIdeal.Read.val_main_v34 (F := Ideal) (A0 m c) (A1 m c) (A3 m c) (A10 m c) (A11 m c) i = ((kR i : ℝ) : EReal)) → (∀ i, Cert.ReferenceIdeal.Read.val_main_v36 (F := Ideal) (A0 m c) (A1 m c) (A4 m c) i = ((vR i : ℝ) : EReal)) →
      ∀ (Wo : I2048x2048 → EReal), (∀ d e : Fin 2048, Wo (ix2 d e) = A5 m c (ix2 e d)) →
      attnArr (fun i => qU i * (262144 / 11863283 : ℝ)) kR vR Wo (A0 m c) = Cert.ReferenceIdeal.Read.val_main_v55 (F := Ideal) (A0 m c) (A1 m c) (A2 m c) (A3 m c) (A4 m c) (A5 m c) (A10 m c) (A11 m c))
    -- the reference's third stage
    (S3 : ∀ (X : I4096x2048 → EReal), X = Cert.ReferenceIdeal.Read.val_main_v55 (F := Ideal) (A0 m c) (A1 m c) (A2 m c) (A3 m c) (A4 m c) (A5 m c) (A10 m c) (A11 m c) →
      ∀ (w : S1x2048.Idx → EReal), (∀ k : Fin 2048, w (ix2 (0 : Fin 1) k) = A6 m c (ix1 k)) →
      ∀ (Wg Wu : S2048x8192.Idx → EReal), (∀ (k : Fin 2048) (f : Fin 8192), Wg (ix2 k f) = A7 m c (ix2 f k)) →
        (∀ (k : Fin 2048) (f : Fin 8192), Wu (ix2 k f) = A8 m c (ix2 f k)) →
      ∀ (Wd : S8192x2048.Idx → EReal), (∀ (f : Fin 8192) (d : Fin 2048), Wd (ix2 f d) = A9 m c (ix2 d f)) →
      ffnArr X w Wg Wu Wd = Cert.ReferenceIdeal.Read.val_main_v77 (F := Ideal) (A0 m c) (A1 m c) (A2 m c) (A3 m c) (A4 m c) (A5 m c) (A6 m c) (A7 m c) (A8 m c) (A9 m c) (A10 m c) (A11 m c)) :
    ((dat2 (F := Ideal) (E3 m ρ) c).arrAt 5 cfg2.N : I4096x2048 → EReal) = Cert.ReferenceIdeal.Read.val_main_v77 (F := Ideal) (A0 m c) (A1 m c) (A2 m c) (A3 m c) (A4 m c) (A5 m c) (A6 m c) (A7 m c) (A8 m c) (A9 m c) (A10 m c) (A11 m c) := by
  obtain ⟨h0, h1, h2, h3, h4, h5, h6, h7, h8, h9, h10, h11⟩ := hreal
  have hw1 := w1row_real m ρ c h1
  have hW := wf_real m ρ c h2 h3 h4
  -- the first stage's three arrays are real: choose their real values
  have r23 : ∀ i, IsReal (Cert.ReferenceIdeal.Read.val_main_v23 (F := Ideal) (A0 m c) (A1 m c) (A2 m c) (A10 m c) (A11 m c) i) := fun i => by
    obtain ⟨r, j, rfl⟩ : ∃ (r : Fin 4096) (j : Fin 2048), i = ix2 r j := ⟨i 0, i 1, eq_ix2 i⟩
    rw [S1q]
    exact rotate_real (third_real (fusedRow_real h0 hw1 hW r) 0 (by omega)) (fun j => h10 _) (fun j => h11 _) j
  have r34 : ∀ i, IsReal (Cert.ReferenceIdeal.Read.val_main_v34 (F := Ideal) (A0 m c) (A1 m c) (A3 m c) (A10 m c) (A11 m c) i) := fun i => by
    obtain ⟨r, j, rfl⟩ : ∃ (r : Fin 4096) (j : Fin 2048), i = ix2 r j := ⟨i 0, i 1, eq_ix2 i⟩
    rw [S1k]; exact kAt_real h0 hw1 hW h10 h11 r j
  have r36 : ∀ i, IsReal (Cert.ReferenceIdeal.Read.val_main_v36 (F := Ideal) (A0 m c) (A1 m c) (A4 m c) i) := fun i => by
    obtain ⟨r, j, rfl⟩ : ∃ (r : Fin 4096) (j : Fin 2048), i = ix2 r j := ⟨i 0, i 1, eq_ix2 i⟩
    rw [S1v]; exact vAt_real h0 hw1 hW r j
  choose qU hqU using r23
  choose kR hkR using r34
  choose vR hvR using r36
  -- what the second kernel finds, as those reals (the query scaled)
  have eQ : ∀ i, (E2 (F := Ideal) m ρ c main_v15_0 : I4096x2048 → EReal) i = (((fun i => qU i * (262144 / 11863283 : ℝ)) i : ℝ) : EReal) := fun i => by
    obtain ⟨r, j, rfl⟩ : ∃ (r : Fin 4096) (j : Fin 2048), i = ix2 r j := ⟨i 0, i 1, eq_ix2 i⟩
    rw [e2_query, qArr_apply]
    show rotate (third (fusedRow (A0 m c) (W1row m ρ c) (Wf m ρ c) r) 0 (by omega)) (csRow (A10 m c) r) (csRow (A11 m c) r) j * invScale = _
    rw [← S1q, hqU]
    exact (EReal.coe_mul _ _).symm
  have eK : ∀ i, (E2 (F := Ideal) m ρ c main_v15_1 : I4096x2048 → EReal) i = ((kR i : ℝ) : EReal) := fun i => by
    obtain ⟨r, j, rfl⟩ : ∃ (r : Fin 4096) (j : Fin 2048), i = ix2 r j := ⟨i 0, i 1, eq_ix2 i⟩
    rw [e2_key, kArr_apply, ← S1k, hkR]
  have eV : ∀ i, (E2 (F := Ideal) m ρ c main_v15_2 : I4096x2048 → EReal) i = ((vR i : ℝ) : EReal) := fun i => by
    obtain ⟨r, j, rfl⟩ : ∃ (r : Fin 4096) (j : Fin 2048), i = ix2 r j := ⟨i 0, i 1, eq_ix2 i⟩
    rw [e2_value, vArr_apply, ← S1v, hvR]
  -- the second stage
  have hWo : ∀ d e : Fin 2048, (E2 (F := Ideal) m ρ c main_v6 : I2048x2048 → EReal) (ix2 d e) = A5 m c (ix2 e d) := fun d e => by
    rw [E2_v6]; exact entry_v6 m ρ c d e
  have hX1 : ((dat1 (F := Ideal) (E2 m ρ) c).arrAt 5 cfg1.N : I4096x2048 → EReal) = Cert.ReferenceIdeal.Read.val_main_v55 (F := Ideal) (A0 m c) (A1 m c) (A2 m c) (A3 m c) (A4 m c) (A5 m c) (A10 m c) (A11 m c) := by
    rw [K2 _ kR vR eQ eK eV, show (E2 (F := Ideal) m ρ c main_arg0 : I4096x2048 → EReal) = A0 m c from E2_arg0 m ρ c]
    exact S2 qU kR vR hqU hkR hvR _ hWo
  -- the third stage
  rw [ffn_value_arrays (E3 m ρ) c]
  refine S3 _ ?_ _ ?_ _ _ ?_ ?_ _ ?_
  · rw [E3_v16]; exact hX1
  · intro k; rw [E3_v14]; exact entry_v14 m ρ c k
  · intro k f; rw [E3_v8]; exact entry_v8 m ρ c k f
  · intro k f; rw [E3_v10]; exact entry_v10 m ρ c k f
  · intro f d; rw [E3_v12]; exact entry_v12 m ρ c f d

end

end Cert.Proof.Bridge

end
-- ==== Proof.FiniteInputs.lean ====
import proofs.«105332_j8211977470193_2_alg».proof.Pre_finite_inputs
import Idealize.ShloMosaic.Lib.ReduceAll
import Idealize.ShloMosaic.Lib.ValueIdx
import proofs.«105332_j8211977470193_2_alg».proof.Proof.LibExtendedReals

/-!
# The precondition "every float input is finite", decoded

The precondition is a generated predicate: for each of the twelve argument arrays `a` it compares
`|a|` elementwise with `+∞`, strictly, reduces the comparisons of one array by `and` over all axes
(starting from `true`), and joins the twelve results by `and`. The claim says the result is `true`.

On the extended reals `|x| = max x (-x)`, the pattern `0x7F800000` is `⊤`, and the comparison is the
strict order. So the claim says: for every array `a` and every index `i`, `max (a i) (-(a i)) < ⊤`.
That gives `a i < ⊤` and `-(a i) < ⊤`, i.e. `a i ≠ ⊤` and `a i ≠ ⊥`: the entry is a real number.

* `word_inf`: the 32-bit pattern `0x7F800000` denotes `⊤`.
* `isReal_of_abs_lt_top`: `max x (-x) < ⊤` makes `x` a real number.
* `real_of_all`: one array, any shape: if the `and` over all its entries of `|a i| < +∞` is `true`,
  every entry of `a` is a real number.
* `real_of_finite`: the whole precondition: every entry of each of the twelve arrays is a real number.
-/

noncomputable section

namespace Cert.Proof.FiniteInputs

open Idealize.ShloMosaic Cert.Pre_finite_inputs Cert.ExtendedReals

/-- The scalar shape has exactly one index. -/
instance : Subsingleton S_.Idx := ⟨fun a b => funext fun d => d.elim0⟩

/-- The 32-bit pattern `0x7F800000` (sign 0, exponent all ones, significand 0) denotes `+∞`. -/
theorem word_inf : Ideal.ofBits .f32 0x7F800000#32 = (⊤ : EReal) := by
  simp [Ideal.ofBits, Ideal.ieee]

/-- An extended real whose absolute value `max x (-x)` is below `+∞` is a real number:
    `x ≤ max x (-x) < ⊤` rules out `⊤`, and `-x ≤ max x (-x) < ⊤` rules out `⊥` (as `-⊥ = ⊤`). -/
theorem isReal_of_abs_lt_top {x : EReal} (h : max x (-x) < ⊤) : IsReal x := by
  have h1 : x < ⊤ := lt_of_le_of_lt (le_max_left _ _) h
  have h2 : -x < ⊤ := lt_of_le_of_lt (le_max_right _ _) h
  induction x using EReal.rec with
  | bot => exact absurd h2 (by simp)
  | top => exact absurd h1 (lt_irrefl _)
  | coe r => exact ⟨r, rfl⟩

/-- A one-bit word made from a Boolean is `1` exactly when the Boolean is true. -/
theorem ofBool_eq_one {b : Bool} : BitVec.ofBool b = 1#1 ↔ b = true := by cases b <;> decide

/-- One array, of any shape `S`: if the `and`, over all axes, of the comparisons `|a i| < +∞` is `true`,
    then every entry of `a` is a real number. An `and` over all entries that is `true` met only `true`s
    (`Host.reduce_andi_all`); at entry `i` the comparison reads `max (a i) (-(a i)) < ⊤`. -/
theorem real_of_all {S : Shape} {axes : List (Fin S.rank)} (a : FVec Ideal S .f32)
    (hb : S_.BroadcastsInDim S (![] : Fin 0 → Fin S.rank)) (hred : S.ReducesTo axes S_) (hS : 0 < S_.numel)
    (h : Host.reduce IntOp.andi (cmpf .olt (Host.absf a) (broadcastInDim S ![] hb (constant S_ .f32 0x7F800000#32)))
          (constantI S_ 1 1#1) hred hS ValueIdx.ix0 = 1#1) :
    ∀ i, IsReal (a i) := by
  intro i
  have e := Host.reduce_andi_all _ _ hred hS _ h i
  -- the comparison at `i`, with the absolute value, the broadcast and the constant read at that index
  have e' : Ideal.cmp .olt (max (a i) (-(a i))) (Ideal.ofBits .f32 0x7F800000#32) = 1#1 := e
  rw [word_inf] at e'
  unfold Ideal.cmp at e'
  rw [ofBool_eq_one] at e'
  exact isReal_of_abs_lt_top (of_decide_eq_true e')

variable [Facts]
open Facts

/-- THE PRECONDITION DECODED: if the generated predicate "every float input is finite" is `true` of the twelve
    argument arrays, read on the extended reals, then every entry of every one of them is a real number.
    The predicate is the `and` of twelve one-array tests, nested to the left; each is `real_of_all`. -/
theorem real_of_finite (a0 : FVec Ideal S4096x2048 .f32) (a1 : FVec Ideal S2048 .f32)
    (a2 a3 a4 a5 : FVec Ideal S2048x2048 .f32) (a6 : FVec Ideal S2048 .f32)
    (a7 a8 : FVec Ideal S8192x2048 .f32) (a9 : FVec Ideal S2048x8192 .f32) (a10 a11 : FVec Ideal S4096x1024 .f32)
    (h : Cert.Pre_finite_inputs.fn (F := Ideal) a0 a1 a2 a3 a4 a5 a6 a7 a8 a9 a10 a11 = (fun _ => 1#1)) :
    (∀ i, IsReal (a0 i)) ∧ (∀ i, IsReal (a1 i)) ∧ (∀ i, IsReal (a2 i)) ∧ (∀ i, IsReal (a3 i)) ∧
    (∀ i, IsReal (a4 i)) ∧ (∀ i, IsReal (a5 i)) ∧ (∀ i, IsReal (a6 i)) ∧ (∀ i, IsReal (a7 i)) ∧
    (∀ i, IsReal (a8 i)) ∧ (∀ i, IsReal (a9 i)) ∧ (∀ i, IsReal (a10 i)) ∧ (∀ i, IsReal (a11 i)) := by
  have e := congrFun h ValueIdx.ix0
  dsimp only [fn, fn_part1, fn_part2, fn_part3, andi] at e
  simp only [IntOp.andi_eq_one] at e
  obtain ⟨⟨⟨⟨⟨⟨⟨⟨⟨⟨⟨h0, h1⟩, h2⟩, h3⟩, h4⟩, h5⟩, h6⟩, h7⟩, h8⟩, h9⟩, h10⟩, h11⟩ := e
  exact ⟨real_of_all a0 _ _ _ h0, real_of_all a1 _ _ _ h1, real_of_all a2 _ _ _ h2, real_of_all a3 _ _ _ h3,
    real_of_all a4 _ _ _ h4, real_of_all a5 _ _ _ h5, real_of_all a6 _ _ _ h6, real_of_all a7 _ _ _ h7,
    real_of_all a8 _ _ _ h8, real_of_all a9 _ _ _ h9, real_of_all a10 _ _ _ h10, real_of_all a11 _ _ _ h11⟩

end Cert.Proof.FiniteInputs

end
-- ==== Proof.KI.AttnPieces.lean ====
/-
  What each control case of the attention body leaves in the three scratch buffers and in the output tile, as the body's own
  arithmetic applied to the blocks. At a middle or last key tile the new running maximum is the maximum of the old one and the
  block's row maxima, the new denominator and numerator are the old ones rescaled plus the block's contribution; at a first
  key tile the same with the reset values (minus infinity, zero, zero) in place of the old ones, since the reset's stores lie
  under the update's and the update reads them back. At a last key tile the output tile is the finalisation of the scratch the
  same point has just stored.
-/
import proofs.«105332_j8211977470193_2_alg».proof.Proof.KI.AttnData
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F] [Named F]

theorem attn_hz2 : (![0, 0] : Fin 2 → Nat) = fun _ => 0 := funext fun a => by fin_cases a <;> rfl

/-! ## A middle key tile -/

/-- The running maximum after a middle key tile. -/
theorem attnSoutB_0_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    attnSoutB_0 c i a2 h2 a3 h3 a4 h4 a5 h5 a6 h6 a7 h7 a8 h8 a9 h9 a10 h10 hc0 hc1 x0 x1 x2 x3 x4 xs0 xs1 xs2 = k1_pay2 (k1_pay8 x0 x1 xs0) := by
  unfold attnSoutB_0
  rw [View.read_writes_eq_canon _ _ _ (attnScoverB_0 c i a2 h2 a3 h3 a4 h4 a5 h5 a6 h6 a7 h7 a8 h8 a9 h9 a10 h10 hc0 hc1 x0 x1 x2 x3 x4 xs0 xs1 xs2)]
  unfold attnRunB
  dsimp only
  sl_unfold_words
  rw [View.canon_unit_zero (S := S512x1) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-- The running denominator after a middle key tile. -/
theorem attnSoutB_1_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    attnSoutB_1 c i a2 h2 a3 h3 a4 h4 a5 h5 a6 h6 a7 h7 a8 h8 a9 h9 a10 h10 hc0 hc1 x0 x1 x2 x3 x4 xs0 xs1 xs2 = k1_pay11 x0 x1 xs0 xs0 xs1 := by
  unfold attnSoutB_1
  rw [View.read_writes_eq_canon _ _ _ (attnScoverB_1 c i a2 h2 a3 h3 a4 h4 a5 h5 a6 h6 a7 h7 a8 h8 a9 h9 a10 h10 hc0 hc1 x0 x1 x2 x3 x4 xs0 xs1 xs2)]
  unfold attnRunB
  dsimp only
  sl_unfold_words
  rw [View.canon_unit_zero (S := S512x1) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-- The running numerator after a middle key tile. -/
theorem attnSoutB_2_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    attnSoutB_2 c i a2 h2 a3 h3 a4 h4 a5 h5 a6 h6 a7 h7 a8 h8 a9 h9 a10 h10 hc0 hc1 x0 x1 x2 x3 x4 xs0 xs1 xs2 = k1_pay1 (k1_pay12 x0 x1 xs0 xs0 xs2 x2) := by
  unfold attnSoutB_2
  rw [View.read_writes_eq_canon _ _ _ (attnScoverB_2 c i a2 h2 a3 h3 a4 h4 a5 h5 a6 h6 a7 h7 a8 h8 a9 h9 a10 h10 hc0 hc1 x0 x1 x2 x3 x4 xs0 xs1 xs2)]
  unfold attnRunB
  dsimp only
  sl_unfold_words
  rw [View.canon_unit_zero (S := S512x2048) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-! ## A last key tile -/

/-- The running maximum after a last key tile. -/
theorem attnSoutC_0_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    attnSoutC_0 c i a2 h2 a3 h3 a4 h4 a5 h5 a6 h6 a7 h7 a8 h8 a9 h9 a10 h10 hc0 hc1 x0 x1 x2 x3 x4 xs0 xs1 xs2 = k1_pay2 (k1_pay8 x0 x1 xs0) := by
  unfold attnSoutC_0
  rw [View.read_writes_eq_canon _ _ _ (attnScoverC_0 c i a2 h2 a3 h3 a4 h4 a5 h5 a6 h6 a7 h7 a8 h8 a9 h9 a10 h10 hc0 hc1 x0 x1 x2 x3 x4 xs0 xs1 xs2)]
  unfold attnRunC
  dsimp only
  sl_unfold_words
  rw [View.canon_unit_zero (S := S512x1) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-- The running denominator after a last key tile. -/
theorem attnSoutC_1_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    attnSoutC_1 c i a2 h2 a3 h3 a4 h4 a5 h5 a6 h6 a7 h7 a8 h8 a9 h9 a10 h10 hc0 hc1 x0 x1 x2 x3 x4 xs0 xs1 xs2 = k1_pay11 x0 x1 xs0 xs0 xs1 := by
  unfold attnSoutC_1
  rw [View.read_writes_eq_canon _ _ _ (attnScoverC_1 c i a2 h2 a3 h3 a4 h4 a5 h5 a6 h6 a7 h7 a8 h8 a9 h9 a10 h10 hc0 hc1 x0 x1 x2 x3 x4 xs0 xs1 xs2)]
  unfold attnRunC
  dsimp only
  sl_unfold_words
  rw [View.canon_unit_zero (S := S512x1) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-- The running numerator after a last key tile. -/
theorem attnSoutC_2_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    attnSoutC_2 c i a2 h2 a3 h3 a4 h4 a5 h5 a6 h6 a7 h7 a8 h8 a9 h9 a10 h10 hc0 hc1 x0 x1 x2 x3 x4 xs0 xs1 xs2 = k1_pay1 (k1_pay12 x0 x1 xs0 xs0 xs2 x2) := by
  unfold attnSoutC_2
  rw [View.read_writes_eq_canon _ _ _ (attnScoverC_2 c i a2 h2 a3 h3 a4 h4 a5 h5 a6 h6 a7 h7 a8 h8 a9 h9 a10 h10 hc0 hc1 x0 x1 x2 x3 x4 xs0 xs1 xs2)]
  unfold attnRunC
  dsimp only
  sl_unfold_words
  rw [View.canon_unit_zero (S := S512x2048) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-- The output tile after a last key tile: the finalisation of the numerator and denominator the point has just stored, with the projection weight and the residual tile. -/
theorem attnOutC_5_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : ¬cond1_0 i) (hc1 : cond1_1 i)
    (x0 : Vec F S512x2048 .bf16) (x1 : Vec F S512x2048 .bf16) (x2 : Vec F S512x2048 .bf16) (x3 : Vec F S2048x2048 .bf16) (x4 : Vec F S512x2048 .f32)
    (xs0 : Vec F S512x1 .f32) (xs1 : Vec F S512x1 .f32) (xs2 : Vec F S512x2048 .f32) :
    attnOutC_5 c i a2 h2 a3 h3 a4 h4 a5 h5 a6 h6 a7 h7 a8 h8 a9 h9 a10 h10 hc0 hc1 x0 x1 x2 x3 x4 xs0 xs1 xs2 = k1_pay3 (k1_pay1 (k1_pay12 x0 x1 xs0 xs0 xs2 x2)) (k1_pay11 x0 x1 xs0 xs0 xs1) x3 x4 := by
  unfold attnOutC_5
  rw [View.read_writes_eq_canon _ _ _ (attnCoverC_5 c i a2 h2 a3 h3 a4 h4 a5 h5 a6 h6 a7 h7 a8 h8 a9 h9 a10 h10 hc0 hc1 x0 x1 x2 x3 x4 xs0 xs1 xs2)]
  unfold attnRunC
  dsimp only
  sl_unfold_words
  rw [View.canon_unit_zero (S := S512x2048) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-! ## A first key tile -/

/-- The running maximum after a first key tile: the update over the reset value. -/
theorem attnSoutA_0_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) :
    attnSoutA_0 c i a2 h2 a3 h3 a4 h4 a5 h5 a6 h6 a7 h7 a8 h8 a9 h9 a10 h10 hc0 hc1 x0 x1 x2 x3 x4 = k1_pay2 (k1_pay8 x0 x1 k1_pay4) := by
  unfold attnSoutA_0
  rw [View.read_writes_eq_canon _ _ _ (attnScoverA_0 c i a2 h2 a3 h3 a4 h4 a5 h5 a6 h6 a7 h7 a8 h8 a9 h9 a10 h10 hc0 hc1 x0 x1 x2 x3 x4)]
  unfold attnRunA
  dsimp only
  sl_unfold_words
  rw [View.canon_cons_unit_zero (S := S512x1) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-- The running denominator after a first key tile. -/
theorem attnSoutA_1_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) :
    attnSoutA_1 c i a2 h2 a3 h3 a4 h4 a5 h5 a6 h6 a7 h7 a8 h8 a9 h9 a10 h10 hc0 hc1 x0 x1 x2 x3 x4 = k1_pay11 x0 x1 k1_pay4 k1_pay4 k1_pay5 := by
  unfold attnSoutA_1
  rw [View.read_writes_eq_canon _ _ _ (attnScoverA_1 c i a2 h2 a3 h3 a4 h4 a5 h5 a6 h6 a7 h7 a8 h8 a9 h9 a10 h10 hc0 hc1 x0 x1 x2 x3 x4)]
  unfold attnRunA
  dsimp only
  sl_unfold_words
  rw [View.canon_cons_unit_zero (S := S512x1) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

/-- The running numerator after a first key tile. -/
theorem attnSoutA_2_eq (c : Dev nD) (i : grid1.Coords)
    (a2 : Memref sig .tc .vmem S512x2048 .bf16) (h2 : a2.IsWhole) (a3 : Memref sig .tc .vmem S512x2048 .bf16) (h3 : a3.IsWhole)
    (a4 : Memref sig .tc .vmem S512x2048 .bf16) (h4 : a4.IsWhole) (a5 : Memref sig .tc .vmem S2048x2048 .bf16) (h5 : a5.IsWhole)
    (a6 : Memref sig .tc .vmem S512x2048 .f32) (h6 : a6.IsWhole) (a7 : Memref sig .tc .vmem S512x2048 .f32) (h7 : a7.IsWhole)
    (a8 : Memref sig .tc .vmem S512x1 .f32) (h8 : a8.IsWhole) (a9 : Memref sig .tc .vmem S512x1 .f32) (h9 : a9.IsWhole)
    (a10 : Memref sig .tc .vmem S512x2048 .f32) (h10 : a10.IsWhole) (hc0 : cond1_0 i) (hc1 : ¬cond1_1 i)
    (x0 : Vec F S512x2048 .bf16) (x1 : Vec F S512x2048 .bf16) (x2 : Vec F S512x2048 .bf16) (x3 : Vec F S2048x2048 .bf16) (x4 : Vec F S512x2048 .f32) :
    attnSoutA_2 c i a2 h2 a3 h3 a4 h4 a5 h5 a6 h6 a7 h7 a8 h8 a9 h9 a10 h10 hc0 hc1 x0 x1 x2 x3 x4 = k1_pay1 (k1_pay12 x0 x1 k1_pay4 k1_pay4 k1_pay6 x2) := by
  unfold attnSoutA_2
  rw [View.read_writes_eq_canon _ _ _ (attnScoverA_2 c i a2 h2 a3 h3 a4 h4 a5 h5 a6 h6 a7 h7 a8 h8 a9 h9 a10 h10 hc0 hc1 x0 x1 x2 x3 x4)]
  unfold attnRunA
  dsimp only
  sl_unfold_words
  rw [View.canon_cons_unit_zero (S := S512x2048) attn_hz2]
  simp only [View.readCov_unit_zero (S := S512x1) _ attn_hz2, View.readCov_unit_zero (S := S512x2048) _ attn_hz2, View.readAt_eq_ld, h2.read_unread, h3.read_unread, h4.read_unread, h5.read_unread, h6.read_unread, h8.read_unread, h9.read_unread, h10.read_unread, View.ld_unit_zero (S := S512x2048) attn_hz2, View.ld_unit_zero (S := S512x1) attn_hz2, View.ld_unit_zero (S := S2048x2048) attn_hz2]

end Cert.Proof.KI

end
-- ==== Proof.LibMatDot.lean ====
/-
  The product of an m×k matrix by a k×n matrix, read at one entry, at the ideal values: both the vector unit's
  matrix product into a zero accumulator and the host's `dot_general` with the dimension numbers
  (contracting [1]×[0], no batch axis) are the sum over the contracted coordinate of the products of the entries,
  `∑ c, A (a, c) * B (c, b)`, whatever the element formats of the operands and whatever proof of well-formedness
  the record of dimension numbers carries. Also three broadcasts read at an entry: a column `[a, 1]` laid across
  `b` columns (the vector unit's and the host's), a vector of `n` entries laid along every row through a one-row
  matrix (the host's two-step form), and a scalar constant laid over a shape.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost

noncomputable section

open scoped BigOperators

namespace Cert.Lib.MatDot

open Idealize.ShloMosaic Idealize.ShloMosaic.ValueIdx

variable {m k n : Nat} {φ₁ φ₂ : FTy}

/-- The left operand's entry that output entry `(a, b)` meets at contraction position `c` is `(a, c)`. -/
theorem lhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's entry there is `(c, b)`. -/
theorem rhsIdx_eq (w : DotDims.WF ⟨2, ![m, k]⟩ ⟨2, ![k, n]⟩ ⟨2, ![m, n]⟩ [1] [0] [0] [1] [] [])
    (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The host's matrix product at entry `(a, b)` is `∑ c, A (a, c) * B (c, b)`. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

/-- The vector unit's matrix product into the zero accumulator at entry `(a, b)` is the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B (constant (F := Ideal) ⟨2, ![m, n]⟩ .f32 0x00000000#32) (ix2 a b) = _
  rw [Ideal.matmul_constant_zero_apply, ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx_eq w a b c, rhsIdx_eq w a b c]

variable {α : Type}

/-- A column `[a, 1]` laid across `b` columns by the vector unit's broadcast reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` along axes `[0, 1]` reads the same. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector of `n` entries made a one-row matrix along axis 1 by the host reads, at `(u, t)`, the vector at `t`. -/
theorem broadcastInDim_vec_oneRow_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) fun ax => ?_
  match ax with
  | ⟨0, _⟩ =>
    show t.val = if n = 1 then 0 else t.val
    split
    · have := t.isLt; omega
    · rfl

/-- So the host's two-step row broadcast (a vector to one row, the row down `m` rows) reads, at `(r, t)`, the vector at `t`. -/
theorem broadcastInDim_vec_rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (x : (⟨1, ![n]⟩ : Shape).Idx → α) (r : Fin m) (t : Fin n) :
    broadcastInDim ⟨2, ![m, n]⟩ ![0, 1] h2 (broadcastInDim ⟨2, ![1, n]⟩ ![1] h1 x) (ix2 r t) = x (ix1 t) :=
  (Idealize.ShloMosaic.broadcastInDim_oneRow_apply h2 _ r t).trans (broadcastInDim_vec_oneRow_apply h1 x 0 t)

/-- The vector unit's form of the same: the vector cast to one row, the row laid down `m` rows. -/
theorem broadcastTo_vec_rows_apply {m n : ℕ} (h1 : (⟨1, ![n]⟩ : Shape).ShapeCasts ⟨2, ![1, n]⟩)
    (h2 : (⟨2, ![1, n]⟩ : Shape).Broadcasts ⟨2, ![m, n]⟩) (x : (⟨1, ![n]⟩ : Shape).Idx → α) (r : Fin m) (t : Fin n) :
    broadcastTo ⟨2, ![m, n]⟩ (shapeCast ⟨2, ![1, n]⟩ x h1) h2 (ix2 r t) = x (ix1 t) :=
  (broadcastTo_1b_ab_apply _ h2 r t).trans (shapeCast_a_1a_apply x h1 0 t)

end Cert.Lib.MatDot

end
-- ==== Proof.KI.AttnPayload.lean ====
/-
  The attention body's arithmetic read at one entry, at the ideal values. For a query row r of the tile and a key row kk of
  the block the logit is the inner product of the two rows; the block's row maximum is the largest logit of the row (an
  upper bound that is attained); the new running maximum is the larger of the old one and the block's; the old denominator
  and numerator are rescaled by the exponential of the old maximum minus the new, and the block adds the exponentials of
  the logits minus the new maximum, resp. those times the value entries. The finalisation divides the numerator by the
  denominator, multiplies by the projection weight and adds the residual.
-/
import proofs.«105332_j8211977470193_2_alg».proof.Proof.Gen.KernelIdeal.Skeleton
import proofs.«105332_j8211977470193_2_alg».proof.Proof.LibMatDot
import Mathlib.Data.Finset.Fold
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.Proof.KI

open Cert.KernelIdeal Cert.KernelIdeal.Gen
open Idealize.ShloMosaic Idealize.ShloMosaic.ValueIdx

/-! ## Three general readings -/

/-- A vector of a entries cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

section TT
variable {m k n : Nat} {φ₁ φ₂ : FTy}

/-- A product contracting BOTH operands on their second axis: the left operand's entry that output entry (a, b) meets at
    contraction position c is (a, c), -/
theorem lhsIdx_tt (w : DotDims.WF ⟨2, ![m, k]⟩ ⟨2, ![n, k]⟩ ⟨2, ![m, n]⟩ [1] [1] [0] [0] [] [])
    (a : Fin m) (b : Fin n) (c : Fin k) :
    (⟨[1], [1], [0], [0], [], [], w⟩ : DotDims ⟨2, ![m, k]⟩ ⟨2, ![n, k]⟩ ⟨2, ![m, n]⟩).lhsIdx (ix2 a b)
      ((contrEquiv1 (⟨[1], [1], [0], [0], [], [], w⟩ : DotDims ⟨2, ![m, k]⟩ ⟨2, ![n, k]⟩ ⟨2, ![m, n]⟩) k rfl rfl).symm c) = ix2 a c := by
  have c2 := contrEquiv1_symm_val
    (⟨[1], [1], [0], [0], [], [], w⟩ : DotDims ⟨2, ![m, k]⟩ ⟨2, ![n, k]⟩ ⟨2, ![m, n]⟩) k rfl rfl c
  funext ax; apply Fin.ext
  match ax with
  | ⟨0, _⟩ => simp [DotDims.lhsIdx]; rfl
  | ⟨1, _⟩ => simp [DotDims.lhsIdx]; exact c2

/-- and the right operand's is (b, c). -/
theorem rhsIdx_tt (w : DotDims.WF ⟨2, ![m, k]⟩ ⟨2, ![n, k]⟩ ⟨2, ![m, n]⟩ [1] [1] [0] [0] [] [])
    (a : Fin m) (b : Fin n) (c : Fin k) :
    (⟨[1], [1], [0], [0], [], [], w⟩ : DotDims ⟨2, ![m, k]⟩ ⟨2, ![n, k]⟩ ⟨2, ![m, n]⟩).rhsIdx (ix2 a b)
      ((contrEquiv1 (⟨[1], [1], [0], [0], [], [], w⟩ : DotDims ⟨2, ![m, k]⟩ ⟨2, ![n, k]⟩ ⟨2, ![m, n]⟩) k rfl rfl).symm c) = ix2 b c := by
  have c2 := contrEquiv1_symm_val
    (⟨[1], [1], [0], [0], [], [], w⟩ : DotDims ⟨2, ![m, k]⟩ ⟨2, ![n, k]⟩ ⟨2, ![m, n]⟩) k rfl rfl c
  funext ax; apply Fin.ext
  match ax with
  | ⟨0, _⟩ => simp [DotDims.rhsIdx]; rfl
  | ⟨1, _⟩ => simp [DotDims.rhsIdx]; exact c2

/-- So that product into the zero accumulator at entry (a, b) is the inner product of row a of the left operand and row b of
    the right one. -/
theorem matmul_tt_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  show FloatOps.matmul _ prec A B (constant (F := Ideal) ⟨2, ![m, n]⟩ .f32 0x00000000#32) (ix2 a b) = _
  rw [Ideal.matmul_constant_zero_apply, ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  rw [lhsIdx_tt w a b c, rhsIdx_tt w a b c]

end TT

/-- The word of minus infinity is the least extended real. -/
theorem ofBits_ninf : Ideal.ofBits .f32 0xFF800000#32 = (⊥ : EReal) := by simp [Ideal.ofBits, Ideal.ieee]

/-- Every entry is below the fold of max from the least element, -/
theorem le_foldMax {n : ℕ} (f : Fin n → EReal) (i : Fin n) : f i ≤ (Finset.univ : Finset (Fin n)).fold max ⊥ f :=
  (Finset.le_fold_max _).mpr (Or.inr ⟨i, Finset.mem_univ _, le_rfl⟩)

/-- and over a nonempty range the fold is one of the entries. -/
theorem foldMax_attained {n : ℕ} (hn : 0 < n) (f : Fin n → EReal) : ∃ i, f i = (Finset.univ : Finset (Fin n)).fold max ⊥ f := by
  haveI : Nonempty (Fin n) := ⟨⟨0, hn⟩⟩
  obtain ⟨i, -, hi⟩ := Finset.exists_max_image Finset.univ f Finset.univ_nonempty
  exact ⟨i, le_antisymm (le_foldMax f i) ((Finset.fold_max_le _).mpr ⟨bot_le, fun x hx => hi x hx⟩)⟩

/-- The exponential of a vector, read at an entry. -/
theorem expv_apply {s : Shape} {φ : FTy} (a : FVec Ideal s φ) (i : s.Idx) : exp a i = Ideal.exp (a i) := rfl

/-! ## The logits and the block's row maximum -/

/-- The logit of query row r of the tile against key row kk of the block. -/
def logit (q k : FVec Ideal S512x2048 .bf16) (r kk : Fin 512) : EReal := ∑ d : Fin 2048, q (ix2 r d) * k (ix2 kk d)

/-- The block's maximum along query row r. -/
def rowMax (q k : FVec Ideal S512x2048 .bf16) (r : Fin 512) : EReal :=
  (Finset.univ : Finset (Fin 512)).fold max ⊥ (fun kk => logit q k r kk)

theorem logit_le_rowMax (q k : FVec Ideal S512x2048 .bf16) (r kk : Fin 512) : logit q k r kk ≤ rowMax q k r :=
  le_foldMax (fun kk => logit q k r kk) kk

theorem rowMax_attained (q k : FVec Ideal S512x2048 .bf16) (r : Fin 512) : ∃ kk, logit q k r kk = rowMax q k r :=
  foldMax_attained (by decide) (fun kk => logit q k r kk)

theorem attn_pay7_apply (q k : FVec Ideal S512x2048 .bf16) (r kk : Fin 512) :
    k1_pay7 (F := Ideal) q k (ix2 r kk) = logit q k r kk := by
  unfold k1_pay7
  simp only [shapeCast_self]
  exact matmul_tt_zero_apply dot_S512x2048_S512x2048_S512x512_1_1_0_0_n_n_wf none q k r kk

theorem lift_row (r kk : Fin 512) : reduces_S512x512_S512.lift (ix1 r) kk = ix2 r kk :=
  funext fun a => Fin.ext (by match a with | ⟨0, _⟩ => rfl | ⟨1, _⟩ => rfl)

/-- The new running maximum: the larger of the old one and the block's row maximum. -/
theorem attn_pay8_apply (q k : FVec Ideal S512x2048 .bf16) (mOld : FVec Ideal S512x1 .f32) (r : Fin 512) :
    k1_pay8 (F := Ideal) q k mOld (ix2 r (0 : Fin 1)) = max (mOld (ix2 r (0 : Fin 1))) (rowMax q k r) := by
  unfold k1_pay8
  simp only [maximumf_apply]
  refine congrArg (max _) ?_
  refine (shapeCast_a_a1_apply _ shapeCasts_S512_S512x1 r 0).trans ?_
  refine (Ideal.multiReduction_maximumf_single (k1_pay7 (F := Ideal) q k) 0xFF800000#32 reduces_S512x512_S512 (.inl rfl) rfl (ix1 r)).trans ?_
  show (Finset.univ : Finset (Fin 512)).fold max (Ideal.ofBits .f32 0xFF800000#32) (fun kk => k1_pay7 (F := Ideal) q k (reduces_S512x512_S512.lift (ix1 r) kk)) = _
  rw [ofBits_ninf]
  unfold rowMax
  refine congrArg (fun f : Fin 512 → EReal => (Finset.univ : Finset (Fin 512)).fold max ⊥ f) (funext fun (kk : Fin 512) => ?_)
  exact (congrArg (k1_pay7 (F := Ideal) q k) (lift_row r kk)).trans (attn_pay7_apply q k r kk)

/-- The rescaling factor: the exponential of the old maximum minus the new. -/
theorem attn_pay9_apply (q k : FVec Ideal S512x2048 .bf16) (mOld m12 : FVec Ideal S512x1 .f32) (r : Fin 512) :
    k1_pay9 (F := Ideal) q k mOld m12 (ix2 r (0 : Fin 1)) = Ideal.exp (m12 (ix2 r (0 : Fin 1)) - k1_pay8 (F := Ideal) q k mOld (ix2 r (0 : Fin 1))) := by
  unfold k1_pay9
  rfl

/-- The block's unnormalised weights: the exponentials of the logits minus the new maximum. -/
theorem attn_pay10_apply (q k : FVec Ideal S512x2048 .bf16) (mOld : FVec Ideal S512x1 .f32) (r kk : Fin 512) :
    k1_pay10 (F := Ideal) q k mOld (ix2 r kk) = Ideal.exp (k1_pay7 (F := Ideal) q k (ix2 r kk) - k1_pay8 (F := Ideal) q k mOld (ix2 r (0 : Fin 1))) := by
  unfold k1_pay10
  simp only [expv_apply, subf_apply]
  refine congrArg (fun z => Ideal.exp (_ - z)) ?_
  exact Cert.Lib.MatDot.broadcastTo_col_apply _ broadcasts_S512x1_S512x512 r kk

/-- The new denominator: the old one rescaled plus the row sum of the block's weights. -/
theorem attn_pay11_apply (q k : FVec Ideal S512x2048 .bf16) (mOld m12 lOld : FVec Ideal S512x1 .f32) (r : Fin 512) :
    k1_pay11 (F := Ideal) q k mOld m12 lOld (ix2 r (0 : Fin 1))
      = k1_pay9 (F := Ideal) q k mOld m12 (ix2 r (0 : Fin 1)) * lOld (ix2 r (0 : Fin 1)) + ∑ kk : Fin 512, k1_pay10 (F := Ideal) q k mOld (ix2 r kk) := by
  unfold k1_pay11
  simp only [shapeCast_self, addf_apply, mulf_apply]
  congr 1
  refine (shapeCast_a_a1_apply _ shapeCasts_S512_S512x1 r 0).trans ?_
  refine (Ideal.multiReduction_add_single (k1_pay10 (F := Ideal) q k mOld) 0x00000000#32 reduces_S512x512_S512 (.inl rfl) rfl (ix1 r)).trans ?_
  show ∑ kk : Fin 512, k1_pay10 (F := Ideal) q k mOld (reduces_S512x512_S512.lift (ix1 r) kk) = _
  simp only [lift_row]

/-- The new numerator: the old one rescaled plus the block's weights times the value entries. -/
theorem attn_pay12_apply (q k : FVec Ideal S512x2048 .bf16) (mOld m12 : FVec Ideal S512x1 .f32) (accOld : FVec Ideal S512x2048 .f32)
    (v : FVec Ideal S512x2048 .bf16) (r : Fin 512) (d : Fin 2048) :
    k1_pay12 (F := Ideal) q k mOld m12 accOld v (ix2 r d)
      = k1_pay9 (F := Ideal) q k mOld m12 (ix2 r (0 : Fin 1)) * accOld (ix2 r d) + ∑ kk : Fin 512, k1_pay10 (F := Ideal) q k mOld (ix2 r kk) * v (ix2 kk d) := by
  unfold k1_pay12
  simp only [shapeCast_self, addf_apply, mulf_apply]
  refine congrArg₂ (· + ·) (congrArg (· * _) ?_) ?_
  · exact Cert.Lib.MatDot.broadcastTo_col_apply _ broadcasts_S512x1_S512x2048 r d
  · exact Cert.Lib.MatDot.matmul_zero_apply dot_S512x512_S512x2048_S512x2048_1_0_0_1_n_n_wf none _ v r d

/-- The finalisation: the residual plus the normalised numerator times the projection weight. -/
theorem attn_pay3_apply (acc : FVec Ideal S512x2048 .f32) (l : FVec Ideal S512x1 .f32) (wo : FVec Ideal S2048x2048 .bf16)
    (x : FVec Ideal S512x2048 .f32) (r : Fin 512) (e : Fin 2048) :
    k1_pay3 (F := Ideal) acc l wo x (ix2 r e)
      = x (ix2 r e) + ∑ d : Fin 2048, Ideal.div (acc (ix2 r d)) (l (ix2 r (0 : Fin 1))) * wo (ix2 d e) := by
  unfold k1_pay3
  simp only [shapeCast_self, addf_apply]
  refine congrArg (_ + ·) ?_
  refine (Cert.Lib.MatDot.matmul_zero_apply dot_S512x2048_S2048x2048_S512x2048_1_0_0_1_n_n_wf none _ wo r e).trans ?_
  refine Finset.sum_congr rfl fun d _ => congrArg (· * _) ?_
  show Ideal.div (acc (ix2 r d)) (broadcastTo S512x2048 l broadcasts_S512x1_S512x2048 (ix2 r d)) = _
  exact congrArg (Ideal.div _) (Cert.Lib.MatDot.broadcastTo_col_apply l broadcasts_S512x1_S512x2048 r d)

/-! ## The reset's values -/

theorem attn_pay4_apply (r : Fin 512) : k1_pay4 (F := Ideal) (ix2 r (0 : Fin 1)) = (⊥ : EReal) := by
  unfold k1_pay4
  simp only [shapeCast_self]
  exact ofBits_ninf

theorem attn_pay5_apply (r : Fin 512) : k1_pay5 (F := Ideal) (ix2 r (0 : Fin 1)) = (0 : EReal) := by
  unfold k1_pay5
  simp only [shapeCast_self]
  exact Ideal.ofBits_zero_f32

theorem attn_pay6_apply (r : Fin 512) (d : Fin 2048) : k1_pay6 (F := Ideal) (ix2 r d) = (0 : EReal) := by
  unfold k1_pay6
  simp only [shapeCast_self]
  exact Ideal.ofBits_zero_f32

theorem attn_pay1_eq (x : FVec Ideal S512x2048 .f32) : k1_pay1 (F := Ideal) x = x := by
  unfold k1_pay1
  simp only [shapeCast_self]

theorem attn_pay2_eq (x : FVec Ideal S512x1 .f32) : k1_pay2 (F := Ideal) x = x := by
  unfold k1_pay2
  simp only [shapeCast_self]

end Cert.Proof.KI

end
-- ==== Proof.KI.AttnStep.lean ====
/-
  One key tile's update of the running maximum, denominator and numerator at one query row and one feature column, as one
  step of the online softmax recurrence: when the row's logits against the block are real numbers s and the block's value
  column is real numbers vb, the three updated entries are the recurrence's step from the three old entries, with the
  block's maximum the largest of the s. Also the logits as real inner products when both tiles are real, and the
  finalisation once the normalised numerator is known.
-/
import proofs.«105332_j8211977470193_2_alg».proof.Proof.KI.AttnPayload
import proofs.«105332_j8211977470193_2_alg».proof.Proof.LibOnlineSoftmax

set_option maxRecDepth 16384

noncomputable section

open scoped BigOperators

namespace Cert.Proof.KI

open Cert.KernelIdeal Cert.KernelIdeal.Gen
open Idealize.ShloMosaic Idealize.ShloMosaic.ValueIdx

/-- The largest of finitely many reals, as an extended real: the fold of max from the least element. -/
def blockMax (s : Fin 512 → ℝ) : EReal := (Finset.univ : Finset (Fin 512)).fold max ⊥ fun kk => ((s kk : ℝ) : EReal)

theorem le_blockMax (s : Fin 512 → ℝ) (kk : Fin 512) : ((s kk : ℝ) : EReal) ≤ blockMax s := by
  unfold blockMax; exact le_foldMax (fun kk => ((s kk : ℝ) : EReal)) kk

theorem blockMax_attained (s : Fin 512 → ℝ) : ∃ kk, ((s kk : ℝ) : EReal) = blockMax s := by
  unfold blockMax; exact foldMax_attained (by decide) (fun kk => ((s kk : ℝ) : EReal))

/-- With real rows the logit is the real inner product. -/
theorem logit_coe (q k : FVec Ideal S512x2048 .bf16) (r kk : Fin 512) (qr kr : Fin 2048 → ℝ)
    (hq : ∀ d, q (ix2 r d) = ((qr d : ℝ) : EReal)) (hk : ∀ d, k (ix2 kk d) = ((kr d : ℝ) : EReal)) :
    logit q k r kk = ((∑ d, qr d * kr d : ℝ) : EReal) := by
  unfold logit
  rw [Cert.Lib.OnlineSoftmax.coe_sum_univ]
  refine Finset.sum_congr rfl fun d _ => ?_
  rw [hq, hk, EReal.coe_mul]

/-- One key tile's update is one step of the recurrence. -/
theorem online_step (q k v : FVec Ideal S512x2048 .bf16) (mOld lOld : FVec Ideal S512x1 .f32) (accOld : FVec Ideal S512x2048 .f32)
    (r : Fin 512) (d : Fin 2048) (s vb : Fin 512 → ℝ)
    (hs : ∀ kk, logit q k r kk = ((s kk : ℝ) : EReal)) (hv : ∀ kk, v (ix2 kk d) = ((vb kk : ℝ) : EReal)) :
    (k1_pay2 (F := Ideal) (k1_pay8 (F := Ideal) q k mOld) (ix2 r (0 : Fin 1)),
     k1_pay11 (F := Ideal) q k mOld mOld lOld (ix2 r (0 : Fin 1)),
     k1_pay1 (F := Ideal) (k1_pay12 (F := Ideal) q k mOld mOld accOld v) (ix2 r d))
      = Cert.Lib.OnlineSoftmax.step s vb (blockMax s)
          (mOld (ix2 r (0 : Fin 1)), lOld (ix2 r (0 : Fin 1)), accOld (ix2 r d)) := by
  have hbm : rowMax q k r = blockMax s := by
    unfold rowMax blockMax
    exact congrArg (fun f : Fin 512 → EReal => (Finset.univ : Finset (Fin 512)).fold max ⊥ f) (funext hs)
  have h8 : k1_pay8 (F := Ideal) q k mOld (ix2 r (0 : Fin 1)) = max (mOld (ix2 r (0 : Fin 1))) (blockMax s) :=
    (attn_pay8_apply q k mOld r).trans (congrArg (max _) hbm)
  rw [attn_pay2_eq, attn_pay1_eq]
  unfold Cert.Lib.OnlineSoftmax.step
  refine congrArg₂ Prod.mk h8 (congrArg₂ Prod.mk ?_ ?_)
  · rw [attn_pay11_apply, attn_pay9_apply, h8]
    congr 1
    refine Finset.sum_congr rfl fun kk _ => ?_
    rw [attn_pay10_apply, attn_pay7_apply, h8, hs]
  · rw [attn_pay12_apply, attn_pay9_apply, h8]
    congr 1
    refine Finset.sum_congr rfl fun kk _ => ?_
    rw [attn_pay10_apply, attn_pay7_apply, h8, hs, hv]

/-- The same from the reset's values: the first step of the recurrence. -/
theorem online_first (q k v : FVec Ideal S512x2048 .bf16) (r : Fin 512) (d : Fin 2048) (s vb : Fin 512 → ℝ)
    (hs : ∀ kk, logit q k r kk = ((s kk : ℝ) : EReal)) (hv : ∀ kk, v (ix2 kk d) = ((vb kk : ℝ) : EReal)) :
    (k1_pay2 (F := Ideal) (k1_pay8 (F := Ideal) q k (k1_pay4 (F := Ideal))) (ix2 r (0 : Fin 1)),
     k1_pay11 (F := Ideal) q k (k1_pay4 (F := Ideal)) (k1_pay4 (F := Ideal)) (k1_pay5 (F := Ideal)) (ix2 r (0 : Fin 1)),
     k1_pay1 (F := Ideal) (k1_pay12 (F := Ideal) q k (k1_pay4 (F := Ideal)) (k1_pay4 (F := Ideal)) (k1_pay6 (F := Ideal)) v) (ix2 r d))
      = Cert.Lib.OnlineSoftmax.step s vb (blockMax s) ((⊥ : EReal), (0 : EReal), (0 : EReal)) := by
  rw [online_step q k v (k1_pay4 (F := Ideal)) (k1_pay5 (F := Ideal)) (k1_pay6 (F := Ideal)) r d s vb hs hv, attn_pay4_apply, attn_pay5_apply, attn_pay6_apply]

/-- The finalisation once the normalised numerator along the row is known. -/
theorem final_tile (acc : FVec Ideal S512x2048 .f32) (l : FVec Ideal S512x1 .f32) (wo : FVec Ideal S2048x2048 .bf16)
    (x : FVec Ideal S512x2048 .f32) (r : Fin 512) (e : Fin 2048) (cx : Fin 2048 → ℝ)
    (h : ∀ d, Ideal.div (acc (ix2 r d)) (l (ix2 r (0 : Fin 1))) = ((cx d : ℝ) : EReal)) :
    k1_pay3 (F := Ideal) acc l wo x (ix2 r e) = x (ix2 r e) + ∑ d : Fin 2048, ((cx d : ℝ) : EReal) * wo (ix2 d e) := by
  rw [attn_pay3_apply]
  congr 1
  exact Finset.sum_congr rfl fun d _ => by rw [h d]

end Cert.Proof.KI

end
-- ==== Proof.KI.AttnValue.lean ====
/-
  The value of the attention kernel over its grid. At point t = 8 qi + ki the query and residual tiles are rows 512 qi … of
  their arrays and the key and value tiles rows 512 ki …; with real queries and keys the logits of row r are the scores of
  query row 512 qi + r against key block ki. Each key tile's update of the running maximum, denominator and numerator is one
  step of the online softmax recurrence, so along a query row, by induction on the key tile, the three scratch entries after
  key tile ki are the recurrence after ki + 1 blocks. At the last key tile the numerator over the denominator is therefore
  the softmax-weighted context, and the output tile is the residual plus the context times the projection weight. Only those
  points write back, the point 8 (R / 512) + 7 covers row R, and so the output array ends holding that function entry by entry.
-/
import proofs.«105332_j8211977470193_2_alg».proof.Proof.KI.AttnData
import proofs.«105332_j8211977470193_2_alg».proof.Proof.KI.AttnSpec
import proofs.«105332_j8211977470193_2_alg».proof.Proof.KI.AttnPieces
import proofs.«105332_j8211977470193_2_alg».proof.Proof.KI.AttnStep
import Idealize.ShloMosaic.Lib.Pipeline.Value

set_option maxRecDepth 16384

noncomputable section

open scoped BigOperators

namespace Cert.Proof.KI

open Cert.KernelIdeal Cert.KernelIdeal.Gen
open Idealize.ShloMosaic Idealize.ShloMosaic.TcCoe Idealize.ShloMosaic.ValueIdx
open Idealize.ShloMosaic.Pipeline (Dat)

/-! ## Which blocks the windows hold -/

/-- The printed index maps, decided over the grid: at point t = 8 qi + ki the query, residual and output tiles are block qi
    of their arrays, the key and value tiles block ki, the projection weight its one block. -/
theorem idx_facts1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val % 8 ∧ win1_2.index t (1 : Fin 2) = 0
    ∧ win1_3.index t (0 : Fin 2) = 0 ∧ win1_3.index t (1 : Fin 2) = 0
    ∧ win1_4.index t (0 : Fin 2) = t.val / 8 ∧ win1_4.index t (1 : Fin 2) = 0
    ∧ win1_5.index t (0 : Fin 2) = t.val / 8 ∧ win1_5.index t (1 : Fin 2) = 0 :=
  (by decide +kernel : ∀ t : Fin grid1.N, _)

section Region
variable (V : (c : Dev nD) → (b : Ref sig .tc) → Buf (Elt Ideal) ((c : Thread nD τ).loc b)) (c : Dev nD)

/-- The query tile at point t is rows 512 qi … of the queries. -/
theorem iblk_q (t : Fin cfg1.N) (a : Fin 512) (b : Fin 2048) (A : Fin 4096) (hA : A.val = 512 * (t.val / 8) + a.val)  :
    (iblk1 V c 0 t : Vec Ideal S512x2048 .bf16) (ix2 a b) = (V c main_v15_0 : S4096x2048.Idx → Elt Ideal .bf16) (ix2 A b) := by
  obtain ⟨e00, e01, e10, e11, e20, e21, e30, e31, e40, e41, e50, e51⟩ := idx_facts1 t
  unfold iblk1
  rw [View.read_apply]
  show V c main_v15_0 _ = V c main_v15_0 _
  congr 1
  funext ax
  apply Fin.ext
  match ax with
  | ⟨0, _⟩ => show win1_0.index t (0 : Fin 2) * 512 + 1 * a.val = A.val; rw [hA]; omega
  | ⟨1, _⟩ => show win1_0.index t (1 : Fin 2) * 2048 + 1 * b.val = b.val; omega

/-- The key tile at point t is rows 512 ki … of the keys. -/
theorem iblk_k (t : Fin cfg1.N) (a : Fin 512) (b : Fin 2048) (A : Fin 4096) (hA : A.val = 512 * (t.val % 8) + a.val)  :
    (iblk1 V c 1 t : Vec Ideal S512x2048 .bf16) (ix2 a b) = (V c main_v15_1 : S4096x2048.Idx → Elt Ideal .bf16) (ix2 A b) := by
  obtain ⟨e00, e01, e10, e11, e20, e21, e30, e31, e40, e41, e50, e51⟩ := idx_facts1 t
  unfold iblk1
  rw [View.read_apply]
  show V c main_v15_1 _ = V c main_v15_1 _
  congr 1
  funext ax
  apply Fin.ext
  match ax with
  | ⟨0, _⟩ => show win1_1.index t (0 : Fin 2) * 512 + 1 * a.val = A.val; rw [hA]; omega
  | ⟨1, _⟩ => show win1_1.index t (1 : Fin 2) * 2048 + 1 * b.val = b.val; omega

/-- The value tile at point t is rows 512 ki … of the values. -/
theorem iblk_v (t : Fin cfg1.N) (a : Fin 512) (b : Fin 2048) (A : Fin 4096) (hA : A.val = 512 * (t.val % 8) + a.val)  :
    (iblk1 V c 2 t : Vec Ideal S512x2048 .bf16) (ix2 a b) = (V c main_v15_2 : S4096x2048.Idx → Elt Ideal .bf16) (ix2 A b) := by
  obtain ⟨e00, e01, e10, e11, e20, e21, e30, e31, e40, e41, e50, e51⟩ := idx_facts1 t
  unfold iblk1
  rw [View.read_apply]
  show V c main_v15_2 _ = V c main_v15_2 _
  congr 1
  funext ax
  apply Fin.ext
  match ax with
  | ⟨0, _⟩ => show win1_2.index t (0 : Fin 2) * 512 + 1 * a.val = A.val; rw [hA]; omega
  | ⟨1, _⟩ => show win1_2.index t (1 : Fin 2) * 2048 + 1 * b.val = b.val; omega

/-- The projection weight tile is the whole projection weight. -/
theorem iblk_wo (t : Fin cfg1.N) (a : Fin 2048) (b : Fin 2048) (A : Fin 2048) (hA : A.val = a.val)  :
    (iblk1 V c 3 t : Vec Ideal S2048x2048 .bf16) (ix2 a b) = (V c main_v6 : S2048x2048.Idx → Elt Ideal .bf16) (ix2 A b) := by
  obtain ⟨e00, e01, e10, e11, e20, e21, e30, e31, e40, e41, e50, e51⟩ := idx_facts1 t
  unfold iblk1
  rw [View.read_apply]
  show V c main_v6 _ = V c main_v6 _
  congr 1
  funext ax
  apply Fin.ext
  match ax with
  | ⟨0, _⟩ => show win1_3.index t (0 : Fin 2) * 2048 + 1 * a.val = A.val; rw [hA]; omega
  | ⟨1, _⟩ => show win1_3.index t (1 : Fin 2) * 2048 + 1 * b.val = b.val; omega

/-- The residual tile at point t is rows 512 qi … of the residual. -/
theorem iblk_x (t : Fin cfg1.N) (a : Fin 512) (b : Fin 2048) (A : Fin 4096) (hA : A.val = 512 * (t.val / 8) + a.val)  :
    (iblk1 V c 4 t : Vec Ideal S512x2048 .f32) (ix2 a b) = (V c main_arg0 : S4096x2048.Idx → Elt Ideal .f32) (ix2 A b) := by
  obtain ⟨e00, e01, e10, e11, e20, e21, e30, e31, e40, e41, e50, e51⟩ := idx_facts1 t
  unfold iblk1
  rw [View.read_apply]
  show V c main_arg0 _ = V c main_arg0 _
  congr 1
  funext ax
  apply Fin.ext
  match ax with
  | ⟨0, _⟩ => show win1_4.index t (0 : Fin 2) * 512 + 1 * a.val = A.val; rw [hA]; omega
  | ⟨1, _⟩ => show win1_4.index t (1 : Fin 2) * 2048 + 1 * b.val = b.val; omega

end Region

section Value
variable (V : (c : Dev nD) → (b : Ref sig .tc) → Buf (Elt Ideal) ((c : Thread nD τ).loc b)) (c : Dev nD)
variable (qR kR vR : I4096x2048 → ℝ)

/-- The three arrays the region reads are real-valued: the queries, the keys and the values. -/
structure RealInputs : Prop where
  hq : ∀ (r : Fin 4096) (d : Fin 2048), (V c main_v15_0 : S4096x2048.Idx → Elt Ideal .bf16) (ix2 r d) = ((qR (ix2 r d) : ℝ) : EReal)
  hk : ∀ (r : Fin 4096) (d : Fin 2048), (V c main_v15_1 : S4096x2048.Idx → Elt Ideal .bf16) (ix2 r d) = ((kR (ix2 r d) : ℝ) : EReal)
  hv : ∀ (r : Fin 4096) (d : Fin 2048), (V c main_v15_2 : S4096x2048.Idx → Elt Ideal .bf16) (ix2 r d) = ((vR (ix2 r d) : ℝ) : EReal)

/-- The query row that row r of the tile is at point n, and the key block of point n. -/
def rowOf (n : ℕ) (r : Fin 512) : Fin 4096 := ⟨(512 * (n / 8) + r.val) % 4096, Nat.mod_lt _ (by decide)⟩
def blkOf (n : ℕ) : Fin 8 := ⟨n % 8, Nat.mod_lt _ (by decide)⟩

theorem rowOf_val (n : ℕ) (hn : n < 64) (r : Fin 512) : (rowOf n r).val = 512 * (n / 8) + r.val := by
  show (512 * (n / 8) + r.val) % 4096 = _
  have := r.isLt; omega

/-- Along a query row the row does not change from one key tile to the next. -/
theorem rowOf_pred (m : ℕ) (h : ¬(m + 1) % 8 = 0) (r : Fin 512) : rowOf m r = rowOf (m + 1) r := by
  have e : m / 8 = (m + 1) / 8 := by omega
  exact Fin.ext (by show (512 * (m / 8) + r.val) % 4096 = (512 * ((m + 1) / 8) + r.val) % 4096; rw [e])

/-- Each block's maximum along query row R, as the recurrence carries it. -/
abbrev bmOf (R : Fin 4096) : Fin 8 → EReal := fun j => blockMax (score qR kR R j)

variable {V c qR kR vR}

/-- At point t the logits of row r are the scores of its query row against the point's key block. -/
theorem logit_blocks (H : RealInputs V c qR kR vR) (t : Fin cfg1.N) (r kk : Fin 512) :
    logit (iblk1 V c 0 t) (iblk1 V c 1 t) r kk = ((score qR kR (rowOf t.val r) (blkOf t.val) kk : ℝ) : EReal) := by
  have hN : t.val < 64 := lt_of_lt_of_eq t.isLt (show cfg1.N = 64 from N_1)
  refine logit_coe (iblk1 V c 0 t) (iblk1 V c 1 t) r kk (fun d => qR (ix2 (rowOf t.val r) d)) (fun d => kR (ix2 (keyRow (blkOf t.val) kk) d)) (fun d => ?_) (fun d => ?_)
  · exact (iblk_q V c t r d (rowOf t.val r) (rowOf_val t.val hN r)).trans (H.hq _ _)
  · exact (iblk_k V c t kk d (keyRow (blkOf t.val) kk) rfl).trans (H.hk _ _)

/-- And the value tile's column d is the point's key block of the values' column d. -/
theorem vcol_blocks (H : RealInputs V c qR kR vR) (t : Fin cfg1.N) (kk : Fin 512) (d : Fin 2048) :
    (iblk1 V c 2 t : Vec Ideal S512x2048 .bf16) (ix2 kk d) = ((valCol vR d (blkOf t.val) kk : ℝ) : EReal) :=
  (iblk_v V c t kk d (keyRow (blkOf t.val) kk) rfl).trans (H.hv _ _)

/-! ## The invariant along a query row -/

/-- After a first key tile the three scratch entries are the recurrence after one block. -/
theorem inv_first (H : RealInputs V c qR kR vR) (t : Fin cfg1.N) (h0 : t.val % 8 = 0) (r : Fin 512) (d : Fin 2048) :
    ((outsAt1 V c t.val t.isLt).2.1 (ix2 r (0 : Fin 1)), (outsAt1 V c t.val t.isLt).2.2.1 (ix2 r (0 : Fin 1)), (outsAt1 V c t.val t.isLt).2.2.2 (ix2 r d))
      = Cert.Lib.OnlineSoftmax.state (score qR kR (rowOf t.val r)) (valCol vR d) (bmOf qR kR (rowOf t.val r)) (t.val % 8 + 1) := by
  have h1 : ¬t.val % 8 = 7 := by omega
  rw [outsAt1_A V c t h0 h1]
  unfold attnOutsA
  dsimp only
  rw [attnSoutA_0_eq, attnSoutA_1_eq, attnSoutA_2_eq]
  refine (online_first (iblk1 V c 0 t) (iblk1 V c 1 t) (iblk1 V c 2 t) r d (score qR kR (rowOf t.val r) (blkOf t.val)) (valCol vR d (blkOf t.val))
    (logit_blocks H t r) (fun kk => vcol_blocks H t kk d)).trans ?_
  rw [Cert.Lib.OnlineSoftmax.state_succ _ _ _ (show t.val % 8 < 8 from Nat.mod_lt _ (by decide))]
  rw [show Cert.Lib.OnlineSoftmax.state (score qR kR (rowOf t.val r)) (valCol vR d) (bmOf qR kR (rowOf t.val r)) (t.val % 8) = ((⊥ : EReal), (0 : EReal), (0 : EReal)) from (congrArg _ h0).trans rfl]
  rfl

/-- After the key tile ki of a query row the running maximum, denominator and numerator at row r (and column d) are the
    online recurrence after ki + 1 blocks, on the row's scores and the values' column d. -/
theorem inv (H : RealInputs V c qR kR vR) : ∀ (n : ℕ) (hn : n < cfg1.N) (r : Fin 512) (d : Fin 2048),
    ((outsAt1 V c n hn).2.1 (ix2 r (0 : Fin 1)), (outsAt1 V c n hn).2.2.1 (ix2 r (0 : Fin 1)), (outsAt1 V c n hn).2.2.2 (ix2 r d))
      = Cert.Lib.OnlineSoftmax.state (score qR kR (rowOf n r)) (valCol vR d) (bmOf qR kR (rowOf n r)) (n % 8 + 1) := by
  intro n
  induction n with
  | zero => intro hn r d; exact inv_first H ⟨0, hn⟩ rfl r d
  | succ m ih =>
    intro hn r d
    have hm : m < cfg1.N := Nat.lt_of_succ_lt hn
    by_cases h0 : (m + 1) % 8 = 0
    · exact inv_first H ⟨m + 1, hn⟩ h0 r d
    · by_cases h1 : (m + 1) % 8 = 7
      · rw [show outsAt1 V c (m + 1) hn = _ from outsAt1_C V c ⟨m + 1, hn⟩ h0 h1]
        unfold attnOutsC
        dsimp only
        rw [attnSoutC_0_eq, attnSoutC_1_eq, attnSoutC_2_eq]
        refine (online_step (iblk1 V c 0 ⟨m + 1, hn⟩) (iblk1 V c 1 ⟨m + 1, hn⟩) (iblk1 V c 2 ⟨m + 1, hn⟩)
          (outsAt1 V c m hm).2.1 (outsAt1 V c m hm).2.2.1 (outsAt1 V c m hm).2.2.2 r d
          (score qR kR (rowOf (m + 1) r) (blkOf (m + 1))) (valCol vR d (blkOf (m + 1)))
          (logit_blocks H ⟨m + 1, hn⟩ r) (fun kk => vcol_blocks H ⟨m + 1, hn⟩ kk d)).trans ?_
        rw [ih hm r d, rowOf_pred m h0 r, show m % 8 + 1 = (m + 1) % 8 from by omega]
        exact (Cert.Lib.OnlineSoftmax.state_succ _ _ _ (show (m + 1) % 8 < 8 from Nat.mod_lt _ (by decide))).symm
      · rw [show outsAt1 V c (m + 1) hn = _ from outsAt1_B V c ⟨m + 1, hn⟩ h0 h1]
        unfold attnOutsB
        dsimp only
        rw [attnSoutB_0_eq, attnSoutB_1_eq, attnSoutB_2_eq]
        refine (online_step (iblk1 V c 0 ⟨m + 1, hn⟩) (iblk1 V c 1 ⟨m + 1, hn⟩) (iblk1 V c 2 ⟨m + 1, hn⟩)
          (outsAt1 V c m hm).2.1 (outsAt1 V c m hm).2.2.1 (outsAt1 V c m hm).2.2.2 r d
          (score qR kR (rowOf (m + 1) r) (blkOf (m + 1))) (valCol vR d (blkOf (m + 1)))
          (logit_blocks H ⟨m + 1, hn⟩ r) (fun kk => vcol_blocks H ⟨m + 1, hn⟩ kk d)).trans ?_
        rw [ih hm r d, rowOf_pred m h0 r, show m % 8 + 1 = (m + 1) % 8 from by omega]
        exact (Cert.Lib.OnlineSoftmax.state_succ _ _ _ (show (m + 1) % 8 < 8 from Nat.mod_lt _ (by decide))).symm

end Value

section Final
variable {V : (c : Dev nD) → (b : Ref sig .tc) → Buf (Elt Ideal) ((c : Thread nD τ).loc b)} {c : Dev nD}
variable {qR kR vR : I4096x2048 → ℝ}

/-! ## The output tile at the last key tile of a query row -/

/-- There the output tile holds the result's rows 512 qi …: the residual plus the context times the projection weight. -/
theorem out_tile (H : RealInputs V c qR kR vR) (t : Fin cfg1.N) (h7 : t.val % 8 = 7) (r : Fin 512) (e : Fin 2048) :
    (outsAt1 V c t.val t.isLt).1 (ix2 r e) = attnArr qR kR vR (V c main_v6 : S2048x2048.Idx → Elt Ideal .bf16) (V c main_arg0 : S4096x2048.Idx → Elt Ideal .f32) (ix2 (rowOf t.val r) e) := by
  have hN : t.val < 64 := lt_of_lt_of_eq t.isLt (show cfg1.N = 64 from N_1)
  have h0 : ¬t.val % 8 = 0 := by omega
  have h8 : t.val % 8 + 1 = 8 := by omega
  rw [outsAt1_C V c t h0 h7]
  unfold attnOutsC
  dsimp only
  rw [attnOutC_5_eq]
  refine (final_tile _ _ (iblk1 V c 3 t) (iblk1 V c 4 t) r e (fun d => ctx qR kR vR (rowOf t.val r) d) (fun d => ?_)).trans ?_
  · have hI := inv H t.val t.isLt r d
    rw [outsAt1_C V c t h0 h7] at hI
    unfold attnOutsC at hI
    dsimp only at hI
    rw [attnSoutC_0_eq, attnSoutC_1_eq, attnSoutC_2_eq, h8] at hI
    have e1 := congrArg (fun p : EReal × EReal × EReal => p.2.1) hI
    have e2 := congrArg (fun p : EReal × EReal × EReal => p.2.2) hI
    dsimp only at e1 e2
    rw [e1, e2]
    exact online_final qR kR vR (rowOf t.val r) d (bmOf qR kR (rowOf t.val r)) (fun j k => le_blockMax _ k) (fun j => blockMax_attained _)
  · rw [attnArr_apply, iblk_x V c t r e (rowOf t.val r) (rowOf_val t.val hN r)]
    congr 1
    refine Finset.sum_congr rfl fun d _ => ?_
    rw [iblk_wo V c t d e d rfl]

/-! ## From the tiles to the array -/

/-- What a point that writes back writes is its block of the result. -/
theorem flushed_eq (H : RealInputs V c qR kR vR) (t : Fin cfg1.N) (hf : (cfg1.win 5).flush t = true) :
    (dat1 V c).flushed 5 t = ((cfg1.win 5).blk t).view.read (Elt Ideal) (attnArr qR kR vR (V c main_v6 : S2048x2048.Idx → Elt Ideal .bf16) (V c main_arg0 : S4096x2048.Idx → Elt Ideal .f32)) := by
  have h7 : t.val % 8 = 7 := (flush1_5 t).mp hf
  have hN : t.val < 64 := lt_of_lt_of_eq t.isLt (show cfg1.N = 64 from N_1)
  obtain ⟨e00, e01, e10, e11, e20, e21, e30, e31, e40, e41, e50, e51⟩ := idx_facts1 t
  show (cfg1.win 5).cut (grid1.coords t) ((dat1 V c).after 5 t) = _
  rw [after1_5]
  funext y
  obtain ⟨r, e, rfl⟩ : ∃ (r : Fin 512) (e : Fin 2048), y = ix2 r e := ⟨y 0, y 1, eq_ix2 y⟩
  rw [View.read_apply]
  show (outsAt1 V c t.val t.isLt).1 (ix2 r e) = attnArr qR kR vR (V c main_v6 : S2048x2048.Idx → Elt Ideal .bf16) (V c main_arg0 : S4096x2048.Idx → Elt Ideal .f32) (((cfg1.win 5).blk t).view.emb (ix2 r e))
  rw [out_tile H t h7 r e]
  congr 1
  funext ax
  apply Fin.ext
  match ax with
  | ⟨0, _⟩ => show (rowOf t.val r).val = win1_5.index t (0 : Fin 2) * 512 + 1 * r.val; rw [rowOf_val t.val hN r]; omega
  | ⟨1, _⟩ => show e.val = win1_5.index t (1 : Fin 2) * 2048 + 1 * e.val; omega

/-- Every entry of the result array lies in the block some last key tile writes back: row R in that of query tile R / 512. -/
theorem covered (i : S4096x2048.Idx) : ∃ t : Fin cfg1.N, (cfg1.win 5).flush t = true ∧ i ∈ ((cfg1.win 5).blk t).view.set := by
  have hi0 : (i 0).val < 4096 := (i 0).isLt
  have hi1 : (i 1).val < 2048 := (i 1).isLt
  have hN : cfg1.N = 64 := N_1
  have ht : 8 * ((i 0).val / 512) + 7 < cfg1.N := by omega
  obtain ⟨e00, e01, e10, e11, e20, e21, e30, e31, e40, e41, e50, e51⟩ := idx_facts1 ⟨8 * ((i 0).val / 512) + 7, ht⟩
  refine ⟨⟨8 * ((i 0).val / 512) + 7, ht⟩, (flush1_5 _).mpr (by show (8 * ((i 0).val / 512) + 7) % 8 = 7; omega), ?_⟩
  show i ∈ ((View.whole main_v16).slice (win1_5.rect ⟨8 * ((i 0).val / 512) + 7, ht⟩)).set
  rw [View.set_slice_whole, Rect.mem_set_unit]
  intro a
  match a with
  | ⟨0, _⟩ =>
    show win1_5.index ⟨8 * ((i 0).val / 512) + 7, ht⟩ (0 : Fin 2) * 512 ≤ (i 0).val ∧ (i 0).val < win1_5.index ⟨8 * ((i 0).val / 512) + 7, ht⟩ (0 : Fin 2) * 512 + 512
    rw [e50]; show (8 * ((i 0).val / 512) + 7) / 8 * 512 ≤ (i 0).val ∧ (i 0).val < (8 * ((i 0).val / 512) + 7) / 8 * 512 + 512; omega
  | ⟨1, _⟩ =>
    show win1_5.index ⟨8 * ((i 0).val / 512) + 7, ht⟩ (1 : Fin 2) * 2048 ≤ (i 1).val ∧ (i 1).val < win1_5.index ⟨8 * ((i 0).val / 512) + 7, ht⟩ (1 : Fin 2) * 2048 + 2048
    rw [e51]; omega

/-- THE VALUE of the attention kernel: when the queries, keys and values the region finds are real-valued, its output array
    ends holding the residual plus the softmax-weighted context times the projection weight, entry by entry. -/
theorem attn_value (V : (c : Dev nD) → (b : Ref sig .tc) → Buf (Elt Ideal) ((c : Thread nD τ).loc b)) (c : Dev nD)
    (qR kR vR : I4096x2048 → ℝ)
    (hq : ∀ (r : Fin 4096) (d : Fin 2048), (V c main_v15_0 : S4096x2048.Idx → Elt Ideal .bf16) (ix2 r d) = ((qR (ix2 r d) : ℝ) : EReal))
    (hk : ∀ (r : Fin 4096) (d : Fin 2048), (V c main_v15_1 : S4096x2048.Idx → Elt Ideal .bf16) (ix2 r d) = ((kR (ix2 r d) : ℝ) : EReal))
    (hv : ∀ (r : Fin 4096) (d : Fin 2048), (V c main_v15_2 : S4096x2048.Idx → Elt Ideal .bf16) (ix2 r d) = ((vR (ix2 r d) : ℝ) : EReal)) :
    (dat1 (F := Ideal) V c).arrAt 5 cfg1.N = attnArr qR kR vR (V c main_v6 : S2048x2048.Idx → Elt Ideal .bf16) (V c main_arg0 : S4096x2048.Idx → Elt Ideal .f32) :=
  (dat1 (F := Ideal) V c).arrAt_eq_of_cover 5 (attnArr qR kR vR (V c main_v6 : S2048x2048.Idx → Elt Ideal .bf16) (V c main_arg0 : S4096x2048.Idx → Elt Ideal .f32)) (fun t hf => flushed_eq ⟨hq, hk, hv⟩ t hf) covered

end Final

end Cert.Proof.KI

end
-- ==== Proof.RefStage1.lean ====
/-
  The reference's first stage is the first kernel's specification. The reference normalises each row of the activations
  by its root mean square and scales it by the norm weights exactly as the specification's normalised row does (its row
  sum starts from the zero word, which adds nothing); its three products with the transposed query, key and value weights
  are the three thirds of the fused product, because column o + j of the fused weight matrix is row j of the weights whose
  third starts at o; and its rotations of the query and key products by the cosines and sines are the specification's
  rotation, half by half. The reference scales the query later; before the scale its query array is the specification's
  without the reciprocal of the softmax scale.
-/
import proofs.«105332_j8211977470193_2_alg».proof.Proof.RefReadPatched
import proofs.«105332_j8211977470193_2_alg».proof.Proof.KI.QkvSpec

set_option maxRecDepth 16384

noncomputable section

namespace Cert.Proof.Ref

open Cert.ReferenceIdeal Cert.ReferenceIdeal.Gen Cert.ReferenceIdeal.Read Cert.Proof.KI
open Idealize.ShloMosaic Idealize.ShloMosaic.ValueIdx

/-! ## Two halves of 1024 columns laid side by side, over any number of rows -/

/-- Two [m, 1024] halves concatenated along the columns read, at a column below 1024, the first half there. -/
theorem concat_cols_left {α : Type} {m : Nat} (A B : (⟨2, ![m, 1024]⟩ : Shape).Idx → α)
    (h : Shape.Concatenates [(⟨2, ![m, 1024]⟩ : Shape), ⟨2, ![m, 1024]⟩] ⟨2, ![m, 2048]⟩ 1)
    (r : Fin m) (j : Fin 2048) (hj : j.val < 1024) :
    concatenate ⟨2, ![m, 2048]⟩ 1 [⟨⟨2, ![m, 1024]⟩, A⟩, ⟨⟨2, ![m, 1024]⟩, B⟩] h (ix2 r j) = A (ix2 r ⟨j.val, hj⟩) :=
  concatenate_pair_apply_left (1 : Fin 2) A B h (ix2 r j) rfl (ix2 r ⟨j.val, hj⟩) (fun b => by
    match b with
    | ⟨0, _⟩ => rfl
    | ⟨1, _⟩ => rfl)

/-- … and at a column from 1024 on, the second half at the column less 1024. -/
theorem concat_cols_right {α : Type} {m : Nat} (A B : (⟨2, ![m, 1024]⟩ : Shape).Idx → α)
    (h : Shape.Concatenates [(⟨2, ![m, 1024]⟩ : Shape), ⟨2, ![m, 1024]⟩] ⟨2, ![m, 2048]⟩ 1)
    (r : Fin m) (j : Fin 2048) (hj : ¬ j.val < 1024) :
    concatenate ⟨2, ![m, 2048]⟩ 1 [⟨⟨2, ![m, 1024]⟩, A⟩, ⟨⟨2, ![m, 1024]⟩, B⟩] h (ix2 r j)
      = B (ix2 r ⟨j.val - 1024, by have := j.isLt; omega⟩) :=
  concatenate_pair_apply_right (1 : Fin 2) A B h (ix2 r j) rfl rfl (ix2 r ⟨j.val - 1024, by have := j.isLt; omega⟩)
    (fun b hb => by
      match b with
      | ⟨0, _⟩ => rfl
      | ⟨1, _⟩ => exact (hb rfl).elim)
    (by show j.val - 1024 + 1024 = j.val; omega)

/-! ## The normalised activations -/

/-- The reference's normalised activations at (R, k) are the specification's normalised row R at k. -/
theorem ref_norm_entry (x0 : (⟨S4096x2048, .f32⟩ : BufTy).Contents (Elt Ideal)) (x1 : (⟨S2048, .f32⟩ : BufTy).Contents (Elt Ideal))
    (w : (⟨2, ![1, 2048]⟩ : Shape).Idx → EReal) (hw : ∀ k : Fin 2048, w (ix2 (0 : Fin 1) k) = x1 (ix1 k))
    (R : Fin 4096) (k : Fin 2048) :
    val_main_v12 (F := Ideal) x0 x1 (ix2 R k) = normRow (xRow x0 R) (wRow w) k := by
  have e8 : idx_main_v8 (ix2 R k) = ix2 R (0 : Fin 1) := funext fun a => Fin.ext (by
    match a with
    | ⟨0, _⟩ => rfl
    | ⟨1, _⟩ => rfl)
  have e2 : idx_main_v2 (ix2 R (0 : Fin 1)) = ix1 R := funext fun a => Fin.ext (by
    match a with
    | ⟨0, _⟩ => rfl)
  have e1 : ∀ k' : Fin 2048, idx_main_v1 (ix1 R) k' = ix2 R k' := fun k' => funext fun a => Fin.ext (by
    match a with
    | ⟨0, _⟩ => rfl
    | ⟨1, _⟩ => rfl)
  have e11 : idx_main_v11 (ix2 R k) = ix2 (0 : Fin 1) k := funext fun a => Fin.ext (by
    match a with
    | ⟨0, _⟩ => rfl
    | ⟨1, _⟩ => rfl)
  have e10 : idx_main_v10 (ix2 (0 : Fin 1) k) = ix1 k := funext fun a => Fin.ext (by
    match a with
    | ⟨0, _⟩ => rfl)
  rw [val_main_v12_apply, val_main_v9_apply, val_main_v8_apply, e8, val_main_v7_apply, val_main_v6_apply, val_main_v4_apply,
    val_main_v2_apply, e2, val_main_v1_apply, val_main_v5_apply, val_main_cst_1_apply, val_main_v3_apply, val_main_cst_0_apply,
    val_main_cst_apply, val_main_v11_apply, e11, val_main_v10_apply, e10]
  simp only [e1, val_main_v0_apply]
  unfold normRow invRms meanSquare xRow wRow
  rw [hw k]
  show x0 (ix2 R k) * Ideal.rsqrt (Ideal.div (Ideal.ofBits .f32 0x00000000#32 + ∑ k' : Fin 2048, x0 (ix2 R k') * x0 (ix2 R k'))
      (Ideal.ofBits .f32 0x45000000#32) + Ideal.ofBits .f32 0x34000000#32) * x1 (ix1 k) = _
  rw [Ideal.ofBits_zero_f32, zero_add]

/-! ## The three products -/

/-- The reference's query product at (R, j) is column 0 + j of row R of the fused product: column 0 + j of the fused
    weights is row j of the query weights. -/
theorem ref_proj_q (x0 : (⟨S4096x2048, .f32⟩ : BufTy).Contents (Elt Ideal)) (x1 : (⟨S2048, .f32⟩ : BufTy).Contents (Elt Ideal)) (x2 : (⟨S2048x2048, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWq : ∀ (k j : Fin 2048), W (ix2 k ⟨0 + j.val, by have := j.isLt; omega⟩) = x2 (ix2 j k))
    (R : Fin 4096) (j : Fin 2048) :
    val_main_v14 (F := Ideal) x0 x1 x2 (ix2 R j) = third (fusedRow x0 w W R) 0 (by omega) j := by
  have el : ∀ k : Fin 2048, lidx_main_v14 (ix2 R j) k = ix2 R k := fun k => funext fun a => Fin.ext (by
    match a with
    | ⟨0, _⟩ => rfl
    | ⟨1, _⟩ => rfl)
  have er : ∀ k : Fin 2048, idx_main_v13 (ridx_main_v14 (ix2 R j) k) = ix2 j k := fun k => funext fun a => Fin.ext (by
    match a with
    | ⟨0, _⟩ => rfl
    | ⟨1, _⟩ => rfl)
  rw [val_main_v14_apply]
  unfold third fusedRow fused
  refine Finset.sum_congr rfl fun k _ => ?_
  rw [el, ref_norm_entry x0 x1 w hw R k, val_main_v13_apply, er]
  exact congrArg _ (hWq k j).symm

/-- The reference's key product at (R, j) is column 2048 + j of row R of the fused product: column 2048 + j of the fused
    weights is row j of the key weights. -/
theorem ref_proj_k (x0 : (⟨S4096x2048, .f32⟩ : BufTy).Contents (Elt Ideal)) (x1 : (⟨S2048, .f32⟩ : BufTy).Contents (Elt Ideal)) (x3 : (⟨S2048x2048, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWk : ∀ (k j : Fin 2048), W (ix2 k ⟨2048 + j.val, by have := j.isLt; omega⟩) = x3 (ix2 j k))
    (R : Fin 4096) (j : Fin 2048) :
    val_main_v25 (F := Ideal) x0 x1 x3 (ix2 R j) = third (fusedRow x0 w W R) 2048 (by omega) j := by
  have el : ∀ k : Fin 2048, lidx_main_v25 (ix2 R j) k = ix2 R k := fun k => funext fun a => Fin.ext (by
    match a with
    | ⟨0, _⟩ => rfl
    | ⟨1, _⟩ => rfl)
  have er : ∀ k : Fin 2048, idx_main_v24 (ridx_main_v25 (ix2 R j) k) = ix2 j k := fun k => funext fun a => Fin.ext (by
    match a with
    | ⟨0, _⟩ => rfl
    | ⟨1, _⟩ => rfl)
  rw [val_main_v25_apply]
  unfold third fusedRow fused
  refine Finset.sum_congr rfl fun k _ => ?_
  rw [el, ref_norm_entry x0 x1 w hw R k, val_main_v24_apply, er]
  exact congrArg _ (hWk k j).symm

/-- The reference's value product at (R, j) is column 4096 + j of row R of the fused product: column 4096 + j of the fused
    weights is row j of the value weights. -/
theorem ref_proj_v (x0 : (⟨S4096x2048, .f32⟩ : BufTy).Contents (Elt Ideal)) (x1 : (⟨S2048, .f32⟩ : BufTy).Contents (Elt Ideal)) (x4 : (⟨S2048x2048, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWv : ∀ (k j : Fin 2048), W (ix2 k ⟨4096 + j.val, by have := j.isLt; omega⟩) = x4 (ix2 j k))
    (R : Fin 4096) (j : Fin 2048) :
    val_main_v36 (F := Ideal) x0 x1 x4 (ix2 R j) = third (fusedRow x0 w W R) 4096 (by omega) j := by
  have el : ∀ k : Fin 2048, lidx_main_v36 (ix2 R j) k = ix2 R k := fun k => funext fun a => Fin.ext (by
    match a with
    | ⟨0, _⟩ => rfl
    | ⟨1, _⟩ => rfl)
  have er : ∀ k : Fin 2048, idx_main_v35 (ridx_main_v36 (ix2 R j) k) = ix2 j k := fun k => funext fun a => Fin.ext (by
    match a with
    | ⟨0, _⟩ => rfl
    | ⟨1, _⟩ => rfl)
  rw [val_main_v36_apply]
  unfold third fusedRow fused
  refine Finset.sum_congr rfl fun k _ => ?_
  rw [el, ref_norm_entry x0 x1 w hw R k, val_main_v35_apply, er]
  exact congrArg _ (hWv k j).symm

/-! ## The rotations -/

/-- The reference's query array before any scaling, at (r, j): the rotation of the first third of row r of the fused product. -/
theorem ref_query_unscaled (x0 : (⟨S4096x2048, .f32⟩ : BufTy).Contents (Elt Ideal)) (x1 : (⟨S2048, .f32⟩ : BufTy).Contents (Elt Ideal)) (x2 : (⟨S2048x2048, .f32⟩ : BufTy).Contents (Elt Ideal)) (x10 x11 : (⟨S4096x1024, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWq : ∀ (k j : Fin 2048), W (ix2 k ⟨0 + j.val, by have := j.isLt; omega⟩) = x2 (ix2 j k))
    (r : Fin 4096) (j : Fin 2048) :
    val_main_v23 (F := Ideal) x0 x1 x2 x10 x11 (ix2 r j) = rotate (third (fusedRow x0 w W r) 0 (by omega)) (csRow x10 r) (csRow x11 r) j := by
  unfold val_main_v23 rotate
  by_cases hj : j.val < 1024
  · rw [dif_pos hj]
    refine (concat_cols_left _ _ _ r j hj).trans ?_
    have elo : idx_main_v15 (ix2 r (⟨j.val, hj⟩ : Fin 1024)) = ix2 r (⟨j.val, by omega⟩ : Fin 2048) := funext fun a => Fin.ext (by
      match a with
      | ⟨0, _⟩ => rfl
      | ⟨1, _⟩ => rfl)
    have ehi : idx_main_v16 (ix2 r (⟨j.val, hj⟩ : Fin 1024)) = ix2 r (⟨1024 + j.val, by omega⟩ : Fin 2048) := funext fun a => Fin.ext (by
      match a with
      | ⟨0, _⟩ => rfl
      | ⟨1, _⟩ => rfl)
    rw [val_main_v19_apply, val_main_v17_apply, val_main_v18_apply, val_main_v15_apply, val_main_v16_apply, elo, ehi,
      ref_proj_q x0 x1 x2 w hw W hWq, ref_proj_q x0 x1 x2 w hw W hWq]
    rfl
  · rw [dif_neg hj]
    refine (concat_cols_right _ _ _ r j hj).trans ?_
    have elo : idx_main_v15 (ix2 r (⟨j.val - 1024, by have := j.isLt; omega⟩ : Fin 1024))
        = ix2 r (⟨j.val - 1024, by have := j.isLt; omega⟩ : Fin 2048) := funext fun a => Fin.ext (by
      match a with
      | ⟨0, _⟩ => rfl
      | ⟨1, _⟩ => rfl)
    have ehi : idx_main_v16 (ix2 r (⟨j.val - 1024, by have := j.isLt; omega⟩ : Fin 1024))
        = ix2 r (⟨1024 + (j.val - 1024), by have := j.isLt; omega⟩ : Fin 2048) := funext fun a => Fin.ext (by
      match a with
      | ⟨0, _⟩ => rfl
      | ⟨1, _⟩ => rfl)
    rw [val_main_v22_apply, val_main_v20_apply, val_main_v21_apply, val_main_v15_apply, val_main_v16_apply, elo, ehi,
      ref_proj_q x0 x1 x2 w hw W hWq, ref_proj_q x0 x1 x2 w hw W hWq]
    rfl

/-- The reference's key array before any scaling, at (r, j): the rotation of the middle third of row r of the fused product. -/
theorem ref_key_entry (x0 : (⟨S4096x2048, .f32⟩ : BufTy).Contents (Elt Ideal)) (x1 : (⟨S2048, .f32⟩ : BufTy).Contents (Elt Ideal)) (x3 : (⟨S2048x2048, .f32⟩ : BufTy).Contents (Elt Ideal)) (x10 x11 : (⟨S4096x1024, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWk : ∀ (k j : Fin 2048), W (ix2 k ⟨2048 + j.val, by have := j.isLt; omega⟩) = x3 (ix2 j k))
    (r : Fin 4096) (j : Fin 2048) :
    val_main_v34 (F := Ideal) x0 x1 x3 x10 x11 (ix2 r j) = kAt x0 w W x10 x11 r j := by
  unfold val_main_v34 kAt rotate
  by_cases hj : j.val < 1024
  · rw [dif_pos hj]
    refine (concat_cols_left _ _ _ r j hj).trans ?_
    have elo : idx_main_v26 (ix2 r (⟨j.val, hj⟩ : Fin 1024)) = ix2 r (⟨j.val, by omega⟩ : Fin 2048) := funext fun a => Fin.ext (by
      match a with
      | ⟨0, _⟩ => rfl
      | ⟨1, _⟩ => rfl)
    have ehi : idx_main_v27 (ix2 r (⟨j.val, hj⟩ : Fin 1024)) = ix2 r (⟨1024 + j.val, by omega⟩ : Fin 2048) := funext fun a => Fin.ext (by
      match a with
      | ⟨0, _⟩ => rfl
      | ⟨1, _⟩ => rfl)
    rw [val_main_v30_apply, val_main_v28_apply, val_main_v29_apply, val_main_v26_apply, val_main_v27_apply, elo, ehi,
      ref_proj_k x0 x1 x3 w hw W hWk, ref_proj_k x0 x1 x3 w hw W hWk]
    rfl
  · rw [dif_neg hj]
    refine (concat_cols_right _ _ _ r j hj).trans ?_
    have elo : idx_main_v26 (ix2 r (⟨j.val - 1024, by have := j.isLt; omega⟩ : Fin 1024))
        = ix2 r (⟨j.val - 1024, by have := j.isLt; omega⟩ : Fin 2048) := funext fun a => Fin.ext (by
      match a with
      | ⟨0, _⟩ => rfl
      | ⟨1, _⟩ => rfl)
    have ehi : idx_main_v27 (ix2 r (⟨j.val - 1024, by have := j.isLt; omega⟩ : Fin 1024))
        = ix2 r (⟨1024 + (j.val - 1024), by have := j.isLt; omega⟩ : Fin 2048) := funext fun a => Fin.ext (by
      match a with
      | ⟨0, _⟩ => rfl
      | ⟨1, _⟩ => rfl)
    rw [val_main_v33_apply, val_main_v31_apply, val_main_v32_apply, val_main_v26_apply, val_main_v27_apply, elo, ehi,
      ref_proj_k x0 x1 x3 w hw W hWk, ref_proj_k x0 x1 x3 w hw W hWk]
    rfl

/-- The reference's value array at (r, j) is the specification's. -/
theorem ref_value_entry (x0 : (⟨S4096x2048, .f32⟩ : BufTy).Contents (Elt Ideal)) (x1 : (⟨S2048, .f32⟩ : BufTy).Contents (Elt Ideal)) (x4 : (⟨S2048x2048, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWv : ∀ (k j : Fin 2048), W (ix2 k ⟨4096 + j.val, by have := j.isLt; omega⟩) = x4 (ix2 j k))
    (r : Fin 4096) (j : Fin 2048) :
    val_main_v36 (F := Ideal) x0 x1 x4 (ix2 r j) = vAt x0 w W r j :=
  ref_proj_v x0 x1 x4 w hw W hWv r j

/-! ## The three arrays -/

/-- The specification's query array is the reference's unscaled query array times the reciprocal of the softmax
    scale. -/
theorem ref_query (x0 : (⟨S4096x2048, .f32⟩ : BufTy).Contents (Elt Ideal)) (x1 : (⟨S2048, .f32⟩ : BufTy).Contents (Elt Ideal)) (x2 : (⟨S2048x2048, .f32⟩ : BufTy).Contents (Elt Ideal)) (x10 x11 : (⟨S4096x1024, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWq : ∀ (k j : Fin 2048), W (ix2 k ⟨0 + j.val, by have := j.isLt; omega⟩) = x2 (ix2 j k))
    (i : (⟨2, ![4096, 2048]⟩ : Shape).Idx) :
    qArr x0 w W x10 x11 i = val_main_v23 (F := Ideal) x0 x1 x2 x10 x11 i * invScale := by
  obtain ⟨r, j, rfl⟩ : ∃ (r : Fin 4096) (j : Fin 2048), i = ix2 r j := ⟨i 0, i 1, eq_ix2 i⟩
  rw [qArr_apply, ref_query_unscaled x0 x1 x2 x10 x11 w hw W hWq r j]
  rfl

/-- The specification's key array is the reference's. -/
theorem ref_key (x0 : (⟨S4096x2048, .f32⟩ : BufTy).Contents (Elt Ideal)) (x1 : (⟨S2048, .f32⟩ : BufTy).Contents (Elt Ideal)) (x3 : (⟨S2048x2048, .f32⟩ : BufTy).Contents (Elt Ideal)) (x10 x11 : (⟨S4096x1024, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWk : ∀ (k j : Fin 2048), W (ix2 k ⟨2048 + j.val, by have := j.isLt; omega⟩) = x3 (ix2 j k)) :
    kArr x0 w W x10 x11 = val_main_v34 (F := Ideal) x0 x1 x3 x10 x11 := by
  funext i
  obtain ⟨r, j, rfl⟩ : ∃ (r : Fin 4096) (j : Fin 2048), i = ix2 r j := ⟨i 0, i 1, eq_ix2 i⟩
  rw [kArr_apply, ref_key_entry x0 x1 x3 x10 x11 w hw W hWk r j]

/-- The specification's value array is the reference's. -/
theorem ref_value (x0 : (⟨S4096x2048, .f32⟩ : BufTy).Contents (Elt Ideal)) (x1 : (⟨S2048, .f32⟩ : BufTy).Contents (Elt Ideal)) (x4 : (⟨S2048x2048, .f32⟩ : BufTy).Contents (Elt Ideal)) (x10 x11 : (⟨S4096x1024, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWv : ∀ (k j : Fin 2048), W (ix2 k ⟨4096 + j.val, by have := j.isLt; omega⟩) = x4 (ix2 j k)) :
    vArr x0 w W x10 x11 = val_main_v36 (F := Ideal) x0 x1 x4 := by
  funext i
  obtain ⟨r, j, rfl⟩ : ∃ (r : Fin 4096) (j : Fin 2048), i = ix2 r j := ⟨i 0, i 1, eq_ix2 i⟩
  rw [vArr_apply, ref_value_entry x0 x1 x4 w hw W hWv r j]

/-- **The reference's first stage is the specification**: query (up to the scale the reference applies later), key and
    value. -/
theorem ref_stage1 (x0 : (⟨S4096x2048, .f32⟩ : BufTy).Contents (Elt Ideal)) (x1 : (⟨S2048, .f32⟩ : BufTy).Contents (Elt Ideal)) (x2 x3 x4 : (⟨S2048x2048, .f32⟩ : BufTy).Contents (Elt Ideal)) (x10 x11 : (⟨S4096x1024, .f32⟩ : BufTy).Contents (Elt Ideal))
    (w : (⟨2, ![1, 2048]⟩ : Shape).Idx → EReal) (hw : ∀ k : Fin 2048, w (ix2 (0 : Fin 1) k) = x1 (ix1 k))
    (W : (⟨2, ![2048, 6144]⟩ : Shape).Idx → EReal) (hWq : ∀ (k j : Fin 2048), W (ix2 k ⟨0 + j.val, by have := j.isLt; omega⟩) = x2 (ix2 j k))
    (hWk : ∀ (k j : Fin 2048), W (ix2 k ⟨2048 + j.val, by have := j.isLt; omega⟩) = x3 (ix2 j k))
    (hWv : ∀ (k j : Fin 2048), W (ix2 k ⟨4096 + j.val, by have := j.isLt; omega⟩) = x4 (ix2 j k)) :
    (∀ i, qArr x0 w W x10 x11 i = val_main_v23 (F := Ideal) x0 x1 x2 x10 x11 i * invScale)
      ∧ kArr x0 w W x10 x11 = val_main_v34 (F := Ideal) x0 x1 x3 x10 x11
      ∧ vArr x0 w W x10 x11 = val_main_v36 (F := Ideal) x0 x1 x4 :=
  ⟨ref_query x0 x1 x2 x10 x11 w hw W hWq, ref_key x0 x1 x3 x10 x11 w hw W hWk, ref_value x0 x1 x4 x10 x11 w hw W hWv⟩

end Cert.Proof.Ref

end
-- ==== Proof.RefStage2Math.lean ====
import Idealize.ShloMosaic.PureOps.Ideal
import Idealize.ShloMosaic.PureOps.Ideal.Laws
import Idealize.ShloMosaic.Lib.ValueIdx
import proofs.«105332_j8211977470193_2_alg».proof.Proof.LibOnlineSoftmax
import proofs.«105332_j8211977470193_2_alg».proof.Proof.LibExtendedReals
import proofs.«105332_j8211977470193_2_alg».proof.Proof.KI.AttnSpec

/-!
# The attention stage on real numbers: one softmax over 4096 keys is the blockwise one

The mathematics the reading of the reference's attention stage rests on, free of the program.

* `sR qU kR r s`: the scaled score of query row `r` against key row `s`, as one real number:
  `(∑ d, qU (r, d) · kR (s, d)) · c` with `c = 262144 / 11863283`.
* `score_eq`: scaling the query by `c` before the inner product, or the inner product by `c` after, is the same:
  `∑ d, (qU (r, d) · c) · kR (s, d) = (∑ d, qU (r, d) · kR (s, d)) · c`.
* `keyEquiv`, `sum_keys`: the 4096 key rows are eight blocks of 512, `s = 512 j + k`; a sum over the keys is the
  double sum over blocks and rows in the block.
* `softmax_keys`: the softmax-weighted sum of a value column over the 4096 keys, with any real `M` subtracted from
  the scores, is the context of the blockwise specification (the weights do not depend on `M`).
* `isReal_fold_max`: the maximum of a nonempty finite family of reals, started below `+∞`, is a real number.
* `word_zero`, `word_ninf`: the 32-bit patterns of `0.0` and `-∞`.
-/

noncomputable section

open scoped BigOperators

namespace Cert.Proof.Ref

open Idealize.ShloMosaic Idealize.ShloMosaic.ValueIdx Cert.Proof.KI Cert.ExtendedReals

/-- The scaled score of query row `r` against key row `s`: the inner product of the two rows times `262144 / 11863283`. -/
def sR (qU kR : I4096x2048 → ℝ) (r s : Fin 4096) : ℝ :=
  (∑ d : Fin 2048, qU (ix2 r d) * kR (ix2 s d)) * (262144 / 11863283 : ℝ)

/-- The specification's score, with the query scaled first, is the scaled score:
    `∑ d, (q_d · c) · k_d = (∑ d, q_d · k_d) · c`. -/
theorem score_eq (qU kR : I4096x2048 → ℝ) (r : Fin 4096) (j : Fin 8) (k : Fin 512) :
    score (fun i => qU i * (262144 / 11863283 : ℝ)) kR r j k = sR qU kR r (keyRow j k) := by
  unfold score sR
  rw [Finset.sum_mul]
  refine Finset.sum_congr rfl fun d _ => ?_
  show qU (ix2 r d) * (262144 / 11863283 : ℝ) * kR (ix2 (keyRow j k) d)
      = qU (ix2 r d) * kR (ix2 (keyRow j k) d) * (262144 / 11863283 : ℝ)
  ring

/-- The key rows in eight blocks of 512: `(j, k) ↦ 512 j + k` is a bijection onto the 4096 rows. -/
def keyEquiv : Fin 8 × Fin 512 ≃ Fin 4096 where
  toFun p := keyRow p.1 p.2
  invFun x := (⟨x.val / 512, by have := x.isLt; omega⟩, ⟨x.val % 512, Nat.mod_lt _ (by decide)⟩)
  left_inv p := by
    obtain ⟨j, k⟩ := p
    have hj := j.isLt
    have hk := k.isLt
    refine Prod.ext (Fin.ext ?_) (Fin.ext ?_)
    · show (512 * j.val + k.val) / 512 = j.val
      omega
    · show (512 * j.val + k.val) % 512 = k.val
      omega
  right_inv x := Fin.ext (by
    show 512 * (x.val / 512) + x.val % 512 = x.val
    omega)

/-- A sum over the 4096 key rows is the double sum over the eight blocks and the 512 rows of a block. -/
theorem sum_keys (f : Fin 4096 → ℝ) : ∑ x : Fin 4096, f x = ∑ j : Fin 8, ∑ k : Fin 512, f (keyRow j k) := by
  rw [← Equiv.sum_comp keyEquiv f, Fintype.sum_prod_type]
  rfl

/-- The softmax-weighted sum of value column `d` over all 4096 keys, the scores shifted by any real `M`, is the
    context of the blockwise specification: regroup the keys in blocks, move the shift to `0` (the weights do not
    depend on it), and read the scaled score as the specification's score of the scaled query. -/
theorem softmax_keys (qU kR vR : I4096x2048 → ℝ) (r : Fin 4096) (d : Fin 2048) (M : ℝ) :
    ∑ x : Fin 4096, Real.exp (sR qU kR r x - M) / (∑ y : Fin 4096, Real.exp (sR qU kR r y - M)) * vR (ix2 x d)
      = ctx (fun i => qU i * (262144 / 11863283 : ℝ)) kR vR r d := by
  have h2 : (∑ y : Fin 4096, Real.exp (sR qU kR r y - M))
      = ∑ j : Fin 8, ∑ k : Fin 512, Real.exp (sR qU kR r (keyRow j k) - M) := sum_keys _
  have h1 : (∑ x : Fin 4096, Real.exp (sR qU kR r x - M) / (∑ y : Fin 4096, Real.exp (sR qU kR r y - M)) * vR (ix2 x d))
      = ∑ j : Fin 8, ∑ k : Fin 512, Real.exp (sR qU kR r (keyRow j k) - M)
          / (∑ y : Fin 4096, Real.exp (sR qU kR r y - M)) * vR (ix2 (keyRow j k) d) := sum_keys _
  have h3 : (∑ j : Fin 8, ∑ k : Fin 512, Real.exp (sR qU kR r (keyRow j k) - M)
          / (∑ j : Fin 8, ∑ k : Fin 512, Real.exp (sR qU kR r (keyRow j k) - M)) * vR (ix2 (keyRow j k) d))
      = ∑ j : Fin 8, ∑ k : Fin 512, Real.exp (sR qU kR r (keyRow j k) - 0)
          / (∑ j : Fin 8, ∑ k : Fin 512, Real.exp (sR qU kR r (keyRow j k) - 0)) * vR (ix2 (keyRow j k) d) :=
    Cert.Lib.OnlineSoftmax.softmax_shift (fun j k => sR qU kR r (keyRow j k)) (fun j k => vR (ix2 (keyRow j k) d)) M 0
  rw [h1, h2, h3, ctx_apply]
  simp only [sub_zero, score_eq, valCol]

/-- The maximum of a nonempty finite family of real numbers, started from anything below `+∞`, is a real number:
    it stays below `+∞`, and it is at least one of the entries, which is above `-∞`. -/
theorem isReal_fold_max {ι : Type*} (s : Finset ι) (hs : s.Nonempty) (f : ι → EReal) (b : EReal) (hb : b < ⊤)
    (h : ∀ i ∈ s, IsReal (f i)) : IsReal (s.fold max b f) := by
  refine isReal_of_lt ?_ (fold_max_lt_top s f b hb h)
  obtain ⟨i, hi⟩ := hs
  refine (Finset.lt_fold_max _).2 (Or.inr ⟨i, hi, ?_⟩)
  obtain ⟨x, hx⟩ := h i hi
  rw [hx]
  exact EReal.bot_lt_coe x

/-- The all-zero 32-bit pattern denotes `0`. -/
theorem word_zero : Ideal.ofBits .f32 0x00000000#32 = (0 : EReal) := by
  simp [Ideal.ofBits, Ideal.ieee]

/-- The 32-bit pattern `0xFF800000` (sign 1, exponent all ones, significand 0) denotes `-∞`. -/
theorem word_ninf : Ideal.ofBits .f32 0xFF800000#32 = (⊥ : EReal) := by
  simp [Ideal.ofBits, Ideal.ieee]

end Cert.Proof.Ref

end
-- ==== Proof.ScaleWord.lean ====
/-
  The softmax scale as the reference carries it: the f32 word 0x423504F3, which is the rational 11863283 / 262144 exactly
  (sign 0, exponent 132, fraction 0x3504F3: (1 + 3474675 / 2^23) · 2^5). Dividing by it on the extended reals is multiplying
  by its reciprocal 262144 / 11863283, the value the kernel's named constant denotes.
-/
import Idealize.ShloMosaic.PureOps.Ideal
import Idealize.ShloMosaic.PureOps.Ideal.Laws

noncomputable section

namespace Cert.Proof.ScaleWord

open Idealize.ShloMosaic

/-- The reference's divisor is the rational 11863283 / 262144. -/
theorem scale_word : Ideal.ofBits .f32 0x423504F3#32 = ((11863283 / 262144 : ℝ) : EReal) := by
  simp [Ideal.ofBits, Ideal.ieee, -EReal.coe_mul]; norm_num

/-- Dividing by the reference's divisor is multiplying by 262144 / 11863283. -/
theorem div_scale (x : EReal) : Ideal.div x (Ideal.ofBits .f32 0x423504F3#32) = x * ((262144 / 11863283 : ℝ) : EReal) := by
  rw [scale_word, Ideal.div_coe (by norm_num : (11863283 / 262144 : ℝ) ≠ 0)]
  congr 2; norm_num

end Cert.Proof.ScaleWord

end
-- ==== Proof.RefStage2.lean ====
import proofs.«105332_j8211977470193_2_alg».proof.Proof.RefReadPatched
import proofs.«105332_j8211977470193_2_alg».proof.Proof.RefStage2Math
import proofs.«105332_j8211977470193_2_alg».proof.Proof.ScaleWord

/-!
# The reference's attention stage is the blockwise specification

The reference program computes its attention stage in one pass over all 4096 keys: the scores are the inner products
of the query rows with the key rows, divided by the scale word; each row's maximum `m` is subtracted, the exponentials
are divided by their row sum, the weights multiply the values, the context multiplies the transposed projection
weight, and the residual is added. Given that the queries, keys and values it computed are real arrays, this module
reads those operations index by index and finds the specification's array `attnArr`, whose query is scaled by
`262144 / 11863283` BEFORE the scores and whose softmax runs over eight blocks of 512 keys with no maximum subtracted.

* `v40_at`: the divided score at (r, s) is the real `sR qU kR r s` (dividing by the scale word is multiplying by its
  reciprocal, and the sum over the features commutes with the coercion of reals).
* `v41_real`: each row's maximum is a real number (a maximum from `-∞` over 4096 reals).
* `v47_at`, `v48_at`, `v51_at`: the exponential, the row sum and the weight at an index, in the spelling the
  one-pass softmax lemma takes.
* `v52_at`: the context at (r, d) is the specification's `ctx`: the one-pass softmax lemma, then the regrouping
  of the keys in blocks and the independence of the weights from the subtracted maximum.
* `ref_stage2`: the stage's result is `attnArr`.
-/

noncomputable section

open scoped BigOperators

namespace Cert.Proof.Ref

open Cert.ReferenceIdeal Cert.ReferenceIdeal.Gen Cert.ReferenceIdeal.Read Idealize.ShloMosaic Idealize.ShloMosaic.ValueIdx
  Idealize.SL.Sem Cert.Proof.KI Cert.ExtendedReals

/-- The score after the division by the scale word, at (r, s): the scaled score, a real number. The inner product of
    two real rows is the coercion of the real inner product, and dividing by the word `0x423504F3` multiplies by
    `262144 / 11863283`. -/
theorem v40_at (x0 : (⟨S4096x2048, .f32⟩ : BufTy).Contents (Elt Ideal)) (x1 : (⟨S2048, .f32⟩ : BufTy).Contents (Elt Ideal)) (x2 x3 : (⟨S2048x2048, .f32⟩ : BufTy).Contents (Elt Ideal)) (x10 x11 : (⟨S4096x1024, .f32⟩ : BufTy).Contents (Elt Ideal))
    (qU kR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (r s : Fin 4096) :
    val_main_v40 (F := Ideal) x0 x1 x2 x3 x10 x11 (ix2 r s) = ((sR qU kR r s : ℝ) : EReal) := by
  have e : ∀ k : Fin 2048,
      val_main_v23 (F := Ideal) x0 x1 x2 x10 x11 (lidx_main_v38 (ix2 r s) k)
        * val_main_v37 (F := Ideal) x0 x1 x3 x10 x11 (ridx_main_v38 (ix2 r s) k)
      = ((qU (ix2 r k) * kR (ix2 s k) : ℝ) : EReal) := fun k => by
    have e1 : lidx_main_v38 (ix2 r s) k = ix2 r k := funext fun a => Fin.ext (by match a with | ⟨0, _⟩ => rfl | ⟨1, _⟩ => rfl)
    have e2 : idx_main_v37 (ridx_main_v38 (ix2 r s) k) = ix2 s k := funext fun a => Fin.ext (by match a with | ⟨0, _⟩ => rfl | ⟨1, _⟩ => rfl)
    rw [val_main_v37_apply, hq, hk, e1, e2, EReal.coe_mul]
  rw [val_main_v40_apply, val_main_v38_apply, val_main_v39_apply, val_main_cst_2_apply]
  simp only [e]
  rw [Ideal.hostDivf_def, Ideal.ofBits_def, Cert.Proof.ScaleWord.div_scale, ← Cert.Lib.OnlineSoftmax.coe_sum_univ,
    ← EReal.coe_mul]
  rfl

/-- Every divided score is a real number. -/
theorem v40_real (x0 : (⟨S4096x2048, .f32⟩ : BufTy).Contents (Elt Ideal)) (x1 : (⟨S2048, .f32⟩ : BufTy).Contents (Elt Ideal)) (x2 x3 : (⟨S2048x2048, .f32⟩ : BufTy).Contents (Elt Ideal)) (x10 x11 : (⟨S4096x1024, .f32⟩ : BufTy).Contents (Elt Ideal))
    (qU kR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (i : S4096x4096.Idx) :
    IsReal (val_main_v40 (F := Ideal) x0 x1 x2 x3 x10 x11 i) := by
  obtain ⟨r, s, rfl⟩ : ∃ (r s : Fin 4096), i = ix2 r s := ⟨i 0, i 1, eq_ix2 i⟩
  exact ⟨_, v40_at x0 x1 x2 x3 x10 x11 qU kR hq hk r s⟩

/-- Each row's maximum of the divided scores is a real number: it is the maximum, started from `-∞`, of the row's
    4096 entries, all real. -/
theorem v41_real (x0 : (⟨S4096x2048, .f32⟩ : BufTy).Contents (Elt Ideal)) (x1 : (⟨S2048, .f32⟩ : BufTy).Contents (Elt Ideal)) (x2 x3 : (⟨S2048x2048, .f32⟩ : BufTy).Contents (Elt Ideal)) (x10 x11 : (⟨S4096x1024, .f32⟩ : BufTy).Contents (Elt Ideal))
    (qU kR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (j : S4096.Idx) :
    IsReal (val_main_v41 (F := Ideal) x0 x1 x2 x3 x10 x11 j) := by
  unfold val_main_v41
  rw [Host.reduce_eq_fold_single (FloatOps.maximumf (F := Ideal) (φ := .f32)) _ _ _
    (by decide : S4096x4096.Reduces [(1 : Fin S4096x4096.rank)] S4096)]
  exact isReal_fold_max Finset.univ ⟨⟨0, by decide⟩, Finset.mem_univ _⟩ _ _ word_ninf_lt_top
    fun k _ => v40_real x0 x1 x2 x3 x10 x11 qU kR hq hk _

/-- The subtracted maximum: the larger of `-∞` and the row's maximum. -/
theorem v43_at (x0 : (⟨S4096x2048, .f32⟩ : BufTy).Contents (Elt Ideal)) (x1 : (⟨S2048, .f32⟩ : BufTy).Contents (Elt Ideal)) (x2 x3 : (⟨S2048x2048, .f32⟩ : BufTy).Contents (Elt Ideal)) (x10 x11 : (⟨S4096x1024, .f32⟩ : BufTy).Contents (Elt Ideal))
    (r : Fin 4096) (M : ℝ) (hM : val_main_v41 (F := Ideal) x0 x1 x2 x3 x10 x11 (ix1 r) = ((M : ℝ) : EReal)) :
    val_main_v43 (F := Ideal) x0 x1 x2 x3 x10 x11 (ix1 r) = max (⊥ : EReal) ((M : ℝ) : EReal) := by
  rw [val_main_v43_apply, val_main_v42_apply, val_main_cst_4_apply, hM, Ideal.maximumf_def, Ideal.ofBits_def, word_ninf]

/-- The exponential at (r, s). -/
theorem v47_at (x0 : (⟨S4096x2048, .f32⟩ : BufTy).Contents (Elt Ideal)) (x1 : (⟨S2048, .f32⟩ : BufTy).Contents (Elt Ideal)) (x2 x3 : (⟨S2048x2048, .f32⟩ : BufTy).Contents (Elt Ideal)) (x10 x11 : (⟨S4096x1024, .f32⟩ : BufTy).Contents (Elt Ideal))
    (qU kR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (r s : Fin 4096) (M : ℝ) (hM : val_main_v41 (F := Ideal) x0 x1 x2 x3 x10 x11 (ix1 r) = ((M : ℝ) : EReal)) :
    val_main_v47 (F := Ideal) x0 x1 x2 x3 x10 x11 (ix2 r s)
      = Ideal.exp (((sR qU kR r s : ℝ) : EReal) - max (⊥ : EReal) ((M : ℝ) : EReal)) := by
  have e1 : idx_main_v44 (idx_main_v45 (ix2 r s)) = ix1 r := funext fun a => Fin.ext (by match a with | ⟨0, _⟩ => rfl)
  rw [val_main_v47_apply, val_main_v46_apply, val_main_v45_apply, val_main_v44_apply, e1,
    v43_at x0 x1 x2 x3 x10 x11 r M hM, v40_at x0 x1 x2 x3 x10 x11 qU kR hq hk r s, Ideal.hostUnary_exp_def, Ideal.subf_def]

/-- The row sum of the exponentials, from the zero word. -/
theorem v48_at (x0 : (⟨S4096x2048, .f32⟩ : BufTy).Contents (Elt Ideal)) (x1 : (⟨S2048, .f32⟩ : BufTy).Contents (Elt Ideal)) (x2 x3 : (⟨S2048x2048, .f32⟩ : BufTy).Contents (Elt Ideal)) (x10 x11 : (⟨S4096x1024, .f32⟩ : BufTy).Contents (Elt Ideal))
    (qU kR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (r : Fin 4096) (M : ℝ) (hM : val_main_v41 (F := Ideal) x0 x1 x2 x3 x10 x11 (ix1 r) = ((M : ℝ) : EReal)) :
    val_main_v48 (F := Ideal) x0 x1 x2 x3 x10 x11 (ix1 r)
      = 0 + ∑ y : Fin 4096, Ideal.exp (((sR qU kR r y : ℝ) : EReal) - max (⊥ : EReal) ((M : ℝ) : EReal)) := by
  rw [val_main_v48_apply, val_main_cst_5_apply, Ideal.ofBits_def, word_zero]
  refine congrArg (0 + ·) (Finset.sum_congr rfl fun k _ => ?_)
  have e1 : idx_main_v48 (ix1 r) k = ix2 r k := funext fun a => Fin.ext (by match a with | ⟨0, _⟩ => rfl | ⟨1, _⟩ => rfl)
  rw [e1, v47_at x0 x1 x2 x3 x10 x11 qU kR hq hk r k M hM]

/-- The softmax weight at (r, s): the exponential over the row sum. -/
theorem v51_at (x0 : (⟨S4096x2048, .f32⟩ : BufTy).Contents (Elt Ideal)) (x1 : (⟨S2048, .f32⟩ : BufTy).Contents (Elt Ideal)) (x2 x3 : (⟨S2048x2048, .f32⟩ : BufTy).Contents (Elt Ideal)) (x10 x11 : (⟨S4096x1024, .f32⟩ : BufTy).Contents (Elt Ideal))
    (qU kR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (r s : Fin 4096) (M : ℝ) (hM : val_main_v41 (F := Ideal) x0 x1 x2 x3 x10 x11 (ix1 r) = ((M : ℝ) : EReal)) :
    val_main_v51 (F := Ideal) x0 x1 x2 x3 x10 x11 (ix2 r s)
      = Ideal.div (Ideal.exp (((sR qU kR r s : ℝ) : EReal) - max (⊥ : EReal) ((M : ℝ) : EReal)))
          (0 + ∑ y : Fin 4096, Ideal.exp (((sR qU kR r y : ℝ) : EReal) - max (⊥ : EReal) ((M : ℝ) : EReal))) := by
  have e1 : idx_main_v49 (idx_main_v50 (ix2 r s)) = ix1 r := funext fun a => Fin.ext (by match a with | ⟨0, _⟩ => rfl)
  rw [val_main_v51_apply, val_main_v50_apply, val_main_v49_apply, e1, v47_at x0 x1 x2 x3 x10 x11 qU kR hq hk r s M hM,
    v48_at x0 x1 x2 x3 x10 x11 qU kR hq hk r M hM, Ideal.hostDivf_def]

/-- The context at (r, d) is the specification's: the weights times the values, summed over the 4096 keys, is the
    coercion of the real softmax-weighted sum (one-pass softmax lemma, with the row's real maximum), and that real sum
    is the blockwise context of the scaled query. -/
theorem v52_at (x0 : (⟨S4096x2048, .f32⟩ : BufTy).Contents (Elt Ideal)) (x1 : (⟨S2048, .f32⟩ : BufTy).Contents (Elt Ideal)) (x2 x3 x4 : (⟨S2048x2048, .f32⟩ : BufTy).Contents (Elt Ideal)) (x10 x11 : (⟨S4096x1024, .f32⟩ : BufTy).Contents (Elt Ideal))
    (qU kR vR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (hv : ∀ i, val_main_v36 (F := Ideal) x0 x1 x4 i = ((vR i : ℝ) : EReal)) (r : Fin 4096) (d : Fin 2048) :
    val_main_v52 (F := Ideal) x0 x1 x2 x3 x4 x10 x11 (ix2 r d)
      = ((ctx (fun i => qU i * (262144 / 11863283 : ℝ)) kR vR r d : ℝ) : EReal) := by
  obtain ⟨M, hM⟩ := v41_real x0 x1 x2 x3 x10 x11 qU kR hq hk (ix1 r)
  have e : ∀ k : Fin 4096,
      val_main_v51 (F := Ideal) x0 x1 x2 x3 x10 x11 (lidx_main_v52 (ix2 r d) k) * val_main_v36 (F := Ideal) x0 x1 x4 (ridx_main_v52 (ix2 r d) k)
      = Ideal.div (Ideal.exp (((sR qU kR r k : ℝ) : EReal) - max (⊥ : EReal) ((M : ℝ) : EReal)))
          (0 + ∑ y : Fin 4096, Ideal.exp (((sR qU kR r y : ℝ) : EReal) - max (⊥ : EReal) ((M : ℝ) : EReal)))
        * ((vR (ix2 k d) : ℝ) : EReal) := fun k => by
    have e1 : lidx_main_v52 (ix2 r d) k = ix2 r k := funext fun a => Fin.ext (by match a with | ⟨0, _⟩ => rfl | ⟨1, _⟩ => rfl)
    have e2 : ridx_main_v52 (ix2 r d) k = ix2 k d := funext fun a => Fin.ext (by match a with | ⟨0, _⟩ => rfl | ⟨1, _⟩ => rfl)
    rw [e1, e2, v51_at x0 x1 x2 x3 x10 x11 qU kR hq hk r k M hM, hv]
  rw [val_main_v52_apply]
  exact (Finset.sum_congr rfl fun k _ => e k).trans
    ((Cert.Lib.OnlineSoftmax.reference_eq (sR qU kR r) (fun k => vR (ix2 k d)) M).trans
      (congrArg (fun t : ℝ => (t : EReal)) (softmax_keys qU kR vR r d M)))

/-- THE STAGE: the reference's attention stage, from real queries, keys and values, is the specification's array
    with the query scaled by `262144 / 11863283`. The projection reads the transposed weight: `Wo (d, e) = x5 (e, d)`. -/
theorem ref_stage2 (x0 : (⟨S4096x2048, .f32⟩ : BufTy).Contents (Elt Ideal)) (x1 : (⟨S2048, .f32⟩ : BufTy).Contents (Elt Ideal)) (x2 x3 x4 x5 : (⟨S2048x2048, .f32⟩ : BufTy).Contents (Elt Ideal)) (x10 x11 : (⟨S4096x1024, .f32⟩ : BufTy).Contents (Elt Ideal))
    (qU kR vR : I4096x2048 → ℝ) (hq : ∀ i, val_main_v23 (F := Ideal) x0 x1 x2 x10 x11 i = ((qU i : ℝ) : EReal)) (hk : ∀ i, val_main_v34 (F := Ideal) x0 x1 x3 x10 x11 i = ((kR i : ℝ) : EReal)) (hv : ∀ i, val_main_v36 (F := Ideal) x0 x1 x4 i = ((vR i : ℝ) : EReal))
    (Wo : I2048x2048 → EReal) (hWo : ∀ d e : Fin 2048, Wo (ix2 d e) = x5 (ix2 e d)) :
    attnArr (fun i => qU i * (262144 / 11863283 : ℝ)) kR vR Wo x0
      = val_main_v55 (F := Ideal) x0 x1 x2 x3 x4 x5 x10 x11 := by
  funext i
  obtain ⟨r, e, rfl⟩ : ∃ (r : Fin 4096) (e : Fin 2048), i = ix2 r e := ⟨i 0, i 1, eq_ix2 i⟩
  rw [attnArr_apply, val_main_v55_apply, val_main_v54_apply, Ideal.addf_def]
  refine congrArg (x0 (ix2 r e) + ·) (Finset.sum_congr rfl fun k _ => ?_)
  have e1 : lidx_main_v54 (ix2 r e) k = ix2 r k := funext fun a => Fin.ext (by match a with | ⟨0, _⟩ => rfl | ⟨1, _⟩ => rfl)
  have e2 : idx_main_v53 (ridx_main_v54 (ix2 r e) k) = ix2 e k := funext fun a => Fin.ext (by match a with | ⟨0, _⟩ => rfl | ⟨1, _⟩ => rfl)
  rw [val_main_v53_apply, e1, e2, v52_at x0 x1 x2 x3 x4 x10 x11 qU kR vR hq hk hv r k, hWo]

end Cert.Proof.Ref

end
-- ==== Proof.RefStage3.lean ====
/-
  The reference's feed-forward stage is the specified function. The reference takes the residual stream after attention (its
  %55), normalises each row by the root of its mean square plus a small constant and scales by the norm weights (%56 … %68),
  multiplies by the transposed gate and up weights (%70, %73), forms gate * (1 / (1 + exp(-gate))) * up (%71, %74), multiplies
  by the transposed down weights in ONE contraction over the 8192 hidden columns (%76) and adds the residual stream (%77).
  Entry by entry these are the specification's normalised row, gate, up, hidden activation and result: the row sum starts from
  the zero word, which is the unit of addition; 1 / (1 + exp(-g)) is the logistic by definition, its two ones the word of 1;
  the transposes exchange the coordinates, which is how the weight arrays are related to the reference's arguments; and the
  one contraction is the sixteen accumulated partial sums regrouped.
-/
import proofs.«105332_j8211977470193_2_alg».proof.Proof.RefReadPatched
import proofs.«105332_j8211977470193_2_alg».proof.Proof.LibExtendedReals
import proofs.«105332_j8211977470193_2_alg».proof.Proof.KI.FfnSpec
import Idealize.ShloMosaic.Lib.ValueIdx
import Idealize.ShloMosaic.PureOps.Ideal.Laws

set_option maxRecDepth 16384

noncomputable section

open scoped BigOperators

namespace Cert.Proof.Ref

open Cert.ReferenceIdeal Cert.ReferenceIdeal.Read Cert.Proof.KI
open Idealize.ShloMosaic Idealize.ShloMosaic.ValueIdx

section Stage3
variable (x0 : (⟨S4096x2048, .f32⟩ : BufTy).Contents (Elt Ideal)) (x1 : (⟨S2048, .f32⟩ : BufTy).Contents (Elt Ideal))
  (x2 x3 x4 x5 : (⟨S2048x2048, .f32⟩ : BufTy).Contents (Elt Ideal)) (x6 : (⟨S2048, .f32⟩ : BufTy).Contents (Elt Ideal))
  (x7 x8 : (⟨S8192x2048, .f32⟩ : BufTy).Contents (Elt Ideal)) (x9 : (⟨S2048x8192, .f32⟩ : BufTy).Contents (Elt Ideal))
  (x10 x11 : (⟨S4096x1024, .f32⟩ : BufTy).Contents (Elt Ideal))

/-- The reference's normalised rows (%68) are the specification's, over the residual stream X and the norm weights as a row. -/
theorem ref_hrow (X : S4096x2048.Idx → EReal) (hX : X = val_main_v55 (F := Ideal) x0 x1 x2 x3 x4 x5 x10 x11)
    (w : S1x2048.Idx → EReal) (hw : ∀ k : Fin 2048, w (ix2 (0 : Fin 1) k) = x6 (ix1 k)) (r : Fin 4096) (k : Fin 2048) :
    val_main_v68 (F := Ideal) x0 x1 x2 x3 x4 x5 x6 x10 x11 (ix2 r k) = ffnHrow X w r k := by
  have e57 : ∀ k' : Fin 2048, idx_main_v57 (idx_main_v58 (idx_main_v64 (ix2 r k))) k' = (ix2 r k' : S4096x2048.Idx) :=
    fun k' => funext fun a => Fin.ext (by match a with | ⟨0, _⟩ => rfl | ⟨1, _⟩ => rfl)
  have e66 : idx_main_v66 (idx_main_v67 (ix2 r k)) = (ix1 k : S2048.Idx) :=
    funext fun a => Fin.ext (by match a with | ⟨0, _⟩ => rfl)
  rw [val_main_v68_apply, val_main_v65_apply, val_main_v64_apply, val_main_v63_apply, val_main_v62_apply,
    val_main_v60_apply, val_main_v58_apply, val_main_v57_apply, val_main_v59_apply, val_main_cst_7_apply,
    val_main_v61_apply, val_main_cst_8_apply, val_main_cst_6_apply, val_main_v67_apply, val_main_v66_apply,
    e66, ← hw k, ffnHrow_apply]
  simp only [val_main_v56_apply, e57, ← hX]
  show X (ix2 r k) * Ideal.rsqrt (Ideal.div (Ideal.ofBits .f32 0x00000000#32 + ∑ k' : Fin 2048, X (ix2 r k') * X (ix2 r k'))
      (Ideal.ofBits .f32 0x45000000#32) + Ideal.ofBits .f32 0x34000000#32) * w (ix2 (0 : Fin 1) k) = _
  rw [Ideal.ofBits_zero_f32, zero_add]
  rfl

/-- The reference's gate projection (%70) is the specification's: the product with the transposed gate weights. -/
theorem ref_gate (X : S4096x2048.Idx → EReal) (hX : X = val_main_v55 (F := Ideal) x0 x1 x2 x3 x4 x5 x10 x11)
    (w : S1x2048.Idx → EReal) (hw : ∀ k : Fin 2048, w (ix2 (0 : Fin 1) k) = x6 (ix1 k))
    (Wg : S2048x8192.Idx → EReal) (hg : ∀ (k : Fin 2048) (f : Fin 8192), Wg (ix2 k f) = x7 (ix2 f k))
    (r : Fin 4096) (f : Fin 8192) :
    val_main_v70 (F := Ideal) x0 x1 x2 x3 x4 x5 x6 x7 x10 x11 (ix2 r f) = ffnGate X w Wg r f := by
  rw [val_main_v70_apply, ffnGate_apply]
  refine Finset.sum_congr rfl fun k _ => ?_
  have el : lidx_main_v70 (ix2 r f) k = (ix2 r k : S4096x2048.Idx) :=
    funext fun a => Fin.ext (by match a with | ⟨0, _⟩ => rfl | ⟨1, _⟩ => rfl)
  have er : idx_main_v69 (ridx_main_v70 (ix2 r f) k) = (ix2 f k : S8192x2048.Idx) :=
    funext fun a => Fin.ext (by match a with | ⟨0, _⟩ => rfl | ⟨1, _⟩ => rfl)
  rw [el, ref_hrow x0 x1 x2 x3 x4 x5 x6 x10 x11 X hX w hw r k, val_main_v69_apply, er, hg k f]

/-- The reference's up projection (%73) likewise. -/
theorem ref_up (X : S4096x2048.Idx → EReal) (hX : X = val_main_v55 (F := Ideal) x0 x1 x2 x3 x4 x5 x10 x11)
    (w : S1x2048.Idx → EReal) (hw : ∀ k : Fin 2048, w (ix2 (0 : Fin 1) k) = x6 (ix1 k))
    (Wu : S2048x8192.Idx → EReal) (hu : ∀ (k : Fin 2048) (f : Fin 8192), Wu (ix2 k f) = x8 (ix2 f k))
    (r : Fin 4096) (f : Fin 8192) :
    val_main_v73 (F := Ideal) x0 x1 x2 x3 x4 x5 x6 x8 x10 x11 (ix2 r f) = ffnUp X w Wu r f := by
  rw [val_main_v73_apply, ffnUp_apply]
  refine Finset.sum_congr rfl fun k _ => ?_
  have el : lidx_main_v73 (ix2 r f) k = (ix2 r k : S4096x2048.Idx) :=
    funext fun a => Fin.ext (by match a with | ⟨0, _⟩ => rfl | ⟨1, _⟩ => rfl)
  have er : idx_main_v72 (ridx_main_v73 (ix2 r f) k) = (ix2 f k : S8192x2048.Idx) :=
    funext fun a => Fin.ext (by match a with | ⟨0, _⟩ => rfl | ⟨1, _⟩ => rfl)
  rw [el, ref_hrow x0 x1 x2 x3 x4 x5 x6 x10 x11 X hX w hw r k, val_main_v72_apply, er, hu k f]

/-- The reference's hidden activation (%74): gate * (1 / (1 + exp(-gate))) is gate times its logistic, then times up. -/
theorem ref_act (X : S4096x2048.Idx → EReal) (hX : X = val_main_v55 (F := Ideal) x0 x1 x2 x3 x4 x5 x10 x11)
    (w : S1x2048.Idx → EReal) (hw : ∀ k : Fin 2048, w (ix2 (0 : Fin 1) k) = x6 (ix1 k))
    (Wg Wu : S2048x8192.Idx → EReal) (hg : ∀ (k : Fin 2048) (f : Fin 8192), Wg (ix2 k f) = x7 (ix2 f k))
    (hu : ∀ (k : Fin 2048) (f : Fin 8192), Wu (ix2 k f) = x8 (ix2 f k)) (r : Fin 4096) (f : Fin 8192) :
    val_main_v74 (F := Ideal) x0 x1 x2 x3 x4 x5 x6 x7 x8 x10 x11 (ix2 r f) = ffnAct X w Wg Wu r f := by
  rw [val_main_v74_apply, val_main_v71_apply, val_main_call0_v5_apply, val_main_call0_v4_apply, val_main_call0_cst_0_apply,
    val_main_call0_v3_apply, val_main_call0_v2_apply, val_main_call0_cst_apply, val_main_call0_v1_apply,
    val_main_call0_v0_apply, ref_gate x0 x1 x2 x3 x4 x5 x6 x7 x10 x11 X hX w hw Wg hg r f,
    ref_up x0 x1 x2 x3 x4 x5 x6 x8 x10 x11 X hX w hw Wu hu r f, ffnAct_apply]
  show (ffnGate X w Wg r f * Ideal.div (Ideal.ofBits .f32 0x3F800000#32)
      (Ideal.ofBits .f32 0x3F800000#32 + Ideal.exp (-ffnGate X w Wg r f))) * ffnUp X w Wu r f = _
  rw [Cert.ExtendedReals.word_one_eq]
  rfl

/-- THE REFERENCE'S THIRD STAGE is the specified function of the residual stream and the weights. -/
theorem ref_stage3 (X : S4096x2048.Idx → EReal) (hX : X = val_main_v55 (F := Ideal) x0 x1 x2 x3 x4 x5 x10 x11)
    (w : S1x2048.Idx → EReal) (hw : ∀ k : Fin 2048, w (ix2 (0 : Fin 1) k) = x6 (ix1 k))
    (Wg Wu : S2048x8192.Idx → EReal) (hg : ∀ (k : Fin 2048) (f : Fin 8192), Wg (ix2 k f) = x7 (ix2 f k))
    (hu : ∀ (k : Fin 2048) (f : Fin 8192), Wu (ix2 k f) = x8 (ix2 f k))
    (Wd : S8192x2048.Idx → EReal) (hd : ∀ (f : Fin 8192) (d : Fin 2048), Wd (ix2 f d) = x9 (ix2 d f)) :
    ffnArr X w Wg Wu Wd = val_main_v77 (F := Ideal) x0 x1 x2 x3 x4 x5 x6 x7 x8 x9 x10 x11 := by
  funext i
  obtain ⟨r, d, rfl⟩ : ∃ (r : Fin 4096) (d : Fin 2048), i = ix2 r d := ⟨i 0, i 1, eq_ix2 i⟩
  rw [ffnArr_eq_whole, val_main_v77_apply, val_main_v76_apply, ← hX]
  refine congrArg (X (ix2 r d) + ·) (Finset.sum_congr rfl fun f _ => ?_)
  have el : lidx_main_v76 (ix2 r d) f = (ix2 r f : S4096x8192.Idx) :=
    funext fun a => Fin.ext (by match a with | ⟨0, _⟩ => rfl | ⟨1, _⟩ => rfl)
  have er : idx_main_v75 (ridx_main_v76 (ix2 r d) f) = (ix2 d f : S2048x8192.Idx) :=
    funext fun a => Fin.ext (by match a with | ⟨0, _⟩ => rfl | ⟨1, _⟩ => rfl)
  rw [el, ref_act x0 x1 x2 x3 x4 x5 x6 x7 x8 x10 x11 X hX w hw Wg Wu hg hu r f, val_main_v75_apply, er, hd f d]

end Stage3

end Cert.Proof.Ref

end
-- ==== Proof.Algebraic.lean ====
/-
  The fifth claim: run from memories that agree on the twelve arguments, the idealized kernel program and the idealized
  reference both terminate, each leaves its arguments unchanged, and their results are equal as extended reals.
  The common value is the kernel program's own result array (what its third kernel's write-backs leave). The kernel's run
  ends at it by the whole-program run. The reference's run ends at its result term of its own arguments; those are the
  kernel's arguments by the agreement, and the reference's term of them is the kernel's array by the three-stage bridge,
  which uses that every argument entry is a real number — the decoded precondition.
-/
import proofs.«105332_j8211977470193_2_alg».proof.Proof.Bridge
import proofs.«105332_j8211977470193_2_alg».proof.Proof.FiniteInputs
import proofs.«105332_j8211977470193_2_alg».proof.Proof.KI.AttnValue
import proofs.«105332_j8211977470193_2_alg».proof.Proof.RefStage1
import proofs.«105332_j8211977470193_2_alg».proof.Proof.RefStage2
import proofs.«105332_j8211977470193_2_alg».proof.Proof.RefStage3
import proofs.«105332_j8211977470193_2_alg».proof.Proof.RefRunPatched
import proofs.«105332_j8211977470193_2_alg».proof.Proof.Gen.KernelIdeal
import proofs.«105332_j8211977470193_2_alg».proof.Proof.Gen.ReferenceIdeal
import proofs.«105332_j8211977470193_2_alg».proof.Proof.Gen.Pre_finite_inputs

set_option maxRecDepth 16384

noncomputable section

namespace Cert.Proof.Algebraic

open Idealize.ShloMosaic Idealize.ShloMosaic.TcCoe Idealize.ShloMosaic.ValueIdx Idealize.SL.Sem
open Cert.KernelIdeal Cert.KernelIdeal.Gen Cert.Proof.KI Cert.Proof.Bridge Cert.ExtendedReals

/-- The kernel program's result array is the reference's result term of the kernel's arguments, from finite inputs. -/
theorem kernel_is_reference (m : (ℓ : Loc nD τ sig) → Buf (Elt Ideal) ℓ) (ρ : Dev nD → PrngReg) (c : Dev nD)
    (hpre : Cert.Pre_KernelIdeal m) :
    ((dat2 (F := Ideal) (E3 m ρ) c).arrAt 5 cfg2.N : I4096x2048 → EReal)
      = Cert.ReferenceIdeal.Read.val_main_v77 (F := Ideal) (A0 m c) (A1 m c) (A2 m c) (A3 m c) (A4 m c) (A5 m c) (A6 m c) (A7 m c) (A8 m c) (A9 m c) (A10 m c) (A11 m c) :=
  result_eq m ρ c (Cert.Proof.FiniteInputs.real_of_finite _ _ _ _ _ _ _ _ _ _ _ _ (hpre c))
    (fun r j => Cert.Proof.Ref.ref_query_unscaled (A0 m c) (A1 m c) (A2 m c) (A10 m c) (A11 m c) (W1row m ρ c) (entry_v13 m ρ c) (Wf m ρ c) (entry_v4_q m ρ c) r j)
    (fun r j => Cert.Proof.Ref.ref_key_entry (A0 m c) (A1 m c) (A3 m c) (A10 m c) (A11 m c) (W1row m ρ c) (entry_v13 m ρ c) (Wf m ρ c) (entry_v4_k m ρ c) r j)
    (fun r j => Cert.Proof.Ref.ref_value_entry (A0 m c) (A1 m c) (A4 m c) (W1row m ρ c) (entry_v13 m ρ c) (Wf m ρ c) (entry_v4_v m ρ c) r j)
    (fun qR kR vR hq hk hv => attn_value (E2 m ρ) c qR kR vR (fun r d => hq (ix2 r d)) (fun r d => hk (ix2 r d)) (fun r d => hv (ix2 r d)))
    (fun qU kR vR hq hk hv Wo hWo => Cert.Proof.Ref.ref_stage2 (A0 m c) (A1 m c) (A2 m c) (A3 m c) (A4 m c) (A5 m c) (A10 m c) (A11 m c) qU kR vR hq hk hv Wo hWo)
    (fun X hX w hw Wg Wu hg hu Wd hd => Cert.Proof.Ref.ref_stage3 (A0 m c) (A1 m c) (A2 m c) (A3 m c) (A4 m c) (A5 m c) (A6 m c) (A7 m c) (A8 m c) (A9 m c) (A10 m c) (A11 m c) X hX w hw Wg Wu hg hu Wd hd)

/-- The two idealized programs, run from memories that agree on the arguments, end with equal results. -/
theorem algebraic : Cert.algebraic_KernelIdeal_ReferenceIdeal := by
  intro m ρ m' ρ' hpre hagree
  refine ⟨fun c => (dat2 (F := Ideal) (E3 m ρ) c).arrAt 5 cfg2.N, run_program (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq]
  obtain ⟨e0, e1, e2, e3, e4, e5, e6, e7, e8, e9, e10, e11⟩ := hagree c
  rw [e0, e1, e2, e3, e4, e5, e6, e7, e8, e9, e10, e11]
  exact (kernel_is_reference m ρ c hpre).symm

end Cert.Proof.Algebraic

end
-- ==== Proof.lean ====
/-
  One transformer block, computed two ways, and the claim that the two agree on the extended reals.

  The reference is a straight line of array operations: the rows of the activations are normalised by their root mean square
  and scaled; three products with the transposed query, key and value weights; the query and key rows rotated by the
  position's cosines and sines; the scores q·kᵀ divided by the softmax scale D (the f32 word 0x423504F3, the rational
  11863283 / 262144), a row softmax, the weighted sum of the value rows, the output projection and the first residual; then
  a second normalisation, the gated feed-forward (silu of one product times another, times the down weights) and the second
  residual.
  The kernel does the same in three tiled passes. The first normalises a tile of 256 rows, multiplies it by the three weight
  matrices fused side by side, rotates, and scales the query by the f32 word nearest to 1 / D, which the certificate's table
  reads as exactly 1 / D = 262144 / 11863283. The second walks the key tiles for each query tile keeping a running maximum,
  a running denominator and a running numerator, and divides at the last key tile: the blockwise form of the softmax-weighted
  sum, equal to the whole one on real numbers. The third accumulates the down projection over sixteen tiles of the hidden
  axis: one long sum, regrouped.

  The five claims: each of the three programs runs to the end from finite inputs, faults nowhere and leaves its twelve
  argument arrays unchanged (for the two kernel programs: from the run of the whole program over its four segments, the
  three kernels' bodies run once per case by the symbolic executor; for the reference: its run read back); the one rewrite
  of the idealization is the named reciprocal; and the two idealized programs end with equal results.
-/
import proofs.«105332_j8211977470193_2_alg».proof.Defs
import proofs.«105332_j8211977470193_2_alg».proof.Proof.Gen.Kernel
import proofs.«105332_j8211977470193_2_alg».proof.Proof.Gen.KernelIdeal
import proofs.«105332_j8211977470193_2_alg».proof.Proof.Gen.ReferenceIdeal
import proofs.«105332_j8211977470193_2_alg».proof.Proof.Gen.Pre_finite_inputs
import proofs.«105332_j8211977470193_2_alg».proof.Proof.ScaleName
import proofs.«105332_j8211977470193_2_alg».proof.Proof.RefFrame
import proofs.«105332_j8211977470193_2_alg».proof.Proof.KI.Frame
import proofs.«105332_j8211977470193_2_alg».proof.Proof.KB.Frame
import proofs.«105332_j8211977470193_2_alg».proof.Proof.Algebraic
import Idealize.ShloMosaic.Adequacy
import Idealize.ShloMosaic.Init

noncomputable section

namespace Cert.Proof

open Idealize.ShloMosaic Idealize.SL.Sem

/-- The word-level kernel program runs to the end and leaves its arguments unchanged. -/
theorem frame_kernel : Cert.frame_Kernel := fun m ρ _ => Cert.Proof.KB.frame_program (F := Bits) m ρ

/-- So does the idealized kernel program. -/
theorem frame_kernelIdeal : Cert.frame_KernelIdeal := fun m ρ _ => Cert.Proof.KI.frame_program (F := Ideal) m ρ

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.RefFrame.frame_ri, Cert.Proof.ScaleName.preserves, Cert.Proof.Algebraic.algebraic⟩

end Cert.Proof

end
